-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384 : Shape := ⟨1, ![16384]⟩
abbrev S1000000x64 : Shape := ⟨2, ![1000000, 64]⟩
abbrev S16x64 : Shape := ⟨2, ![16, 64]⟩
abbrev S16 : Shape := ⟨1, ![16]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S16x64 : S_.BroadcastsInDim S16x64 (![] : Fin 0 → Fin S16x64.rank)
  reducesTo_S16x64_S_d0_1 : S16x64.ReducesTo [0, 1] S_
  bcast_S_S16 : S_.BroadcastsInDim S16 (![] : Fin 0 → Fin S16.rank)
  reducesTo_S16_S_d0 : S16.ReducesTo [0] S_
  bcast_S_S16384 : S_.BroadcastsInDim S16384 (![] : Fin 0 → Fin S16384.rank)
  reducesTo_S16384_S_d0 : S16384.ReducesTo [0] S_

variable [Facts]

def fn_part1 {F : FTy → Type} [FloatOps F] (main_arg0 : IVec S16384 32) (main_v13 : IVec S_ 1) (main_v15 : IVec S16384 1) (main_c_5 : IVec S_ 32) : IVec S_ 1 :=
  let main_v16 : IVec S16384 32 := broadcastInDim S16384 ![] bcast_S_S16384 main_c_5
  let main_v17 : IVec S16384 1 := cmpi .sle main_arg0 main_v16
  let main_v18 : IVec S16384 1 := andi main_v15 main_v17
  let main_c_6 : IVec S_ 1 := constantI S_ 1 1#1
  let main_v19 : IVec S_ 1 := (fun x v => Host.reduce IntOp.andi x v reducesTo_S16384_S_d0 h_S_) main_v18 main_c_6
  let main_v20 : IVec S_ 1 := andi main_v13 main_v19
  main_v20

def fn {F : FTy → Type} [FloatOps F] (main_arg0 : IVec S16384 32) (main_arg1 : FVec F S1000000x64 .f32) (main_arg2 : FVec F S16x64 .f32) (main_arg3 : FVec F S16 .f32) : IVec S_ 1 :=
  let main_v0 : FVec F S1000000x64 .f32 := Host.absf main_arg1
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S16x64 .f32 := Host.absf main_arg2
  let main_cst_0 : FVec F S_ .f32 := constant S_ .f32 0x7F800000#32
  let main_v5 : FVec F S16x64 .f32 := broadcastInDim S16x64 ![] bcast_S_S16x64 main_cst_0
  let main_v6 : IVec S16x64 1 := cmpf .olt main_v4 main_v5
  let main_c_1 : IVec S_ 1 := constantI S_ 1 1#1
  let main_v7 : IVec S_ 1 := (fun x v => Host.reduce IntOp.andi x v reducesTo_S16x64_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_c_4 : IVec S_ 32 := constantI S_ 32 0#32
  let main_v14 : IVec S16384 32 := broadcastInDim S16384 ![] bcast_S_S16384 main_c_4
  let main_v15 : IVec S16384 1 := cmpi .sge main_arg0 main_v14
  let main_c_5 : IVec S_ 32 := constantI S_ 32 999999#32
  fn_part1 (F := F) main_arg0 main_v13 main_v15 main_c_5
-- ==== Kernel.lean ====
abbrev S16384 : Shape := ⟨1, ![16384]⟩
abbrev S1000000x64 : Shape := ⟨2, ![1000000, 64]⟩
abbrev S16x64 : Shape := ⟨2, ![16, 64]⟩
abbrev S16 : Shape := ⟨1, ![16]⟩
abbrev S1x16 : Shape := ⟨2, ![1, 16]⟩
abbrev S8x16 : Shape := ⟨2, ![8, 16]⟩
abbrev S128 : Shape := ⟨1, ![128]⟩
abbrev S1x128 : Shape := ⟨2, ![1, 128]⟩
abbrev S64x1000000 : Shape := ⟨2, ![64, 1000000]⟩
abbrev S126976x128 : Shape := ⟨2, ![126976, 128]⟩
abbrev S64x32768 : Shape := ⟨2, ![64, 32768]⟩
abbrev S4096x128 : Shape := ⟨2, ![4096, 128]⟩
abbrev S16x32768 : Shape := ⟨2, ![16, 32768]⟩
abbrev S16x4096 : Shape := ⟨2, ![16, 4096]⟩
abbrev S128x4096 : Shape := ⟨2, ![128, 4096]⟩
abbrev S128x128 : Shape := ⟨2, ![128, 128]⟩
abbrev S16x16384 : Shape := ⟨2, ![16, 16384]⟩
abbrev S512 : Shape := ⟨1, ![512]⟩
abbrev S512x128 : Shape := ⟨2, ![512, 128]⟩
abbrev S16x512 : Shape := ⟨2, ![16, 512]⟩
abbrev S_ : Shape := ⟨0, ![]⟩
abbrev S16384x16 : Shape := ⟨2, ![16384, 16]⟩

abbrev nBuf : Table → Nat
  | .hbm => 12
  | .local .tc .vmem => 6
  | .local .scVector .vmem => 4
  | _ => 0

abbrev bufTy : (tb : Table) → Fin (nBuf tb) → BufTy
  | .hbm, ⟨0, _⟩ => ⟨S16384, .i32⟩
  | .hbm, ⟨1, _⟩ => ⟨S1000000x64, .f32⟩
  | .hbm, ⟨2, _⟩ => ⟨S16x64, .f32⟩
  | .hbm, ⟨3, _⟩ => ⟨S16, .f32⟩
  | .hbm, ⟨4, _⟩ => ⟨S1x16, .f32⟩
  | .hbm, ⟨5, _⟩ => ⟨S8x16, .f32⟩
  | .hbm, ⟨6, _⟩ => ⟨S128, .f32⟩
  | .hbm, ⟨7, _⟩ => ⟨S1x128, .f32⟩
  | .hbm, ⟨8, _⟩ => ⟨S64x1000000, .f32⟩
  | .hbm, ⟨9, _⟩ => ⟨S126976x128, .f32⟩
  | .hbm, ⟨10, _⟩ => ⟨S16x16384, .f32⟩
  | .hbm, ⟨11, _⟩ => ⟨S16384x16, .f32⟩
  | .local .tc .vmem, ⟨0, _⟩ => ⟨S64x32768, .f32⟩
  | .local .tc .vmem, ⟨1, _⟩ => ⟨S64x32768, .f32⟩
  | .local .tc .vmem, ⟨2, _⟩ => ⟨S16x64, .f32⟩
  | .local .tc .vmem, ⟨3, _⟩ => ⟨S1x128, .f32⟩
  | .local .tc .vmem, ⟨4, _⟩ => ⟨S4096x128, .f32⟩
  | .local .tc .vmem, ⟨5, _⟩ => ⟨S4096x128, .f32⟩
  | .local .scVector .vmem, ⟨0, _⟩ => ⟨S512, .i32⟩
  | .local .scVector .vmem, ⟨1, _⟩ => ⟨S512, .i32⟩
  | .local .scVector .vmem, ⟨2, _⟩ => ⟨S512x128, .f32⟩
  | .local .scVector .vmem, ⟨3, _⟩ => ⟨S16x512, .f32⟩
  | _, _ => ⟨S16384, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v5_scv : Ref sig .scVector := ⟨.hbm, 9, rfl⟩
abbrev main_arg0_scv : Ref sig .scVector := ⟨.hbm, 0, rfl⟩
abbrev main_v6_scv : Ref sig .scVector := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![31], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
@[reducible] def k1_t1_loop : Scf.Loop 32 :=
  let c0_i32 : BitVec 32 := 0#32
  let c32_i32 : BitVec 32 := 32#32
  let v3 : BitVec 32 := Scalar.addi c0_i32 c32_i32
  let c1_i32 : BitVec 32 := 1#32
  ⟨c0_i32, v3, c1_i32⟩
def k1_off2 (k1_t1 : Fin k1_t1_loop.trips) : Fin 1 → Nat :=
  let c0_i32 : BitVec 32 := 0#32
  let c1_i32 : BitVec 32 := 1#32
  let arg10 : BitVec 32 := Scf.iv c0_i32 c1_i32 k1_t1
  let c16_i32 : BitVec 32 := 16#32
  let v8 : BitVec 32 := Scalar.muli arg10 c16_i32
  let v9 : Index := Scalar.indexCast v8
  ![v9.toNat]
@[reducible] def k1_t2_loop : Scf.Loop 32 :=
  let c0_i32_5 : BitVec 32 := 0#32
  let c32_i32_6 : BitVec 32 := 32#32
  let v7 : BitVec 32 := Scalar.addi c0_i32_5 c32_i32_6
  let c1_i32_7 : BitVec 32 := 1#32
  ⟨c0_i32_5, v7, c1_i32_7⟩
def k1_off3 (k1_t2 : Fin k1_t2_loop.trips) : Fin 1 → Nat :=
  let c0_i32_5 : BitVec 32 := 0#32
  let c1_i32_7 : BitVec 32 := 1#32
  let arg10 : BitVec 32 := Scf.iv c0_i32_5 c1_i32_7 k1_t2
  let c16_i32 : BitVec 32 := 16#32
  let v8 : BitVec 32 := Scalar.muli arg10 c16_i32
  let v9 : Index := Scalar.indexCast v8
  ![v9.toNat]

def k1_chk1 (v19 : IVec S16 32) (v21 : IVec S16 32) : Prop :=
  (∀ a x, ((![v19, v21] : Fin 2 → IVec S16 32) a x).toNat < S512x128.size a)
instance k1_chk1.dec : ∀ (v19 : IVec S16 32) (v21 : IVec S16 32), Decidable (k1_chk1 v19 v21) := fun v19 v21 => decidable_of_iff' _ (Iff.of_eq (k1_chk1.eq_1 v19 v21))
theorem k1_idx1_inb : ∀ (v19 : IVec S16 32) (v21 : IVec S16 32) (k1_hw1 : k1_chk1 v19 v21), ∀ a x, ((![v19, v21] : Fin 2 → IVec S16 32) a x).toNat < S512x128.size a := fun v19 v21 k1_hw1 => k1_hw1

def k1_chk2 (v19 : IVec S16 32) (v26 : IVec S16 32) : Prop :=
  (∀ a x, ((![v26, v19] : Fin 2 → IVec S16 32) a x).toNat < S16x512.size a)
instance k1_chk2.dec : ∀ (v19 : IVec S16 32) (v26 : IVec S16 32), Decidable (k1_chk2 v19 v26) := fun v19 v26 => decidable_of_iff' _ (Iff.of_eq (k1_chk2.eq_1 v19 v26))
theorem k1_idx2_inb : ∀ (v19 : IVec S16 32) (v26 : IVec S16 32) (k1_hw2 : k1_chk2 v19 v26), ∀ a x, ((![v26, v19] : Fin 2 → IVec S16 32) a x).toNat < S16x512.size a := fun v19 v26 k1_hw2 => k1_hw2

def k1_chk3 (v19 : IVec S16 32) (v28 : IVec S16 32) : Prop :=
  (∀ a x, ((![v19, v28] : Fin 2 → IVec S16 32) a x).toNat < S512x128.size a)
instance k1_chk3.dec : ∀ (v19 : IVec S16 32) (v28 : IVec S16 32), Decidable (k1_chk3 v19 v28) := fun v19 v28 => decidable_of_iff' _ (Iff.of_eq (k1_chk3.eq_1 v19 v28))
theorem k1_idx3_inb : ∀ (v19 : IVec S16 32) (v28 : IVec S16 32) (k1_hw3 : k1_chk3 v19 v28), ∀ a x, ((![v19, v28] : Fin 2 → IVec S16 32) a x).toNat < S512x128.size a := fun v19 v28 k1_hw3 => k1_hw3

def k1_chk4 (v19 : IVec S16 32) (v33 : IVec S16 32) : Prop :=
  (∀ a x, ((![v33, v19] : Fin 2 → IVec S16 32) a x).toNat < S16x512.size a)
instance k1_chk4.dec : ∀ (v19 : IVec S16 32) (v33 : IVec S16 32), Decidable (k1_chk4 v19 v33) := fun v19 v33 => decidable_of_iff' _ (Iff.of_eq (k1_chk4.eq_1 v19 v33))
theorem k1_idx4_inb : ∀ (v19 : IVec S16 32) (v33 : IVec S16 32) (k1_hw4 : k1_chk4 v19 v33), ∀ a x, ((![v33, v19] : Fin 2 → IVec S16 32) a x).toNat < S16x512.size a := fun v19 v33 k1_hw4 => k1_hw4

def k1_chk5 (v19 : IVec S16 32) (v35 : IVec S16 32) : Prop :=
  (∀ a x, ((![v19, v35] : Fin 2 → IVec S16 32) a x).toNat < S512x128.size a)
instance k1_chk5.dec : ∀ (v19 : IVec S16 32) (v35 : IVec S16 32), Decidable (k1_chk5 v19 v35) := fun v19 v35 => decidable_of_iff' _ (Iff.of_eq (k1_chk5.eq_1 v19 v35))
theorem k1_idx5_inb : ∀ (v19 : IVec S16 32) (v35 : IVec S16 32) (k1_hw5 : k1_chk5 v19 v35), ∀ a x, ((![v19, v35] : Fin 2 → IVec S16 32) a x).toNat < S512x128.size a := fun v19 v35 k1_hw5 => k1_hw5

def k1_chk6 (v19 : IVec S16 32) (v40 : IVec S16 32) : Prop :=
  (∀ a x, ((![v40, v19] : Fin 2 → IVec S16 32) a x).toNat < S16x512.size a)
instance k1_chk6.dec : ∀ (v19 : IVec S16 32) (v40 : IVec S16 32), Decidable (k1_chk6 v19 v40) := fun v19 v40 => decidable_of_iff' _ (Iff.of_eq (k1_chk6.eq_1 v19 v40))
theorem k1_idx6_inb : ∀ (v19 : IVec S16 32) (v40 : IVec S16 32) (k1_hw6 : k1_chk6 v19 v40), ∀ a x, ((![v40, v19] : Fin 2 → IVec S16 32) a x).toNat < S16x512.size a := fun v19 v40 k1_hw6 => k1_hw6

def k1_chk7 (v19 : IVec S16 32) (v42 : IVec S16 32) : Prop :=
  (∀ a x, ((![v19, v42] : Fin 2 → IVec S16 32) a x).toNat < S512x128.size a)
instance k1_chk7.dec : ∀ (v19 : IVec S16 32) (v42 : IVec S16 32), Decidable (k1_chk7 v19 v42) := fun v19 v42 => decidable_of_iff' _ (Iff.of_eq (k1_chk7.eq_1 v19 v42))
theorem k1_idx7_inb : ∀ (v19 : IVec S16 32) (v42 : IVec S16 32) (k1_hw7 : k1_chk7 v19 v42), ∀ a x, ((![v19, v42] : Fin 2 → IVec S16 32) a x).toNat < S512x128.size a := fun v19 v42 k1_hw7 => k1_hw7

def k1_chk8 (v19 : IVec S16 32) (v47 : IVec S16 32) : Prop :=
  (∀ a x, ((![v47, v19] : Fin 2 → IVec S16 32) a x).toNat < S16x512.size a)
instance k1_chk8.dec : ∀ (v19 : IVec S16 32) (v47 : IVec S16 32), Decidable (k1_chk8 v19 v47) := fun v19 v47 => decidable_of_iff' _ (Iff.of_eq (k1_chk8.eq_1 v19 v47))
theorem k1_idx8_inb : ∀ (v19 : IVec S16 32) (v47 : IVec S16 32) (k1_hw8 : k1_chk8 v19 v47), ∀ a x, ((![v47, v19] : Fin 2 → IVec S16 32) a x).toNat < S16x512.size a := fun v19 v47 k1_hw8 => k1_hw8

def k1_chk9 (v19 : IVec S16 32) (v49 : IVec S16 32) : Prop :=
  (∀ a x, ((![v19, v49] : Fin 2 → IVec S16 32) a x).toNat < S512x128.size a)
instance k1_chk9.dec : ∀ (v19 : IVec S16 32) (v49 : IVec S16 32), Decidable (k1_chk9 v19 v49) := fun v19 v49 => decidable_of_iff' _ (Iff.of_eq (k1_chk9.eq_1 v19 v49))
theorem k1_idx9_inb : ∀ (v19 : IVec S16 32) (v49 : IVec S16 32) (k1_hw9 : k1_chk9 v19 v49), ∀ a x, ((![v19, v49] : Fin 2 → IVec S16 32) a x).toNat < S512x128.size a := fun v19 v49 k1_hw9 => k1_hw9

def k1_chk10 (v19 : IVec S16 32) (v54 : IVec S16 32) : Prop :=
  (∀ a x, ((![v54, v19] : Fin 2 → IVec S16 32) a x).toNat < S16x512.size a)
instance k1_chk10.dec : ∀ (v19 : IVec S16 32) (v54 : IVec S16 32), Decidable (k1_chk10 v19 v54) := fun v19 v54 => decidable_of_iff' _ (Iff.of_eq (k1_chk10.eq_1 v19 v54))
theorem k1_idx10_inb : ∀ (v19 : IVec S16 32) (v54 : IVec S16 32) (k1_hw10 : k1_chk10 v19 v54), ∀ a x, ((![v54, v19] : Fin 2 → IVec S16 32) a x).toNat < S16x512.size a := fun v19 v54 k1_hw10 => k1_hw10

def k1_chk11 (v19 : IVec S16 32) (v56 : IVec S16 32) : Prop :=
  (∀ a x, ((![v19, v56] : Fin 2 → IVec S16 32) a x).toNat < S512x128.size a)
instance k1_chk11.dec : ∀ (v19 : IVec S16 32) (v56 : IVec S16 32), Decidable (k1_chk11 v19 v56) := fun v19 v56 => decidable_of_iff' _ (Iff.of_eq (k1_chk11.eq_1 v19 v56))
theorem k1_idx11_inb : ∀ (v19 : IVec S16 32) (v56 : IVec S16 32) (k1_hw11 : k1_chk11 v19 v56), ∀ a x, ((![v19, v56] : Fin 2 → IVec S16 32) a x).toNat < S512x128.size a := fun v19 v56 k1_hw11 => k1_hw11

def k1_chk12 (v19 : IVec S16 32) (v61 : IVec S16 32) : Prop :=
  (∀ a x, ((![v61, v19] : Fin 2 → IVec S16 32) a x).toNat < S16x512.size a)
instance k1_chk12.dec : ∀ (v19 : IVec S16 32) (v61 : IVec S16 32), Decidable (k1_chk12 v19 v61) := fun v19 v61 => decidable_of_iff' _ (Iff.of_eq (k1_chk12.eq_1 v19 v61))
theorem k1_idx12_inb : ∀ (v19 : IVec S16 32) (v61 : IVec S16 32) (k1_hw12 : k1_chk12 v19 v61), ∀ a x, ((![v61, v19] : Fin 2 → IVec S16 32) a x).toNat < S16x512.size a := fun v19 v61 k1_hw12 => k1_hw12

def k1_chk13 (v19 : IVec S16 32) (v63 : IVec S16 32) : Prop :=
  (∀ a x, ((![v19, v63] : Fin 2 → IVec S16 32) a x).toNat < S512x128.size a)
instance k1_chk13.dec : ∀ (v19 : IVec S16 32) (v63 : IVec S16 32), Decidable (k1_chk13 v19 v63) := fun v19 v63 => decidable_of_iff' _ (Iff.of_eq (k1_chk13.eq_1 v19 v63))
theorem k1_idx13_inb : ∀ (v19 : IVec S16 32) (v63 : IVec S16 32) (k1_hw13 : k1_chk13 v19 v63), ∀ a x, ((![v19, v63] : Fin 2 → IVec S16 32) a x).toNat < S512x128.size a := fun v19 v63 k1_hw13 => k1_hw13

def k1_chk14 (v19 : IVec S16 32) (v68 : IVec S16 32) : Prop :=
  (∀ a x, ((![v68, v19] : Fin 2 → IVec S16 32) a x).toNat < S16x512.size a)
instance k1_chk14.dec : ∀ (v19 : IVec S16 32) (v68 : IVec S16 32), Decidable (k1_chk14 v19 v68) := fun v19 v68 => decidable_of_iff' _ (Iff.of_eq (k1_chk14.eq_1 v19 v68))
theorem k1_idx14_inb : ∀ (v19 : IVec S16 32) (v68 : IVec S16 32) (k1_hw14 : k1_chk14 v19 v68), ∀ a x, ((![v68, v19] : Fin 2 → IVec S16 32) a x).toNat < S16x512.size a := fun v19 v68 k1_hw14 => k1_hw14

def k1_chk15 (v19 : IVec S16 32) (v70 : IVec S16 32) : Prop :=
  (∀ a x, ((![v19, v70] : Fin 2 → IVec S16 32) a x).toNat < S512x128.size a)
instance k1_chk15.dec : ∀ (v19 : IVec S16 32) (v70 : IVec S16 32), Decidable (k1_chk15 v19 v70) := fun v19 v70 => decidable_of_iff' _ (Iff.of_eq (k1_chk15.eq_1 v19 v70))
theorem k1_idx15_inb : ∀ (v19 : IVec S16 32) (v70 : IVec S16 32) (k1_hw15 : k1_chk15 v19 v70), ∀ a x, ((![v19, v70] : Fin 2 → IVec S16 32) a x).toNat < S512x128.size a := fun v19 v70 k1_hw15 => k1_hw15

def k1_chk16 (v19 : IVec S16 32) (v75 : IVec S16 32) : Prop :=
  (∀ a x, ((![v75, v19] : Fin 2 → IVec S16 32) a x).toNat < S16x512.size a)
instance k1_chk16.dec : ∀ (v19 : IVec S16 32) (v75 : IVec S16 32), Decidable (k1_chk16 v19 v75) := fun v19 v75 => decidable_of_iff' _ (Iff.of_eq (k1_chk16.eq_1 v19 v75))
theorem k1_idx16_inb : ∀ (v19 : IVec S16 32) (v75 : IVec S16 32) (k1_hw16 : k1_chk16 v19 v75), ∀ a x, ((![v75, v19] : Fin 2 → IVec S16 32) a x).toNat < S16x512.size a := fun v19 v75 k1_hw16 => k1_hw16

def k1_chk17 (v19 : IVec S16 32) (v77 : IVec S16 32) : Prop :=
  (∀ a x, ((![v19, v77] : Fin 2 → IVec S16 32) a x).toNat < S512x128.size a)
instance k1_chk17.dec : ∀ (v19 : IVec S16 32) (v77 : IVec S16 32), Decidable (k1_chk17 v19 v77) := fun v19 v77 => decidable_of_iff' _ (Iff.of_eq (k1_chk17.eq_1 v19 v77))
theorem k1_idx17_inb : ∀ (v19 : IVec S16 32) (v77 : IVec S16 32) (k1_hw17 : k1_chk17 v19 v77), ∀ a x, ((![v19, v77] : Fin 2 → IVec S16 32) a x).toNat < S512x128.size a := fun v19 v77 k1_hw17 => k1_hw17

def k1_chk18 (v19 : IVec S16 32) (v82 : IVec S16 32) : Prop :=
  (∀ a x, ((![v82, v19] : Fin 2 → IVec S16 32) a x).toNat < S16x512.size a)
instance k1_chk18.dec : ∀ (v19 : IVec S16 32) (v82 : IVec S16 32), Decidable (k1_chk18 v19 v82) := fun v19 v82 => decidable_of_iff' _ (Iff.of_eq (k1_chk18.eq_1 v19 v82))
theorem k1_idx18_inb : ∀ (v19 : IVec S16 32) (v82 : IVec S16 32) (k1_hw18 : k1_chk18 v19 v82), ∀ a x, ((![v82, v19] : Fin 2 → IVec S16 32) a x).toNat < S16x512.size a := fun v19 v82 k1_hw18 => k1_hw18

def k1_chk19 (v19 : IVec S16 32) (v84 : IVec S16 32) : Prop :=
  (∀ a x, ((![v19, v84] : Fin 2 → IVec S16 32) a x).toNat < S512x128.size a)
instance k1_chk19.dec : ∀ (v19 : IVec S16 32) (v84 : IVec S16 32), Decidable (k1_chk19 v19 v84) := fun v19 v84 => decidable_of_iff' _ (Iff.of_eq (k1_chk19.eq_1 v19 v84))
theorem k1_idx19_inb : ∀ (v19 : IVec S16 32) (v84 : IVec S16 32) (k1_hw19 : k1_chk19 v19 v84), ∀ a x, ((![v19, v84] : Fin 2 → IVec S16 32) a x).toNat < S512x128.size a := fun v19 v84 k1_hw19 => k1_hw19

def k1_chk20 (v19 : IVec S16 32) (v89 : IVec S16 32) : Prop :=
  (∀ a x, ((![v89, v19] : Fin 2 → IVec S16 32) a x).toNat < S16x512.size a)
instance k1_chk20.dec : ∀ (v19 : IVec S16 32) (v89 : IVec S16 32), Decidable (k1_chk20 v19 v89) := fun v19 v89 => decidable_of_iff' _ (Iff.of_eq (k1_chk20.eq_1 v19 v89))
theorem k1_idx20_inb : ∀ (v19 : IVec S16 32) (v89 : IVec S16 32) (k1_hw20 : k1_chk20 v19 v89), ∀ a x, ((![v89, v19] : Fin 2 → IVec S16 32) a x).toNat < S16x512.size a := fun v19 v89 k1_hw20 => k1_hw20

def k1_chk21 (v19 : IVec S16 32) (v91 : IVec S16 32) : Prop :=
  (∀ a x, ((![v19, v91] : Fin 2 → IVec S16 32) a x).toNat < S512x128.size a)
instance k1_chk21.dec : ∀ (v19 : IVec S16 32) (v91 : IVec S16 32), Decidable (k1_chk21 v19 v91) := fun v19 v91 => decidable_of_iff' _ (Iff.of_eq (k1_chk21.eq_1 v19 v91))
theorem k1_idx21_inb : ∀ (v19 : IVec S16 32) (v91 : IVec S16 32) (k1_hw21 : k1_chk21 v19 v91), ∀ a x, ((![v19, v91] : Fin 2 → IVec S16 32) a x).toNat < S512x128.size a := fun v19 v91 k1_hw21 => k1_hw21

def k1_chk22 (v19 : IVec S16 32) (v96 : IVec S16 32) : Prop :=
  (∀ a x, ((![v96, v19] : Fin 2 → IVec S16 32) a x).toNat < S16x512.size a)
instance k1_chk22.dec : ∀ (v19 : IVec S16 32) (v96 : IVec S16 32), Decidable (k1_chk22 v19 v96) := fun v19 v96 => decidable_of_iff' _ (Iff.of_eq (k1_chk22.eq_1 v19 v96))
theorem k1_idx22_inb : ∀ (v19 : IVec S16 32) (v96 : IVec S16 32) (k1_hw22 : k1_chk22 v19 v96), ∀ a x, ((![v96, v19] : Fin 2 → IVec S16 32) a x).toNat < S16x512.size a := fun v19 v96 k1_hw22 => k1_hw22

def k1_chk23 (v19 : IVec S16 32) (v98 : IVec S16 32) : Prop :=
  (∀ a x, ((![v19, v98] : Fin 2 → IVec S16 32) a x).toNat < S512x128.size a)
instance k1_chk23.dec : ∀ (v19 : IVec S16 32) (v98 : IVec S16 32), Decidable (k1_chk23 v19 v98) := fun v19 v98 => decidable_of_iff' _ (Iff.of_eq (k1_chk23.eq_1 v19 v98))
theorem k1_idx23_inb : ∀ (v19 : IVec S16 32) (v98 : IVec S16 32) (k1_hw23 : k1_chk23 v19 v98), ∀ a x, ((![v19, v98] : Fin 2 → IVec S16 32) a x).toNat < S512x128.size a := fun v19 v98 k1_hw23 => k1_hw23

def k1_chk24 (v19 : IVec S16 32) (v103 : IVec S16 32) : Prop :=
  (∀ a x, ((![v103, v19] : Fin 2 → IVec S16 32) a x).toNat < S16x512.size a)
instance k1_chk24.dec : ∀ (v19 : IVec S16 32) (v103 : IVec S16 32), Decidable (k1_chk24 v19 v103) := fun v19 v103 => decidable_of_iff' _ (Iff.of_eq (k1_chk24.eq_1 v19 v103))
theorem k1_idx24_inb : ∀ (v19 : IVec S16 32) (v103 : IVec S16 32) (k1_hw24 : k1_chk24 v19 v103), ∀ a x, ((![v103, v19] : Fin 2 → IVec S16 32) a x).toNat < S16x512.size a := fun v19 v103 k1_hw24 => k1_hw24

def k1_chk25 (v19 : IVec S16 32) (v105 : IVec S16 32) : Prop :=
  (∀ a x, ((![v19, v105] : Fin 2 → IVec S16 32) a x).toNat < S512x128.size a)
instance k1_chk25.dec : ∀ (v19 : IVec S16 32) (v105 : IVec S16 32), Decidable (k1_chk25 v19 v105) := fun v19 v105 => decidable_of_iff' _ (Iff.of_eq (k1_chk25.eq_1 v19 v105))
theorem k1_idx25_inb : ∀ (v19 : IVec S16 32) (v105 : IVec S16 32) (k1_hw25 : k1_chk25 v19 v105), ∀ a x, ((![v19, v105] : Fin 2 → IVec S16 32) a x).toNat < S512x128.size a := fun v19 v105 k1_hw25 => k1_hw25

def k1_chk26 (v19 : IVec S16 32) (v110 : IVec S16 32) : Prop :=
  (∀ a x, ((![v110, v19] : Fin 2 → IVec S16 32) a x).toNat < S16x512.size a)
instance k1_chk26.dec : ∀ (v19 : IVec S16 32) (v110 : IVec S16 32), Decidable (k1_chk26 v19 v110) := fun v19 v110 => decidable_of_iff' _ (Iff.of_eq (k1_chk26.eq_1 v19 v110))
theorem k1_idx26_inb : ∀ (v19 : IVec S16 32) (v110 : IVec S16 32) (k1_hw26 : k1_chk26 v19 v110), ∀ a x, ((![v110, v19] : Fin 2 → IVec S16 32) a x).toNat < S16x512.size a := fun v19 v110 k1_hw26 => k1_hw26

def k1_chk27 (v19 : IVec S16 32) (v112 : IVec S16 32) : Prop :=
  (∀ a x, ((![v19, v112] : Fin 2 → IVec S16 32) a x).toNat < S512x128.size a)
instance k1_chk27.dec : ∀ (v19 : IVec S16 32) (v112 : IVec S16 32), Decidable (k1_chk27 v19 v112) := fun v19 v112 => decidable_of_iff' _ (Iff.of_eq (k1_chk27.eq_1 v19 v112))
theorem k1_idx27_inb : ∀ (v19 : IVec S16 32) (v112 : IVec S16 32) (k1_hw27 : k1_chk27 v19 v112), ∀ a x, ((![v19, v112] : Fin 2 → IVec S16 32) a x).toNat < S512x128.size a := fun v19 v112 k1_hw27 => k1_hw27

def k1_chk28 (v19 : IVec S16 32) (v117 : IVec S16 32) : Prop :=
  (∀ a x, ((![v117, v19] : Fin 2 → IVec S16 32) a x).toNat < S16x512.size a)
instance k1_chk28.dec : ∀ (v19 : IVec S16 32) (v117 : IVec S16 32), Decidable (k1_chk28 v19 v117) := fun v19 v117 => decidable_of_iff' _ (Iff.of_eq (k1_chk28.eq_1 v19 v117))
theorem k1_idx28_inb : ∀ (v19 : IVec S16 32) (v117 : IVec S16 32) (k1_hw28 : k1_chk28 v19 v117), ∀ a x, ((![v117, v19] : Fin 2 → IVec S16 32) a x).toNat < S16x512.size a := fun v19 v117 k1_hw28 => k1_hw28

def k1_chk29 (v19 : IVec S16 32) (v119 : IVec S16 32) : Prop :=
  (∀ a x, ((![v19, v119] : Fin 2 → IVec S16 32) a x).toNat < S512x128.size a)
instance k1_chk29.dec : ∀ (v19 : IVec S16 32) (v119 : IVec S16 32), Decidable (k1_chk29 v19 v119) := fun v19 v119 => decidable_of_iff' _ (Iff.of_eq (k1_chk29.eq_1 v19 v119))
theorem k1_idx29_inb : ∀ (v19 : IVec S16 32) (v119 : IVec S16 32) (k1_hw29 : k1_chk29 v19 v119), ∀ a x, ((![v19, v119] : Fin 2 → IVec S16 32) a x).toNat < S512x128.size a := fun v19 v119 k1_hw29 => k1_hw29

def k1_chk30 (v19 : IVec S16 32) (v124 : IVec S16 32) : Prop :=
  (∀ a x, ((![v124, v19] : Fin 2 → IVec S16 32) a x).toNat < S16x512.size a)
instance k1_chk30.dec : ∀ (v19 : IVec S16 32) (v124 : IVec S16 32), Decidable (k1_chk30 v19 v124) := fun v19 v124 => decidable_of_iff' _ (Iff.of_eq (k1_chk30.eq_1 v19 v124))
theorem k1_idx30_inb : ∀ (v19 : IVec S16 32) (v124 : IVec S16 32) (k1_hw30 : k1_chk30 v19 v124), ∀ a x, ((![v124, v19] : Fin 2 → IVec S16 32) a x).toNat < S16x512.size a := fun v19 v124 k1_hw30 => k1_hw30

def k1_chk31 (v19 : IVec S16 32) (v126 : IVec S16 32) : Prop :=
  (∀ a x, ((![v19, v126] : Fin 2 → IVec S16 32) a x).toNat < S512x128.size a)
instance k1_chk31.dec : ∀ (v19 : IVec S16 32) (v126 : IVec S16 32), Decidable (k1_chk31 v19 v126) := fun v19 v126 => decidable_of_iff' _ (Iff.of_eq (k1_chk31.eq_1 v19 v126))
theorem k1_idx31_inb : ∀ (v19 : IVec S16 32) (v126 : IVec S16 32) (k1_hw31 : k1_chk31 v19 v126), ∀ a x, ((![v19, v126] : Fin 2 → IVec S16 32) a x).toNat < S512x128.size a := fun v19 v126 k1_hw31 => k1_hw31

def k1_chk32 (v19 : IVec S16 32) (v131 : IVec S16 32) : Prop :=
  (∀ a x, ((![v131, v19] : Fin 2 → IVec S16 32) a x).toNat < S16x512.size a)
instance k1_chk32.dec : ∀ (v19 : IVec S16 32) (v131 : IVec S16 32), Decidable (k1_chk32 v19 v131) := fun v19 v131 => decidable_of_iff' _ (Iff.of_eq (k1_chk32.eq_1 v19 v131))
theorem k1_idx32_inb : ∀ (v19 : IVec S16 32) (v131 : IVec S16 32) (k1_hw32 : k1_chk32 v19 v131), ∀ a x, ((![v131, v19] : Fin 2 → IVec S16 32) a x).toNat < S16x512.size a := fun v19 v131 k1_hw32 => k1_hw32
def k1_off4 (i : grid1.Coords) : Fin 2 → Nat :=
  let c0_i32_9_r1 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![0, v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S16_S1x16 : S16.ShapeCasts S1x16
  bcast_S1x16_S8x16_0_1 : S1x16.BroadcastsInDim S8x16 (![0, 1] : Fin 2 → Fin S8x16.rank)
  shapeCasts_S8x16_S128 : S8x16.ShapeCasts S128
  shapeCasts_S128_S1x128 : S128.ShapeCasts S1x128
  transposes_S1000000x64_S64x1000000_1_0 : S1000000x64.Transposes [1, 0] S64x1000000
  inb_S16x64_S16x64_0_0 : ∀ a, (![0, 0] : Fin 2 → Nat) a + S16x64.size a ≤ S16x64.size a
  h_S16x64 : 0 < S16x64.numel
  inb_S64x32768_S64x32768_0_0 : ∀ a, (![0, 0] : Fin 2 → Nat) a + S64x32768.size a ≤ S64x32768.size a
  h_S64x32768 : 0 < S64x32768.numel
  shapeCasts_S64x32768_S64x32768 : S64x32768.ShapeCasts S64x32768
  bitsLt_bf16_f32 : FTy.bits .bf16 < FTy.bits .f32
  slices_S16x32768_o0_0_S16x4096 : S16x32768.Slices ![0, 0] S16x4096
  slices_S16x32768_o0_4096_S16x4096 : S16x32768.Slices ![0, 4096] S16x4096
  slices_S16x32768_o0_8192_S16x4096 : S16x32768.Slices ![0, 8192] S16x4096
  slices_S16x32768_o0_12288_S16x4096 : S16x32768.Slices ![0, 12288] S16x4096
  slices_S16x32768_o0_16384_S16x4096 : S16x32768.Slices ![0, 16384] S16x4096
  slices_S16x32768_o0_20480_S16x4096 : S16x32768.Slices ![0, 20480] S16x4096
  slices_S16x32768_o0_24576_S16x4096 : S16x32768.Slices ![0, 24576] S16x4096
  slices_S16x32768_o0_28672_S16x4096 : S16x32768.Slices ![0, 28672] S16x4096
  concatenates_S16x4096_S16x4096_S16x4096_S16x4096_S16x4096_S16x4096_S16x4096_S16x4096_S128x4096_d0 : Shape.Concatenates [S16x4096, S16x4096, S16x4096, S16x4096, S16x4096, S16x4096, S16x4096, S16x4096] S128x4096 0
  iota_S128x128_d0_w32 : S128x128.Iotas .tc 32 [0]
  iota_S128x128_d1_w32 : S128x128.Iotas .tc 32 [1]
  natLt_1_32 : 1 < 32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S4096x128_S4096x128_0_0 : ∀ a, (![0, 0] : Fin 2 → Nat) a + S4096x128.size a ≤ S4096x128.size a
  h_S4096x128 : 0 < S4096x128.numel
  h_S16 : 0 < S16.numel
  inb_S126976x128_S126976x128_0_0 : ∀ a, (![0, 0] : Fin 2 → Nat) a + S126976x128.size a ≤ S126976x128.size a
  gathers_S126976x128_S512x128 : S126976x128.Gathers 0 S512x128
  iota_S16_d0_w32_scVector : S16.Iotas .scVector 32 [0]
  h_S512x128 : 0 < S512x128.numel
  h_S16x512 : 0 < S16x512.numel
  transposes_S16x16384_S16384x16_1_0 : S16x16384.Transposes [1, 0] S16384x16
  dot_S16x64_S64x32768_S16x32768_1_0_0_1_n_n_wf : DotDims.WF S16x64 S64x32768 S16x32768 [1] [0] [0] [1] [] []
  dot_S128x4096_S128x128_S4096x128_0_0_1_1_n_n_wf : DotDims.WF S128x4096 S128x128 S4096x128 [0] [0] [1] [1] [] []
  hcc1_scratch4 : 6 + S_.numel ≤ 9
  hcc1_scoped0 : 7 + S_.numel ≤ 9
  hcc1_scoped1 : 8 + S_.numel ≤ 9
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S64x32768.size a < S64x1000000.size a
  hwx0_0 : ∀ i : grid0.Coords, EltTy.bits .f32 = 32 ∨ (Rect.unit (s := S64x1000000) (fun a => cc0_transform_0 i a * S64x32768.size a) (fun a => (Pipeline.Clip.of (cc0_transform_0 i a) (S64x32768.size a) (S64x1000000.size a)).extent (S64x32768.size a)) fun a => Pipeline.Clip.inb (Pipeline.Clip.ok_of (hstart0_0 i a))).WholeWords (EltTy.packing .f32)
  hwxs0_0 : ∀ i : grid0.Coords, EltTy.bits .f32 = 32 ∨ (Rect.unit (s := S64x32768) (fun _ => 0) (fun a => (Pipeline.Clip.of (cc0_transform_0 i a) (S64x32768.size a) (S64x1000000.size a)).extent (S64x32768.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x64.size a ≤ S16x64.size a
  hwx0_1 : ∀ i : grid0.Coords, EltTy.bits .f32 = 32 ∨ (Rect.block (s := S16x64) S16x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S126976x128.size a
  hwx0_3 : ∀ i : grid0.Coords, EltTy.bits .f32 = 32 ∨ (Rect.block (s := S126976x128) S4096x128.size (cc0_transform_3 i) (hinb0_3 i)).WholeWords (EltTy.packing .f32)
  hcore1 : grid1.bound 0 ≤ τ.nSC
  hsub1 : grid1.bound 1 ≤ τ.nSub
  k1_off1_inb : ∀ i : grid1.Coords, ∀ a, (k1_off1 i) a + S512.size a ≤ S16384.size a
  k1_t1_ok : k1_t1_loop.OK
  k1_off2_inb : ∀ k1_t1 : Fin k1_t1_loop.trips, ∀ a, (k1_off2 k1_t1) a + S16.size a ≤ S512.size a
  k1_t2_ok : k1_t2_loop.OK
  k1_off3_inb : ∀ k1_t2 : Fin k1_t2_loop.trips, ∀ a, (k1_off3 k1_t2) a + S16.size a ≤ S512.size a
  k1_off4_inb : ∀ i : grid1.Coords, ∀ a, (k1_off4 i) a + S16x512.size a ≤ S16x16384.size a

variable [Facts₀]

abbrev cc1_scratch4 : DmaSems sig S_ := SemArray.consecutive 6 S_ hcc1_scratch4
abbrev cc1_scoped0 : DmaSems sig S_ := SemArray.consecutive 7 S_ hcc1_scoped0
abbrev cc1_scoped1 : DmaSems sig S_ := SemArray.consecutive 8 S_ hcc1_scoped1
def dot_S16x64_S64x32768_S16x32768_1_0_0_1_n_n : DotDims S16x64 S64x32768 S16x32768 where
  lhsContracting := [1]
  rhsContracting := [0]
  lhsNonContracting := [0]
  rhsNonContracting := [1]
  lhsBatch := []
  rhsBatch := []
  wf := dot_S16x64_S64x32768_S16x32768_1_0_0_1_n_n_wf
def dot_S128x4096_S128x128_S4096x128_0_0_1_1_n_n : DotDims S128x4096 S128x128 S4096x128 where
  lhsContracting := [0]
  rhsContracting := [0]
  lhsNonContracting := [1]
  rhsNonContracting := [1]
  lhsBatch := []
  rhsBatch := []
  wf := dot_S128x4096_S128x128_S4096x128_0_0_1_1_n_n_wf

abbrev win0_0 : Pipeline.Window sig grid0 :=
  Pipeline.Window.ofSpecClip (Memref.whole main_v4) S64x32768.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg2) S16x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S4096x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384 : Shape := ⟨1, ![16384]⟩
abbrev S1000000x64 : Shape := ⟨2, ![1000000, 64]⟩
abbrev S16x64 : Shape := ⟨2, ![16, 64]⟩
abbrev S16 : Shape := ⟨1, ![16]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x64 : Shape := ⟨2, ![16384, 64]⟩
abbrev S64x16 : Shape := ⟨2, ![64, 16]⟩
abbrev S16384x16 : Shape := ⟨2, ![16384, 16]⟩
abbrev S1x16 : Shape := ⟨2, ![1, 16]⟩

abbrev nBuf : Space → Nat
  | .hbm => 32
  | .vmem => 0
  | .smem => 0
  | _ => 0

abbrev bufTy : (tb : Table) → Fin (tcTables nBuf tb) → BufTy
  | .hbm, ⟨0, _⟩ => ⟨S16384, .i32⟩
  | .hbm, ⟨1, _⟩ => ⟨S1000000x64, .f32⟩
  | .hbm, ⟨2, _⟩ => ⟨S16x64, .f32⟩
  | .hbm, ⟨3, _⟩ => ⟨S16, .f32⟩
  | .hbm, ⟨4, _⟩ => ⟨S_, .i32⟩
  | .hbm, ⟨5, _⟩ => ⟨S16384, .i32⟩
  | .hbm, ⟨6, _⟩ => ⟨S16384, .i1⟩
  | .hbm, ⟨7, _⟩ => ⟨S_, .i32⟩
  | .hbm, ⟨8, _⟩ => ⟨S16384, .i32⟩
  | .hbm, ⟨9, _⟩ => ⟨S16384, .i32⟩
  | .hbm, ⟨10, _⟩ => ⟨S16384, .i32⟩
  | .hbm, ⟨11, _⟩ => ⟨S16384x1, .i32⟩
  | .hbm, ⟨12, _⟩ => ⟨S1, .i32⟩
  | .hbm, ⟨13, _⟩ => ⟨S_, .i32⟩
  | .hbm, ⟨14, _⟩ => ⟨S16384x1, .i32⟩
  | .hbm, ⟨15, _⟩ => ⟨S16384x1, .i1⟩
  | .hbm, ⟨16, _⟩ => ⟨S1x1, .i32⟩
  | .hbm, ⟨17, _⟩ => ⟨S16384x1, .i32⟩
  | .hbm, ⟨18, _⟩ => ⟨S16384x1, .i1⟩
  | .hbm, ⟨19, _⟩ => ⟨S16384x1, .i1⟩
  | .hbm, ⟨20, _⟩ => ⟨S_, .i1⟩
  | .hbm, ⟨21, _⟩ => ⟨S16384, .i1⟩
  | .hbm, ⟨22, _⟩ => ⟨S16384x64, .f32⟩
  | .hbm, ⟨23, _⟩ => ⟨S16384x64, .i1⟩
  | .hbm, ⟨24, _⟩ => ⟨S_, .f32⟩
  | .hbm, ⟨25, _⟩ => ⟨S16384x64, .f32⟩
  | .hbm, ⟨26, _⟩ => ⟨S16384x64, .f32⟩
  | .hbm, ⟨27, _⟩ => ⟨S64x16, .f32⟩
  | .hbm, ⟨28, _⟩ => ⟨S16384x16, .f32⟩
  | .hbm, ⟨29, _⟩ => ⟨S1x16, .f32⟩
  | .hbm, ⟨30, _⟩ => ⟨S16384x16, .f32⟩
  | .hbm, ⟨31, _⟩ => ⟨S16384x16, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x64_0 : S16384.BroadcastsInDim S16384x64 (![0] : Fin 1 → Fin S16384x64.rank)
  bcast_S_S16384x64 : S_.BroadcastsInDim S16384x64 (![] : Fin 0 → Fin S16384x64.rank)
  transposes_S16x64_S64x16_1_0 : S16x64.Transposes [1, 0] S64x16
  bcast_S16_S1x16_1 : S16.BroadcastsInDim S1x16 (![1] : Fin 1 → Fin S1x16.rank)
  bcast_S1x16_S16384x16_0_1 : S1x16.BroadcastsInDim S16384x16 (![0, 1] : Fin 2 → Fin S16384x16.rank)
  gather_S1000000x64_S16384x1_S16384x64_1_0_n_n_0_1_164_wf : GatherDims.WF S1000000x64 S16384x1 S16384x64 [1] [0] [] [0] [] 1 ![1, 64]
  dot_S16384x64_S64x16_S16384x16_1_0_0_1_n_n_wf : DotDims.WF S16384x64 S64x16 S16384x16 [1] [0] [0] [1] [] []

variable [Facts₀]

def gather_S1000000x64_S16384x1_S16384x64_1_0_n_n_0_1_164 : GatherDims S1000000x64 S16384x1 S16384x64 where
  offsetDims := [1]
  collapsedSliceDims := [0]
  operandBatchingDims := []
  startIndicesBatchingDims := []
  startIndexMap := [0]
  indexVectorDim := 1
  sliceSizes := ![1, 64]
  wf := gather_S1000000x64_S16384x1_S16384x64_1_0_n_n_0_1_164_wf
def dot_S16384x64_S64x16_S16384x16_1_0_0_1_n_n : DotDims S16384x64 S64x16 S16384x16 where
  lhsContracting := [1]
  rhsContracting := [0]
  lhsNonContracting := [0]
  rhsNonContracting := [1]
  lhsBatch := []
  rhsBatch := []
  wf := dot_S16384x64_S64x16_S16384x16_1_0_0_1_n_n_wf

class Facts : Prop extends Facts₀ where

variable [Facts]
-- ==== Proof.PreIds.lean ====
import proofs.«211133_g82480551952782_cont_sun_m_220_25_alg».proof.Pre_input_domain
import Idealize.ShloMosaic.Lib.ReduceAll
import Idealize.ShloMosaic.Lib.Affine

noncomputable section

namespace Cert.PreIds

open Idealize.ShloMosaic Cert.Pre_input_domain

/-- The scalar shape has one index. -/
instance subsingleton_scalar_idx : Subsingleton S_.Idx := ⟨fun a b => funext fun d => d.elim0⟩

/-- The printed input domain, all ones, bounds every id: the last two of its conjuncts are
    `jnp.all (0 ≤ ids)` and `jnp.all (ids ≤ 999999)`, each a reduce by `and` over the 16384 entries
    of a signed comparison with the broadcast literal. Holds at every float instance: only the integer
    operand is read. -/
theorem ids_range {F : FTy → Type} [FloatOps F] [Cert.Pre_input_domain.Facts]
    (ids : IVec S16384 32) (table : FVec F S1000000x64 .f32) (W : FVec F S16x64 .f32) (b : FVec F S16 .f32)
    (h : Cert.Pre_input_domain.fn (F := F) ids table W b = (fun _ => 1#1)) :
    ∀ j : S16384.Idx, 0 ≤ (ids j).toInt ∧ (ids j).toInt ≤ 999999 := by
  intro j
  have h0 := congrFun h (fun a => a.elim0)
  dsimp only [fn, fn_part1] at h0
  obtain ⟨-, h19⟩ := IntOp.andi_eq_one.1 h0
  have h18 := Host.reduce_andi_all _ _ _ _ _ h19 j
  obtain ⟨h15, h17⟩ := IntOp.andi_eq_one.1 h18
  have e0 : (0#32 : BitVec 32).toInt = 0 := by decide
  have e1 : (999999#32 : BitVec 32).toInt = 999999 := by decide
  have h15' := IntOp.cmpi_sge.1 h15
  have h17' := IntOp.cmpi_sle.1 h17
  exact ⟨e0 ▸ h15', e1 ▸ h17'⟩

end Cert.PreIds

end
-- ==== Proof.RefRun.lean ====
import proofs.«211133_g82480551952782_cont_sun_m_220_25_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The value, stage by stage -/

/-- The ids with a negative one moved up by the table's row count. -/
def wrapped (ids : (⟨S16384, .i32⟩ : BufTy).Contents (Elt F)) : (⟨S16384, .i32⟩ : BufTy).Contents (Elt F) :=
  select (cmpi .slt ids (broadcastInDim S16384 ![] bcast_S_S16384 (constantI S_ 32 0#32)))
    (addi ids (broadcastInDim S16384 ![] bcast_S_S16384 (constantI S_ 32 1000000#32))) ids

/-- The gather's start indices: the wrapped ids as a column. -/
def starts (ids : (⟨S16384, .i32⟩ : BufTy).Contents (Elt F)) : (⟨S16384x1, .i32⟩ : BufTy).Contents (Elt F) :=
  broadcastInDim S16384x1 ![0] bcast_S16384_S16384x1_0 (wrapped (F := F) ids)

/-- Per row, whether the start index `st` of the row lies in `0 … 999999`. -/
def inRangeOf (st : (⟨S16384x1, .i32⟩ : BufTy).Contents (Elt F)) : (⟨S16384, .i1⟩ : BufTy).Contents (Elt F) :=
  Host.reduce IntOp.andi
    (andi (cmpi .sge st (broadcastInDim S16384x1 ![] bcast_S_S16384x1 (constantI S_ 32 0#32)))
      (cmpi .sle st
        (broadcastInDim S16384x1 ![0, 1] bcast_S1x1_S16384x1_0_1 (broadcastInDim S1x1 ![1] bcast_S1_S1x1_1 (constantI S1 32 999999#32)))))
    (constantI S_ 1 1#1) reducesTo_S16384x1_S16384_d1 h_S_

/-- The rows taken at start indices `st` under the row mask `ir`: the gathered row where the mask is set, the fill
    constant elsewhere. -/
def takenOf (ir : (⟨S16384, .i1⟩ : BufTy).Contents (Elt F)) (table : (⟨S1000000x64, .f32⟩ : BufTy).Contents (Elt F)) (st : (⟨S16384x1, .i32⟩ : BufTy).Contents (Elt F)) :
    (⟨S16384x64, .f32⟩ : BufTy).Contents (Elt F) :=
  select (broadcastInDim S16384x64 ![0] bcast_S16384_S16384x64_0 ir)
    (Host.gather gather_S1000000x64_S16384x1_S16384x64_1_0_n_n_0_1_164 table st)
    (broadcastInDim S16384x64 ![] bcast_S_S16384x64 (constant S_ .f32 0x7FC00000#32))

/-- The rows `tk` times the transposed weights, plus the bias broadcast over the rows. -/
def outOf (tk : (⟨S16384x64, .f32⟩ : BufTy).Contents (Elt F)) (W : (⟨S16x64, .f32⟩ : BufTy).Contents (Elt F)) (b : (⟨S16, .f32⟩ : BufTy).Contents (Elt F)) : (⟨S16384x16, .f32⟩ : BufTy).Contents (Elt F) :=
  addf
    (Host.dotGeneral dot_S16384x64_S64x16_S16384x16_1_0_0_1_n_n none tk (transpose S64x16 [1, 0] W transposes_S16x64_S64x16_1_0))
    (broadcastInDim S16384x16 ![0, 1] bcast_S1x16_S16384x16_0_1 (broadcastInDim S1x16 ![1] bcast_S16_S1x16_1 b))

/-- Per row, whether its start index lies in `0 … 999999`. -/
def inRange (ids : (⟨S16384, .i32⟩ : BufTy).Contents (Elt F)) : (⟨S16384, .i1⟩ : BufTy).Contents (Elt F) := inRangeOf (F := F) (starts (F := F) ids)

/-- The rows taken: the gathered row where the start index is in range, the fill constant elsewhere. -/
def taken (ids : (⟨S16384, .i32⟩ : BufTy).Contents (Elt F)) (table : (⟨S1000000x64, .f32⟩ : BufTy).Contents (Elt F)) : (⟨S16384x64, .f32⟩ : BufTy).Contents (Elt F) :=
  takenOf (F := F) (inRange (F := F) ids) table (starts (F := F) ids)

/-- The reference's result as a function of its four arguments: the taken rows times the transposed weights, plus the
    bias broadcast over the rows. -/
def out (ids : (⟨S16384, .i32⟩ : BufTy).Contents (Elt F)) (table : (⟨S1000000x64, .f32⟩ : BufTy).Contents (Elt F)) (W : (⟨S16x64, .f32⟩ : BufTy).Contents (Elt F)) (b : (⟨S16, .f32⟩ : BufTy).Contents (Elt F)) :
    (⟨S16384x16, .f32⟩ : BufTy).Contents (Elt F) :=
  outOf (F := F) (taken (F := F) ids table) W b

/-! ## The run -/

/-- @main's twenty-eight operations in order, the two calls unfolded: the take's twenty-three (the select of its inner
    call among them, over that call's record), then the transpose, the product, the two broadcasts and the sum. -/
abbrev ops : List (HloOp τ sig (Elt F)) :=
  [ TRef.nullary main_call0.c (constantI S_ 32 0#32),
    TRef.unary main_call0.c main_call0.v0 (broadcastInDim S16384 ![] bcast_S_S16384),
    TRef.binary (.of main_arg0) main_call0.v0 main_call0.v1 (cmpi .slt),
    TRef.nullary main_call0.c_0 (constantI S_ 32 1000000#32),
    TRef.unary main_call0.c_0 main_call0.v2 (broadcastInDim S16384 ![] bcast_S_S16384),
    TRef.binary (.of main_arg0) main_call0.v2 main_call0.v3 addi,
    TRef.ternary main_call0.v1 main_call0.v3 (.of main_arg0) main_call0.call0.v0 select,
    TRef.unary main_call0.call0.v0 main_call0.v5 (broadcastInDim S16384x1 ![0] bcast_S16384_S16384x1_0),
    TRef.nullary main_call0.c_1 (constantI S1 32 999999#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg1) main_call0.v5 main_call0.v13 (fun x i => Host.gather gather_S1000000x64_S16384x1_S16384x64_1_0_n_n_0_1_164 x i),
    TRef.unary main_call0.v12 main_call0.v14 (broadcastInDim S16384x64 ![0] bcast_S16384_S16384x64_0),
    TRef.nullary main_call0.cst (constant S_ .f32 0x7FC00000#32),
    TRef.unary main_call0.cst main_call0.v15 (broadcastInDim S16384x64 ![] bcast_S_S16384x64),
    TRef.ternary main_call0.v14 main_call0.v13 main_call0.v15 main_call0.v16 select,
    unary main_arg2 main_v1 ((transpose S64x16 [1, 0] · transposes_S16x64_S64x16_1_0) : (⟨S16x64, .f32⟩ : BufTy).Contents (Elt F) → (⟨S64x16, .f32⟩ : BufTy).Contents (Elt F)),
    binary main_v0 main_v1 main_v2 ((fun l r => Host.dotGeneral dot_S16384x64_S64x16_S16384x16_1_0_0_1_n_n none l r) : (⟨S16384x64, .f32⟩ : BufTy).Contents (Elt F) → (⟨S64x16, .f32⟩ : BufTy).Contents (Elt F) → (⟨S16384x16, .f32⟩ : BufTy).Contents (Elt F)),
    unary main_arg3 main_v3 (broadcastInDim S1x16 ![1] bcast_S16_S1x16_1 : (⟨S16, .f32⟩ : BufTy).Contents (Elt F) → (⟨S1x16, .f32⟩ : BufTy).Contents (Elt F)),
    unary main_v3 main_v4 (broadcastInDim S16384x16 ![0, 1] bcast_S1x16_S16384x16_0_1 : (⟨S1x16, .f32⟩ : BufTy).Contents (Elt F) → (⟨S16384x16, .f32⟩ : BufTy).Contents (Elt F)),
    binary main_v2 main_v4 main_v5 (addf : (⟨S16384x16, .f32⟩ : BufTy).Contents (Elt F) → (⟨S16384x16, .f32⟩ : BufTy).Contents (Elt F) → (⟨S16384x16, .f32⟩ : BufTy).Contents (Elt F)) ]

set_option maxRecDepth 1024 in
/-- @main is that straight line: the two functions' definitions unfolded at their calls, both sides are one chain of
    operation steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    unary_bufs_sub .., binary_bufs_sub .., unary_bufs_sub .., unary_bufs_sub .., binary_bufs_sub ..⟩

/-! ### The line in four stretches

The fold over the whole line is read one stretch at a time: the start indices; the row mask; the taken rows; the product
and the bias. Each stretch's result buffer is its stage of the value over the buffers it reads, and the buffers a later
stretch reads pass through unchanged. -/

/-- The fold over a concatenation is the fold over the second line from the fold over the first. -/
theorem after_append : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append l₁ l₂]

/-- The first stretch: the wrap of the ids and the start indices. -/
abbrev seg1 : List (HloOp τ sig (Elt F)) :=
  [ TRef.nullary main_call0.c (constantI S_ 32 0#32),
    TRef.unary main_call0.c main_call0.v0 (broadcastInDim S16384 ![] bcast_S_S16384),
    TRef.binary (.of main_arg0) main_call0.v0 main_call0.v1 (cmpi .slt),
    TRef.nullary main_call0.c_0 (constantI S_ 32 1000000#32),
    TRef.unary main_call0.c_0 main_call0.v2 (broadcastInDim S16384 ![] bcast_S_S16384),
    TRef.binary (.of main_arg0) main_call0.v2 main_call0.v3 addi,
    TRef.ternary main_call0.v1 main_call0.v3 (.of main_arg0) main_call0.call0.v0 select,
    TRef.unary main_call0.call0.v0 main_call0.v5 (broadcastInDim S16384x1 ![0] bcast_S16384_S16384x1_0) ]
/-- The second stretch: the row mask. -/
abbrev seg2 : List (HloOp τ sig (Elt F)) :=
  [ TRef.nullary main_call0.c_1 (constantI S1 32 999999#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_) ]
/-- The third stretch: the gather and the fill. -/
abbrev seg3 : List (HloOp τ sig (Elt F)) :=
  [ TRef.binary (.of main_arg1) main_call0.v5 main_call0.v13 (fun x i => Host.gather gather_S1000000x64_S16384x1_S16384x64_1_0_n_n_0_1_164 x i),
    TRef.unary main_call0.v12 main_call0.v14 (broadcastInDim S16384x64 ![0] bcast_S16384_S16384x64_0),
    TRef.nullary main_call0.cst (constant S_ .f32 0x7FC00000#32),
    TRef.unary main_call0.cst main_call0.v15 (broadcastInDim S16384x64 ![] bcast_S_S16384x64),
    TRef.ternary main_call0.v14 main_call0.v13 main_call0.v15 main_call0.v16 select ]
/-- The fourth stretch: the product and the bias. -/
abbrev seg4 : List (HloOp τ sig (Elt F)) :=
  [ unary main_arg2 main_v1 ((transpose S64x16 [1, 0] · transposes_S16x64_S64x16_1_0) : (⟨S16x64, .f32⟩ : BufTy).Contents (Elt F) → (⟨S64x16, .f32⟩ : BufTy).Contents (Elt F)),
    binary main_v0 main_v1 main_v2 ((fun l r => Host.dotGeneral dot_S16384x64_S64x16_S16384x16_1_0_0_1_n_n none l r) : (⟨S16384x64, .f32⟩ : BufTy).Contents (Elt F) → (⟨S64x16, .f32⟩ : BufTy).Contents (Elt F) → (⟨S16384x16, .f32⟩ : BufTy).Contents (Elt F)),
    unary main_arg3 main_v3 (broadcastInDim S1x16 ![1] bcast_S16_S1x16_1 : (⟨S16, .f32⟩ : BufTy).Contents (Elt F) → (⟨S1x16, .f32⟩ : BufTy).Contents (Elt F)),
    unary main_v3 main_v4 (broadcastInDim S16384x16 ![0, 1] bcast_S1x16_S16384x16_0_1 : (⟨S1x16, .f32⟩ : BufTy).Contents (Elt F) → (⟨S16384x16, .f32⟩ : BufTy).Contents (Elt F)),
    binary main_v2 main_v4 main_v5 (addf : (⟨S16384x16, .f32⟩ : BufTy).Contents (Elt F) → (⟨S16384x16, .f32⟩ : BufTy).Contents (Elt F) → (⟨S16384x16, .f32⟩ : BufTy).Contents (Elt F)) ]

theorem ops_eq : (ops : List (HloOp τ sig (Elt F))) = seg1 ++ seg2 ++ seg3 ++ seg4 := rfl

/-! #### What each stretch computes, and what it passes through -/

attribute [local irreducible] Host.reduce Host.gather in
theorem s1_v5 (W : Valuation τ sig (Elt F)) :
    after seg1 W (main_call0_v5 : DevRef τ sig) = starts (F := F) (W (main_arg0 : DevRef τ sig)) := by
  simp only [after_cons, after_nil]
  rfl
theorem s1_arg0 (W : Valuation τ sig (Elt F)) : after seg1 W (main_arg0 : DevRef τ sig) = W (main_arg0 : DevRef τ sig) := rfl
theorem s1_arg1 (W : Valuation τ sig (Elt F)) : after seg1 W (main_arg1 : DevRef τ sig) = W (main_arg1 : DevRef τ sig) := rfl
theorem s1_arg2 (W : Valuation τ sig (Elt F)) : after seg1 W (main_arg2 : DevRef τ sig) = W (main_arg2 : DevRef τ sig) := rfl
theorem s1_arg3 (W : Valuation τ sig (Elt F)) : after seg1 W (main_arg3 : DevRef τ sig) = W (main_arg3 : DevRef τ sig) := rfl

attribute [local irreducible] Host.reduce Host.gather in
theorem s2_v12 (W : Valuation τ sig (Elt F)) :
    after seg2 W (main_call0_v12 : DevRef τ sig) = inRangeOf (F := F) (W (main_call0_v5 : DevRef τ sig)) := by
  simp only [after_cons, after_nil]
  rfl
theorem s2_v5 (W : Valuation τ sig (Elt F)) : after seg2 W (main_call0_v5 : DevRef τ sig) = W (main_call0_v5 : DevRef τ sig) := rfl
theorem s2_arg0 (W : Valuation τ sig (Elt F)) : after seg2 W (main_arg0 : DevRef τ sig) = W (main_arg0 : DevRef τ sig) := rfl
theorem s2_arg1 (W : Valuation τ sig (Elt F)) : after seg2 W (main_arg1 : DevRef τ sig) = W (main_arg1 : DevRef τ sig) := rfl
theorem s2_arg2 (W : Valuation τ sig (Elt F)) : after seg2 W (main_arg2 : DevRef τ sig) = W (main_arg2 : DevRef τ sig) := rfl
theorem s2_arg3 (W : Valuation τ sig (Elt F)) : after seg2 W (main_arg3 : DevRef τ sig) = W (main_arg3 : DevRef τ sig) := rfl

attribute [local irreducible] Host.reduce Host.gather in
theorem s3_v0 (W : Valuation τ sig (Elt F)) :
    after seg3 W (main_v0 : DevRef τ sig)
      = takenOf (F := F) (W (main_call0_v12 : DevRef τ sig)) (W (main_arg1 : DevRef τ sig)) (W (main_call0_v5 : DevRef τ sig)) := by
  simp only [after_cons, after_nil]
  rfl
theorem s3_arg0 (W : Valuation τ sig (Elt F)) : after seg3 W (main_arg0 : DevRef τ sig) = W (main_arg0 : DevRef τ sig) := rfl
theorem s3_arg1 (W : Valuation τ sig (Elt F)) : after seg3 W (main_arg1 : DevRef τ sig) = W (main_arg1 : DevRef τ sig) := rfl
theorem s3_arg2 (W : Valuation τ sig (Elt F)) : after seg3 W (main_arg2 : DevRef τ sig) = W (main_arg2 : DevRef τ sig) := rfl
theorem s3_arg3 (W : Valuation τ sig (Elt F)) : after seg3 W (main_arg3 : DevRef τ sig) = W (main_arg3 : DevRef τ sig) := rfl

attribute [local irreducible] Host.reduce Host.gather in
theorem s4_v5 (W : Valuation τ sig (Elt F)) :
    after seg4 W (main_v5 : DevRef τ sig) = outOf (F := F) (W (main_v0 : DevRef τ sig)) (W (main_arg2 : DevRef τ sig)) (W (main_arg3 : DevRef τ sig)) := by
  simp only [after_cons, after_nil]
  rfl
theorem s4_arg0 (W : Valuation τ sig (Elt F)) : after seg4 W (main_arg0 : DevRef τ sig) = W (main_arg0 : DevRef τ sig) := rfl
theorem s4_arg1 (W : Valuation τ sig (Elt F)) : after seg4 W (main_arg1 : DevRef τ sig) = W (main_arg1 : DevRef τ sig) := rfl
theorem s4_arg2 (W : Valuation τ sig (Elt F)) : after seg4 W (main_arg2 : DevRef τ sig) = W (main_arg2 : DevRef τ sig) := rfl
theorem s4_arg3 (W : Valuation τ sig (Elt F)) : after seg4 W (main_arg3 : DevRef τ sig) = W (main_arg3 : DevRef τ sig) := rfl

/-- The fold over the whole line at the result buffer is `out` of the arguments' contents. -/
theorem out_eq (V : Valuation τ sig (Elt F)) :
    after ops V (main_v5 : DevRef τ sig)
      = out (F := F) (V (main_arg0 : DevRef τ sig)) (V (main_arg1 : DevRef τ sig)) (V (main_arg2 : DevRef τ sig)) (V (main_arg3 : DevRef τ sig)) := by
  rw [ops_eq, after_append, after_append, after_append, s4_v5, s3_v0, s3_arg2, s3_arg3, s2_v12, s2_v5, s2_arg1, s2_arg2, s2_arg3,
    s1_v5, s1_arg1, s1_arg2, s1_arg3]
  rfl

theorem arg0_eq (V : Valuation τ sig (Elt F)) : after ops V (main_arg0 : DevRef τ sig) = V (main_arg0 : DevRef τ sig) := by
  rw [ops_eq, after_append, after_append, after_append, s4_arg0, s3_arg0, s2_arg0, s1_arg0]
theorem arg1_eq (V : Valuation τ sig (Elt F)) : after ops V (main_arg1 : DevRef τ sig) = V (main_arg1 : DevRef τ sig) := by
  rw [ops_eq, after_append, after_append, after_append, s4_arg1, s3_arg1, s2_arg1, s1_arg1]
theorem arg2_eq (V : Valuation τ sig (Elt F)) : after ops V (main_arg2 : DevRef τ sig) = V (main_arg2 : DevRef τ sig) := by
  rw [ops_eq, after_append, after_append, after_append, s4_arg2, s3_arg2, s2_arg2, s1_arg2]
theorem arg3_eq (V : Valuation τ sig (Elt F)) : after ops V (main_arg3 : DevRef τ sig) = V (main_arg3 : DevRef τ sig) := by
  rw [ops_eq, after_append, after_append, after_append, s4_arg3, s3_arg3, s2_arg3, s1_arg3]

/-- On every device, for any float values, from any memory with zero counters: every weakly fair execution of @main
    terminates with the result at `out` of the four arguments' launch contents and the arguments unchanged. -/
theorem run (m : (ℓ : Loc nD τ sig) → Buf (Elt F) ℓ) (g : Dev nD → PrngReg) :
    θ_run (defs (F := F)) (onTc (τ := τ) (main (F := F))) ⟨m, fun _ => 0, g⟩ fun r => ∀ c : Dev nD,
      r.2.mem ((c.tc : Thread nD τ).loc main_v5)
          = out (F := F) (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v5).trans (out_eq _), (h c main_arg0).trans (arg0_eq _),
      (h c main_arg1).trans (arg1_eq _), (h c main_arg2).trans (arg2_eq _), (h c main_arg3).trans (arg3_eq _)⟩)
    (run_seq scopedRefs_eq scopedSems_eq defs main (fun _ => ops) main_eq (fun _ => ops_sub) m g)

end Cert.ReferenceIdeal.RefValue

end
-- ==== Proof.RefValue.lean ====
import proofs.«211133_g82480551952782_cont_sun_m_220_25_alg».proof.Proof.RefRun
import Idealize.ShloMosaic.Lib.ValueIdx
import Idealize.ShloMosaic.Lib.ValueLayout
import Idealize.ShloMosaic.Lib.Pipeline.Value
import Idealize.ShloMosaic.Lib.Affine
import Idealize.ShloMosaic.PureOps.Reduce
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx

/-! ## Words -/

/-- A 32-bit word that reads, signed, in `0 … 999999` reads the same unsigned. -/
theorem toNat_of_range {x : BitVec 32} (h0 : 0 ≤ x.toInt) (h1 : x.toInt ≤ 999999) :
    x.toInt.toNat = x.toNat ∧ x.toNat ≤ 999999 := by
  have hc := BitVec.toInt_eq_toNat_cond x
  have hl := x.isLt
  split at hc <;> omega

/-- A left fold by `and` from 1 over one-bit words that are all 1 is 1. -/
theorem foldl_andi_of_all_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_of_all_one f l fun n hn => h n (List.mem_cons_of_mem _ hn)

section Stages

variable {F : FTy → Type} [FloatOps F]

/-! ## The index stages, for any float instance -/

/-- A nonnegative id is not wrapped. -/
theorem wrapped_apply (ids : (⟨S16384, .i32⟩ : BufTy).Contents (Elt F)) (j : S16384.Idx) (h0 : 0 ≤ (ids j).toInt) :
    wrapped (F := F) ids j = ids j := by
  have hc : ¬IntOp.cmpi .slt (ids j) 0#32 = 1#1 := fun h => by
    have := IntOp.cmpi_slt.1 h
    rw [show (0#32 : BitVec 32).toInt = 0 from by decide] at this
    omega
  exact if_neg hc

/-- The start index of row `i 0` is the wrapped id of that row. -/
theorem starts_apply (ids : (⟨S16384, .i32⟩ : BufTy).Contents (Elt F)) (i : S16384x1.Idx) :
    starts (F := F) ids i = wrapped (F := F) ids (ix1 (i 0 : Fin 16384)) :=
  broadcastInDim_apply _ _ _ i (ix1 (i 0 : Fin 16384)) fun a => match a with | ⟨0, _⟩ => rfl

/-- With every id in `0 … 999999` every row is in range. -/
theorem inRange_apply (ids : (⟨S16384, .i32⟩ : BufTy).Contents (Elt F))
    (hids : ∀ j : S16384.Idx, 0 ≤ (ids j).toInt ∧ (ids j).toInt ≤ 999999) (j : S16384.Idx) :
    inRange (F := F) ids j = 1#1 := by
  unfold inRange inRangeOf
  rw [Host.reduce_eq_foldl]
  refine foldl_andi_of_all_one _ _ fun i _ => ?_
  show IntOp.andi (IntOp.cmpi .sge (starts (F := F) ids i) 0#32) (IntOp.cmpi .sle (starts (F := F) ids i) 999999#32) = 1#1
  rw [starts_apply, wrapped_apply _ _ (hids _).1]
  refine IntOp.andi_eq_one.2 ⟨IntOp.cmpi_sge.2 ?_, IntOp.cmpi_sle.2 ?_⟩
  · rw [show (0#32 : BitVec 32).toInt = 0 from by decide]; exact (hids _).1
  · rw [show (999999#32 : BitVec 32).toInt = 999999 from by decide]; exact (hids _).2

/-! ## The gather of rows, read at an index -/

/-- The gather's dimension numbers (operand `[1000000, 64]`, start indices `[16384, 1]`, result `[16384, 64]`; offset
    axis 1, operand axis 0 collapsed and named by the start index). -/
abbrev G := gather_S1000000x64_S16384x1_S16384x64_1_0_n_n_0_1_164

/-- The gather reads, at `(r, d)`, the operand's column `d` of the row named by the start index of `r`, read signed and
    clamped into `0 … 999999`. -/
theorem gather_rows {α : Type} (x : S1000000x64.Idx → α) (idx : IVec S16384x1 32) (r : Fin 16384) (d : Fin 64) :
    Host.gather G x idx (ix2 r d)
      = x (ix2 (⟨min (idx (ix2 r (0 : Fin 1))).toInt.toNat 999999, by omega⟩ : Fin 1000000) d) := by
  unfold Host.gather
  refine congrArg x (funext fun a => Fin.ext ?_)
  match a with
  | ⟨0, _⟩ =>
    show G.start (ix2 r d) idx 0 + G.batchCoord (ix2 r d) 0 + G.offCoord (ix2 r d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ G.startIndexMap from List.mem_singleton.mpr rfl)]
    have hsi : G.siIdx (ix2 r d) ⟨List.idxOf (0 : Fin 2) G.startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show G.start (ix2 r d) idx 1 + G.batchCoord (ix2 r d) 1 + G.offCoord (ix2 r d) 1 = d.val
    rw [GatherDims.batchCoord_eq_zero _ _ _ List.not_mem_nil]
    unfold GatherDims.start
    rw [dif_neg (show ¬(1 : Fin 2) ∈ G.startIndexMap from by decide)]
    simp only [Nat.add_zero, Nat.zero_add]
    unfold GatherDims.offCoord
    rw [dif_pos (show (1 : Fin 2) ∈ G.sKept from by decide)]
    rfl

/-- With every id in `0 … 999999`, the taken row `r` is the table's row `ids r` itself: no wrap, no clamp, no fill. -/
theorem taken_apply (ids : (⟨S16384, .i32⟩ : BufTy).Contents (Elt F)) (table : (⟨S1000000x64, .f32⟩ : BufTy).Contents (Elt F))
    (hids : ∀ j : S16384.Idx, 0 ≤ (ids j).toInt ∧ (ids j).toInt ≤ 999999) (r : Fin 16384) (d : Fin 64) :
    taken (F := F) ids table (ix2 r d)
      = table (ix2 (⟨(ids (ix1 r)).toNat, Nat.lt_succ_of_le (toNat_of_range (hids (ix1 r)).1 (hids (ix1 r)).2).2⟩ : Fin 1000000) d) := by
  have hb : broadcastInDim S16384x64 ![0] bcast_S16384_S16384x64_0 (inRange (F := F) ids) (ix2 r d) = 1#1 :=
    (broadcastInDim_apply _ _ _ (ix2 r d) (ix1 r) fun a => match a with | ⟨0, _⟩ => rfl).trans (inRange_apply ids hids _)
  unfold taken takenOf
  rw [select_apply, hb, select_one, gather_rows]
  refine congrArg table (congrArg (fun q : Fin 1000000 => ix2 q d) (Fin.ext ?_))
  show min (starts (F := F) ids (ix2 r (0 : Fin 1))).toInt.toNat 999999 = (ids (ix1 r)).toNat
  rw [starts_apply]
  show min (wrapped (F := F) ids (ix1 r)).toInt.toNat 999999 = (ids (ix1 r)).toNat
  rw [wrapped_apply _ _ (hids _).1]
  have := toNat_of_range (hids (ix1 r)).1 (hids (ix1 r)).2
  omega

end Stages

/-! ## The result at an index, at the ideal values -/

abbrev D := dot_S16384x64_S64x16_S16384x16_1_0_0_1_n_n

theorem lhs_0 (i : S16384x16.Idx) (q : D.contr.Idx) : (D.lhsIdx i q 0).val = (i 0).val := by
  unfold DotDims.lhsIdx
  rw [dif_neg (show ¬(0 : Fin S16384x64.rank) ∈ D.lhsBatch by decide), dif_pos (show (0 : Fin S16384x64.rank) ∈ D.lhsNonContracting by decide)]
  rfl
theorem lhs_1 (i : S16384x16.Idx) (q : D.contr.Idx) : (D.lhsIdx i q 1).val = (q ⟨0, by decide⟩).val :=
  D.lhsIdx_val_of_single rfl i q
theorem rhs_0 (i : S16384x16.Idx) (q : D.contr.Idx) : (D.rhsIdx i q 0).val = (q ⟨0, by decide⟩).val :=
  D.rhsIdx_val_of_single rfl i q
theorem rhs_1 (i : S16384x16.Idx) (q : D.contr.Idx) : (D.rhsIdx i q 1).val = (i 1).val := by
  unfold DotDims.rhsIdx
  rw [dif_neg (show ¬(1 : Fin S64x16.rank) ∈ D.rhsBatch by decide), dif_pos (show (1 : Fin S64x16.rank) ∈ D.rhsNonContracting by decide)]
  rfl

/-- The product at `(r, o)` is the sum over the 64 columns of the left operand's row `r` times the right operand's
    column `o`. -/
theorem dot_apply (l : FVec Ideal S16384x64 .f32) (rr : FVec Ideal S64x16 .f32) (r : Fin 16384) (o : Fin 16) :
    Host.dotGeneral (F := Ideal) D none l rr (ix2 r o) = ∑ k : Fin 64, l (ix2 r k) * rr (ix2 k o) := by
  simp only [Host.dotGeneral]
  rw [Ideal.dotGeneral_apply, ← Equiv.sum_comp (contrEquiv1 D 64 rfl rfl).symm]
  refine Finset.sum_congr rfl fun k _ => ?_
  have hk := contrEquiv1_symm_val D 64 rfl rfl k
  have el : D.lhsIdx (ix2 r o) ((contrEquiv1 D 64 rfl rfl).symm k) = ix2 r k := funext fun a => Fin.ext (by
    match a with
    | ⟨0, _⟩ => exact lhs_0 _ _
    | ⟨1, _⟩ => exact (lhs_1 _ _).trans hk)
  have er : D.rhsIdx (ix2 r o) ((contrEquiv1 D 64 rfl rfl).symm k) = ix2 k o := funext fun a => Fin.ext (by
    match a with
    | ⟨0, _⟩ => exact (rhs_0 _ _).trans hk
    | ⟨1, _⟩ => exact rhs_1 _ _)
  rw [el, er]

/-- THE REFERENCE AT `(r, o)`, ids in range: the sum over the 64 columns of the table's row `ids r` times row `o` of the
    weights, plus the bias at `o`. -/
theorem out_apply (ids : (⟨S16384, .i32⟩ : BufTy).Contents (Elt Ideal)) (table : (⟨S1000000x64, .f32⟩ : BufTy).Contents (Elt Ideal))
    (W : (⟨S16x64, .f32⟩ : BufTy).Contents (Elt Ideal)) (b : (⟨S16, .f32⟩ : BufTy).Contents (Elt Ideal))
    (hids : ∀ j : S16384.Idx, 0 ≤ (ids j).toInt ∧ (ids j).toInt ≤ 999999) (r : Fin 16384) (o : Fin 16) :
    out (F := Ideal) ids table W b (ix2 r o)
      = (∑ d : Fin 64,
          table (ix2 (⟨(ids (ix1 r)).toNat, Nat.lt_succ_of_le (toNat_of_range (hids (ix1 r)).1 (hids (ix1 r)).2).2⟩ : Fin 1000000) d)
            * W (ix2 o d))
        + b (ix1 o) := by
  unfold out outOf
  rw [addf_apply, dot_apply]
  refine congrArg₂ (· + ·) (Finset.sum_congr rfl fun d _ => ?_) ?_
  · rw [taken_apply ids table hids, transpose_ix2_apply]
  · refine (broadcastInDim_apply _ _ _ (ix2 r o) (ix2 (0 : Fin 1) o) fun a => match a with | ⟨0, _⟩ => rfl | ⟨1, _⟩ => rfl).trans ?_
    exact broadcastInDim_apply _ _ _ (ix2 (0 : Fin 1) o) (ix1 o) fun a => match a with | ⟨0, _⟩ => rfl

end Cert.ReferenceIdeal.RefValue

end
-- ==== Proof.Setup.lean ====
/-
  The idealized kernel's program as the SparseCore launch theorem sees it, and the ghost state of its proof:
  the handshakes' rounds, the TensorCore pipeline's staging cells' rounds, and the transfers' counters.
-/
import proofs.«211133_g82480551952782_cont_sun_m_220_25_alg».proof.KernelIdeal
import proofs.«211133_g82480551952782_cont_sun_m_220_25_alg».proof.Proof.Gen.KernelIdeal
import proofs.«211133_g82480551952782_cont_sun_m_220_25_alg».proof.Proof.Gen.KernelIdeal.Skeleton
import proofs.«211133_g82480551952782_cont_sun_m_220_25_alg».proof.Proof.Gen.KernelIdeal.Launch
import proofs.«211133_g82480551952782_cont_sun_m_220_25_alg».proof.Proof.Gen.KernelIdeal.Points
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import Idealize.ShloMosaic.Lib.ValueIdx

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

/-- The handshakes' rounds: the left factor. -/
abbrev EH : Emb UH (MT nD τ sig (HIx 1) (Elt F) ℕ UU ℕ) := embL
/-- The pipeline's staging cells' rounds: the middle factor. -/
def EP : Emb UP (MT nD τ sig (HIx 1) (Elt F) ℕ UU ℕ) := (Emb.inl : Emb UP (UP × Counters)).trans embR

instance EP_landsIn : (EP : Emb UP (MT nD τ sig (HIx 1) (Elt F) ℕ UU ℕ)).LandsIn (upEmb : UEmb _ (MT nD τ sig (HIx 1) (Elt F) ℕ UU ℕ)) := by
  unfold EP; infer_instance

/-! ## The arrays -/

abbrev idsLoc (d : Dev nD) : Loc nD τ sig := (SparseCore.T d).loc main_arg0
abbrev tabLoc (d : Dev nD) : Loc nD τ sig := (SparseCore.T d).loc main_arg1
abbrev wLoc (d : Dev nD) : Loc nD τ sig := (SparseCore.T d).loc main_arg2
abbrev bLoc (d : Dev nD) : Loc nD τ sig := (SparseCore.T d).loc main_arg3
abbrev xtLoc (d : Dev nD) : Loc nD τ sig := (SparseCore.T d).loc main_v4
abbrev b128Loc (d : Dev nD) : Loc nD τ sig := (SparseCore.T d).loc main_v3
abbrev yLoc (d : Dev nD) : Loc nD τ sig := (SparseCore.T d).loc main_v5
abbrev oLoc (d : Dev nD) : Loc nD τ sig := (SparseCore.T d).loc main_v6
abbrev rLoc (d : Dev nD) : Loc nD τ sig := (SparseCore.T d).loc main_v7

/-! ## What the two kernels compute, as statements over any float instance -/

section Spec

variable [FloatOps F]

/-- What the projection leaves in `y` [126976, 128]: for each of the 31 grid points `t`, rows `4096 t ‥ 4096 t + 4095` are the
    body's value at the weights `Wt`, the tiled bias `B` and a [64, 32768] block that agrees with `X` (the transposed
    table, [64, 1000000]) at every column that lies inside `X` (the last block runs past the table: its other columns
    are not determined). -/
def Yspec (X : Vec F S64x1000000 .f32) (Wt : Vec F S16x64 .f32) (B : Vec F S1x128 .f32) (Y : Vec F S126976x128 .f32) : Prop :=
  ∀ t : Fin 31, ∃ blk : Vec F S64x32768 .f32,
    (∀ (dd : Fin 64) (c : Fin 32768) (h : 32768 * t.val + c.val < 1000000),
        blk (ValueIdx.ix2 dd c) = X (ValueIdx.ix2 dd ⟨32768 * t.val + c.val, h⟩))
    ∧ ∀ (r : Fin 4096) (col : Fin 128),
        Y (ValueIdx.ix2 ⟨4096 * t.val + r.val, by have := t.isLt; have := r.isLt; omega⟩ col) = k0_pay1 Wt blk B (ValueIdx.ix2 r col)

/-- The row of `y` a node id names: `((n >> 15) << 12) | (n & 4095)`, as the gather kernel computes it. -/
def gid (n : BitVec 32) : BitVec 32 := ((n.sshiftRight 15) <<< 12) ||| (n &&& 4095#32)
/-- The first of the sixteen lanes of that row that belong to the node: `((n >> 12) & 7) * 16`. -/
def sub (n : BitVec 32) : BitVec 32 := ((n.sshiftRight 12) &&& 7#32) * 16#32

/-- `y` read at natural-number coordinates (at its first entry outside its extents). -/
def Yat (Y : Vec F S126976x128 .f32) (g col : Nat) : Elt F .f32 :=
  if h : g < 126976 ∧ col < 128 then Y (ValueIdx.ix2 ⟨g, h.1⟩ ⟨col, h.2⟩) else Y (ValueIdx.ix2 ⟨0, by decide⟩ ⟨0, by decide⟩)

/-- What the gather kernel leaves in its result [16, 16384]: entry `(o, j)` is lane `sub (ids j) + o` of row `gid (ids j)` of `y`. -/
def OUTT (Y : Vec F S126976x128 .f32) (ids : IVec S16384 32) : Vec F S16x16384 .f32 :=
  fun i => Yat Y (gid (ids (ValueIdx.ix1 (i 1)))).toNat ((sub (ids (ValueIdx.ix1 (i 1)))).toNat + (i 0).val)

/-- Every node id names a row of the table. -/
def IdsOK (ids : IVec S16384 32) : Prop := ∀ j : S16384.Idx, 0 ≤ (ids j).toInt ∧ (ids j).toInt ≤ 999999

end Spec

end Cert.KernelIdeal.Hand

end
-- ==== Proof.BitFacts.lean ====
/-
  Bit arithmetic of 32-bit node ids: for a word `n` whose signed value lies in `[0, 999999]`, the row
  `((n >> 15) << 12) | (n & 4095)` is `4096 * (n / 32768) + n % 4096` and the lane offset `((n >> 12) & 7) * 16`
  is `16 * ((n / 4096) % 8)`, as natural numbers, with the bounds that keep them inside `y` [126976, 128].
-/
import proofs.«211133_g82480551952782_cont_sun_m_220_25_alg».proof.Proof.Setup

noncomputable section

namespace Cert.KernelIdeal.Hand

/-- A word with nonnegative signed value has its sign bit clear: its unsigned value is below `2 ^ 31`. -/
theorem toNat_lt_of_toInt_nonneg (n : BitVec 32) (h0 : 0 ≤ n.toInt) : n.toNat < 2 ^ 31 := by
  have h := BitVec.toInt_eq_toNat_cond n
  have hlt := n.isLt
  split at h <;> omega

/-- For a word with nonnegative signed value, the signed value is the unsigned one. -/
theorem toInt_eq_toNat_of_nonneg (n : BitVec 32) (h0 : 0 ≤ n.toInt) : n.toInt = (n.toNat : Int) := by
  have h := BitVec.toInt_eq_toNat_cond n
  have hlt := n.isLt
  split at h <;> omega

/-- The sign bit of a word with nonnegative signed value is clear. -/
theorem msb_false_of_toInt_nonneg (n : BitVec 32) (h0 : 0 ≤ n.toInt) : n.msb = false := by
  have h := toNat_lt_of_toInt_nonneg n h0
  rw [BitVec.msb_eq_decide]
  simp only [decide_eq_false_iff_not, not_le]
  omega

/-- The arithmetic right shift of a word with nonnegative signed value is the logical one: it divides the unsigned value. -/
theorem sshiftRight_toNat (n : BitVec 32) (h0 : 0 ≤ n.toInt) (k : Nat) : (n.sshiftRight k).toNat = n.toNat / 2 ^ k := by
  rw [BitVec.sshiftRight_eq_of_msb_false (msb_false_of_toInt_nonneg n h0), BitVec.toNat_ushiftRight, Nat.shiftRight_eq_div_pow]

section

variable (n : BitVec 32) (h0 : 0 ≤ n.toInt) (h1 : n.toInt ≤ 999999)
include h0 h1

/-- A node id's unsigned value is below the table's row count. -/
theorem toNat_lt : n.toNat < 1000000 := by
  have h := toInt_eq_toNat_of_nonneg n h0
  omega

/-- The row of `y` a node id names, as a natural number: `4096 * (n / 32768) + n % 4096`. -/
theorem gid_val : (gid n).toNat = (n.toNat / 32768) * 4096 + n.toNat % 4096 := by
  have hn := toNat_lt n h0 h1
  unfold gid
  rw [BitVec.toNat_or, BitVec.toNat_shiftLeft, BitVec.toNat_and, sshiftRight_toNat n h0]
  have hmask : (4095#32 : BitVec 32).toNat = 2 ^ 12 - 1 := by decide
  rw [hmask, Nat.and_two_pow_sub_one_eq_mod, Nat.shiftLeft_eq]
  have hq : n.toNat / 2 ^ 15 < 31 := by omega
  have hsmall : n.toNat / 2 ^ 15 * 2 ^ 12 < 2 ^ 32 := by omega
  rw [Nat.mod_eq_of_lt hsmall, ← Nat.shiftLeft_eq, ← Nat.shiftLeft_add_eq_or_of_lt (Nat.mod_lt _ (by decide)), Nat.shiftLeft_eq]
  norm_num

/-- That row lies inside `y`'s 126976 rows. -/
theorem gid_lt : (gid n).toNat < 126976 := by
  have hn := toNat_lt n h0 h1
  rw [gid_val n h0 h1]
  have hq : n.toNat / 32768 < 31 := by omega
  have hr : n.toNat % 4096 < 4096 := Nat.mod_lt _ (by decide)
  omega

/-- The first lane of a node id's sixteen, as a natural number: `16 * ((n / 4096) % 8)`. -/
theorem sub_val : (sub n).toNat = ((n.toNat / 4096) % 8) * 16 := by
  unfold sub
  rw [BitVec.toNat_mul, BitVec.toNat_and, sshiftRight_toNat n h0]
  have hmask : (7#32 : BitVec 32).toNat = 2 ^ 3 - 1 := by decide
  have h16 : (16#32 : BitVec 32).toNat = 16 := by decide
  rw [hmask, h16, Nat.and_two_pow_sub_one_eq_mod]
  have hr : n.toNat / 2 ^ 12 % 2 ^ 3 < 8 := Nat.mod_lt _ (by decide)
  have hsmall : n.toNat / 2 ^ 12 % 2 ^ 3 * 16 < 2 ^ 32 := by omega
  rw [Nat.mod_eq_of_lt hsmall]
  norm_num

/-- Each of the sixteen lanes lies inside `y`'s 128 lanes. -/
theorem sub_add_lt (o : Fin 16) : (sub n).toNat + o.val < 128 := by
  rw [sub_val n h0 h1]
  have hr : n.toNat / 4096 % 8 < 8 := Nat.mod_lt _ (by decide)
  have ho := o.isLt
  omega

end

end Cert.KernelIdeal.Hand

end
-- ==== Proof.Bridge.lean ====
/-
  From what the projection leaves in `y` to the closed formula of the kernel's result, at the ideal instance.
  A node id `n` (below 1000000) splits as `n = 32768 t + 4096 k + r` with `t < 31`, `k < 8`, `r < 4096`. The gather reads
  row `4096 t + r` and lane `16 k + o` of `y`; the projection's grid point `t` stored there the bias at `o` plus the
  product of row `o` of the weights with column `4096 k + r` of its block, which is column `n` of the transposed table.
-/
import proofs.«211133_g82480551952782_cont_sun_m_220_25_alg».proof.Proof.Setup
import proofs.«211133_g82480551952782_cont_sun_m_220_25_alg».proof.Proof.BitFacts
import Idealize.ShloMosaic.PureOps.Ideal
import Idealize.ShloMosaic.Lib.ValueIdx

noncomputable section

open scoped BigOperators

namespace Cert.KernelIdeal.Hand

open Cert.KernelIdeal Cert.KernelIdeal.Gen
open Idealize.ShloMosaic

/-- Two rank-2 indices with the same coordinates, as natural numbers, are equal. -/
theorem ix2_congr {n0 n1 : Nat} {a a' : Fin n0} {c c' : Fin n1} (ha : a.val = a'.val) (hc : c.val = c'.val) :
    ValueIdx.ix2 a c = ValueIdx.ix2 a' c' := by
  obtain rfl := Fin.ext ha
  obtain rfl := Fin.ext hc
  rfl

/-- The kernel's result in closed form: entry `(o, j)` of what the gather leaves is the bias at `o` plus the product of row
    `o` of the weights with row `ids j` of the table. -/
theorem bridge (X : Vec Ideal S64x1000000 .f32) (Wt : Vec Ideal S16x64 .f32) (B : Vec Ideal S1x128 .f32) (Y : Vec Ideal S126976x128 .f32)
    (ids : IVec S16384 32) (tab : Vec Ideal S1000000x64 .f32) (b : Vec Ideal S16 .f32)
    (hpay : ∀ (v0 : Vec Ideal S16x64 .f32) (v1 : Vec Ideal S64x32768 .f32) (v20 : Vec Ideal S1x128 .f32) (r : Fin 4096) (k : Fin 8) (o : Fin 16),
      Gen.k0_pay1 (F := Ideal) v0 v1 v20 (ValueIdx.ix2 r (⟨16 * k.val + o.val, by omega⟩ : Fin 128))
        = v20 (ValueIdx.ix2 (0 : Fin 1) (⟨16 * k.val + o.val, by omega⟩ : Fin 128))
          + ∑ d : Fin 64, v0 (ValueIdx.ix2 o d) * v1 (ValueIdx.ix2 d (⟨4096 * k.val + r.val, by omega⟩ : Fin 32768)))
    (hY : Yspec (F := Ideal) X Wt B Y)
    (hX : ∀ (dd : Fin 64) (n : Fin 1000000), X (ValueIdx.ix2 dd n) = tab (ValueIdx.ix2 n dd))
    (hB : ∀ (k : Fin 8) (o : Fin 16), B (ValueIdx.ix2 (0 : Fin 1) (⟨16 * k.val + o.val, by omega⟩ : Fin 128)) = b (ValueIdx.ix1 o))
    (hids : IdsOK ids) (o : Fin 16) (j : Fin 16384) :
    OUTT Y ids (ValueIdx.ix2 o j)
      = b (ValueIdx.ix1 o) + ∑ d : Fin 64, Wt (ValueIdx.ix2 o d)
          * tab (ValueIdx.ix2 (⟨(ids (ValueIdx.ix1 j)).toNat, toNat_lt _ (hids (ValueIdx.ix1 j)).1 (hids (ValueIdx.ix1 j)).2⟩ : Fin 1000000) d) := by
  obtain ⟨h0, h1⟩ := hids (ValueIdx.ix1 j)
  generalize hn : ids (ValueIdx.ix1 j) = n at h0 h1 ⊢
  have hlt : n.toNat < 1000000 := toNat_lt n h0 h1
  have hgl : (gid n).toNat < 126976 := gid_lt n h0 h1
  have hsl : (sub n).toNat + o.val < 128 := sub_add_lt n h0 h1 o
  have hg := gid_val n h0 h1
  have hs := sub_val n h0 h1
  -- the three digits of `n`
  have htn : n.toNat / 32768 < 31 := by omega
  have hkn : n.toNat / 4096 % 8 < 8 := Nat.mod_lt _ (by decide)
  have hrn : n.toNat % 4096 < 4096 := Nat.mod_lt _ (by decide)
  have hsplit : 32768 * (n.toNat / 32768) + (4096 * (n.toNat / 4096 % 8) + n.toNat % 4096) = n.toNat := by omega
  obtain ⟨blk, hblk, hYt⟩ := hY ⟨n.toNat / 32768, htn⟩
  -- the gather's read, inside `y`'s extents
  have hout : OUTT Y ids (ValueIdx.ix2 o j) = Y (ValueIdx.ix2 (⟨(gid n).toNat, hgl⟩ : Fin 126976) (⟨(sub n).toNat + o.val, hsl⟩ : Fin 128)) := by
    show Yat Y (gid (ids (ValueIdx.ix1 j))).toNat ((sub (ids (ValueIdx.ix1 j))).toNat + o.val) = _
    rw [hn]
    unfold Yat
    rw [dif_pos ⟨hgl, hsl⟩]
  rw [hout]
  calc Y (ValueIdx.ix2 (⟨(gid n).toNat, hgl⟩ : Fin 126976) (⟨(sub n).toNat + o.val, hsl⟩ : Fin 128))
      = Y (ValueIdx.ix2 (⟨4096 * (⟨n.toNat / 32768, htn⟩ : Fin 31).val + (⟨n.toNat % 4096, hrn⟩ : Fin 4096).val, by show 4096 * (n.toNat / 32768) + n.toNat % 4096 < 126976; omega⟩ : Fin 126976)
          (⟨16 * (⟨n.toNat / 4096 % 8, hkn⟩ : Fin 8).val + o.val, by show 16 * (n.toNat / 4096 % 8) + o.val < 128; omega⟩ : Fin 128)) :=
        congrArg Y (ix2_congr (by show (gid n).toNat = 4096 * (n.toNat / 32768) + n.toNat % 4096; omega)
          (by show (sub n).toNat + o.val = 16 * (n.toNat / 4096 % 8) + o.val; omega))
    _ = Gen.k0_pay1 (F := Ideal) Wt blk B (ValueIdx.ix2 (⟨n.toNat % 4096, hrn⟩ : Fin 4096)
          (⟨16 * (⟨n.toNat / 4096 % 8, hkn⟩ : Fin 8).val + o.val, by show 16 * (n.toNat / 4096 % 8) + o.val < 128; omega⟩ : Fin 128)) :=
        hYt ⟨n.toNat % 4096, hrn⟩ _
    _ = B (ValueIdx.ix2 (0 : Fin 1) (⟨16 * (⟨n.toNat / 4096 % 8, hkn⟩ : Fin 8).val + o.val, by show 16 * (n.toNat / 4096 % 8) + o.val < 128; omega⟩ : Fin 128))
          + ∑ d : Fin 64, Wt (ValueIdx.ix2 o d)
              * blk (ValueIdx.ix2 d (⟨4096 * (⟨n.toNat / 4096 % 8, hkn⟩ : Fin 8).val + (⟨n.toNat % 4096, hrn⟩ : Fin 4096).val,
                  by show 4096 * (n.toNat / 4096 % 8) + n.toNat % 4096 < 32768; omega⟩ : Fin 32768)) :=
        hpay Wt blk B ⟨n.toNat % 4096, hrn⟩ ⟨n.toNat / 4096 % 8, hkn⟩ o
    _ = b (ValueIdx.ix1 o) + ∑ d : Fin 64, Wt (ValueIdx.ix2 o d) * tab (ValueIdx.ix2 (⟨n.toNat, hlt⟩ : Fin 1000000) d) := by
        rw [hB ⟨n.toNat / 4096 % 8, hkn⟩ o]
        congr 1
        refine Finset.sum_congr rfl fun d _ => ?_
        congr 1
        have hc : 32768 * (⟨n.toNat / 32768, htn⟩ : Fin 31).val
            + (⟨4096 * (⟨n.toNat / 4096 % 8, hkn⟩ : Fin 8).val + (⟨n.toNat % 4096, hrn⟩ : Fin 4096).val,
                by show 4096 * (n.toNat / 4096 % 8) + n.toNat % 4096 < 32768; omega⟩ : Fin 32768).val < 1000000 := by
          show 32768 * (n.toNat / 32768) + (4096 * (n.toNat / 4096 % 8) + n.toNat % 4096) < 1000000
          omega
        rw [hblk d _ hc, hX d _]
        exact congrArg tab (ix2_congr (by show 32768 * (n.toNat / 32768) + (4096 * (n.toNat / 4096 % 8) + n.toNat % 4096) = n.toNat; omega) rfl)

/-- The closed form with each product and the final sum commuted: the order in which the reference writes them. -/
theorem final_eq (Wt : Vec Ideal S16x64 .f32) (tab : Vec Ideal S1000000x64 .f32) (b : Vec Ideal S16 .f32) (o : Fin 16) (n : Fin 1000000) :
    b (ValueIdx.ix1 o) + ∑ d : Fin 64, Wt (ValueIdx.ix2 o d) * tab (ValueIdx.ix2 n d)
      = (∑ d : Fin 64, tab (ValueIdx.ix2 n d) * Wt (ValueIdx.ix2 o d)) + b (ValueIdx.ix1 o) := by
  rw [add_comm]
  congr 1
  exact Finset.sum_congr rfl fun d _ => mul_comm _ _

end Cert.KernelIdeal.Hand

end
-- ==== Proof.ProjPay.lean ====
import proofs.«211133_g82480551952782_cont_sun_m_220_25_alg».proof.Proof.Gen.KernelIdeal.Skeleton
import Idealize.ShloMosaic.Lib.ValueLayout
import Idealize.ShloMosaic.Lib.ValueIdx
import Idealize.ShloMosaic.PureOps.Ideal.Laws
import Idealize.ShloMosaic.Lib.KernelVsHost

noncomputable section

open scoped BigOperators

namespace Cert.KernelIdeal.ProjPay

open Idealize.ShloMosaic Idealize.ShloMosaic.ValueIdx

/-! ## The first product: a [16,64] by [64,32768] matrix product into a zero accumulator -/

theorem lhs1_0 (i : S16x32768.Idx) (q : dot_S16x64_S64x32768_S16x32768_1_0_0_1_n_n.contr.Idx) :
    (dot_S16x64_S64x32768_S16x32768_1_0_0_1_n_n.lhsIdx i q 0).val = (i 0).val := by
  unfold DotDims.lhsIdx
  rw [dif_neg (show ¬(0 : Fin S16x64.rank) ∈ dot_S16x64_S64x32768_S16x32768_1_0_0_1_n_n.lhsBatch by decide),
    dif_pos (show (0 : Fin S16x64.rank) ∈ dot_S16x64_S64x32768_S16x32768_1_0_0_1_n_n.lhsNonContracting by decide)]
  rfl

theorem lhs1_1 (i : S16x32768.Idx) (q : dot_S16x64_S64x32768_S16x32768_1_0_0_1_n_n.contr.Idx) :
    (dot_S16x64_S64x32768_S16x32768_1_0_0_1_n_n.lhsIdx i q 1).val = (q ⟨0, by decide⟩).val :=
  dot_S16x64_S64x32768_S16x32768_1_0_0_1_n_n.lhsIdx_val_of_single rfl i q

theorem rhs1_0 (i : S16x32768.Idx) (q : dot_S16x64_S64x32768_S16x32768_1_0_0_1_n_n.contr.Idx) :
    (dot_S16x64_S64x32768_S16x32768_1_0_0_1_n_n.rhsIdx i q 0).val = (q ⟨0, by decide⟩).val :=
  dot_S16x64_S64x32768_S16x32768_1_0_0_1_n_n.rhsIdx_val_of_single rfl i q

theorem rhs1_1 (i : S16x32768.Idx) (q : dot_S16x64_S64x32768_S16x32768_1_0_0_1_n_n.contr.Idx) :
    (dot_S16x64_S64x32768_S16x32768_1_0_0_1_n_n.rhsIdx i q 1).val = (i 1).val := by
  unfold DotDims.rhsIdx
  rw [dif_neg (show ¬(1 : Fin S64x32768.rank) ∈ dot_S16x64_S64x32768_S16x32768_1_0_0_1_n_n.rhsBatch by decide),
    dif_pos (show (1 : Fin S64x32768.rank) ∈ dot_S16x64_S64x32768_S16x32768_1_0_0_1_n_n.rhsNonContracting by decide)]
  rfl

/-- The first product at an index: entry (o, c) is the sum over d of A(o,d) B(d,c). -/
theorem mm1_apply (A : FVec Ideal S16x64 .f32) (B : FVec Ideal S64x32768 .f32) (o : Fin 16) (c : Fin 32768) :
    matmul dot_S16x64_S64x32768_S16x32768_1_0_0_1_n_n none A B (constant (F := Ideal) S16x32768 .f32 0x00000000#32) (ix2 o c)
      = ∑ d : Fin 64, A (ix2 o d) * B (ix2 d c) := by
  simp only [matmul]
  rw [Ideal.matmul_constant_zero_apply,
    ← Equiv.sum_comp (contrEquiv1 dot_S16x64_S64x32768_S16x32768_1_0_0_1_n_n 64 rfl rfl).symm]
  refine Finset.sum_congr rfl fun k _ => ?_
  have hk := contrEquiv1_symm_val dot_S16x64_S64x32768_S16x32768_1_0_0_1_n_n 64 rfl rfl k
  have el : dot_S16x64_S64x32768_S16x32768_1_0_0_1_n_n.lhsIdx (ix2 o c)
      ((contrEquiv1 dot_S16x64_S64x32768_S16x32768_1_0_0_1_n_n 64 rfl rfl).symm k) = ix2 o k :=
    funext fun a => Fin.ext (by
      match a with
      | ⟨0, _⟩ => exact lhs1_0 _ _
      | ⟨1, _⟩ => exact (lhs1_1 _ _).trans hk)
  have er : dot_S16x64_S64x32768_S16x32768_1_0_0_1_n_n.rhsIdx (ix2 o c)
      ((contrEquiv1 dot_S16x64_S64x32768_S16x32768_1_0_0_1_n_n 64 rfl rfl).symm k) = ix2 k c :=
    funext fun a => Fin.ext (by
      match a with
      | ⟨0, _⟩ => exact (rhs1_0 _ _).trans hk
      | ⟨1, _⟩ => exact rhs1_1 _ _)
  rw [el, er]

/-! ## The second product: axis 0 of a [128,4096] matrix contracted with axis 0 of a [128,128] matrix -/

theorem lhs2_0 (i : S4096x128.Idx) (q : dot_S128x4096_S128x128_S4096x128_0_0_1_1_n_n.contr.Idx) :
    (dot_S128x4096_S128x128_S4096x128_0_0_1_1_n_n.lhsIdx i q 0).val = (q ⟨0, by decide⟩).val :=
  dot_S128x4096_S128x128_S4096x128_0_0_1_1_n_n.lhsIdx_val_of_single rfl i q

theorem lhs2_1 (i : S4096x128.Idx) (q : dot_S128x4096_S128x128_S4096x128_0_0_1_1_n_n.contr.Idx) :
    (dot_S128x4096_S128x128_S4096x128_0_0_1_1_n_n.lhsIdx i q 1).val = (i 0).val := by
  unfold DotDims.lhsIdx
  rw [dif_neg (show ¬(1 : Fin S128x4096.rank) ∈ dot_S128x4096_S128x128_S4096x128_0_0_1_1_n_n.lhsBatch by decide),
    dif_pos (show (1 : Fin S128x4096.rank) ∈ dot_S128x4096_S128x128_S4096x128_0_0_1_1_n_n.lhsNonContracting by decide)]
  rfl

theorem rhs2_0 (i : S4096x128.Idx) (q : dot_S128x4096_S128x128_S4096x128_0_0_1_1_n_n.contr.Idx) :
    (dot_S128x4096_S128x128_S4096x128_0_0_1_1_n_n.rhsIdx i q 0).val = (q ⟨0, by decide⟩).val :=
  dot_S128x4096_S128x128_S4096x128_0_0_1_1_n_n.rhsIdx_val_of_single rfl i q

theorem rhs2_1 (i : S4096x128.Idx) (q : dot_S128x4096_S128x128_S4096x128_0_0_1_1_n_n.contr.Idx) :
    (dot_S128x4096_S128x128_S4096x128_0_0_1_1_n_n.rhsIdx i q 1).val = (i 1).val := by
  unfold DotDims.rhsIdx
  rw [dif_neg (show ¬(1 : Fin S128x128.rank) ∈ dot_S128x4096_S128x128_S4096x128_0_0_1_1_n_n.rhsBatch by decide),
    dif_pos (show (1 : Fin S128x128.rank) ∈ dot_S128x4096_S128x128_S4096x128_0_0_1_1_n_n.rhsNonContracting by decide)]
  rfl

/-- The second product at an index: entry (r, col) is the sum over c of L(c,r) M(c,col). -/
theorem mm2_apply (L : FVec Ideal S128x4096 .bf16) (M : FVec Ideal S128x128 .bf16) (r : Fin 4096) (col : Fin 128) :
    matmul dot_S128x4096_S128x128_S4096x128_0_0_1_1_n_n none L M (constant (F := Ideal) S4096x128 .f32 0x00000000#32) (ix2 r col)
      = ∑ c : Fin 128, L (ix2 c r) * M (ix2 c col) := by
  simp only [matmul]
  rw [Ideal.matmul_constant_zero_apply,
    ← Equiv.sum_comp (contrEquiv1 dot_S128x4096_S128x128_S4096x128_0_0_1_1_n_n 128 rfl rfl).symm]
  refine Finset.sum_congr rfl fun k _ => ?_
  have hk := contrEquiv1_symm_val dot_S128x4096_S128x128_S4096x128_0_0_1_1_n_n 128 rfl rfl k
  have el : dot_S128x4096_S128x128_S4096x128_0_0_1_1_n_n.lhsIdx (ix2 r col)
      ((contrEquiv1 dot_S128x4096_S128x128_S4096x128_0_0_1_1_n_n 128 rfl rfl).symm k) = ix2 k r :=
    funext fun a => Fin.ext (by
      match a with
      | ⟨0, _⟩ => exact (lhs2_0 _ _).trans hk
      | ⟨1, _⟩ => exact lhs2_1 _ _)
  have er : dot_S128x4096_S128x128_S4096x128_0_0_1_1_n_n.rhsIdx (ix2 r col)
      ((contrEquiv1 dot_S128x4096_S128x128_S4096x128_0_0_1_1_n_n 128 rfl rfl).symm k) = ix2 k col :=
    funext fun a => Fin.ext (by
      match a with
      | ⟨0, _⟩ => exact (rhs2_0 _ _).trans hk
      | ⟨1, _⟩ => exact rhs2_1 _ _)
  rw [el, er]

/-- A sum against a Kronecker delta keeps one term; on the extended reals x * 0 = 0 and x * 1 = x hold
    for every x, the infinities included, so nothing is asked of the entries. -/
theorem sum_mul_delta (f : Fin 128 → EReal) (col : Fin 128) :
    ∑ c : Fin 128, f c * (if c = col then (1 : EReal) else 0) = f col := by
  rw [Finset.sum_eq_single col]
  · rw [if_pos rfl, mul_one]
  · intro b _ hb; rw [if_neg hb, mul_zero]
  · intro h; exact absurd (Finset.mem_univ _) h

/-! ## The identity matrix: the comparison of the row number with the column number, as a float -/

theorem eye_apply (h0 : S128x128.Iotas .tc 32 [0]) (h1 : S128x128.Iotas .tc 32 [1]) (hlt : 1 < 32)
    (hb : FTy.bits .bf16 < FTy.bits .f32) (c col : Fin 128) :
    (truncf (F := Ideal) .bf16
        (sitofp .f32 (extui 32 (cmpi .eq (iota .tc S128x128 32 [0] h0) (iota .tc S128x128 32 [1] h1)) hlt)) hb) (ix2 c col)
      = if c = col then (1 : EReal) else 0 := by
  rw [truncf_apply, sitofp_apply, extui_apply]
  show ((((IntOp.cmpi .eq (iota .tc S128x128 32 [0] h0 (ix2 c col)) (iota .tc S128x128 32 [1] h1 (ix2 c col))).setWidth 32).toInt : ℝ) : EReal) = _
  rw [iota_single_apply, iota_single_apply, toInt_setWidth_bit]
  show ((((BitVec.ofBool (BitVec.ofNat 32 c.val == BitVec.ofNat 32 col.val)).toNat : ℤ) : ℝ) : EReal) = _
  by_cases h : c = col
  · subst h
    rw [if_pos rfl, beq_self_eq_true]
    simp
  · have hne : (BitVec.ofNat 32 c.val == BitVec.ofNat 32 col.val) = false := by
      rw [beq_eq_false_iff_ne]
      intro e
      have := congrArg BitVec.toNat e
      simp only [BitVec.toNat_ofNat] at this
      have hc := c.isLt; have hcol := col.isLt
      exact h (Fin.ext (by omega))
    rw [if_neg h, hne]
    simp

/-! ## The slices stacked along axis 0, and the row broadcast, at an index -/

/-- One piece of the stack: if piece `n` of a concatenation along axis 0 into [128,4096] is the [16,4096] slice of `y`
    that starts at column `4096 n`, and the pieces before it have 16 rows each, then row `16 n + o` of the
    concatenation at column `r` is `y` at row `o`, column `4096 n + r`. -/
theorem cat_piece {α : Type} (xs : List ((s : Shape) × (s.Idx → α)))
    (hc : Shape.Concatenates (xs.map (·.1)) S128x4096 0) (n : Nat) (hn : n < xs.length)
    (off : Fin S16x32768.rank → Nat) (y : S16x32768.Idx → α) (hs : S16x32768.Slices off S16x4096)
    (hx : xs[n] = ⟨S16x4096, extractStridedSlice S16x4096 off y hs⟩)
    (hpre : (((xs.take n).map (·.1)).map fun s => if h : s.rank = S128x4096.rank then s.size ((0 : Fin S128x4096.rank).cast h.symm) else 0).sum = 16 * n)
    (hoff0 : off 0 = 0) (hoff1 : off 1 = 4096 * n)
    (o : Fin 16) (r : Fin 4096) (row : Fin 128) (hrow : row.val = 16 * n + o.val)
    (c : Fin 32768) (hcol : c.val = 4096 * n + r.val) :
    concatenate S128x4096 0 xs hc (ix2 row r) = y (ix2 o c) := by
  refine (concatenate_apply_piece (0 : Fin S128x4096.rank) xs hc (ix2 row r) n hn S16x4096 _ hx rfl (16 * n) hpre
    (ix2 o r) ?_ ?_).trans ?_
  · intro b hb
    match b with
    | ⟨0, _⟩ => exact absurd rfl hb
    | ⟨1, _⟩ => rfl
  · show 16 * n + o.val = row.val
    omega
  · refine extractStridedSlice_apply off y hs (ix2 o r) (ix2 o c) fun a => ?_
    match a with
    | ⟨0, _⟩ => show o.val = off 0 + o.val; rw [hoff0]; omega
    | ⟨1, _⟩ => show c.val = off 1 + r.val; rw [hoff1]; omega

/-- The eight column slices of a [16,32768] matrix stacked along axis 0: row `16 k + o` of the stack at column `r` is
    the matrix at row `o`, column `4096 k + r`. -/
theorem cat_apply {α : Type} (y : S16x32768.Idx → α)
    (h0 : S16x32768.Slices ![0, 0] S16x4096) (h1 : S16x32768.Slices ![0, 4096] S16x4096)
    (h2 : S16x32768.Slices ![0, 8192] S16x4096) (h3 : S16x32768.Slices ![0, 12288] S16x4096)
    (h4 : S16x32768.Slices ![0, 16384] S16x4096) (h5 : S16x32768.Slices ![0, 20480] S16x4096)
    (h6 : S16x32768.Slices ![0, 24576] S16x4096) (h7 : S16x32768.Slices ![0, 28672] S16x4096)
    (hc : Shape.Concatenates [S16x4096, S16x4096, S16x4096, S16x4096, S16x4096, S16x4096, S16x4096, S16x4096] S128x4096 0)
    (k : Fin 8) (o : Fin 16) (r : Fin 4096) :
    concatenate S128x4096 0
        [⟨S16x4096, extractStridedSlice S16x4096 ![0, 0] y h0⟩, ⟨S16x4096, extractStridedSlice S16x4096 ![0, 4096] y h1⟩,
         ⟨S16x4096, extractStridedSlice S16x4096 ![0, 8192] y h2⟩, ⟨S16x4096, extractStridedSlice S16x4096 ![0, 12288] y h3⟩,
         ⟨S16x4096, extractStridedSlice S16x4096 ![0, 16384] y h4⟩, ⟨S16x4096, extractStridedSlice S16x4096 ![0, 20480] y h5⟩,
         ⟨S16x4096, extractStridedSlice S16x4096 ![0, 24576] y h6⟩, ⟨S16x4096, extractStridedSlice S16x4096 ![0, 28672] y h7⟩]
        hc (ix2 (⟨16 * k.val + o.val, by omega⟩ : Fin 128) r)
      = y (ix2 o (⟨4096 * k.val + r.val, by omega⟩ : Fin 32768)) := by
  match k with
  | ⟨0, _⟩ =>
    exact cat_piece _ (by exact hc) 0 (by show (0 : Nat) < 8; omega) _ y h0 (by rfl) (by rfl) (by rfl) (by rfl) o r _ (by rfl) _ (by rfl)
  | ⟨1, _⟩ =>
    exact cat_piece _ (by exact hc) 1 (by show (1 : Nat) < 8; omega) _ y h1 (by rfl) (by rfl) (by rfl) (by rfl) o r _ (by rfl) _ (by rfl)
  | ⟨2, _⟩ =>
    exact cat_piece _ (by exact hc) 2 (by show (2 : Nat) < 8; omega) _ y h2 (by rfl) (by rfl) (by rfl) (by rfl) o r _ (by rfl) _ (by rfl)
  | ⟨3, _⟩ =>
    exact cat_piece _ (by exact hc) 3 (by show (3 : Nat) < 8; omega) _ y h3 (by rfl) (by rfl) (by rfl) (by rfl) o r _ (by rfl) _ (by rfl)
  | ⟨4, _⟩ =>
    exact cat_piece _ (by exact hc) 4 (by show (4 : Nat) < 8; omega) _ y h4 (by rfl) (by rfl) (by rfl) (by rfl) o r _ (by rfl) _ (by rfl)
  | ⟨5, _⟩ =>
    exact cat_piece _ (by exact hc) 5 (by show (5 : Nat) < 8; omega) _ y h5 (by rfl) (by rfl) (by rfl) (by rfl) o r _ (by rfl) _ (by rfl)
  | ⟨6, _⟩ =>
    exact cat_piece _ (by exact hc) 6 (by show (6 : Nat) < 8; omega) _ y h6 (by rfl) (by rfl) (by rfl) (by rfl) o r _ (by rfl) _ (by rfl)
  | ⟨7, _⟩ =>
    exact cat_piece _ (by exact hc) 7 (by show (7 : Nat) < 8; omega) _ y h7 (by rfl) (by rfl) (by rfl) (by rfl) o r _ (by rfl) _ (by rfl)

/-- The one-row matrix broadcast down 4096 rows reads its entry of the same column. -/
theorem bcast_apply {α : Type} (b : S1x128.Idx → α) (h : S1x128.Broadcasts S4096x128) (r : Fin 4096) (col : Fin 128) :
    broadcastTo S4096x128 b h (ix2 r col) = b (ix2 (0 : Fin 1) col) := by
  refine broadcastTo_apply b h (ix2 r col) (ix2 (0 : Fin 1) col) fun a => ?_
  match a with
  | ⟨0, _⟩ => rfl
  | ⟨1, _⟩ => rfl

/-! ## The payload at an index -/

/-- The stored value at row `r`, column `16 k + o`: the bias of that column plus the (o, 4096 k + r) entry of the
    [16,64] by [64,32768] product. The second product is against the identity matrix, so its sum over the 128 rows of
    the stack keeps the one row `16 k + o`; no entry is asked to be finite. -/
theorem pay_apply (v0 : Vec Ideal S16x64 .f32) (v1 : Vec Ideal S64x32768 .f32) (v20 : Vec Ideal S1x128 .f32)
    (r : Fin 4096) (k : Fin 8) (o : Fin 16) :
    Gen.k0_pay1 (F := Ideal) v0 v1 v20 (ix2 r (⟨16 * k.val + o.val, by omega⟩ : Fin 128))
      = v20 (ix2 (0 : Fin 1) (⟨16 * k.val + o.val, by omega⟩ : Fin 128))
        + ∑ d : Fin 64, v0 (ix2 o d) * v1 (ix2 d (⟨4096 * k.val + r.val, by omega⟩ : Fin 32768)) := by
  unfold Gen.k0_pay1
  beta_reduce
  rw [addf_apply, bcast_apply, shapeCast_self, mm2_apply]
  refine congrArg (v20 _ + ·) ?_
  refine (Finset.sum_congr rfl fun c _ => by rw [eye_apply]).trans ?_
  refine (sum_mul_delta _ _).trans ?_
  rw [cat_apply, truncf_apply, mm1_apply, shapeCast_self]

/-- The same at any column `col` of the 128: with `k = col / 16` and `o = col % 16`. -/
theorem pay_apply_col (v0 : Vec Ideal S16x64 .f32) (v1 : Vec Ideal S64x32768 .f32) (v20 : Vec Ideal S1x128 .f32)
    (r : Fin 4096) (col : Fin 128) :
    Gen.k0_pay1 (F := Ideal) v0 v1 v20 (ix2 r col)
      = v20 (ix2 (0 : Fin 1) col)
        + ∑ d : Fin 64, v0 (ix2 (⟨col.val % 16, by omega⟩ : Fin 16) d)
            * v1 (ix2 d (⟨4096 * (col.val / 16) + r.val, by omega⟩ : Fin 32768)) := by
  have h := pay_apply v0 v1 v20 r (⟨col.val / 16, by omega⟩ : Fin 8) (⟨col.val % 16, by omega⟩ : Fin 16)
  have e : (⟨16 * (col.val / 16) + col.val % 16, by omega⟩ : Fin 128) = col := Fin.ext (by show 16 * (col.val / 16) + col.val % 16 = col.val; omega)
  rw [e] at h
  exact h

end Cert.KernelIdeal.ProjPay
-- ==== Proof.Final.lean ====
/-
  The kernel's result and the reference's are one array, at the ideal instance: entry `(j, o)` of either is the bias at `o`
  plus the product of row `ids j` of the table with row `o` of the weights.
-/
import proofs.«211133_g82480551952782_cont_sun_m_220_25_alg».proof.Proof.Bridge
import proofs.«211133_g82480551952782_cont_sun_m_220_25_alg».proof.Proof.ProjPay
import proofs.«211133_g82480551952782_cont_sun_m_220_25_alg».proof.Proof.RefValue

noncomputable section

open scoped BigOperators

namespace Cert.Proof.Final

open Idealize.ShloMosaic Cert.KernelIdeal

/-- What the two kernels leave, transposed, is the reference's value: `f` is entry by entry the gather's read of some `y` the
    projection may have left from the transposed table `X` and the tiled bias `B`; `res` is `f` transposed. -/
theorem final_value (ids : IVec S16384 32) (tab : Vec Ideal S1000000x64 .f32) (W : Vec Ideal S16x64 .f32) (b : Vec Ideal S16 .f32)
    (X : Vec Ideal S64x1000000 .f32) (B : Vec Ideal S1x128 .f32)
    (hX : ∀ (dd : Fin 64) (n : Fin 1000000), X (ValueIdx.ix2 dd n) = tab (ValueIdx.ix2 n dd))
    (hB : ∀ (k : Fin 8) (o : Fin 16), B (ValueIdx.ix2 (0 : Fin 1) (⟨16 * k.val + o.val, by omega⟩ : Fin 128)) = b (ValueIdx.ix1 o))
    (hids : Cert.KernelIdeal.Hand.IdsOK ids)
    (f : Vec Ideal S16x16384 .f32)
    (hf : ∀ i : S16x16384.Idx, ∃ Y : Vec Ideal S126976x128 .f32,
      Cert.KernelIdeal.Hand.Yspec (F := Ideal) X W B Y ∧ f i = Cert.KernelIdeal.Hand.OUTT Y ids i)
    (res : Vec Ideal S16384x16 .f32) (hres : ∀ (j : Fin 16384) (o : Fin 16), res (ValueIdx.ix2 j o) = f (ValueIdx.ix2 o j)) :
    res = Cert.ReferenceIdeal.RefValue.out (F := Ideal) ids tab W b := by
  funext i
  obtain ⟨j, o, rfl⟩ : ∃ (j : Fin 16384) (o : Fin 16), i = ValueIdx.ix2 j o := ⟨i 0, i 1, ValueIdx.eq_ix2 i⟩
  rw [hres]
  obtain ⟨Y, hY, e⟩ := hf (ValueIdx.ix2 o j)
  rw [e, Cert.KernelIdeal.Hand.bridge X W B Y ids tab b
      (fun v0 v1 v20 r k o => Cert.KernelIdeal.ProjPay.pay_apply v0 v1 v20 r k o) hY hX hB hids o j,
    Cert.KernelIdeal.Hand.final_eq]
  exact (Cert.ReferenceIdeal.RefValue.out_apply ids tab W b hids j o).symm

end Cert.Proof.Final

end
-- ==== Proof.Region.lean ====
/-
  The projection's region inside the program: the step of @main that runs the pipelined TensorCore kernel, as one
  weakest-precondition lemma over the program's extended body table, and the piece of the launch element that funds it.

  The kernel's grid has 31 points. At point t the pipeline stages columns 32768 t onward of the transposed table
  [64, 1000000] (the last block runs past the table: the fetch overwrites the staging buffer with contents nothing
  names, then lands the columns inside the table), the weights [16, 64] and the tiled bias [1, 128] (both staged once,
  at the first point); the body loads the three staging buffers whole, computes the projection, and stores it whole
  into the result's staging buffer [4096, 128], which the pipeline writes back to rows 4096 t onward of the result
  [126976, 128]. What the result ends holding is stated relationally: each block of rows is the projection of the
  weights, the bias and SOME block that agrees with the table's on every column inside the table.
-/
import proofs.«211133_g82480551952782_cont_sun_m_220_25_alg».proof.Proof.Setup
import Idealize.ShloMosaic.Lib.Pipeline.Regions
import Idealize.ShloMosaic.Lib.Pipeline.Value

noncomputable section

namespace Cert.KernelIdeal.Hand

open Cert.KernelIdeal Cert.KernelIdeal.Gen

open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F]

local notation "𝕄" => MT nD τ sig (HIx 1) (Elt F) ℕ UU ℕ

theorem hz : (![0, 0] : Fin 2 → Nat) = fun _ => 0 := funext fun a => by fin_cases a <;> rfl

/-- The kernel's body on whichever staging buffers the point uses: three whole loads (the weights, the table's block,
    the bias), a dead whole load of the result's buffer, the projection, one whole store — the result's buffer ends
    holding the projection of what the other three hold, those unchanged. -/
theorem sound_body (c : Dev nD) (E : Set ℕ) (i : grid0.Coords) (s0 : Fin 2) (s1 : Fin 1) (s2 : Fin 1) (s3 : Fin 2)
    (X0 : S64x32768.Idx → Elt F .f32) (X1 : S16x64.Idx → Elt F .f32) (X2 : S1x128.Idx → Elt F .f32) (X3 : S4096x128.Idx → Elt F .f32)
    (Kp : PUnit → sProp 𝕄) :
    iprop((owns (c : Thread nD τ) (stage0_0 s0) fullShare X0 ∗ owns (c : Thread nD τ) (stage0_1 s1) fullShare X1
            ∗ owns (c : Thread nD τ) (stage0_2 s2) fullShare X2 ∗ owns (c : Thread nD τ) (stage0_3 s3) fullShare X3)
          ∗ (iprop(owns (c : Thread nD τ) (stage0_0 s0) fullShare X0 ∗ owns (c : Thread nD τ) (stage0_1 s1) fullShare X1
                  ∗ owns (c : Thread nD τ) (stage0_2 s2) fullShare X2
                  ∗ owns (c : Thread nD τ) (stage0_3 s3) fullShare (k0_pay1 X1 X0 X2)) -∗ Kp ⟨⟩))
      ⊢ wp frame (wpE (defs₀ (F := F)) 𝒱₀ c none) E
          (cc0__proj_body i (stage0_0 s0) (hstage0_0 s0) (stage0_1 s1) (hstage0_1 s1) (stage0_2 s2) (hstage0_2 s2) (stage0_3 s3) (hstage0_3 s3)) Kp := by
  fin_cases s0 <;> fin_cases s1 <;> fin_cases s2 <;> fin_cases s3
  · have hr0 : (Memref.whole cc0_stg0_0 : Memref sig .tc _ _ _).view.readAt (Elt F) (Rect.unit (s := S64x32768) ![0, 0] S64x32768.size
        inb_S64x32768_S64x32768_0_0).toLoadRect = id := funext (Memref.readAt_unit_zero (Elt F) cc0_stg0_0 hz _)
    have hr1 : (Memref.whole cc0_stg1_0 : Memref sig .tc _ _ _).view.readAt (Elt F) (Rect.unit (s := S16x64) ![0, 0] S16x64.size
        inb_S16x64_S16x64_0_0).toLoadRect = id := funext (Memref.readAt_unit_zero (Elt F) cc0_stg1_0 hz _)
    have hr2 : (Memref.whole cc0_stg2_0 : Memref sig .tc _ _ _).view.readAt (Elt F) (Rect.unit (s := S1x128) ![0, 0] S1x128.size
        inb_S1x128_S1x128_0_0).toLoadRect = id := funext (Memref.readAt_unit_zero (Elt F) cc0_stg2_0 hz _)
    have hw3 : ∀ f w, (((Memref.whole cc0_stg3_0).access (Rect.unit (s := S4096x128) ![0, 0] S4096x128.size inb_S4096x128_S4096x128_0_0)) :
        View sig .tc _ _ _).write (Elt F) f w Finset.univ = w := Memref.write_access_unit_zero_univ (Elt F) cc0_stg3_0 hz _
    simp only [owns_whole_eq, cc0__proj_body_eq_skeleton]; unfold cc0__proj_body_skel
    simp only [Prog.lift, Prog.bind_op, Prog.bind_ret]
    iintro ⟨⟨⟨%f0, %hf0, H0⟩, ⟨%f1, %hf1, H1⟩, ⟨%f2, %hf2, H2⟩, ⟨%f3, %hf3, H3⟩⟩, Hk⟩
    sl_steps
    iapply Hk
    rw [hr0, hr1, hr2, hw3]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    · iexists k0_pay1 f1 f0 f2; isplitr; · ipureintro; rw [hf0, hf1, hf2]
      iexact H3
  · have hr0 : (Memref.whole cc0_stg0_0 : Memref sig .tc _ _ _).view.readAt (Elt F) (Rect.unit (s := S64x32768) ![0, 0] S64x32768.size
        inb_S64x32768_S64x32768_0_0).toLoadRect = id := funext (Memref.readAt_unit_zero (Elt F) cc0_stg0_0 hz _)
    have hr1 : (Memref.whole cc0_stg1_0 : Memref sig .tc _ _ _).view.readAt (Elt F) (Rect.unit (s := S16x64) ![0, 0] S16x64.size
        inb_S16x64_S16x64_0_0).toLoadRect = id := funext (Memref.readAt_unit_zero (Elt F) cc0_stg1_0 hz _)
    have hr2 : (Memref.whole cc0_stg2_0 : Memref sig .tc _ _ _).view.readAt (Elt F) (Rect.unit (s := S1x128) ![0, 0] S1x128.size
        inb_S1x128_S1x128_0_0).toLoadRect = id := funext (Memref.readAt_unit_zero (Elt F) cc0_stg2_0 hz _)
    have hw3 : ∀ f w, (((Memref.whole cc0_stg3_1).access (Rect.unit (s := S4096x128) ![0, 0] S4096x128.size inb_S4096x128_S4096x128_0_0)) :
        View sig .tc _ _ _).write (Elt F) f w Finset.univ = w := Memref.write_access_unit_zero_univ (Elt F) cc0_stg3_1 hz _
    simp only [owns_whole_eq, cc0__proj_body_eq_skeleton]; unfold cc0__proj_body_skel
    simp only [Prog.lift, Prog.bind_op, Prog.bind_ret]
    iintro ⟨⟨⟨%f0, %hf0, H0⟩, ⟨%f1, %hf1, H1⟩, ⟨%f2, %hf2, H2⟩, ⟨%f3, %hf3, H3⟩⟩, Hk⟩
    sl_steps
    iapply Hk
    rw [hr0, hr1, hr2, hw3]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    · iexists k0_pay1 f1 f0 f2; isplitr; · ipureintro; rw [hf0, hf1, hf2]
      iexact H3
  · have hr0 : (Memref.whole cc0_stg0_1 : Memref sig .tc _ _ _).view.readAt (Elt F) (Rect.unit (s := S64x32768) ![0, 0] S64x32768.size
        inb_S64x32768_S64x32768_0_0).toLoadRect = id := funext (Memref.readAt_unit_zero (Elt F) cc0_stg0_1 hz _)
    have hr1 : (Memref.whole cc0_stg1_0 : Memref sig .tc _ _ _).view.readAt (Elt F) (Rect.unit (s := S16x64) ![0, 0] S16x64.size
        inb_S16x64_S16x64_0_0).toLoadRect = id := funext (Memref.readAt_unit_zero (Elt F) cc0_stg1_0 hz _)
    have hr2 : (Memref.whole cc0_stg2_0 : Memref sig .tc _ _ _).view.readAt (Elt F) (Rect.unit (s := S1x128) ![0, 0] S1x128.size
        inb_S1x128_S1x128_0_0).toLoadRect = id := funext (Memref.readAt_unit_zero (Elt F) cc0_stg2_0 hz _)
    have hw3 : ∀ f w, (((Memref.whole cc0_stg3_0).access (Rect.unit (s := S4096x128) ![0, 0] S4096x128.size inb_S4096x128_S4096x128_0_0)) :
        View sig .tc _ _ _).write (Elt F) f w Finset.univ = w := Memref.write_access_unit_zero_univ (Elt F) cc0_stg3_0 hz _
    simp only [owns_whole_eq, cc0__proj_body_eq_skeleton]; unfold cc0__proj_body_skel
    simp only [Prog.lift, Prog.bind_op, Prog.bind_ret]
    iintro ⟨⟨⟨%f0, %hf0, H0⟩, ⟨%f1, %hf1, H1⟩, ⟨%f2, %hf2, H2⟩, ⟨%f3, %hf3, H3⟩⟩, Hk⟩
    sl_steps
    iapply Hk
    rw [hr0, hr1, hr2, hw3]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    · iexists k0_pay1 f1 f0 f2; isplitr; · ipureintro; rw [hf0, hf1, hf2]
      iexact H3
  · have hr0 : (Memref.whole cc0_stg0_1 : Memref sig .tc _ _ _).view.readAt (Elt F) (Rect.unit (s := S64x32768) ![0, 0] S64x32768.size
        inb_S64x32768_S64x32768_0_0).toLoadRect = id := funext (Memref.readAt_unit_zero (Elt F) cc0_stg0_1 hz _)
    have hr1 : (Memref.whole cc0_stg1_0 : Memref sig .tc _ _ _).view.readAt (Elt F) (Rect.unit (s := S16x64) ![0, 0] S16x64.size
        inb_S16x64_S16x64_0_0).toLoadRect = id := funext (Memref.readAt_unit_zero (Elt F) cc0_stg1_0 hz _)
    have hr2 : (Memref.whole cc0_stg2_0 : Memref sig .tc _ _ _).view.readAt (Elt F) (Rect.unit (s := S1x128) ![0, 0] S1x128.size
        inb_S1x128_S1x128_0_0).toLoadRect = id := funext (Memref.readAt_unit_zero (Elt F) cc0_stg2_0 hz _)
    have hw3 : ∀ f w, (((Memref.whole cc0_stg3_1).access (Rect.unit (s := S4096x128) ![0, 0] S4096x128.size inb_S4096x128_S4096x128_0_0)) :
        View sig .tc _ _ _).write (Elt F) f w Finset.univ = w := Memref.write_access_unit_zero_univ (Elt F) cc0_stg3_1 hz _
    simp only [owns_whole_eq, cc0__proj_body_eq_skeleton]; unfold cc0__proj_body_skel
    simp only [Prog.lift, Prog.bind_op, Prog.bind_ret]
    iintro ⟨⟨⟨%f0, %hf0, H0⟩, ⟨%f1, %hf1, H1⟩, ⟨%f2, %hf2, H2⟩, ⟨%f3, %hf3, H3⟩⟩, Hk⟩
    sl_steps
    iapply Hk
    rw [hr0, hr1, hr2, hw3]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    · iexists k0_pay1 f1 f0 f2; isplitr; · ipureintro; rw [hf0, hf1, hf2]
      iexact H3

abbrev adm : (p : Fin 1) → (pcfgs (F := F) p).Adm := fun p => (cfgs p).toPCfg_adm

/-- What point t's block of the transposed table pins of a staged block: the columns that lie inside the table. -/
def AgreesAt (X : Vec F S64x1000000 .f32) (t : Nat) (blk : Vec F S64x32768 .f32) : Prop :=
  ∀ (dd : Fin 64) (c : Fin 32768) (h : 32768 * t + c.val < 1000000), blk (ValueIdx.ix2 dd c) = X (ValueIdx.ix2 dd ⟨32768 * t + c.val, h⟩)

section Data

variable (m : (ℓ : Loc nD τ sig) → Buf (Elt F) ℓ) (O : CellTallies nD τ sig (HIx 1)) (W : Waits sig (HIx 1))

/-- The proof data on core c, relational: the arrays at the contents m names; the table's staging buffer left
    at anything (it is fetched anew at every point), the weights' and the bias's left as found, the result's left at the
    projection of the weights, the bias and SOME block that agrees with the table's block wherever that lies inside the
    table; no invariant; the core owing O throughout, its recorded pairs those it came with or at no call's index. -/
def rdats (_ : Fin 1) (c : Dev nD) : RDat τ (Elt F) (HIx 1) ℕ UU ℕ cfg0 c where
  A w := m ((cfg0.win w).arr.view.loc (c : Thread nD τ))
  after w t Y X := match w with
    | ⟨0, _⟩ => True
    | ⟨1, _⟩ => X = Y
    | ⟨2, _⟩ => X = Y
    | ⟨3, _⟩ => ∃ blk : Vec F S64x32768 .f32, AgreesAt (m (xtLoc c)) t.val blk ∧ X = k0_pay1 (m (wLoc c)) blk (m (b128Loc c))
  Φ _ := iprop(emp)
  q _ := fullShare
  owed _ := O
  recorded _ := {p | p ∈ W ∨ p.2 = none}

end Data

section Finds
variable (m : (ℓ : Loc nD τ sig) → Buf (Elt F) ℓ) (O : CellTallies nD τ sig (HIx 1)) (W : Waits sig (HIx 1)) (c : Dev nD)

/-- Where the windows' blocks sit: the table's block t is columns 32768 t onward, the result's rows 4096 t onward; the
    weights' and the bias's are the whole arrays. -/
theorem index_facts : ∀ t : Fin grid0.N,
    win0_0.index t 0 = 0 ∧ win0_0.index t 1 = t.val ∧ win0_1.index t 0 = 0 ∧ win0_1.index t 1 = 0
      ∧ win0_2.index t 0 = 0 ∧ win0_2.index t 1 = 0 ∧ win0_3.index t 0 = t.val ∧ win0_3.index t 1 = 0 := by
  decide +kernel

/-- The table's block is cut where the table ends: at point t the fetch moves all 64 rows and the columns inside. -/
theorem xsize_facts : ∀ t : Fin grid0.N,
    win0_0.xsize (grid0.coords t) 0 = 64 ∧ win0_0.xsize (grid0.coords t) 1 = min 32768 (1000000 - 32768 * t.val) := by
  decide +kernel

/-- An element of a window's block at point t sits in the array at the block index times the block's size plus its own coordinate. -/
theorem blk_emb_val0 (t : Fin cfg0.N) (y : (win0_0.xblock (grid0.coords t)).Idx) (a : Fin 2) :
    (((win0_0.blk t).view.emb y) a : Nat) = win0_0.index t a * win0_0.size a + (y a : Nat) := Window.rect_emb_val _ t y a
theorem blk_emb_val1 (t : Fin cfg0.N) (y : (win0_1.xblock (grid0.coords t)).Idx) (a : Fin 2) :
    (((win0_1.blk t).view.emb y) a : Nat) = win0_1.index t a * win0_1.size a + (y a : Nat) := Window.rect_emb_val _ t y a
theorem blk_emb_val2 (t : Fin cfg0.N) (y : (win0_2.xblock (grid0.coords t)).Idx) (a : Fin 2) :
    (((win0_2.blk t).view.emb y) a : Nat) = win0_2.index t a * win0_2.size a + (y a : Nat) := Window.rect_emb_val _ t y a
theorem blk_emb_val3 (t : Fin cfg0.N) (y : (win0_3.xblock (grid0.coords t)).Idx) (a : Fin 2) :
    (((win0_3.blk t).view.emb y) a : Nat) = win0_3.index t a * win0_3.size a + (y a : Nat) := Window.rect_emb_val _ t y a

/-- The weights' staging buffer, fetched, holds the weights, -/
theorem fetched_1 (t : Fin cfg0.N) (d) : (rdats m O W 0 c).fetched 1 t d = m (wLoc c) := by
  funext j
  have hm : (cfg0.win 1).moved (grid0.coords t) j = true := rfl
  unfold Pipeline.RDat.fetched Window.fill
  rw [dif_pos hm]
  unfold Pipeline.RDat.blockOf
  rw [View.read_apply]
  show m (wLoc c) ((win0_1.blk t).view.emb _) = m (wLoc c) j
  congr 1
  funext a
  apply Fin.ext
  rw [blk_emb_val1]
  obtain ⟨-, -, h0, h1, -⟩ := index_facts t
  fin_cases a
  · show win0_1.index t 0 * 16 + (j 0 : Nat) = (j 0 : Nat); rw [h0]; omega
  · show win0_1.index t 1 * 64 + (j 1 : Nat) = (j 1 : Nat); rw [h1]; omega

/-- the bias's the bias, -/
theorem fetched_2 (t : Fin cfg0.N) (d) : (rdats m O W 0 c).fetched 2 t d = m (b128Loc c) := by
  funext j
  have hm : (cfg0.win 2).moved (grid0.coords t) j = true := rfl
  unfold Pipeline.RDat.fetched Window.fill
  rw [dif_pos hm]
  unfold Pipeline.RDat.blockOf
  rw [View.read_apply]
  show m (b128Loc c) ((win0_2.blk t).view.emb _) = m (b128Loc c) j
  congr 1
  funext a
  apply Fin.ext
  rw [blk_emb_val2]
  obtain ⟨-, -, -, -, h0, h1, -⟩ := index_facts t
  fin_cases a
  · show win0_2.index t 0 * 1 + (j 0 : Nat) = (j 0 : Nat); rw [h0]; omega
  · show win0_2.index t 1 * 128 + (j 1 : Nat) = (j 1 : Nat); rw [h1]; omega

/-- and the table's a block that agrees with the table's block t on the columns inside the table. -/
theorem agrees_fetched_0 (t : Fin cfg0.N) (d) : AgreesAt (m (xtLoc c)) t.val ((rdats m O W 0 c).fetched 0 t d) := by
  intro dd cc h
  obtain ⟨hx0, hx1⟩ := xsize_facts t
  have hm : (cfg0.win 0).moved (grid0.coords t) (ValueIdx.ix2 dd cc) = true := by
    rw [Window.moved_iff]
    intro a
    fin_cases a
    · show (dd : Nat) < win0_0.xsize (grid0.coords t) 0; rw [hx0]; exact dd.isLt
    · show (cc : Nat) < win0_0.xsize (grid0.coords t) 1; rw [hx1]; have := cc.isLt; omega
  unfold Pipeline.RDat.fetched Window.fill
  rw [dif_pos hm]
  unfold Pipeline.RDat.blockOf
  rw [View.read_apply]
  show m (xtLoc c) ((win0_0.blk t).view.emb _) = m (xtLoc c) _
  congr 1
  funext a
  apply Fin.ext
  rw [blk_emb_val0]
  obtain ⟨h0, h1, -⟩ := index_facts t
  fin_cases a
  · show win0_0.index t 0 * 64 + (dd : Nat) = (dd : Nat); rw [h0]; omega
  · show win0_0.index t 1 * 32768 + (cc : Nat) = 32768 * t.val + (cc : Nat); rw [h1]; omega

/-- What the body finds in the weights' buffer, at any point: the weights (fetched at the first point, left as found since). -/
theorem finds_1 (t : Fin cfg0.N) (Y) (h : (rdats m O W 0 c).Finds 1 t Y) : Y = m (wLoc c) := by
  obtain ⟨d, rfl⟩ := (rdats m O W 0 c).finds_in_eq_fetched 1 rfl (fun _ _ _ => rfl) (fun _ _ _ h => h) t Y h
  exact fetched_1 m O W c t d

theorem finds_2 (t : Fin cfg0.N) (Y) (h : (rdats m O W 0 c).Finds 2 t Y) : Y = m (b128Loc c) := by
  obtain ⟨d, rfl⟩ := (rdats m O W 0 c).finds_in_eq_fetched 2 rfl (fun _ _ _ => rfl) (fun _ _ _ h => h) t Y h
  exact fetched_2 m O W c t d

end Finds

section Cover
variable (m : (ℓ : Loc nD τ sig) → Buf (Elt F) ℓ) (O : CellTallies nD τ sig (HIx 1)) (W : Waits sig (HIx 1)) (c : Dev nD)

/-- After the write-backs below point n, every block of rows below n holds the projection of the weights, the bias and
    some block agreeing with the table's there: the write-back at point n writes rows 4096 n onward and no row below. -/
theorem arrAt_rows : ∀ (n : Nat) (hn : n ≤ cfg0.N) (G : Buf (Elt F) (yLoc c)), (rdats m O W 0 c).ArrAt 3 n G →
    ∀ t : Fin 31, t.val < n → ∃ blk : Vec F S64x32768 .f32, AgreesAt (m (xtLoc c)) t.val blk ∧
      ∀ (r : Fin 4096) (col : Fin 128),
        G (ValueIdx.ix2 ⟨4096 * t.val + r.val, by have := t.isLt; have := r.isLt; omega⟩ col) = k0_pay1 (m (wLoc c)) blk (m (b128Loc c)) (ValueIdx.ix2 r col)
  | 0, _, _, _, t, ht => absurd ht (Nat.not_lt_zero _)
  | n + 1, hn, G, hG, t, ht => by
    have hn' : n < cfg0.N := hn
    rw [(rdats m O W 0 c).ArrAt_succ 3 ⟨n, hn'⟩, if_pos (flush0_3 _)] at hG
    obtain ⟨G₀, X, hG₀, ⟨Y, -, hXY⟩, rfl⟩ := hG
    obtain ⟨blk, hblk, rfl⟩ : ∃ blk : Vec F S64x32768 .f32, AgreesAt (m (xtLoc c)) n blk ∧ X = k0_pay1 (m (wLoc c)) blk (m (b128Loc c)) := hXY
    obtain ⟨-, -, -, -, -, -, hi0, hi1⟩ := index_facts ⟨n, hn'⟩
    by_cases htn : t.val = n
    · refine ⟨blk, htn ▸ hblk, fun r col => ?_⟩
      have he : (ValueIdx.ix2 ⟨4096 * t.val + r.val, by have := t.isLt; have := r.isLt; omega⟩ col : S126976x128.Idx)
          = (win0_3.blk ⟨n, hn'⟩).view.emb (ValueIdx.ix2 r col : (win0_3.xblock (grid0.coords ⟨n, hn'⟩)).Idx) := by
        funext a
        apply Fin.ext
        rw [blk_emb_val3]
        fin_cases a
        · show 4096 * t.val + r.val = win0_3.index ⟨n, hn'⟩ 0 * 4096 + r.val; rw [hi0, htn]; show 4096 * n + r.val = n * 4096 + r.val; omega
        · show col.val = win0_3.index ⟨n, hn'⟩ 1 * 128 + col.val; rw [hi1]; omega
      show ((win0_3.blk ⟨n, hn'⟩).view.write (Elt F) G₀ _ Finset.univ) _ = _
      rw [he, View.write_emb_of_mem _ _ (Finset.mem_univ _)]
      show k0_pay1 (m (wLoc c)) blk (m (b128Loc c)) _ = k0_pay1 (m (wLoc c)) blk (m (b128Loc c)) _
      congr 1
    · obtain ⟨blk', h1, h2⟩ := arrAt_rows n (Nat.le_of_lt hn') G₀ hG₀ t (by omega)
      refine ⟨blk', h1, fun r col => ?_⟩
      rw [← h2 r col]
      refine View.write_of_not_mem _ _ _ ?_
      rw [View.setOn_univ]
      show _ ∉ ((View.whole main_v5).slice (win0_3.rect ⟨n, hn'⟩)).set
      rw [View.set_slice_whole, Rect.mem_set_unit]
      intro hmem
      have h0 := hmem 0
      have h0' : win0_3.index ⟨n, hn'⟩ 0 * 4096 ≤ 4096 * t.val + r.val := h0.1
      rw [hi0] at h0'
      have := r.isLt
      have : n * 4096 ≤ 4096 * t.val + r.val := h0'
      omega

/-- So after every write-back the result holds what the projection's specification says. -/
theorem yspec_of_arrAt (G : Buf (Elt F) (yLoc c)) (h : (rdats m O W 0 c).ArrAt 3 cfg0.N G) :
    Yspec (m (xtLoc c)) (m (wLoc c)) (m (b128Loc c)) G := fun t =>
  arrAt_rows m O W c cfg0.N (Nat.le_refl _) G h t (by rw [show cfg0.N = 31 from N_0]; exact t.isLt)

end Cover

section Region
variable (m : (ℓ : Loc nD τ sig) → Buf (Elt F) ℓ) (O : CellTallies nD τ sig (HIx 1)) (W : Waits sig (HIx 1))

/-- The body obligation: at every point, on whatever the windows' current buffers may then hold, the body runs to the
    buffers in the relations the proof data states — the result's at the projection of the weights, the bias and the
    table's staged block, which agrees with the table's block wherever that lies inside the table. -/
theorem body_obligation (c : Dev nD) : (rdats m O W 0 c).BodyObligation (defs₀ (F := F)) 𝒱₀ none Set.univ := fun t Y hY => by
  obtain ⟨d0, h0⟩ := ((rdats m O W 0 c).finds_of_fetch (fetch0_0 t) (Y 0)).mp (hY 0)
  have h1 := finds_1 m O W c t (Y 1) (hY 1)
  have h2 := finds_2 m O W c t (Y 2) (hY 2)
  rw [bigSep_W0, bigSep_W0]
  rw [show (rdats m O W 0 c).Φ t.castSucc = iprop(emp) from rfl, show (rdats m O W 0 c).Φ t.succ = iprop(emp) from rfl]
  iintro ⟨-, HO, H0, H1, H2, H3⟩
  iapply (sound_body c Set.univ (grid0.coords t) (cfg0.slots t 0) (cfg0.slots t 1) (cfg0.slots t 2) (cfg0.slots t 3) (Y 0) (Y 1) (Y 2) (Y 3))
  isplitl [H0 H1 H2 H3]
  · isplitl [H0]; · iexact H0
    isplitl [H1]; · iexact H1
    isplitl [H2]; · iexact H2
    iexact H3
  iintro ⟨H0, H1, H2, H3⟩
  isplitr; · iempintro
  isplitl [HO]; · iexact HO
  isplitl [H0]
  · iexists Y 0; isplitr; · ipureintro; trivial
    iexact H0
  isplitl [H1]
  · iexists Y 1; isplitr; · ipureintro; rfl
    iexact H1
  isplitl [H2]
  · iexists Y 2; isplitr; · ipureintro; rfl
    iexact H2
  · iexists k0_pay1 (Y 1) (Y 0) (Y 2); isplitr
    · ipureintro
      refine ⟨Y 0, ?_, ?_⟩
      · rw [h0]; exact agrees_fetched_0 m O W c t d0
      · rw [h1, h2]
    iexact H3

/-- The windows' arrays, one by one: the transposed table, the weights, the tiled bias, the result. -/
theorem arrays_eq4 (c : Dev nD) (Fm : (w : Fin cfg0.W) → Buf (Elt F) ((cfg0.win w).arr.view.loc (c : Thread nD τ))) :
    (rdats m O W 0 c).arrays Fm
      = iprop((xtLoc c ↦{fullShare} Fm 0) ∗ (wLoc c ↦{fullShare} Fm 1) ∗ (b128Loc c ↦{fullShare} Fm 2) ∗ (yLoc c ↦{fullShare} Fm 3)) := by
  rw [Pipeline.PerCore.RDat.arrays_eq (pcfgs (F := F)) (fun _ => adm) (rdats m O W) 0 c launch0.arr_whole (fun w => by fin_cases w <;> rfl) Fm, bigSep_W0]

/-- and after the write-backs below point n: each at some contents it may then hold. -/
theorem arraysAt_eq4 (c : Dev nD) (n : Nat) :
    (rdats m O W 0 c).arraysAt n
      = iprop((∃ G, ⌜(rdats m O W 0 c).ArrAt 0 n G⌝ ∗ (xtLoc c ↦{fullShare} G)) ∗ (∃ G, ⌜(rdats m O W 0 c).ArrAt 1 n G⌝ ∗ (wLoc c ↦{fullShare} G))
          ∗ (∃ G, ⌜(rdats m O W 0 c).ArrAt 2 n G⌝ ∗ (b128Loc c ↦{fullShare} G)) ∗ (∃ G, ⌜(rdats m O W 0 c).ArrAt 3 n G⌝ ∗ (yLoc c ↦{fullShare} G))) := by
  unfold Pipeline.RDat.arraysAt
  rw [bigSep_W0]
  have e0 : (cfg0.win 0).arr.view.set = Finset.univ := (launch0.arr_whole 0).set_eq_univ
  have e1 : (cfg0.win 1).arr.view.set = Finset.univ := (launch0.arr_whole 1).set_eq_univ
  have e2 : (cfg0.win 2).arr.view.set = Finset.univ := (launch0.arr_whole 2).set_eq_univ
  have e3 : (cfg0.win 3).arr.view.set = Finset.univ := (launch0.arr_whole 3).set_eq_univ
  rw [e0, e1, e2, e3]
  rfl

/-- What the region is entered with on core c: the four arrays at the contents m names, the core's debts. -/
def regPre (c : Dev nD) : sProp 𝕄 :=
  iprop((xtLoc c ↦{fullShare} m (xtLoc c)) ∗ (wLoc c ↦{fullShare} m (wLoc c)) ∗ (b128Loc c ↦{fullShare} m (b128Loc c)) ∗ (yLoc c ↦{fullShare} m (yLoc c))
    ∗ owes (T c) O W)

/-- What the region leaves on core c: the inputs as they were, the result at contents the projection's specification
    holds of, the core's debts unchanged, its recorded pairs those it came with or at no call's index. -/
def regPost (c : Dev nD) : sProp 𝕄 :=
  iprop(∃ Y : Buf (Elt F) (yLoc c), ⌜Yspec (m (xtLoc c)) (m (wLoc c)) (m (b128Loc c)) Y⌝
    ∗ (xtLoc c ↦{fullShare} m (xtLoc c)) ∗ (wLoc c ↦{fullShare} m (wLoc c)) ∗ (b128Loc c ↦{fullShare} m (b128Loc c)) ∗ (yLoc c ↦{fullShare} Y)
    ∗ ∃ W' : Waits sig (HIx 1), ⌜∀ p ∈ W', p ∈ W ∨ p.2 = none⌝ ∗ owes (T c) O W')

set_option backward.isDefEq.respectTransparency.types false in
/-- The region as the library's record: the generated layout, no semaphore of the kernel's own, the body obligation,
    the wait evidence (every debt sits at a call's index, the pipeline's waits at none), and the four entailments
    around regPre and regPost. -/
def reg0 (hO : ∀ g, O g none = 0) : Pipeline.RDat.RegionSeg (pcfgs (F := F)) adm (rdats m O W) none defs₀ 𝒱₀ (K (F := F)).L (K (F := F)).lev 0 where
  win := launch0.win.to₀
  block_pos := launch0.block_pos
  stage_whole := launch0.stage_whole
  K := PEmpty
  osem := fun k => k.elim
  ho := Pipeline.OwnSemFacts.none _
  hbody c := body_obligation m O W c
  hwaits c := Pipeline.RDat.cellsWaits_intro cfgs (rdats m O W) none 0 c fun w s t => (K (F := F)).mayWait_none _ hO
  pre c := regPre m O W c
  post c := regPost m O W c
  X c := iprop(emp)
  Y c := iprop(emp)
  Z c := iprop(emp)
  hentry c := by
    rw [arrays_eq4]
    unfold regPre
    iintro ⟨⟨H0, H1, H2, H3, HO⟩, -, -⟩
    imodintro
    isplitl [H0 H1 H2 H3]
    · isplitl [H0]; · iexact H0
      isplitl [H1]; · iexact H1
      isplitl [H2]; · iexact H2
      iexact H3
    isplitr; · unfold Pipeline.prefHeld; rw [show (Finset.univ : Finset (Fin 0)) = ∅ from rfl, BI.bigSep_empty]; iempintro
    isplitl [HO]
    · unfold Pipeline.RDat.owesAt Pipeline.owesWithin
      iexists W; isplitr; · ipureintro; exact fun p hp => Or.inl (Or.inl (Finset.mem_coe.mp hp))
      iexact HO
    isplitr <;> iempintro
  hin c := by
    rw [show (rdats m O W 0 c).Φ 0 = iprop(emp) from rfl]
    iintro -; iempintro
  hout c := by
    rw [Pipeline.ownSems0_none, show (rdats m O W 0 c).Φ (Fin.last _) = iprop(emp) from rfl]
    rw [show (Pipeline.pin (pcfgs (F := F)) adm 0).spec = spec0 from rfl, scopedRest0_eq]
    iintro -
    isplitr; · iempintro
    isplitr <;> iempintro
  hexit c := by
    rw [arraysAt_eq4]
    iintro ⟨⟨⟨%F0, %h0, H0⟩, ⟨%F1, %h1, H1⟩, ⟨%F2, %h2, H2⟩, ⟨%F3, %h3, H3⟩⟩, HO, -, -⟩
    rw [(rdats m O W 0 c).ArrAt_in 0 rfl] at h0
    rw [(rdats m O W 0 c).ArrAt_in 1 rfl] at h1
    rw [(rdats m O W 0 c).ArrAt_in 2 rfl] at h2
    subst h0; subst h1; subst h2
    imodintro
    unfold regPost
    iexists F3
    isplitr; · ipureintro; exact yspec_of_arrAt m O W c F3 h3
    isplitl [H0]; · iexact H0
    isplitl [H1]; · iexact H1
    isplitl [H2]; · iexact H2
    isplitl [H3]; · iexact H3
    unfold Pipeline.RDat.owesAt Pipeline.owesWithin
    icases HO with ⟨%W', %hW', HO⟩
    iexists W'
    isplitr
    · ipureintro
      intro p hp
      rcases hW' (Finset.mem_coe.mpr hp) with h | ⟨w, s, rfl⟩
      · exact h
      · exact Or.inr rfl
    iexact HO

set_option backward.isDefEq.respectTransparency.types false in
/-- The region's step under the certificate's own body table: the library's region rule at the record above. -/
theorem region_wp_D (d : Dev nD) (hO : ∀ g, O g none = 0) {Φ : PUnit → sProp 𝕄} :
    iprop(levAts (K (F := F)).L (K (F := F)).lev ∗ boundary (T d)
        ∗ Pipeline.cellsGhost cfgs (EP (F := F)) 0 d ∗ Pipeline.toksInit cfgs (EP (F := F)) 0 d
        ∗ regPre m O W d ∗ (iprop(boundary (T d) ∗ regPost m O W d) -∗ Φ ⟨⟩))
      ⊢ wp frame (wpE (D (F := F)) 𝒱 (SparseCore.T d) none) Set.univ
          (Prog.op (TpuEff.customCall (Pipeline.entry 0) ()) fun _ => Prog.ret PUnit.unit) Φ := by
  have h := Pipeline.RDat.RegionSeg.wp (pcfgs (F := F)) adm (rdats m O W) none cellOf_inj EP defs₀ 𝒱₀ _ _ (reg0 m O W hO) d none
    (fun _ h => nomatch h) (fun _ => .ret PUnit.unit) Φ
  rw [show (reg0 m O W hO).pre d = regPre m O W d from rfl, show (reg0 m O W hO).post d = regPost m O W d from rfl] at h
  refine .trans ?_ h
  iintro ⟨Hl, Hb, Hg, Ht, Hpre, Hk⟩
  isplitl [Hk]
  · iintro H; rw [wp_ret]; imodintro; iapply Hk; iexact H
  isplitl [Hb]; · iexact Hb
  isplitl [Hpre]; · iexact Hpre
  isplitl [Hl]; · iexact Hl
  isplitl [Hg]; · iexact Hg
  iexact Ht

/-- The region's step of the program on the TensorCore of device d, over the arrays' contents as a memory m names them:
    a proof under the certificate's body table is a proof under the program's extended one. -/
theorem region_wp_m (d : Dev nD) (hO : ∀ g, O g none = 0) {Φ : PUnit → sProp 𝕄} :
    iprop(levAts (K (F := F)).L (K (F := F)).lev ∗ boundary (T d)
        ∗ Pipeline.cellsGhost cfgs (EP (F := F)) 0 d ∗ Pipeline.toksInit cfgs (EP (F := F)) 0 d
        ∗ regPre m O W d ∗ (iprop(boundary (T d) ∗ regPost m O W d) -∗ Φ ⟨⟩))
      ⊢ wp frame (wpE ((K (F := F)).defs (D (F := F))) 𝒱 (SparseCore.T d) none) Set.univ
          (Prog.lift (.customCall (SparseCore.inner (Pipeline.entry 0)) ())) Φ := by
  have h := (K (F := F)).wp_liftProg (D (F := F)) 𝒱 (T d) Set.univ none
    (Prog.op (TpuEff.customCall (Pipeline.entry 0) ()) fun _ => Prog.ret PUnit.unit) Φ
  exact (region_wp_D m O W d hO).trans h

end Region

section Statement

open Classical in
/-- A memory that names the four arrays' contents on device d (anything elsewhere). -/
def memOf (d : Dev nD) (X : Buf (Elt F) (xtLoc d)) (Wt : Buf (Elt F) (wLoc d)) (B : Buf (Elt F) (b128Loc d)) (Y0 : Buf (Elt F) (yLoc d)) :
    (ℓ : Loc nD τ sig) → Buf (Elt F) ℓ :=
  Function.update (Function.update (Function.update (Function.update (fun _ _ => Classical.arbitrary _) (yLoc d) Y0) (b128Loc d) B) (wLoc d) Wt) (xtLoc d) X

theorem loc_ne (d : Dev nD) {x y : Ref sig .tc} (h : x ≠ y) : (SparseCore.T (τ := τ) d).loc x ≠ (SparseCore.T (τ := τ) d).loc y :=
  fun e => StableHlo.devRef_ne_of_ne (τ := τ) h (congrArg Prod.snd e)

variable (d : Dev nD) (X : Buf (Elt F) (xtLoc d)) (Wt : Buf (Elt F) (wLoc d)) (B : Buf (Elt F) (b128Loc d)) (Y0 : Buf (Elt F) (yLoc d))

theorem memOf_xt : memOf d X Wt B Y0 (xtLoc d) = X := by
  unfold memOf; rw [Function.update_self]
theorem memOf_w : memOf d X Wt B Y0 (wLoc d) = Wt := by
  unfold memOf; rw [Function.update_of_ne (loc_ne d (by decide)), Function.update_self]
theorem memOf_b128 : memOf d X Wt B Y0 (b128Loc d) = B := by
  unfold memOf; rw [Function.update_of_ne (loc_ne d (by decide)), Function.update_of_ne (loc_ne d (by decide)), Function.update_self]
theorem memOf_y : memOf d X Wt B Y0 (yLoc d) = Y0 := by
  unfold memOf
  rw [Function.update_of_ne (loc_ne d (by decide)), Function.update_of_ne (loc_ne d (by decide)), Function.update_of_ne (loc_ne d (by decide)), Function.update_self]

/-- THE REGION'S STEP: on the TensorCore of device d, from the region boundary, the level facts, the pipeline's funded
    staging cells, the four arrays and the core's debts (all at a call's index), the call of the projection's region runs to
    the boundary, the inputs unchanged, the result at contents the projection's specification holds of, the debts unchanged. -/
theorem region_wp (O : CellTallies nD τ sig (HIx 1)) (W : Waits sig (HIx 1)) (hO : ∀ g, O g none = 0) {Φ : PUnit → sProp 𝕄} :
    iprop(levAts (K (F := F)).L (K (F := F)).lev ∗ boundary (T d)
        ∗ Pipeline.cellsGhost cfgs (EP (F := F)) 0 d ∗ Pipeline.toksInit cfgs (EP (F := F)) 0 d
        ∗ (xtLoc d ↦{fullShare} X) ∗ (wLoc d ↦{fullShare} Wt) ∗ (b128Loc d ↦{fullShare} B) ∗ (yLoc d ↦{fullShare} Y0) ∗ owes (T d) O W
        ∗ (∀ Y, ⌜Yspec X Wt B Y⌝ -∗ (boundary (T d) ∗ (xtLoc d ↦{fullShare} X) ∗ (wLoc d ↦{fullShare} Wt) ∗ (b128Loc d ↦{fullShare} B) ∗ (yLoc d ↦{fullShare} Y)
              ∗ ∃ W', ⌜∀ p ∈ W', p ∈ W ∨ p.2 = none⌝ ∗ owes (T d) O W') -∗ Φ ⟨⟩))
      ⊢ wp frame (wpE ((K (F := F)).defs (D (F := F))) 𝒱 (SparseCore.T d) none) Set.univ
          (Prog.lift (.customCall (SparseCore.inner (Pipeline.entry 0)) ())) Φ := by
  refine .trans ?_ (region_wp_m (memOf d X Wt B Y0) O W d hO)
  unfold regPre regPost
  rw [memOf_xt, memOf_w, memOf_b128, memOf_y]
  iintro ⟨Hl, Hb, Hg, Ht, H0, H1, H2, H3, HO, Hk⟩
  isplitl [Hl]; · iexact Hl
  isplitl [Hb]; · iexact Hb
  isplitl [Hg]; · iexact Hg
  isplitl [Ht]; · iexact Ht
  isplitl [H0 H1 H2 H3 HO]
  · isplitl [H0]; · iexact H0
    isplitl [H1]; · iexact H1
    isplitl [H2]; · iexact H2
    isplitl [H3]; · iexact H3
    iexact HO
  iintro ⟨Hb, %Y, %hY, H0, H1, H2, H3, HO⟩
  iapply Hk
  · ipureintro; exact hY
  isplitl [Hb]; · iexact Hb
  isplitl [H0]; · iexact H0
  isplitl [H1]; · iexact H1
  isplitl [H2]; · iexact H2
  isplitl [H3]; · iexact H3
  iexact HO

/-- THE LAUNCH ELEMENT'S PIECE: the pipeline's rounds element funds, per device, the staging cells' ghost state and the
    transfers' duty tokens the region's step consumes. -/
theorem region_fund :
    BI.own ((EP (F := F)) (initOf (Pipeline.cells cfgs cellOf_inj) (Pipeline.launchToks cfgs cellOf_inj)))
      ⊢ iprop(|==> bigSep Finset.univ fun d : Dev nD =>
          iprop(Pipeline.cellsGhost cfgs (EP (F := F)) 0 d ∗ Pipeline.toksInit cfgs (EP (F := F)) 0 d)) := by
  refine (Pipeline.fund_ghost cfgs (EP (F := F)) cellOf_inj).trans (bupd_mono ?_)
  rw [← bigSep_sep']
  refine Entails.of_eq (bigSep_congr fun d _ => ?_)
  rw [show (Finset.univ : Finset (Fin 1)) = {0} from rfl, BI.bigSep_singleton, BI.bigSep_singleton]

end Statement

end Cert.KernelIdeal.Hand

end
-- ==== Proof.Pay.lean ====
/-
  What the SparseCore call's handshakes carry. The call takes, per vector subcore `w = 2 s + c` (SparseCore `c`, subcore `s`):
  a read share of `y`, the subcore's 512 node ids, and its 512 columns of the result; it brings back the ids and the
  columns, the latter holding, at each entry, the lane of `y` the entry's node id names.
-/
import proofs.«211133_g82480551952782_cont_sun_m_220_25_alg».proof.Proof.Setup

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

local notation "iV" => (Memref.whole Cert.KernelIdeal.main_arg0_scv : Memref Cert.KernelIdeal.sig Kind.scVector Space.hbm Cert.KernelIdeal.S16384 EltTy.i32)
local notation "oV" => (Memref.whole Cert.KernelIdeal.main_v6_scv : Memref Cert.KernelIdeal.sig Kind.scVector Space.hbm Cert.KernelIdeal.S16x16384 EltTy.f32)

/-- The worker number of subcore `s` of SparseCore `c`: `2 s + c`. -/
def wid (c : Fin 2) (s : Fin 16) : Fin 32 := ⟨2 * s.val + c.val, by omega⟩

theorem ids_div : 32 ∣ S16384.size 0 := ⟨512, rfl⟩
theorem out_div : 32 ∣ S16x16384.size 1 := ⟨512, rfl⟩
/-- Worker `w`'s 512 node ids: entries `512 w ‥ 512 w + 511`; its 512 columns of the result, all 16 rows. -/
abbrev idsPart (w : Fin 32) : Rect S16384 := Rect.part (s := S16384) (a₀ := 0) ids_div w
abbrev outPart (w : Fin 32) : Rect S16x16384 := Rect.part (s := S16x16384) (a₀ := 1) out_div w
abbrev idsSet (w : Fin 32) : Finset S16384.Idx := ((iV).view.slice (idsPart w)).set
abbrev outSet (w : Fin 32) : Finset S16x16384.Idx := ((oV).view.slice (outPart w)).set

/-- Worker `w`'s read share of `y`. -/
abbrev tokY (w : Fin 32) : PosShare TreeShare := Transfers.shareTokN fullShare w.val

variable [FloatOps F]

section Pay

variable (m : (ℓ : Loc nD τ sig) → Buf (Elt F) ℓ) (X : Dev nD → Vec F S64x1000000 .f32) (B : Dev nD → Vec F S1x128 .f32)

/-- What worker `w` is handed: a share of `y` at contents the projection left, its node ids, its columns. -/
def goW (d : Dev nD) (w : Fin 32) : sProp 𝕄 :=
  iprop(∃ Y : Buf (Elt F) (yLoc d), ⌜Yspec (X d) (m (wLoc d)) (B d) Y⌝ ∗ (yLoc d ↦{tokY w} Y)
    ∗ (idsLoc d ↦[idsSet w]{fullShare} m (idsLoc d)) ∗ (oLoc d ↦[outSet w]{fullShare} m (oLoc d)))

/-- What worker `w` hands back: the share and the ids, and its columns holding the lanes of `y` its ids name. -/
def tdW (d : Dev nD) (w : Fin 32) : sProp 𝕄 :=
  iprop(∃ Y : Buf (Elt F) (yLoc d), ⌜Yspec (X d) (m (wLoc d)) (B d) Y⌝ ∗ (yLoc d ↦{tokY w} Y)
    ∗ (idsLoc d ↦[idsSet w]{fullShare} m (idsLoc d))
    ∗ ∃ f : Buf (Elt F) (oLoc d), (oLoc d ↦[outSet w]{fullShare} f) ∗ ⌜∀ i ∈ outSet w, f i = OUTT Y (m (idsLoc d)) i⌝)

def P : (K (F := F)).Pay (nD := nD) (Val := Elt F) (Name := ℕ) (U := UU) where
  st := fun q d c => match q with | 0 => bigSep Finset.univ fun s : Fin 16 => goW m X B d (wid (Fin.cast nCore_zero c) s)
  dn := fun q d c => match q with | 0 => bigSep Finset.univ fun s : Fin 16 => tdW m X B d (wid (Fin.cast nCore_zero c) s)
  go := fun q d c s => match q with | 0 => goW m X B d (wid (Fin.cast nCore_zero c) (Fin.cast nSub_zero s))
  td := fun q d c s => match q with | 0 => tdW m X B d (wid (Fin.cast nCore_zero c) (Fin.cast nSub_zero s))
  x := fun _ _ => iprop(emp)

instance goW_storable (d : Dev nD) (w : Fin 32) : BI.Storable (upEmb : UEmb _ 𝕄) (goW m X B d w) := by
  unfold goW; infer_instance
instance tdW_storable (d : Dev nD) (w : Fin 32) : BI.Storable (upEmb : UEmb _ 𝕄) (tdW m X B d w) := by
  unfold tdW; infer_instance

instance P_storable : (P (F := F) m X B).IsStorable where
  st q d c := match q with | 0 => (inferInstance : BI.Storable (upEmb : UEmb _ 𝕄) (bigSep Finset.univ fun s : Fin 16 => goW m X B d (wid (Fin.cast nCore_zero c) s)))
  dn q d c := match q with | 0 => (inferInstance : BI.Storable (upEmb : UEmb _ 𝕄) (bigSep Finset.univ fun s : Fin 16 => tdW m X B d (wid (Fin.cast nCore_zero c) s)))
  go q d c s := match q with | 0 => (inferInstance : BI.Storable (upEmb : UEmb _ 𝕄) (goW m X B d (wid (Fin.cast nCore_zero c) (Fin.cast nSub_zero s))))
  td q d c s := match q with | 0 => (inferInstance : BI.Storable (upEmb : UEmb _ 𝕄) (tdW m X B d (wid (Fin.cast nCore_zero c) (Fin.cast nSub_zero s))))

end Pay

end Cert.KernelIdeal.Hand

end
-- ==== Proof.Split.lean ====
/-
  The arrays between the TensorCore and the 32 vector subcores. Before the call the TensorCore holds `y`, the node ids and
  the result whole; worker `w = 2 s + c` (SparseCore `c`, subcore `s`) is handed a read share of `y`, its 512 node ids and
  its 512 columns of the result. The 32 parts of an array are pairwise disjoint and cover it, and `(c, s) ↦ 2 s + c` is a
  bijection from `Fin 2 × Fin 16` onto `Fin 32`: so the whole arrays split into the workers' pieces, and the pieces the
  workers hand back join into the whole arrays, the result holding at each entry the lane of `y` the entry's node id names.
-/
import proofs.«211133_g82480551952782_cont_sun_m_220_25_alg».proof.Proof.Pay

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The workers: `(c, s) ↦ 2 s + c` is a bijection -/

/-- A worker number `w < 32` is `2 s + c` for exactly one SparseCore `c = w % 2` and subcore `s = w / 2`. -/
def widEquiv : Fin 2 × Fin 16 ≃ Fin 32 where
  toFun p := wid p.1 p.2
  invFun w := (⟨w.val % 2, Nat.mod_lt _ (by decide)⟩, ⟨w.val / 2, by have := w.isLt; omega⟩)
  left_inv p := by
    obtain ⟨c, s⟩ := p
    refine Prod.ext (Fin.ext ?_) (Fin.ext ?_)
    · show (2 * s.val + c.val) % 2 = c.val
      have := c.isLt; omega
    · show (2 * s.val + c.val) / 2 = s.val
      have := c.isLt; omega
  right_inv w := Fin.ext (by show 2 * (w.val / 2) + w.val % 2 = w.val; omega)

/-- A `bigSep` over the SparseCores of `bigSep`s over the subcores is the `bigSep` over the 32 workers. -/
theorem bigSep_workers (Φ : Fin 32 → sProp 𝕄) :
    (bigSep Finset.univ fun c : Fin ((K (F := F)).nCore 0) => bigSep Finset.univ fun s : Fin 16 => Φ (wid (Fin.cast nCore_zero c) s))
      = bigSep Finset.univ Φ := by
  rw [bigSep_univ_equiv widEquiv Φ, BI.bigSep_univ_prod]
  exact bigSep_congr fun c _ => bigSep_congr fun s _ => congrArg Φ (Fin.ext rfl)

/-- A `bigSep` over the call's subcores is the `bigSep` over `Fin 16`. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-! ## The 32 parts of the node ids and of the result are disjoint and cover them -/

theorem idsSet_eq (w : Fin 32) : idsSet w = (idsPart w).set := by
  show ((View.whole (main_arg0_scv : Ref sig .scVector)).slice (idsPart w)).set = _
  rw [View.set_slice]; exact Finset.map_refl
theorem outSet_eq (w : Fin 32) : outSet w = (outPart w).set := by
  show ((View.whole (main_v6_scv : Ref sig .scVector)).slice (outPart w)).set = _
  rw [View.set_slice]; exact Finset.map_refl

theorem ids_disjoint : ∀ i ∈ (Finset.univ : Finset (Fin 32)), ∀ j ∈ (Finset.univ : Finset (Fin 32)), i ≠ j → Disjoint (idsSet i) (idsSet j) :=
  fun i _ j _ h => by rw [idsSet_eq, idsSet_eq]; exact Rect.part_disjoint ids_div h
theorem out_disjoint : ∀ i ∈ (Finset.univ : Finset (Fin 32)), ∀ j ∈ (Finset.univ : Finset (Fin 32)), i ≠ j → Disjoint (outSet i) (outSet j) :=
  fun i _ j _ h => by rw [outSet_eq, outSet_eq]; exact Rect.part_disjoint out_div h
theorem ids_cover : (Finset.univ : Finset (Fin 32)).biUnion idsSet = Finset.univ :=
  (Finset.biUnion_congr rfl fun i _ => idsSet_eq i).trans (Rect.biUnion_part ids_div)
theorem out_cover : (Finset.univ : Finset (Fin 32)).biUnion outSet = Finset.univ :=
  (Finset.biUnion_congr rfl fun i _ => outSet_eq i).trans (Rect.biUnion_part out_div)

/-- The node ids whole are the 32 workers' parts. -/
theorem idsPts_parts (d : Dev nD) (f : Buf (Elt F) (idsLoc d)) :
    (idsLoc d ↦{fullShare} f : sProp 𝕄) = bigSep Finset.univ fun w : Fin 32 => idsLoc d ↦[idsSet w]{fullShare} f := by
  rw [← pointsTo_biUnion Finset.univ (ℓ := idsLoc d) idsSet ids_disjoint, ids_cover]; try rfl
/-- The result whole is the 32 workers' column blocks. -/
theorem outPts_parts (d : Dev nD) (f : Buf (Elt F) (oLoc d)) :
    (oLoc d ↦{fullShare} f : sProp 𝕄) = bigSep Finset.univ fun w : Fin 32 => oLoc d ↦[outSet w]{fullShare} f := by
  rw [← pointsTo_biUnion Finset.univ (ℓ := oLoc d) outSet out_disjoint, out_cover]; try rfl

variable [FloatOps F]

section Split

variable (m : (ℓ : Loc nD τ sig) → Buf (Elt F) ℓ) (X : Dev nD → Vec F S64x1000000 .f32) (B : Dev nD → Vec F S1x128 .f32)

/-! ## Before the call: the whole arrays are the workers' pieces -/

/-- A read share of `y` at contents the projection left, a part of the node ids and a column block of the result are what a worker is handed. -/
theorem goW_intro (d : Dev nD) (Y : Buf (Elt F) (yLoc d)) (hY : Yspec (X d) (m (wLoc d)) (B d) Y) (w : Fin 32) :
    iprop((yLoc d ↦{tokY w} Y) ∗ (idsLoc d ↦[idsSet w]{fullShare} m (idsLoc d)) ∗ (oLoc d ↦[outSet w]{fullShare} m (oLoc d)))
      ⊢ (goW m X B d w : sProp 𝕄) := by
  unfold goW
  iintro ⟨Hy, Hi, Ho⟩
  iexists Y
  isplitr; · ipureintro; exact hY
  isplitl [Hy]; · iexact Hy
  isplitl [Hi]; · iexact Hi
  iexact Ho

/-- The 32 read shares of `y`, the 32 parts of the node ids and the 32 column blocks of the result are what the 32 workers are handed. -/
theorem goW_all (d : Dev nD) (Y : Buf (Elt F) (yLoc d)) (hY : Yspec (X d) (m (wLoc d)) (B d) Y) :
    iprop((bigSep Finset.univ fun w : Fin 32 => yLoc d ↦{tokY w} Y)
        ∗ (bigSep Finset.univ fun w : Fin 32 => idsLoc d ↦[idsSet w]{fullShare} m (idsLoc d))
        ∗ (bigSep Finset.univ fun w : Fin 32 => oLoc d ↦[outSet w]{fullShare} m (oLoc d)))
      ⊢ (bigSep Finset.univ (fun w : Fin 32 => goW m X B d w) : sProp 𝕄) := by
  rw [← bigSep_sep', ← bigSep_sep']
  exact bigSep_mono fun w _ => goW_intro m X B d Y hY w

/-- `y` (at contents the projection left), the node ids and the result, whole, are what is left of `y` after 32 read shares
    and, for each SparseCore, what its 16 subcores are handed. -/
theorem st_split (d : Dev nD) (Y : Buf (Elt F) (yLoc d)) (hY : Yspec (X d) (m (wLoc d)) (B d) Y) :
    iprop((yLoc d ↦{fullShare} Y) ∗ (idsLoc d ↦{fullShare} m (idsLoc d)) ∗ (oLoc d ↦{fullShare} m (oLoc d)))
      ⊢ (iprop((yLoc d ↦{Transfers.shareDrop fullShare 32} Y) ∗ bigSep Finset.univ fun c : Fin ((K (F := F)).nCore 0) => (P m X B).st 0 d c) : sProp 𝕄) := by
  show _ ⊢ iprop((yLoc d ↦{Transfers.shareDrop fullShare 32} Y)
    ∗ bigSep Finset.univ fun c : Fin ((K (F := F)).nCore 0) => bigSep Finset.univ fun s : Fin 16 => goW m X B d (wid (Fin.cast nCore_zero c) s))
  rw [bigSep_workers (F := F) (fun w => goW m X B d w), idsPts_parts, outPts_parts]
  iintro ⟨Hy, Hi, Ho⟩
  ihave Hy' := (Transfers.pointsTo_toks_split (ℓ := yLoc d) (S := Finset.univ) (f := Y) fullShare 32) $$ Hy
  icases Hy' with ⟨Hd, Ht⟩
  isplitl [Hd]; · iexact Hd
  iapply (goW_all m X B d Y hY)
  isplitl [Ht]; · iexact Ht
  isplitl [Hi]; · iexact Hi
  iexact Ho

/-! ## After the call: the workers' pieces are the whole arrays -/

/-- What a worker's column block holds when it comes back: at each of its entries, the lane of `y` the entry's node id names,
    for some contents of `y` the projection can have left. -/
def colsOK (d : Dev nD) (w : Fin 32) (f : Buf (Elt F) (oLoc d)) : Prop :=
  ∃ Y : Buf (Elt F) (yLoc d), Yspec (X d) (m (wLoc d)) (B d) Y ∧ ∀ i ∈ outSet w, f i = OUTT Y (m (idsLoc d)) i

/-- What a worker hands back, its share of `y` dropped: its node ids, and its column block holding what it should. -/
theorem tdW_weaken (d : Dev nD) (w : Fin 32) :
    (tdW m X B d w : sProp 𝕄)
      ⊢ iprop((idsLoc d ↦[idsSet w]{fullShare} m (idsLoc d)) ∗ ∃ f : Buf (Elt F) (oLoc d), ⌜colsOK m X B d w f⌝ ∗ (oLoc d ↦[outSet w]{fullShare} f)) := by
  unfold tdW
  iintro ⟨%Y, %hY, -, Hi, %f, Ho, %hf⟩
  isplitl [Hi]; · iexact Hi
  iexists f
  isplitr; · ipureintro; exact ⟨Y, hY, hf⟩
  iexact Ho

/-- What the 32 workers hand back, their shares of `y` dropped: the 32 parts of the node ids, and the 32 column blocks of the result. -/
theorem tdW_all (d : Dev nD) :
    (bigSep Finset.univ (fun w : Fin 32 => tdW m X B d w) : sProp 𝕄)
      ⊢ iprop((bigSep Finset.univ fun w : Fin 32 => idsLoc d ↦[idsSet w]{fullShare} m (idsLoc d))
          ∗ bigSep Finset.univ fun w : Fin 32 => iprop(∃ f : Buf (Elt F) (oLoc d), ⌜colsOK m X B d w f⌝ ∗ (oLoc d ↦[outSet w]{fullShare} f))) := by
  rw [← bigSep_sep']
  exact bigSep_mono fun w _ => tdW_weaken m X B d w

/-- What the 32 workers hand back is the node ids whole and the result whole, holding at each entry the lane of `y` the entry's
    node id names (for some contents of `y` the projection can have left). -/
theorem dn_join (d : Dev nD) :
    (bigSep Finset.univ fun c : Fin ((K (F := F)).nCore 0) => (P m X B).dn 0 d c)
      ⊢ (iprop((idsLoc d ↦{fullShare} m (idsLoc d)) ∗ ∃ f : Buf (Elt F) (oLoc d), (oLoc d ↦{fullShare} f)
            ∗ ⌜∀ i : S16x16384.Idx, ∃ Y : Buf (Elt F) (yLoc d), Yspec (X d) (m (wLoc d)) (B d) Y ∧ f i = OUTT Y (m (idsLoc d)) i⌝) : sProp 𝕄) := by
  show (bigSep Finset.univ fun c : Fin ((K (F := F)).nCore 0) => bigSep Finset.univ fun s : Fin 16 => tdW m X B d (wid (Fin.cast nCore_zero c) s)) ⊢ _
  rw [bigSep_workers (F := F) (fun w => tdW m X B d w), idsPts_parts]
  iintro H
  ihave H' := (tdW_all m X B d) $$ H
  icases H' with ⟨Hi, Ho⟩
  isplitl [Hi]; · iexact Hi
  haveI : Nonempty (Buf (Elt F) (oLoc d)) := ⟨m (oLoc d)⟩
  ihave Ho1 := (bigSep_exists_pi Finset.univ (fun (w : Fin 32) (f : Buf (Elt F) (oLoc d)) => iprop(⌜colsOK m X B d w f⌝ ∗ (oLoc d ↦[outSet w]{fullShare} f)))) $$ Ho
  icases Ho1 with ⟨%fs, Ho⟩
  ihave Ho2 := (bigSep_pure_sep Finset.univ (fun w : Fin 32 => colsOK m X B d w (fs w)) (fun w : Fin 32 => (oLoc d ↦[outSet w]{fullShare} fs w))) $$ Ho
  icases Ho2 with ⟨%hok, Ho⟩
  ihave Ho3 := (pointsTo_biUnion_join (ℓ := oLoc d) (q := fullShare) (Val := Elt F) Finset.univ outSet fs (fs 0) out_disjoint) $$ Ho
  icases Ho3 with ⟨%g, %hg, Hg⟩
  rw [out_cover]
  iexists g
  isplitl [Hg]; · iexact Hg
  ipureintro
  intro i
  obtain ⟨w, -, hw⟩ := Finset.mem_biUnion.mp (out_cover ▸ Finset.mem_univ i)
  obtain ⟨Yw, hYw, hfw⟩ := hok w (Finset.mem_univ w)
  exact ⟨Yw, hYw, (hg w (Finset.mem_univ w) i hw).trans (hfw i hw)⟩

/-! ## Inside a SparseCore: what it is handed is what its subcores are handed -/

theorem vecSplit : (K (F := F)).VecSplit' (P m X B) 0 := by
  intro d c
  show (bigSep Finset.univ fun s : Fin 16 => goW m X B d (wid (Fin.cast nCore_zero c) s))
    ⊢ |={Set.univ}=> iprop((bigSep Finset.univ fun i : Fin ((K (F := F)).nSub 0) => goW m X B d (wid (Fin.cast nCore_zero c) (Fin.cast nSub_zero i)))
        ∗ ((bigSep Finset.univ fun i : Fin ((K (F := F)).nSub 0) => tdW m X B d (wid (Fin.cast nCore_zero c) (Fin.cast nSub_zero i)))
            -∗ bigSep Finset.univ fun s : Fin 16 => tdW m X B d (wid (Fin.cast nCore_zero c) s)))
  rw [bigSep_tasks (F := F) (fun s => goW m X B d (wid (Fin.cast nCore_zero c) s)),
    bigSep_tasks (F := F) (fun s => tdW m X B d (wid (Fin.cast nCore_zero c) s))]
  iintro H; imodintro
  isplitl [H]; · iexact H
  iintro H; iexact H

end Split

end Cert.KernelIdeal.Hand

end
-- ==== Proof.Launch.lean ====
/-
  Around @main's two calls: the host operations that prepare the projection's operands (the bias tiled eight times into one
  row of 128 lanes, the table transposed) and the one that transposes the gathered result; what the device's twelve arrays
  hold after the host prefix; the assertion the run ends in and what it says of the final memory; the launch's ghost element.
-/
import proofs.«211133_g82480551952782_cont_sun_m_220_25_alg».proof.Proof.Pay
import Idealize.ShloMosaic.Lib.ValueLayout
import Idealize.ShloMosaic.Lib.Pipeline.Value

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held after launchContents)

variable {F : FTy → Type}

local notation "𝕄" => MT nD τ sig (HIx 1) (Elt F) ℕ UU ℕ

variable [FloatOps F]

/-! ## The host operations -/

/-- The five host operations before the projection: the bias [16] as one row, the row copied eight times, the eight rows laid
    end to end, that as one row of 128 lanes; and the table transposed. -/
def hostOps : List (HloOp τ sig (Elt F)) :=
  [StableHlo.reshape main_arg3 main_v0 rfl shapeCasts_S16_S1x16,
   StableHlo.unary main_v0 main_v1 (broadcastInDim S8x16 ![0, 1] bcast_S1x16_S8x16_0_1 : (⟨S1x16, .f32⟩ : BufTy).Contents (Elt F) → (⟨S8x16, .f32⟩ : BufTy).Contents (Elt F)),
   StableHlo.reshape main_v1 main_v2 rfl shapeCasts_S8x16_S128,
   StableHlo.reshape main_v2 main_v3 rfl shapeCasts_S128_S1x128,
   StableHlo.unary main_arg1 main_v4 ((transpose S64x1000000 [1, 0] · transposes_S1000000x64_S64x1000000_1_0) : (⟨S1000000x64, .f32⟩ : BufTy).Contents (Elt F) → (⟨S64x1000000, .f32⟩ : BufTy).Contents (Elt F))]

/-- The host operation after the gather: the result [16, 16384] transposed. -/
def tailOp : HloOp τ sig (Elt F) :=
  StableHlo.unary main_v6 main_v7 ((transpose S16384x16 [1, 0] · transposes_S16x16384_S16384x16_1_0) : (⟨S16x16384, .f32⟩ : BufTy).Contents (Elt F) → (⟨S16384x16, .f32⟩ : BufTy).Contents (Elt F))

/-- @main is its host prefix, the projection, the gather, the last transpose. -/
theorem main_eq (d : Dev nD) :
    main (F := F) d = (StableHlo.seq hostOps >>= fun _ => (Prog.lift (.customCall (SparseCore.inner (Pipeline.entry 0)) ()) >>= fun _ =>
      (sc (F := F)).run d 0 >>= fun _ => (hlo rfl tailOp (fun _ => .ret (⟨⟩ : PUnit)) >>= fun _ => pure (⟨⟩ : PUnit)))) := by
  rfl

section Values

variable (m : (ℓ : Loc nD τ sig) → Buf (Elt F) ℓ) (d : Dev nD)

/-! ## What the host prefix leaves in the arrays -/

/-- The table transposed, [64, 1000000]: the projection's first operand. -/
def Xof : Vec F S64x1000000 .f32 :=
  transpose S64x1000000 [1, 0] (m (tabLoc d) : Vec F S1000000x64 .f32) transposes_S1000000x64_S64x1000000_1_0

/-- The bias tiled eight times into one row of 128 lanes: the projection's third operand. -/
def Bof : Vec F S1x128 .f32 :=
  shapeCast S1x128 (shapeCast S128 (broadcastInDim S8x16 ![0, 1] bcast_S1x16_S8x16_0_1
    (shapeCast S1x16 (m (bLoc d) : Vec F S16 .f32) shapeCasts_S16_S1x16 : Vec F S1x16 .f32) : Vec F S8x16 .f32) shapeCasts_S8x16_S128 : Vec F S128 .f32)
    shapeCasts_S128_S1x128

/-- After the host prefix the transposed table's array holds `Xof`. -/
theorem after_xt : after (hostOps (F := F)) (launchContents m d) (Proc.devRef .tc main_v4) = Xof m d := by
  unfold hostOps
  after_results
  rfl

/-- After the host prefix the tiled bias's array holds `Bof`. -/
theorem after_b128 : after (hostOps (F := F)) (launchContents m d) (Proc.devRef .tc main_v3) = Bof m d := by
  unfold hostOps
  after_results
  rfl

/-- The references the host prefix writes. -/
theorem hostOps_writes : (hostOps (F := F)).Forall fun op =>
    op.writes ⊆ (([main_v0, main_v1, main_v2, main_v3, main_v4] : List (Ref sig .tc)).map (Proc.devRef (τ := τ) .tc)).toFinset := by
  unfold hostOps
  simp only [List.forall_cons, List.Forall, StableHlo.reshape_writes, StableHlo.unary_writes]
  decide

theorem after_arg0 : after (hostOps (F := F)) (launchContents m d) (Proc.devRef .tc main_arg0) = m (d, Proc.devRef .tc main_arg0) :=
  StableHlo.after_of_writes_sub _ _ hostOps_writes (by decide)
theorem after_arg1 : after (hostOps (F := F)) (launchContents m d) (Proc.devRef .tc main_arg1) = m (d, Proc.devRef .tc main_arg1) :=
  StableHlo.after_of_writes_sub _ _ hostOps_writes (by decide)
theorem after_arg2 : after (hostOps (F := F)) (launchContents m d) (Proc.devRef .tc main_arg2) = m (d, Proc.devRef .tc main_arg2) :=
  StableHlo.after_of_writes_sub _ _ hostOps_writes (by decide)
theorem after_arg3 : after (hostOps (F := F)) (launchContents m d) (Proc.devRef .tc main_arg3) = m (d, Proc.devRef .tc main_arg3) :=
  StableHlo.after_of_writes_sub _ _ hostOps_writes (by decide)
theorem after_v5 : after (hostOps (F := F)) (launchContents m d) (Proc.devRef .tc main_v5) = m (d, Proc.devRef .tc main_v5) :=
  StableHlo.after_of_writes_sub _ _ hostOps_writes (by decide)
theorem after_v6 : after (hostOps (F := F)) (launchContents m d) (Proc.devRef .tc main_v6) = m (d, Proc.devRef .tc main_v6) :=
  StableHlo.after_of_writes_sub _ _ hostOps_writes (by decide)
theorem after_v7 : after (hostOps (F := F)) (launchContents m d) (Proc.devRef .tc main_v7) = m (d, Proc.devRef .tc main_v7) :=
  StableHlo.after_of_writes_sub _ _ hostOps_writes (by decide)

/-- The transposed table at `(dd, n)` is the table at `(n, dd)`. -/
theorem Xof_apply (dd : Fin 64) (n : Fin 1000000) : Xof m d (ValueIdx.ix2 dd n) = m (tabLoc d) (ValueIdx.ix2 n dd) :=
  ValueIdx.transpose_ix2_apply (m (tabLoc d) : Vec F S1000000x64 .f32) transposes_S1000000x64_S64x1000000_1_0 dd n

/-- Lane `16 k + o` of the tiled bias is the bias at `o`. -/
theorem Bof_apply (k : Fin 8) (o : Fin 16) :
    Bof m d (ValueIdx.ix2 (0 : Fin 1) (⟨16 * k.val + o.val, by omega⟩ : Fin 128)) = m (bLoc d) (ValueIdx.ix1 o) := by
  unfold Bof
  rw [ValueIdx.shapeCast_a_1a_apply]
  rw [shapeCast_apply _ shapeCasts_S8x16_S128 (ValueIdx.ix1 (⟨16 * k.val + o.val, by omega⟩ : Fin 128)) (ValueIdx.ix2 k o)
    (by rw [Shape.rowMajor_val_two, Shape.rowMajor_val_one]; show k.val * 16 + o.val = 16 * k.val + o.val; omega)]
  rw [broadcastInDim_apply _ bcast_S1x16_S8x16_0_1 _ (ValueIdx.ix2 k o) (ValueIdx.ix2 (0 : Fin 1) o)
    (fun a => match a with | ⟨0, _⟩ => rfl | ⟨1, _⟩ => rfl)]
  exact ValueIdx.shapeCast_a_1a_apply (m (bLoc d) : Vec F S16 .f32) shapeCasts_S16_S1x16 (0 : Fin 1) o

end Values

/-! ## The TensorCore's twelve arrays -/

abbrev dArg0 : DevRef τ sig := Proc.devRef .tc (main_arg0 : Ref sig .tc)
abbrev dArg1 : DevRef τ sig := Proc.devRef .tc (main_arg1 : Ref sig .tc)
abbrev dArg2 : DevRef τ sig := Proc.devRef .tc (main_arg2 : Ref sig .tc)
abbrev dArg3 : DevRef τ sig := Proc.devRef .tc (main_arg3 : Ref sig .tc)
abbrev dV0 : DevRef τ sig := Proc.devRef .tc (main_v0 : Ref sig .tc)
abbrev dV1 : DevRef τ sig := Proc.devRef .tc (main_v1 : Ref sig .tc)
abbrev dV2 : DevRef τ sig := Proc.devRef .tc (main_v2 : Ref sig .tc)
abbrev dV3 : DevRef τ sig := Proc.devRef .tc (main_v3 : Ref sig .tc)
abbrev dV4 : DevRef τ sig := Proc.devRef .tc (main_v4 : Ref sig .tc)
abbrev dV5 : DevRef τ sig := Proc.devRef .tc (main_v5 : Ref sig .tc)
abbrev dV6 : DevRef τ sig := Proc.devRef .tc (main_v6 : Ref sig .tc)
abbrev dV7 : DevRef τ sig := Proc.devRef .tc (main_v7 : Ref sig .tc)

/-- The TensorCore's arrays, all unscoped: @main's four arguments and its eight values. -/
abbrev S12 : Finset (DevRef τ sig) := {dArg0, dArg1, dArg2, dArg3, dV0, dV1, dV2, dV3, dV4, dV5, dV6, dV7}

omit [FloatOps F] in
/-- The twelve arrays held at a valuation, one by one. -/
theorem held_S12 (d : Dev nD) (W : Valuation τ sig (Elt F)) :
    (held (T d) S12 W : sProp 𝕄) = iprop(((SparseCore.T d).loc main_arg0 ↦{fullShare} W dArg0) ∗ ((SparseCore.T d).loc main_arg1 ↦{fullShare} W dArg1)
      ∗ ((SparseCore.T d).loc main_arg2 ↦{fullShare} W dArg2) ∗ ((SparseCore.T d).loc main_arg3 ↦{fullShare} W dArg3)
      ∗ ((SparseCore.T d).loc main_v0 ↦{fullShare} W dV0) ∗ ((SparseCore.T d).loc main_v1 ↦{fullShare} W dV1) ∗ ((SparseCore.T d).loc main_v2 ↦{fullShare} W dV2)
      ∗ ((SparseCore.T d).loc main_v3 ↦{fullShare} W dV3) ∗ ((SparseCore.T d).loc main_v4 ↦{fullShare} W dV4) ∗ ((SparseCore.T d).loc main_v5 ↦{fullShare} W dV5)
      ∗ ((SparseCore.T d).loc main_v6 ↦{fullShare} W dV6) ∗ ((SparseCore.T d).loc main_v7 ↦{fullShare} W dV7)) := by
  unfold held S12
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

omit [FloatOps F] in
/-- The launch's unscoped arrays, one by one. -/
theorem unscopedBufs_eq (d : Dev nD) (W : (b : Ref sig .tc) → Buf (Elt F) ((d.tc : Thread nD τ).loc b)) :
    (unscopedBufs d W : sProp 𝕄) = iprop(((SparseCore.T d).loc main_arg0 ↦{fullShare} W main_arg0) ∗ ((SparseCore.T d).loc main_arg1 ↦{fullShare} W main_arg1)
      ∗ ((SparseCore.T d).loc main_arg2 ↦{fullShare} W main_arg2) ∗ ((SparseCore.T d).loc main_arg3 ↦{fullShare} W main_arg3)
      ∗ ((SparseCore.T d).loc main_v0 ↦{fullShare} W main_v0) ∗ ((SparseCore.T d).loc main_v1 ↦{fullShare} W main_v1) ∗ ((SparseCore.T d).loc main_v2 ↦{fullShare} W main_v2)
      ∗ ((SparseCore.T d).loc main_v3 ↦{fullShare} W main_v3) ∗ ((SparseCore.T d).loc main_v4 ↦{fullShare} W main_v4) ∗ ((SparseCore.T d).loc main_v5 ↦{fullShare} W main_v5)
      ∗ ((SparseCore.T d).loc main_v6 ↦{fullShare} W main_v6) ∗ ((SparseCore.T d).loc main_v7 ↦{fullShare} W main_v7)) := by
  unfold unscopedBufs
  rw [show (Finset.univ.filter fun b : Ref sig .tc => ¬ b.isScoped)
      = {main_arg0, main_arg1, main_arg2, main_arg3, main_v0, main_v1, main_v2, main_v3, main_v4, main_v5, main_v6, main_v7} by decide +kernel,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

omit [FloatOps F] in
/-- What the launch deals the TensorCore of its arrays is the twelve held at the launch contents. -/
theorem unscoped_held (m : (ℓ : Loc nD τ sig) → Buf (Elt F) ℓ) (d : Dev nD) :
    (unscopedBufs d (fun b => m ((SparseCore.T d).loc b)) : sProp 𝕄) = held (T d) S12 (launchContents m d) := by
  rw [unscopedBufs_eq, held_S12]

/-- Every host operation of the prefix touches arrays among the twelve only, -/
theorem hostOps_sub : ∀ op ∈ hostOps (F := F), op.bufs ⊆ S12 := by
  intro op hop
  simp only [hostOps, List.mem_cons, List.not_mem_nil, or_false] at hop
  rcases hop with rfl | rfl | rfl | rfl | rfl
  · exact show ({dArg3, dV0} : Finset (DevRef τ sig)) ⊆ S12 by decide
  · exact show ({dV0, dV1} : Finset (DevRef τ sig)) ⊆ S12 by decide
  · exact show ({dV1, dV2} : Finset (DevRef τ sig)) ⊆ S12 by decide
  · exact show ({dV2, dV3} : Finset (DevRef τ sig)) ⊆ S12 by decide
  · exact show ({dArg1, dV4} : Finset (DevRef τ sig)) ⊆ S12 by decide
/-- and leaves no array at contents it does not determine. -/
theorem hostOps_fresh : ∀ op ∈ hostOps (F := F), op.fresh = ∅ := by
  intro op hop
  simp only [hostOps, List.mem_cons, List.not_mem_nil, or_false] at hop
  rcases hop with rfl | rfl | rfl | rfl | rfl <;> rfl
/-- So does the last transpose. -/
theorem tailOp_sub : (tailOp (F := F)).bufs ⊆ S12 := show ({dV6, dV7} : Finset (DevRef τ sig)) ⊆ S12 by decide
theorem tailOp_fresh : (tailOp (F := F)).fresh = ∅ := rfl

section Final

variable (m : (ℓ : Loc nD τ sig) → Buf (Elt F) ℓ)

/-! ## The assertion the run ends in, and what it says of the final memory -/

/-- What the gather leaves in the result [16, 16384]: at each entry, the lane of `y` the entry's node id names, for some
    contents of `y` the projection can have left from the transposed table, the weights and the tiled bias. -/
def outOK (d : Dev nD) (f : Buf (Elt F) (oLoc d)) : Prop :=
  ∀ i : S16x16384.Idx, ∃ Y : Buf (Elt F) (yLoc d), Yspec (Xof m d) (m (wLoc d)) (Bof m d) Y ∧ f i = OUTT Y (m (idsLoc d)) i

/-- The last host operation: the gathered result transposed, [16384, 16]. -/
def resOf (f : Vec F S16x16384 .f32) : Vec F S16384x16 .f32 := transpose S16384x16 [1, 0] f transposes_S16x16384_S16384x16_1_0

/-- The transposed result at `(j, o)` is the gathered result at `(o, j)`. -/
theorem resOf_apply (f : Vec F S16x16384 .f32) (j : Fin 16384) (o : Fin 16) : resOf f (ValueIdx.ix2 j o) = f (ValueIdx.ix2 o j) :=
  ValueIdx.transpose_ix2_apply f transposes_S16x16384_S16384x16_1_0 j o

/-- What @main ends holding: its four arguments at their launch contents, and its result the transpose of a gathered result. -/
def FIN (d : Dev nD) : sProp 𝕄 :=
  iprop((idsLoc d ↦{fullShare} m (idsLoc d)) ∗ (tabLoc d ↦{fullShare} m (tabLoc d)) ∗ (wLoc d ↦{fullShare} m (wLoc d))
    ∗ (bLoc d ↦{fullShare} m (bLoc d)) ∗ ∃ f : Buf (Elt F) (oLoc d), ⌜outOK m d f⌝ ∗ (rLoc d ↦{fullShare} resOf f))

/-- The same of the final memory. -/
def fq (d : Dev nD) (s' : Phys nD τ sig (Elt F)) : Prop :=
  s'.mem.mem (idsLoc d) = m (idsLoc d) ∧ s'.mem.mem (tabLoc d) = m (tabLoc d) ∧ s'.mem.mem (wLoc d) = m (wLoc d)
    ∧ s'.mem.mem (bLoc d) = m (bLoc d) ∧ ∃ f : Buf (Elt F) (oLoc d), outOK m d f ∧ s'.mem.mem (rLoc d) = resOf f

theorem hfin (d : Dev nD) (s' : Phys nD τ sig (Elt F)) : iprop(FIN m d ∗ SI s') ⊢ (⌜fq m d s'⌝ : sProp 𝕄) := by
  unfold FIN
  iintro ⟨⟨Hi, Ht, Hw, Hb, %f, %hf, Hr⟩, HSI⟩
  ihave H := (persistent_entails_right (SI_pointsTo_agree (st := s') (ℓ := idsLoc d) (I := Finset.univ) (q := fullShare) (f := m (idsLoc d)))) $$ [HSI Hi]
  · isplitl [HSI] <;> iassumption
  icases H with ⟨%h1, HSI, -⟩
  ihave H := (persistent_entails_right (SI_pointsTo_agree (st := s') (ℓ := tabLoc d) (I := Finset.univ) (q := fullShare) (f := m (tabLoc d)))) $$ [HSI Ht]
  · isplitl [HSI] <;> iassumption
  icases H with ⟨%h2, HSI, -⟩
  ihave H := (persistent_entails_right (SI_pointsTo_agree (st := s') (ℓ := wLoc d) (I := Finset.univ) (q := fullShare) (f := m (wLoc d)))) $$ [HSI Hw]
  · isplitl [HSI] <;> iassumption
  icases H with ⟨%h3, HSI, -⟩
  ihave H := (persistent_entails_right (SI_pointsTo_agree (st := s') (ℓ := bLoc d) (I := Finset.univ) (q := fullShare) (f := m (bLoc d)))) $$ [HSI Hb]
  · isplitl [HSI] <;> iassumption
  icases H with ⟨%h4, HSI, -⟩
  ihave H := (SI_pointsTo_agree (st := s') (ℓ := rLoc d) (I := Finset.univ) (q := fullShare) (f := (resOf f : Buf (Elt F) (rLoc d)))) $$ [HSI Hr]
  · isplitl [HSI] <;> iassumption
  icases H with %h5
  ipureintro
  exact ⟨funext fun (i : Idx (idsLoc d)) => h1 i (Finset.mem_univ i), funext fun (i : Idx (tabLoc d)) => h2 i (Finset.mem_univ i),
    funext fun (i : Idx (wLoc d)) => h3 i (Finset.mem_univ i), funext fun (i : Idx (bLoc d)) => h4 i (Finset.mem_univ i),
    f, hf, funext fun (i : Idx (rLoc d)) => h5 i (Finset.mem_univ i)⟩

end Final

/-! ## The launch element: the handshakes' rounds, the staging cells' rounds, no transfer counted -/

def u₀ : UU := (initOf (K (F := F)).hsCells (K (F := F)).hsToks,
  (initOf (Pipeline.cells cfgs Gen.cellOf_inj) (Pipeline.launchToks cfgs Gen.cellOf_inj), 1))

/-- What the launch deals a device of the projection's pipeline: its staging cells' launch states and its duty tokens. -/
def G (d : Dev nD) : sProp 𝕄 := iprop(Pipeline.cellsGhost cfgs (EP (F := F)) 0 d ∗ Pipeline.toksInit cfgs (EP (F := F)) 0 d)

omit [FloatOps F] in
/-- The pipeline's ghost state, dealt per device and per pipeline, is each device's `G` (there is one pipeline). -/
theorem ghost_regroup :
    (iprop((bigSep Finset.univ fun c : Dev nD => bigSep Finset.univ fun p : Fin 1 => Pipeline.cellsGhost cfgs (EP (F := F)) p c)
      ∗ (bigSep Finset.univ fun c : Dev nD => bigSep Finset.univ fun p : Fin 1 => (Pipeline.toksInit cfgs (EP (F := F)) p c : sProp 𝕄))) : sProp 𝕄)
      = bigSep Finset.univ fun d : Dev nD => G (F := F) d := by
  unfold G
  rw [bigSep_sep']
  congr 1 <;> exact bigSep_congr fun c _ => bigSep_univ_of_subsingleton (0 : Fin 1)

omit [FloatOps F] in
/-- The pipeline's and the counters' halves of the launch element, each owned through its own embedding. -/
theorem own_pair_EP (a : UP) (b : Counters) :
    (BI.own ((embR : Emb (UP × Counters) 𝕄) (a, b)) : sProp 𝕄)
      ⊢ iprop(BI.own (EP (F := F) a) ∗ BI.own (((Emb.inr : Emb Counters (UP × Counters)).trans (embR : Emb (UP × Counters) 𝕄)) b)) := by
  unfold EP
  exact own_pair_emb (embR : Emb (UP × Counters) 𝕄) a b

omit [FloatOps F] in
theorem bigSep_emp' {I : Type} (s : Finset I) : (bigSep s fun _ => iprop(emp)) = (iprop(emp) : sProp 𝕄) := bigSep_emp_const s

theorem hu₀ (m : (ℓ : Loc nD τ sig) → Buf (Elt F) ℓ) (X : Dev nD → Vec F S64x1000000 .f32) (B : Dev nD → Vec F S1x128 .f32) :
    (ownU (u₀ (F := F)) : sProp 𝕄)
      ⊢ |={Set.univ}=> iprop(BI.own (EH (initOf (K (F := F)).hsCells (K (F := F)).hsToks)) ∗ (bigSep Finset.univ fun d : Dev nD => G (F := F) d)
          ∗ bigSep Finset.univ fun thr : Thread nD τ => bigSep Finset.univ fun q : Fin 1 => (P m X B).x q thr) := by
  unfold u₀
  iintro Hu
  ihave H := (ownU_pair _ _) $$ Hu
  icases H with ⟨HH, HR⟩
  ihave H2 := (own_pair_EP (F := F) _ _) $$ HR
  icases H2 with ⟨HP, -⟩
  ihave H3 := (Pipeline.fund_ghost cfgs (EP (F := F)) Gen.cellOf_inj) $$ HP
  imod H3 with H3
  imodintro
  isplitl [HH]; · iexact HH
  isplitl [H3]
  · rw [← ghost_regroup]; iexact H3
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.KernelIdeal.Hand

end
-- ==== Proof.Main.lean ====
/-
  @main on a TensorCore and the program's run. @main is: five host operations (the bias tiled into one row of 128 lanes,
  the table transposed), the projection's region, the gather's call on the two SparseCores' 32 vector subcores, and the
  transpose of the gathered result. The run is the SparseCore launch theorem applied to @main's proof, the gather kernel's
  obligation, the split of the call's operands among the subcores, and the launch element.
-/
import proofs.«211133_g82480551952782_cont_sun_m_220_25_alg».proof.Proof.Region
import proofs.«211133_g82480551952782_cont_sun_m_220_25_alg».proof.Proof.Split
import proofs.«211133_g82480551952782_cont_sun_m_220_25_alg».proof.Proof.Launch
import Idealize.ShloMosaic.Lib.SparseCore.Launch
import Idealize.ShloMosaic.Lib.StableHlo.Run

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held after launchContents wp_hlo_within wp_seq)

variable {F : FTy → Type} [FloatOps F]

local notation "𝕄" => MT nD τ sig (HIx 1) (Elt F) ℕ UU ℕ

section Main

variable (m : (ℓ : Loc nD τ sig) → Buf (Elt F) ℓ) (ρ : Dev nD → PrngReg)

/-- The TensorCore's state before call n, its debts apart: its position on its done cell, the rounds reached, the later
    calls' start tokens and done credit. -/
def tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_eq (d : Dev nD) (n : ℕ) :
    (K (F := F)).tcSt EH d n
      = iprop((∃ W, ⌜(K (F := F)).WBelow (T d) W (8 * n)⌝ ∗ owes (T d) ((K (F := F)).Otc d n) W) ∗ tcRest (F := F) d n) := rfl

/-- Every debt of the TensorCore sits at a call's index. -/
theorem hO_tc (d : Dev nD) (n : ℕ) : ∀ g, (K (F := F)).Otc d n g none = 0 := fun g =>
  Nat.eq_zero_of_not_pos fun h => by
    have := (K (F := F)).lev_of_Otc_pos h
    rw [SparseCore.Cfg.lev_none] at this
    omega

/-- What the twelve arrays hold after the host prefix, one by one. -/
theorem held_after (d : Dev nD) :
    (held (T d) S12 (after (hostOps (F := F)) (launchContents m d)) : sProp 𝕄)
      = iprop((idsLoc d ↦{fullShare} m (idsLoc d)) ∗ (tabLoc d ↦{fullShare} m (tabLoc d)) ∗ (wLoc d ↦{fullShare} m (wLoc d)) ∗ (bLoc d ↦{fullShare} m (bLoc d))
        ∗ ((SparseCore.T d).loc main_v0 ↦{fullShare} after (hostOps (F := F)) (launchContents m d) dV0)
        ∗ ((SparseCore.T d).loc main_v1 ↦{fullShare} after (hostOps (F := F)) (launchContents m d) dV1)
        ∗ ((SparseCore.T d).loc main_v2 ↦{fullShare} after (hostOps (F := F)) (launchContents m d) dV2)
        ∗ (b128Loc d ↦{fullShare} Bof m d) ∗ (xtLoc d ↦{fullShare} Xof m d) ∗ (yLoc d ↦{fullShare} m (yLoc d))
        ∗ (oLoc d ↦{fullShare} m (oLoc d)) ∗ (rLoc d ↦{fullShare} m (rLoc d))) := by
  rw [held_S12, after_xt, after_b128, after_arg0, after_arg1, after_arg2, after_arg3, after_v5, after_v6, after_v7]

/-- The last transpose's two arrays. -/
abbrev S2 : Finset (DevRef τ sig) := {dV6, dV7}
theorem tailOp_sub2 : (tailOp (F := F)).bufs ⊆ S2 := show ({dV6, dV7} : Finset (DevRef τ sig)) ⊆ S2 by decide

omit [FloatOps F] in
theorem held_S2 (d : Dev nD) (Wv : Valuation τ sig (Elt F)) :
    (held (T d) S2 Wv : sProp 𝕄) = iprop((oLoc d ↦{fullShare} Wv dV6) ∗ (rLoc d ↦{fullShare} Wv dV7)) := by
  unfold held S2
  rw [SparseCore.bigSep_insert' (by decide), bigSep_singleton]

/-- The launch valuation with the gathered result at what the call left. -/
def Vt (d : Dev nD) (f : Buf (Elt F) (oLoc d)) : Valuation τ sig (Elt F) := Function.update (launchContents m d) dV6 f
theorem Vt_6 (d : Dev nD) (f : Buf (Elt F) (oLoc d)) : Vt m d f dV6 = f := Function.update_self _ _ _
theorem Vt_7 (d : Dev nD) (f : Buf (Elt F) (oLoc d)) : Vt m d f dV7 = m (rLoc d) := Function.update_of_ne (show dV7 ≠ dV6 by decide) _ _

theorem held_S2_result (d : Dev nD) (f : Buf (Elt F) (oLoc d)) :
    (held (T d) S2 ((tailOp (F := F)).result (Vt m d f)) : sProp 𝕄) = iprop((oLoc d ↦{fullShare} f) ∗ (rLoc d ↦{fullShare} resOf f)) := by
  rw [held_S2]
  unfold tailOp
  rw [StableHlo.unary_result, StableHlo.unary_result_ne _ _ _ _ _ _ (show main_v6 ≠ main_v7 by decide), Vt_6]
  rfl

end Main

section Hmain

variable (m : (ℓ : Loc nD τ sig) → Buf (Elt F) ℓ) (ρ : Dev nD → PrngReg)

-- the region's and the call's rules are stated over any thread and body table: applying them at the TensorCore's takes
-- unfolding plain definitions in a metavariable's type
set_option backward.isDefEq.respectTransparency.types false in
/-- @main on device d's TensorCore: the host prefix over the twelve arrays; the projection's region, from the transposed
    table, the weights, the tiled bias and the result's array, its debts all at a call's index; the gather's call, the
    result, the node ids and the output split among the 32 workers and joined back; the last transpose. The inputs are
    kept; the output's array ends at the transpose of what the gather left. -/
theorem hmain (κ : GSem nD τ sig → ℕ) (d : Dev nD) :
    iprop((K (F := F)).ctx EH (P m (Xof m) (Bof m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes G
  rw [unscoped_held, main_eq, tcSt_eq (F := F) d 0]
  iintro ⟨#Hctx, ⟨⟨%W, %hW, HO⟩, Hrest⟩, ⟨Hb, Hheld, -, -⟩, ⟨Hg, Ht⟩⟩
  ihave Hlev := (SparseCore.Cfg.ctx_levAts (K := K (F := F)) (EH := EH) (P := P m (Xof m) (Bof m)) κ) $$ Hctx
  -- the host prefix
  iapply (wp_seq 𝒱 none Set.univ d S12 _ (hostOps (F := F)) hostOps_sub hostOps_fresh (launchContents m d)) $$ [Hb Hheld]
  · isplitl [Hb]; · iexact Hb
    iexact Hheld
  iintro ⟨Hb, Hheld⟩
  ihave Hh := (Entails.of_eq (held_after (F := F) m d)) $$ Hheld
  icases Hh with ⟨Hids, Htab, Hw, Hbias, -, -, -, Hb128, Hxt, Hy, Ho, Hr⟩
  -- the projection's region
  rw [wp_bind]
  iapply (region_wp d (Xof m d) (m (wLoc d)) (Bof m d) (m (yLoc d)) ((K (F := F)).Otc d 0) W (hO_tc (F := F) d 0))
    $$ [HO Hrest Hb Hg Ht Hids Htab Hw Hbias Hb128 Hxt Hy Ho Hr]
  isplitr; · iexact Hlev
  isplitl [Hb]; · iexact Hb
  isplitl [Hg]; · iexact Hg
  isplitl [Ht]; · iexact Ht
  isplitl [Hxt]; · iexact Hxt
  isplitl [Hw]; · iexact Hw
  isplitl [Hb128]; · iexact Hb128
  isplitl [Hy]; · iexact Hy
  isplitl [HO]; · iexact HO
  iintro %Y %hY ⟨Hb, -, Hw, -, Hy, %W', %hW', HO⟩
  -- the gather's call: y, the node ids and the output to the 32 workers and back
  ihave Hst0 := (st_split m (Xof m) (Bof m) d Y hY) $$ [Hy Hids Ho]
  · isplitl [Hy]; · iexact Hy
    isplitl [Hids]; · iexact Hids
    iexact Ho
  icases Hst0 with ⟨-, Hst0⟩
  rw [wp_bind]
  iapply ((K (F := F)).wp_run (D (F := F)) 𝒱 (EH := EH) (P := P m (Xof m) (Bof m)) κ d 0) $$ [HO Hrest Hst0 Hb Htab Hw Hbias Hr]
  isplitr; · iexact Hctx
  isplitl [HO Hrest]
  · rw [tcSt_eq (F := F) d]
    isplitl [HO]
    · iexists W'
      isplitr
      · ipureintro
        intro p hp
        rcases hW' p hp with h | h
        · exact hW p h
        · rw [h, SparseCore.Cfg.lev_none]; exact Nat.zero_le _
      iexact HO
    iexact Hrest
  isplitl [Hst0]; · iexact Hst0
  iintro ⟨Hst1, Hdn⟩
  ihave Hdn' := (dn_join m (Xof m) (Bof m) d) $$ Hdn
  icases Hdn' with ⟨Hids, %f, Ho, %hf⟩
  -- the last transpose
  rw [wp_bind]
  iapply (wp_hlo_within 𝒱 (SparseCore.T d) none Set.univ (op := tailOp (F := F)) (S := S2) tailOp_sub2 (V := Vt m d f)) $$ [Hb Ho Hr]
  · isplitl [Hb]; · iexact Hb
    rw [held_S2, Vt_6, Vt_7]
    isplitl [Ho]; · iexact Ho
    iexact Hr
  iintro ⟨Hb, Hheld⟩
  ihave Hh := (Entails.of_eq (held_S2_result (F := F) m d f)) $$ Hheld
  icases Hh with ⟨-, Hr⟩
  rw [wp_ret]; imodintro
  rw [wp_pure]; imodintro
  isplitl [Hst1]; · iexact Hst1
  unfold FIN
  isplitl [Hids]; · iexact Hids
  isplitl [Htab]; · iexact Htab
  isplitl [Hw]; · iexact Hw
  isplitl [Hbias]; · iexact Hbias
  iexists f
  isplitr; · ipureintro; exact hf
  iexact Hr

end Hmain

section Run

variable (m : (ℓ : Loc nD τ sig) → Buf (Elt F) ℓ) (ρ : Dev nD → PrngReg)

/-- What the run leaves: on every device the four inputs as launched, and the output's array at the transpose of a
    gathered result that holds, at each entry, the lane of the projection's result the entry's node id names. -/
def QC (r : PUnit × MemSt nD τ sig (Elt F)) : Prop :=
  ∀ c : Dev nD, r.2.mem (idsLoc c) = m (idsLoc c) ∧ r.2.mem (tabLoc c) = m (tabLoc c) ∧ r.2.mem (wLoc c) = m (wLoc c)
    ∧ r.2.mem (bLoc c) = m (bLoc c) ∧ ∃ f : Buf (Elt F) (oLoc c), outOK m c f ∧ r.2.mem (rLoc c) = resOf f

/-- The program's run, given the gather kernel's obligation on a vector subcore: from the launch memory, with every
    semaphore counter at zero, every weakly fair execution of the mesh's threads terminates, in a memory QC holds of. -/
theorem run_main_of [∀ e, Nonempty (Elt F e)]
    (htile : (K (F := F)).TileObl (D (F := F)) 𝒱 (P m (Xof m) (Bof m)) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m (Xof m) (Bof m)) facts v₀
    (fun q hq => match q with | 0 => nomatch hq)
    (fun q _ => match q with | 0 => htile)
    (fun q _ => match q with | 0 => SparseCore.Cfg.VecSplit.of_plain (vecSplit m (Xof m) (Bof m)))
    m ρ main (fun d => G (F := F) d) (FIN m) (u₀ (F := F)) (sep_elim_left.trans (hu₀ m (Xof m) (Bof m))) (hmain m ρ) (fq m) (hfin m) (QC m) (fun _ h => h)

end Run

end Cert.KernelIdeal.Hand

end
-- ==== Proof.LibIdxOps.lean ====
/-
  Reading an indexed scatter into tile memory at an index: with every lane's mask bit set and no accumulation, the
  base's contents after `storeIdx` hold lane `x`'s value at the element lane `x` names, when no later lane names the
  same element, and the old contents at an element no lane names.
-/
import Idealize.ShloMosaic.PureOps

noncomputable section

namespace Idealize.ShloMosaic.LibIdxOps

variable {F : FTy → Type} [FloatOps F] {s : Shape} {e : EltTy} {d : Fin 1 → Nat}

/-- One lane's step of the scatter, unmasked and not accumulating. -/
private def step (idxs : Fin s.rank → IVec ⟨1, d⟩ 32) (v : Vec F ⟨1, d⟩ e) (h : ∀ a x, (idxs a x).toNat < s.size a)
    (g : Vec F s e) (k : Fin (d 0)) : Vec F s e :=
  fun j => if (∀ a, (j a).val = ((idxAt idxs h (Shape.ofLane k)) a).val) then v (Shape.ofLane k) else g j

private theorem storeIdx_eq_foldl (f : Vec F s e) (idxs : Fin s.rank → IVec ⟨1, d⟩ 32) (v : Vec F ⟨1, d⟩ e)
    (h : ∀ a x, (idxs a x).toNat < s.size a) :
    storeIdx f idxs v (fun _ => 1#1) false h = (List.finRange (d 0)).foldl (step idxs v h) f := by
  unfold storeIdx step
  simp

private theorem foldl_miss (idxs : Fin s.rank → IVec ⟨1, d⟩ 32) (v : Vec F ⟨1, d⟩ e) (h : ∀ a x, (idxs a x).toNat < s.size a)
    (j : s.Idx) : ∀ (Ls : List (Fin (d 0))) (f : Vec F s e), (∀ k ∈ Ls, idxAt idxs h (Shape.ofLane k) ≠ j) →
      Ls.foldl (step idxs v h) f j = f j
  | [], _, _ => rfl
  | k :: Ls, f, hm => by
    rw [List.foldl_cons, foldl_miss idxs v h j Ls _ fun k' hk' => hm k' (List.mem_cons_of_mem _ hk')]
    unfold step
    rw [if_neg]
    intro hj
    exact hm k List.mem_cons_self (funext fun a => Fin.ext (hj a).symm)

/-- An element no lane names keeps its contents. -/
theorem storeIdx_miss (f : Vec F s e) (idxs : Fin s.rank → IVec ⟨1, d⟩ 32) (v : Vec F ⟨1, d⟩ e)
    (h : ∀ a x, (idxs a x).toNat < s.size a) (j : s.Idx) (hj : ∀ k : Fin (d 0), idxAt idxs h (Shape.ofLane k) ≠ j) :
    storeIdx f idxs v (fun _ => 1#1) false h j = f j := by
  rw [storeIdx_eq_foldl]; exact foldl_miss idxs v h j _ f fun k _ => hj k

private theorem foldl_hit (idxs : Fin s.rank → IVec ⟨1, d⟩ 32) (v : Vec F ⟨1, d⟩ e) (h : ∀ a x, (idxs a x).toNat < s.size a)
    (k₀ : Fin (d 0)) (hinj : ∀ k, idxAt idxs h (Shape.ofLane k) = idxAt idxs h (Shape.ofLane k₀) → k = k₀) :
    ∀ (Ls : List (Fin (d 0))) (f : Vec F s e), Ls.Nodup → k₀ ∈ Ls →
      Ls.foldl (step idxs v h) f (idxAt idxs h (Shape.ofLane k₀)) = v (Shape.ofLane k₀)
  | [], _, _, hm => absurd hm List.not_mem_nil
  | k :: Ls, f, hnd, hm => by
    rw [List.foldl_cons]
    rcases List.mem_cons.mp hm with rfl | hm'
    · rw [foldl_miss idxs v h _ Ls _ fun k' hk' e => (List.nodup_cons.mp hnd).1 ((hinj k' e) ▸ hk')]
      unfold step
      rw [if_pos fun _ => rfl]
    · exact foldl_hit idxs v h k₀ hinj Ls _ (List.nodup_cons.mp hnd).2 hm'

/-- The element lane `k₀` names holds lane `k₀`'s value, when no other lane names it. -/
theorem storeIdx_hit (f : Vec F s e) (idxs : Fin s.rank → IVec ⟨1, d⟩ 32) (v : Vec F ⟨1, d⟩ e)
    (h : ∀ a x, (idxs a x).toNat < s.size a) (k₀ : Fin (d 0))
    (hinj : ∀ k, idxAt idxs h (Shape.ofLane k) = idxAt idxs h (Shape.ofLane k₀) → k = k₀) :
    storeIdx f idxs v (fun _ => 1#1) false h (idxAt idxs h (Shape.ofLane k₀)) = v (Shape.ofLane k₀) := by
  rw [storeIdx_eq_foldl]; exact foldl_hit idxs v h k₀ hinj _ f (List.nodup_finRange _) (List.mem_finRange _)

end Idealize.ShloMosaic.LibIdxOps

end
-- ==== Proof.TileIdx.lean ====
import proofs.«211133_g82480551952782_cont_sun_m_220_25_alg».proof.Proof.Setup
import proofs.«211133_g82480551952782_cont_sun_m_220_25_alg».proof.Proof.LibIdxOps
import Idealize.ShloMosaic.Lib.Pipeline.Value

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "yV" => (Memref.whole Cert.KernelIdeal.main_v5_scv : Memref Cert.KernelIdeal.sig Kind.scVector Space.hbm Cert.KernelIdeal.S126976x128 EltTy.f32)
local notation "iV" => (Memref.whole Cert.KernelIdeal.main_arg0_scv : Memref Cert.KernelIdeal.sig Kind.scVector Space.hbm Cert.KernelIdeal.S16384 EltTy.i32)
local notation "oV" => (Memref.whole Cert.KernelIdeal.main_v6_scv : Memref Cert.KernelIdeal.sig Kind.scVector Space.hbm Cert.KernelIdeal.S16x16384 EltTy.f32)
local notation "s0V" => (Memref.whole Cert.KernelIdeal.cc1_scratch0 : Memref Cert.KernelIdeal.sig Kind.scVector Space.vmem Cert.KernelIdeal.S512 EltTy.i32)
local notation "s1V" => (Memref.whole Cert.KernelIdeal.cc1_scratch1 : Memref Cert.KernelIdeal.sig Kind.scVector Space.vmem Cert.KernelIdeal.S512 EltTy.i32)
local notation "s2V" => (Memref.whole Cert.KernelIdeal.cc1_scratch2 : Memref Cert.KernelIdeal.sig Kind.scVector Space.vmem Cert.KernelIdeal.S512x128 EltTy.f32)
local notation "s3V" => (Memref.whole Cert.KernelIdeal.cc1_scratch3 : Memref Cert.KernelIdeal.sig Kind.scVector Space.vmem Cert.KernelIdeal.S16x512 EltTy.f32)

variable [FloatOps F]

section Tile

variable (d : Dev nD) (L : grid1.Coords)

abbrev cV (L : grid1.Coords) : Fin τ.nSC := (L 0).castLE hcore1
abbrev jV (L : grid1.Coords) : Fin τ.nSub := (L 1).castLE hsub1
abbrev VT (d : Dev nD) (L : grid1.Coords) : Thread nD τ := V d (cV L) (jV L)

/-- The task's 512 node ids, and its 512 columns of the result, as the body slices them. -/
abbrev idsRect (L : grid1.Coords) : Rect S16384 := Rect.unit (s := S16384) (k1_off1 L) S512.size (k1_off1_inb L)
abbrev outRect (L : grid1.Coords) : Rect S16x16384 := Rect.unit (s := S16x16384) (k1_off4 L) S16x512.size (k1_off4_inb L)
abbrev idsK (L : grid1.Coords) : Memref sig .scVector .hbm S512 .i32 := (iV).slice (idsRect L) (fun _ => rfl)
abbrev outK (L : grid1.Coords) : Memref sig .scVector .hbm S16x512 .f32 := (oV).slice (outRect L) (fun _ => rfl)

/-! ## The select loop's index vectors, lane by lane -/

omit [FloatOps F] in
theorem trips2 : k1_t2_loop.trips = 32 := by decide
omit [FloatOps F] in
theorem trips1 : k1_t1_loop.trips = 32 := by decide

omit [FloatOps F] in
/-- Lane `x` of the trip's row indices is `16 k + x`. -/
theorem v19_toNat (k : Fin k1_t2_loop.trips) (x : S16.Idx) :
    (k1_pay10 (iota .scVector S16 32 [0] iota_S16_d0_w32_scVector) 0#32 1#32 k x).toNat = 16 * k.val + (x 0).val := by
  have hk : k.val < 32 := lt_of_lt_of_eq k.isLt trips2
  have hx : (x 0).val < 16 := (x 0).isLt
  simp only [k1_pay10, addi, IntOp.addi, broadcast, Scalar.muli, IntOp.muli, Scf.iv, iota, List.foldl, BitVec.toNat_add, BitVec.toNat_mul, BitVec.toNat_ofNat]
  omega

omit [FloatOps F] in
theorem v19_lt (k : Fin k1_t2_loop.trips) (x : S16.Idx) : (k1_pay10 (iota .scVector S16 32 [0] iota_S16_d0_w32_scVector) 0#32 1#32 k x).toNat < 512 := by
  have hk : k.val < 32 := lt_of_lt_of_eq k.isLt trips2
  have hx : (x 0).val < 16 := (x 0).isLt
  rw [v19_toNat]; omega

omit [FloatOps F] in
/-- The first lane of a node's sixteen is a multiple of 16 at most 112, whatever the word. -/
theorem sub_toNat_le (n : BitVec 32) : (sub n).toNat ≤ 112 ∧ (sub n).toNat % 16 = 0 := by
  unfold sub
  have h : ((n.sshiftRight 12) &&& 7#32).toNat ≤ 7 := by
    rw [BitVec.toNat_and]; exact Nat.and_le_right
  rw [BitVec.toNat_mul]
  simp only [BitVec.toNat_ofNat]
  omega

omit [FloatOps F] in
theorem sub_add_toNat (n : BitVec 32) (o : Nat) (ho : o < 16) : (sub n + BitVec.ofNat 32 o).toNat = (sub n).toNat + o := by
  have := sub_toNat_le n
  rw [BitVec.toNat_add, BitVec.toNat_ofNat]
  omega

omit [FloatOps F] in
/-- The side condition of an indexed load of the row buffer [512, 128], and of an indexed store into the selection [16, 512]. -/
theorem chk_load (v19 vcol : IVec S16 32) (h19 : ∀ x, (v19 x).toNat < 512) (hc : ∀ x, (vcol x).toNat < 128) :
    ∀ a x, ((![v19, vcol] : Fin 2 → IVec S16 32) a x).toNat < S512x128.size a := by
  intro a x
  match a with
  | ⟨0, _⟩ => exact h19 x
  | ⟨1, _⟩ => exact hc x
omit [FloatOps F] in
theorem chk_store (vo v19 : IVec S16 32) (ho : ∀ x, (vo x).toNat < 16) (h19 : ∀ x, (v19 x).toNat < 512) :
    ∀ a x, ((![vo, v19] : Fin 2 → IVec S16 32) a x).toNat < S16x512.size a := by
  intro a x
  match a with
  | ⟨0, _⟩ => exact ho x
  | ⟨1, _⟩ => exact h19 x

end Tile

end Cert.KernelIdeal.Hand

end
-- ==== Proof.TileChk.lean ====
/-
  The select loop's sixteen indexed loads and stores, one group per output row `o`: lane `x` of the load's column indices
  is `sub n + o` for the lane's node id `n`, every lane of the store's row indices is `o`, and the side conditions the body
  assumes of them hold of every word.
-/
import proofs.«211133_g82480551952782_cont_sun_m_220_25_alg».proof.Proof.TileIdx

noncomputable section

namespace Cert.KernelIdeal.Hand

open Cert.KernelIdeal Cert.KernelIdeal.Gen
open Idealize.ShloMosaic

variable {F : FTy → Type}

theorem col0_toNat (v10 : Vec F S16 .i32) (x : S16.Idx) : ((k1_pay11 (F := F) v10) x).toNat = (sub (v10 x)).toNat + 0 :=
  sub_add_toNat (v10 x) 0 (by decide)

theorem row0_toNat (x : S16.Idx) : ((k1_pay12 (iota .scVector S16 32 [0] iota_S16_d0_w32_scVector)) x).toNat = 0 := by
  show ((iota .scVector S16 32 [0] iota_S16_d0_w32_scVector) x * 0#32 + 0#32).toNat = 0
  rw [BitVec.mul_zero, BitVec.zero_add]; rfl

theorem chk1_all (v10 : Vec F S16 .i32) (k : Fin k1_t2_loop.trips) :
    k1_chk1 (k1_pay10 (iota .scVector S16 32 [0] iota_S16_d0_w32_scVector) 0#32 1#32 k) (k1_pay11 (F := F) v10) :=
  chk_load _ _ (v19_lt k) fun x => by rw [col0_toNat]; have := sub_toNat_le (v10 x); omega

theorem chk2_all (k : Fin k1_t2_loop.trips) :
    k1_chk2 (k1_pay10 (iota .scVector S16 32 [0] iota_S16_d0_w32_scVector) 0#32 1#32 k) (k1_pay12 (iota .scVector S16 32 [0] iota_S16_d0_w32_scVector)) :=
  chk_store _ _ (fun x => by rw [row0_toNat]; decide) (v19_lt k)

theorem col1_toNat (v10 : Vec F S16 .i32) (x : S16.Idx) : ((k1_pay13 (F := F) v10) x).toNat = (sub (v10 x)).toNat + 1 :=
  sub_add_toNat (v10 x) 1 (by decide)

theorem row1_toNat (x : S16.Idx) : ((k1_pay14 (iota .scVector S16 32 [0] iota_S16_d0_w32_scVector)) x).toNat = 1 := by
  show ((iota .scVector S16 32 [0] iota_S16_d0_w32_scVector) x * 0#32 + 1#32).toNat = 1
  rw [BitVec.mul_zero, BitVec.zero_add]; rfl

theorem chk3_all (v10 : Vec F S16 .i32) (k : Fin k1_t2_loop.trips) :
    k1_chk3 (k1_pay10 (iota .scVector S16 32 [0] iota_S16_d0_w32_scVector) 0#32 1#32 k) (k1_pay13 (F := F) v10) :=
  chk_load _ _ (v19_lt k) fun x => by rw [col1_toNat]; have := sub_toNat_le (v10 x); omega

theorem chk4_all (k : Fin k1_t2_loop.trips) :
    k1_chk4 (k1_pay10 (iota .scVector S16 32 [0] iota_S16_d0_w32_scVector) 0#32 1#32 k) (k1_pay14 (iota .scVector S16 32 [0] iota_S16_d0_w32_scVector)) :=
  chk_store _ _ (fun x => by rw [row1_toNat]; decide) (v19_lt k)

theorem col2_toNat (v10 : Vec F S16 .i32) (x : S16.Idx) : ((k1_pay15 (F := F) v10) x).toNat = (sub (v10 x)).toNat + 2 :=
  sub_add_toNat (v10 x) 2 (by decide)

theorem row2_toNat (x : S16.Idx) : ((k1_pay16 (iota .scVector S16 32 [0] iota_S16_d0_w32_scVector)) x).toNat = 2 := by
  show ((iota .scVector S16 32 [0] iota_S16_d0_w32_scVector) x * 0#32 + 2#32).toNat = 2
  rw [BitVec.mul_zero, BitVec.zero_add]; rfl

theorem chk5_all (v10 : Vec F S16 .i32) (k : Fin k1_t2_loop.trips) :
    k1_chk5 (k1_pay10 (iota .scVector S16 32 [0] iota_S16_d0_w32_scVector) 0#32 1#32 k) (k1_pay15 (F := F) v10) :=
  chk_load _ _ (v19_lt k) fun x => by rw [col2_toNat]; have := sub_toNat_le (v10 x); omega

theorem chk6_all (k : Fin k1_t2_loop.trips) :
    k1_chk6 (k1_pay10 (iota .scVector S16 32 [0] iota_S16_d0_w32_scVector) 0#32 1#32 k) (k1_pay16 (iota .scVector S16 32 [0] iota_S16_d0_w32_scVector)) :=
  chk_store _ _ (fun x => by rw [row2_toNat]; decide) (v19_lt k)

theorem col3_toNat (v10 : Vec F S16 .i32) (x : S16.Idx) : ((k1_pay17 (F := F) v10) x).toNat = (sub (v10 x)).toNat + 3 :=
  sub_add_toNat (v10 x) 3 (by decide)

theorem row3_toNat (x : S16.Idx) : ((k1_pay18 (iota .scVector S16 32 [0] iota_S16_d0_w32_scVector)) x).toNat = 3 := by
  show ((iota .scVector S16 32 [0] iota_S16_d0_w32_scVector) x * 0#32 + 3#32).toNat = 3
  rw [BitVec.mul_zero, BitVec.zero_add]; rfl

theorem chk7_all (v10 : Vec F S16 .i32) (k : Fin k1_t2_loop.trips) :
    k1_chk7 (k1_pay10 (iota .scVector S16 32 [0] iota_S16_d0_w32_scVector) 0#32 1#32 k) (k1_pay17 (F := F) v10) :=
  chk_load _ _ (v19_lt k) fun x => by rw [col3_toNat]; have := sub_toNat_le (v10 x); omega

theorem chk8_all (k : Fin k1_t2_loop.trips) :
    k1_chk8 (k1_pay10 (iota .scVector S16 32 [0] iota_S16_d0_w32_scVector) 0#32 1#32 k) (k1_pay18 (iota .scVector S16 32 [0] iota_S16_d0_w32_scVector)) :=
  chk_store _ _ (fun x => by rw [row3_toNat]; decide) (v19_lt k)

theorem col4_toNat (v10 : Vec F S16 .i32) (x : S16.Idx) : ((k1_pay19 (k1_pay9 (F := F) v10)) x).toNat = (sub (v10 x)).toNat + 4 :=
  sub_add_toNat (v10 x) 4 (by decide)

theorem row4_toNat (x : S16.Idx) : ((k1_pay20 (iota .scVector S16 32 [0] iota_S16_d0_w32_scVector)) x).toNat = 4 := by
  show ((iota .scVector S16 32 [0] iota_S16_d0_w32_scVector) x * 0#32 + 4#32).toNat = 4
  rw [BitVec.mul_zero, BitVec.zero_add]; rfl

theorem chk9_all (v10 : Vec F S16 .i32) (k : Fin k1_t2_loop.trips) :
    k1_chk9 (k1_pay10 (iota .scVector S16 32 [0] iota_S16_d0_w32_scVector) 0#32 1#32 k) (k1_pay19 (k1_pay9 (F := F) v10)) :=
  chk_load _ _ (v19_lt k) fun x => by rw [col4_toNat]; have := sub_toNat_le (v10 x); omega

theorem chk10_all (k : Fin k1_t2_loop.trips) :
    k1_chk10 (k1_pay10 (iota .scVector S16 32 [0] iota_S16_d0_w32_scVector) 0#32 1#32 k) (k1_pay20 (iota .scVector S16 32 [0] iota_S16_d0_w32_scVector)) :=
  chk_store _ _ (fun x => by rw [row4_toNat]; decide) (v19_lt k)

theorem col5_toNat (v10 : Vec F S16 .i32) (x : S16.Idx) : ((k1_pay21 (k1_pay9 (F := F) v10)) x).toNat = (sub (v10 x)).toNat + 5 :=
  sub_add_toNat (v10 x) 5 (by decide)

theorem row5_toNat (x : S16.Idx) : ((k1_pay22 (iota .scVector S16 32 [0] iota_S16_d0_w32_scVector)) x).toNat = 5 := by
  show ((iota .scVector S16 32 [0] iota_S16_d0_w32_scVector) x * 0#32 + 5#32).toNat = 5
  rw [BitVec.mul_zero, BitVec.zero_add]; rfl

theorem chk11_all (v10 : Vec F S16 .i32) (k : Fin k1_t2_loop.trips) :
    k1_chk11 (k1_pay10 (iota .scVector S16 32 [0] iota_S16_d0_w32_scVector) 0#32 1#32 k) (k1_pay21 (k1_pay9 (F := F) v10)) :=
  chk_load _ _ (v19_lt k) fun x => by rw [col5_toNat]; have := sub_toNat_le (v10 x); omega

theorem chk12_all (k : Fin k1_t2_loop.trips) :
    k1_chk12 (k1_pay10 (iota .scVector S16 32 [0] iota_S16_d0_w32_scVector) 0#32 1#32 k) (k1_pay22 (iota .scVector S16 32 [0] iota_S16_d0_w32_scVector)) :=
  chk_store _ _ (fun x => by rw [row5_toNat]; decide) (v19_lt k)

theorem col6_toNat (v10 : Vec F S16 .i32) (x : S16.Idx) : ((k1_pay23 (k1_pay9 (F := F) v10)) x).toNat = (sub (v10 x)).toNat + 6 :=
  sub_add_toNat (v10 x) 6 (by decide)

theorem row6_toNat (x : S16.Idx) : ((k1_pay24 (iota .scVector S16 32 [0] iota_S16_d0_w32_scVector)) x).toNat = 6 := by
  show ((iota .scVector S16 32 [0] iota_S16_d0_w32_scVector) x * 0#32 + 6#32).toNat = 6
  rw [BitVec.mul_zero, BitVec.zero_add]; rfl

theorem chk13_all (v10 : Vec F S16 .i32) (k : Fin k1_t2_loop.trips) :
    k1_chk13 (k1_pay10 (iota .scVector S16 32 [0] iota_S16_d0_w32_scVector) 0#32 1#32 k) (k1_pay23 (k1_pay9 (F := F) v10)) :=
  chk_load _ _ (v19_lt k) fun x => by rw [col6_toNat]; have := sub_toNat_le (v10 x); omega

theorem chk14_all (k : Fin k1_t2_loop.trips) :
    k1_chk14 (k1_pay10 (iota .scVector S16 32 [0] iota_S16_d0_w32_scVector) 0#32 1#32 k) (k1_pay24 (iota .scVector S16 32 [0] iota_S16_d0_w32_scVector)) :=
  chk_store _ _ (fun x => by rw [row6_toNat]; decide) (v19_lt k)

theorem col7_toNat (v10 : Vec F S16 .i32) (x : S16.Idx) : ((k1_pay25 (k1_pay9 (F := F) v10)) x).toNat = (sub (v10 x)).toNat + 7 :=
  sub_add_toNat (v10 x) 7 (by decide)

theorem row7_toNat (x : S16.Idx) : ((k1_pay26 (iota .scVector S16 32 [0] iota_S16_d0_w32_scVector)) x).toNat = 7 := by
  show ((iota .scVector S16 32 [0] iota_S16_d0_w32_scVector) x * 0#32 + 7#32).toNat = 7
  rw [BitVec.mul_zero, BitVec.zero_add]; rfl

theorem chk15_all (v10 : Vec F S16 .i32) (k : Fin k1_t2_loop.trips) :
    k1_chk15 (k1_pay10 (iota .scVector S16 32 [0] iota_S16_d0_w32_scVector) 0#32 1#32 k) (k1_pay25 (k1_pay9 (F := F) v10)) :=
  chk_load _ _ (v19_lt k) fun x => by rw [col7_toNat]; have := sub_toNat_le (v10 x); omega

theorem chk16_all (k : Fin k1_t2_loop.trips) :
    k1_chk16 (k1_pay10 (iota .scVector S16 32 [0] iota_S16_d0_w32_scVector) 0#32 1#32 k) (k1_pay26 (iota .scVector S16 32 [0] iota_S16_d0_w32_scVector)) :=
  chk_store _ _ (fun x => by rw [row7_toNat]; decide) (v19_lt k)

theorem col8_toNat (v10 : Vec F S16 .i32) (x : S16.Idx) : ((k1_pay27 (k1_pay9 (F := F) v10)) x).toNat = (sub (v10 x)).toNat + 8 :=
  sub_add_toNat (v10 x) 8 (by decide)

theorem row8_toNat (x : S16.Idx) : ((k1_pay28 (iota .scVector S16 32 [0] iota_S16_d0_w32_scVector)) x).toNat = 8 := by
  show ((iota .scVector S16 32 [0] iota_S16_d0_w32_scVector) x * 0#32 + 8#32).toNat = 8
  rw [BitVec.mul_zero, BitVec.zero_add]; rfl

theorem chk17_all (v10 : Vec F S16 .i32) (k : Fin k1_t2_loop.trips) :
    k1_chk17 (k1_pay10 (iota .scVector S16 32 [0] iota_S16_d0_w32_scVector) 0#32 1#32 k) (k1_pay27 (k1_pay9 (F := F) v10)) :=
  chk_load _ _ (v19_lt k) fun x => by rw [col8_toNat]; have := sub_toNat_le (v10 x); omega

theorem chk18_all (k : Fin k1_t2_loop.trips) :
    k1_chk18 (k1_pay10 (iota .scVector S16 32 [0] iota_S16_d0_w32_scVector) 0#32 1#32 k) (k1_pay28 (iota .scVector S16 32 [0] iota_S16_d0_w32_scVector)) :=
  chk_store _ _ (fun x => by rw [row8_toNat]; decide) (v19_lt k)

theorem col9_toNat (v10 : Vec F S16 .i32) (x : S16.Idx) : ((k1_pay29 (k1_pay9 (F := F) v10)) x).toNat = (sub (v10 x)).toNat + 9 :=
  sub_add_toNat (v10 x) 9 (by decide)

theorem row9_toNat (x : S16.Idx) : ((k1_pay30 (iota .scVector S16 32 [0] iota_S16_d0_w32_scVector)) x).toNat = 9 := by
  show ((iota .scVector S16 32 [0] iota_S16_d0_w32_scVector) x * 0#32 + 9#32).toNat = 9
  rw [BitVec.mul_zero, BitVec.zero_add]; rfl

theorem chk19_all (v10 : Vec F S16 .i32) (k : Fin k1_t2_loop.trips) :
    k1_chk19 (k1_pay10 (iota .scVector S16 32 [0] iota_S16_d0_w32_scVector) 0#32 1#32 k) (k1_pay29 (k1_pay9 (F := F) v10)) :=
  chk_load _ _ (v19_lt k) fun x => by rw [col9_toNat]; have := sub_toNat_le (v10 x); omega

theorem chk20_all (k : Fin k1_t2_loop.trips) :
    k1_chk20 (k1_pay10 (iota .scVector S16 32 [0] iota_S16_d0_w32_scVector) 0#32 1#32 k) (k1_pay30 (iota .scVector S16 32 [0] iota_S16_d0_w32_scVector)) :=
  chk_store _ _ (fun x => by rw [row9_toNat]; decide) (v19_lt k)

theorem col10_toNat (v10 : Vec F S16 .i32) (x : S16.Idx) : ((k1_pay31 (k1_pay9 (F := F) v10)) x).toNat = (sub (v10 x)).toNat + 10 :=
  sub_add_toNat (v10 x) 10 (by decide)

theorem row10_toNat (x : S16.Idx) : ((k1_pay32 (iota .scVector S16 32 [0] iota_S16_d0_w32_scVector)) x).toNat = 10 := by
  show ((iota .scVector S16 32 [0] iota_S16_d0_w32_scVector) x * 0#32 + 10#32).toNat = 10
  rw [BitVec.mul_zero, BitVec.zero_add]; rfl

theorem chk21_all (v10 : Vec F S16 .i32) (k : Fin k1_t2_loop.trips) :
    k1_chk21 (k1_pay10 (iota .scVector S16 32 [0] iota_S16_d0_w32_scVector) 0#32 1#32 k) (k1_pay31 (k1_pay9 (F := F) v10)) :=
  chk_load _ _ (v19_lt k) fun x => by rw [col10_toNat]; have := sub_toNat_le (v10 x); omega

theorem chk22_all (k : Fin k1_t2_loop.trips) :
    k1_chk22 (k1_pay10 (iota .scVector S16 32 [0] iota_S16_d0_w32_scVector) 0#32 1#32 k) (k1_pay32 (iota .scVector S16 32 [0] iota_S16_d0_w32_scVector)) :=
  chk_store _ _ (fun x => by rw [row10_toNat]; decide) (v19_lt k)

theorem col11_toNat (v10 : Vec F S16 .i32) (x : S16.Idx) : ((k1_pay33 (k1_pay9 (F := F) v10)) x).toNat = (sub (v10 x)).toNat + 11 :=
  sub_add_toNat (v10 x) 11 (by decide)

theorem row11_toNat (x : S16.Idx) : ((k1_pay34 (iota .scVector S16 32 [0] iota_S16_d0_w32_scVector)) x).toNat = 11 := by
  show ((iota .scVector S16 32 [0] iota_S16_d0_w32_scVector) x * 0#32 + 11#32).toNat = 11
  rw [BitVec.mul_zero, BitVec.zero_add]; rfl

theorem chk23_all (v10 : Vec F S16 .i32) (k : Fin k1_t2_loop.trips) :
    k1_chk23 (k1_pay10 (iota .scVector S16 32 [0] iota_S16_d0_w32_scVector) 0#32 1#32 k) (k1_pay33 (k1_pay9 (F := F) v10)) :=
  chk_load _ _ (v19_lt k) fun x => by rw [col11_toNat]; have := sub_toNat_le (v10 x); omega

theorem chk24_all (k : Fin k1_t2_loop.trips) :
    k1_chk24 (k1_pay10 (iota .scVector S16 32 [0] iota_S16_d0_w32_scVector) 0#32 1#32 k) (k1_pay34 (iota .scVector S16 32 [0] iota_S16_d0_w32_scVector)) :=
  chk_store _ _ (fun x => by rw [row11_toNat]; decide) (v19_lt k)

theorem col12_toNat (v10 : Vec F S16 .i32) (x : S16.Idx) : ((k1_pay35 (k1_pay9 (F := F) v10)) x).toNat = (sub (v10 x)).toNat + 12 :=
  sub_add_toNat (v10 x) 12 (by decide)

theorem row12_toNat (x : S16.Idx) : ((k1_pay2 0#32) x).toNat = 12 := by
  show ((iota .scVector S16 32 [0] iota_S16_d0_w32_scVector) x * 0#32 + 12#32).toNat = 12
  rw [BitVec.mul_zero, BitVec.zero_add]; rfl

theorem chk25_all (v10 : Vec F S16 .i32) (k : Fin k1_t2_loop.trips) :
    k1_chk25 (k1_pay10 (iota .scVector S16 32 [0] iota_S16_d0_w32_scVector) 0#32 1#32 k) (k1_pay35 (k1_pay9 (F := F) v10)) :=
  chk_load _ _ (v19_lt k) fun x => by rw [col12_toNat]; have := sub_toNat_le (v10 x); omega

theorem chk26_all (k : Fin k1_t2_loop.trips) :
    k1_chk26 (k1_pay10 (iota .scVector S16 32 [0] iota_S16_d0_w32_scVector) 0#32 1#32 k) (k1_pay2 0#32) :=
  chk_store _ _ (fun x => by rw [row12_toNat]; decide) (v19_lt k)

theorem col13_toNat (v10 : Vec F S16 .i32) (x : S16.Idx) : ((k1_pay3 (k1_pay9 (F := F) v10)) x).toNat = (sub (v10 x)).toNat + 13 :=
  sub_add_toNat (v10 x) 13 (by decide)

theorem row13_toNat (x : S16.Idx) : ((k1_pay4) x).toNat = 13 := by
  show ((iota .scVector S16 32 [0] iota_S16_d0_w32_scVector) x * 0#32 + 13#32).toNat = 13
  rw [BitVec.mul_zero, BitVec.zero_add]; rfl

theorem chk27_all (v10 : Vec F S16 .i32) (k : Fin k1_t2_loop.trips) :
    k1_chk27 (k1_pay10 (iota .scVector S16 32 [0] iota_S16_d0_w32_scVector) 0#32 1#32 k) (k1_pay3 (k1_pay9 (F := F) v10)) :=
  chk_load _ _ (v19_lt k) fun x => by rw [col13_toNat]; have := sub_toNat_le (v10 x); omega

theorem chk28_all (k : Fin k1_t2_loop.trips) :
    k1_chk28 (k1_pay10 (iota .scVector S16 32 [0] iota_S16_d0_w32_scVector) 0#32 1#32 k) (k1_pay4) :=
  chk_store _ _ (fun x => by rw [row13_toNat]; decide) (v19_lt k)

theorem col14_toNat (v10 : Vec F S16 .i32) (x : S16.Idx) : ((k1_pay5 (k1_pay9 (F := F) v10)) x).toNat = (sub (v10 x)).toNat + 14 :=
  sub_add_toNat (v10 x) 14 (by decide)

theorem row14_toNat (x : S16.Idx) : ((k1_pay6) x).toNat = 14 := by
  show ((iota .scVector S16 32 [0] iota_S16_d0_w32_scVector) x * 0#32 + 14#32).toNat = 14
  rw [BitVec.mul_zero, BitVec.zero_add]; rfl

theorem chk29_all (v10 : Vec F S16 .i32) (k : Fin k1_t2_loop.trips) :
    k1_chk29 (k1_pay10 (iota .scVector S16 32 [0] iota_S16_d0_w32_scVector) 0#32 1#32 k) (k1_pay5 (k1_pay9 (F := F) v10)) :=
  chk_load _ _ (v19_lt k) fun x => by rw [col14_toNat]; have := sub_toNat_le (v10 x); omega

theorem chk30_all (k : Fin k1_t2_loop.trips) :
    k1_chk30 (k1_pay10 (iota .scVector S16 32 [0] iota_S16_d0_w32_scVector) 0#32 1#32 k) (k1_pay6) :=
  chk_store _ _ (fun x => by rw [row14_toNat]; decide) (v19_lt k)

theorem col15_toNat (v10 : Vec F S16 .i32) (x : S16.Idx) : ((k1_pay7 (k1_pay9 (F := F) v10)) x).toNat = (sub (v10 x)).toNat + 15 :=
  sub_add_toNat (v10 x) 15 (by decide)

theorem row15_toNat (x : S16.Idx) : ((k1_pay8) x).toNat = 15 := by
  show ((iota .scVector S16 32 [0] iota_S16_d0_w32_scVector) x * 0#32 + 15#32).toNat = 15
  rw [BitVec.mul_zero, BitVec.zero_add]; rfl

theorem chk31_all (v10 : Vec F S16 .i32) (k : Fin k1_t2_loop.trips) :
    k1_chk31 (k1_pay10 (iota .scVector S16 32 [0] iota_S16_d0_w32_scVector) 0#32 1#32 k) (k1_pay7 (k1_pay9 (F := F) v10)) :=
  chk_load _ _ (v19_lt k) fun x => by rw [col15_toNat]; have := sub_toNat_le (v10 x); omega

theorem chk32_all (k : Fin k1_t2_loop.trips) :
    k1_chk32 (k1_pay10 (iota .scVector S16 32 [0] iota_S16_d0_w32_scVector) 0#32 1#32 k) (k1_pay8) :=
  chk_store _ _ (fun x => by rw [row15_toNat]; decide) (v19_lt k)

end Cert.KernelIdeal.Hand

end
-- ==== Proof.TileVal.lean ====
/-
  What one indexed load-and-store pair of the select loop does to the selection buffer, read entry by entry.
-/
import proofs.«211133_g82480551952782_cont_sun_m_220_25_alg».proof.Proof.TileChk

noncomputable section

namespace Cert.KernelIdeal.Hand

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

local notation "s0V" => (Memref.whole Cert.KernelIdeal.cc1_scratch0 : Memref Cert.KernelIdeal.sig Kind.scVector Space.vmem Cert.KernelIdeal.S512 EltTy.i32)
local notation "s2V" => (Memref.whole Cert.KernelIdeal.cc1_scratch2 : Memref Cert.KernelIdeal.sig Kind.scVector Space.vmem Cert.KernelIdeal.S512x128 EltTy.f32)
local notation "s3V" => (Memref.whole Cert.KernelIdeal.cc1_scratch3 : Memref Cert.KernelIdeal.sig Kind.scVector Space.vmem Cert.KernelIdeal.S16x512 EltTy.f32)

variable [FloatOps F]

/-- The row buffer read at natural-number coordinates (at its first entry outside its extents). -/
def Rat (R : Vec F S512x128 .f32) (row col : Nat) : Elt F .f32 :=
  if h : row < 512 ∧ col < 128 then R (ValueIdx.ix2 ⟨row, h.1⟩ ⟨col, h.2⟩) else R (ValueIdx.ix2 ⟨0, by decide⟩ ⟨0, by decide⟩)

/-- What the select loop puts at entry `(o, j)` of the selection buffer: lane `sub (ids j) + o` of row `j` of the row buffer. -/
def selT (R : Vec F S512x128 .f32) (G0 : IVec S512 32) (o : Fin 16) (j : Fin 512) : Elt F .f32 :=
  Rat R j.val ((sub (G0 (ValueIdx.ix1 j))).toNat + o.val)

/-- The loop's progress: columns below `16 k` are done for every row `o`, columns `16 k ‥ 16 k + 15` for the rows below `o`. -/
def selQ (R : Vec F S512x128 .f32) (G0 : IVec S512 32) (k o : Nat) (g : Vec F S16x512 .f32) : Prop :=
  ∀ (o' : Fin 16) (j' : Fin 512), (j'.val < 16 * k ∨ (j'.val < 16 * k + 16 ∧ o'.val < o)) → g (ValueIdx.ix2 o' j') = selT R G0 o' j'

omit [FloatOps F] in
/-- The sixteen node ids a trip loads are entries `16 k ‥ 16 k + 15` of the id buffer. -/
theorem v10K_apply (G0 : IVec S512 32) (k : Fin k1_t2_loop.trips) (x : S16.Idx) (h : 16 * k.val + (x 0).val < 512) :
    ((s0V).view.readAt (Elt F) (Rect.unit (s := S512) (k1_off3 k) S16.size (k1_off3_inb k)).toLoadRect G0) x
      = G0 (ValueIdx.ix1 ⟨16 * k.val + (x 0).val, h⟩) := by
  rw [View.readAt_apply]
  show G0 _ = G0 _
  refine congrArg G0 ((ValueIdx.eq_ix1 (n := 512) _).trans (congrArg ValueIdx.ix1 (Fin.ext ?_)))
  show (k1_off3 k) 0 + 1 * (x 0).val = 16 * k.val + (x 0).val
  rw [k1_off3_eq]
  show 16 * k.val + 1 * (x 0).val = 16 * k.val + (x 0).val
  omega

/-- One pair: the selection buffer after the indexed store of the indexed load, abstracted to its progress. -/
theorem pair_abs (d : Dev nD) (thr : Thread nD τ) (R : Vec F S512x128 .f32) (G0 : IVec S512 32) (k : Fin k1_t2_loop.trips) (o : Fin 16)
    (g : Vec F S16x512 .f32) (hQ : selQ R G0 k.val o.val g)
    (rv cv colv : IVec S16 32) (hrv : ∀ x, (rv x).toNat = o.val) (hcv : ∀ x, (cv x).toNat = 16 * k.val + (x 0).val)
    (hcol : ∀ x : S16.Idx, ∀ h : 16 * k.val + (x 0).val < 512, (colv x).toNat = (sub (G0 (ValueIdx.ix1 ⟨16 * k.val + (x 0).val, h⟩))).toNat + o.val)
    (h1 : ∀ a x, ((![cv, colv] : Fin 2 → IVec S16 32) a x).toNat < S512x128.size a)
    (h2 : ∀ a x, ((![rv, cv] : Fin 2 → IVec S16 32) a x).toNat < S16x512.size a) :
    selQ R G0 k.val (o.val + 1)
      (((s3V).access (.whole S16x512)).write (Elt F) g
        (storeIdx (((s3V).access (.whole S16x512)).read (Elt F) g) ![rv, cv]
          (loadIdx (((s2V).access (.whole S512x128)).read (Elt F) R) ![cv, colv] h1) (fun _ => 1#1) false h2) Finset.univ) := by
  have hk : k.val < 32 := lt_of_lt_of_eq k.isLt trips2
  have ew : ∀ w, ((s3V).access (.whole S16x512)).write (Elt F) g w Finset.univ = w := fun w => Memref.write_access_whole_univ (Elt F) cc1_scratch3 g w
  have er3 : ((s3V).access (.whole S16x512)).read (Elt F) g = g := Memref.read_access_whole (Elt F) cc1_scratch3 g
  have er2 : ((s2V).access (.whole S512x128)).read (Elt F) R = R := Memref.read_access_whole (Elt F) cc1_scratch2 R
  rw [ew, er3, er2]
  intro o' j' hc
  by_cases hit : o' = o ∧ 16 * k.val ≤ j'.val ∧ j'.val < 16 * k.val + 16
  · obtain ⟨rfl, hlo, hhi⟩ := hit
    -- the lane that names this entry
    let k₀ : Fin 16 := ⟨j'.val - 16 * k.val, by omega⟩
    have hx0 : ((Shape.ofLane (d := ![16]) k₀ : S16.Idx) 0).val = j'.val - 16 * k.val := rfl
    have hidx : idxAt ![rv, cv] h2 (Shape.ofLane (d := ![16]) k₀) = ValueIdx.ix2 o' j' := by
      funext a; apply Fin.ext
      match a with
      | ⟨0, _⟩ => show (rv _).toNat = o'.val; exact hrv _
      | ⟨1, _⟩ => show (cv _).toNat = j'.val; rw [hcv, hx0]; omega
    rw [← hidx, LibIdxOps.storeIdx_hit g ![rv, cv] (loadIdx R ![cv, colv] h1) h2 k₀ (fun k' e => by
      have := congrArg (fun i : S16x512.Idx => (i 1).val) e
      simp only [idxAt] at this
      have e1 : (cv (Shape.ofLane (d := ![16]) k')).toNat = (cv (Shape.ofLane (d := ![16]) k₀)).toNat := this
      rw [hcv, hcv] at e1
      apply Fin.ext
      have a1 : ((Shape.ofLane (d := ![16]) k' : S16.Idx) 0).val = k'.val := rfl
      have a2 : ((Shape.ofLane (d := ![16]) k₀ : S16.Idx) 0).val = k₀.val := rfl
      omega)]
    unfold loadIdx selT Rat
    have hrow : (cv (Shape.ofLane (d := ![16]) k₀)).toNat = j'.val := by rw [hcv, hx0]; omega
    have hcl : (colv (Shape.ofLane (d := ![16]) k₀)).toNat = (sub (G0 (ValueIdx.ix1 j'))).toNat + o'.val := by
      rw [hcol _ (by rw [hx0]; omega)]
      have ej : (⟨16 * k.val + ((Shape.ofLane (d := ![16]) k₀ : S16.Idx) 0).val, by rw [hx0]; omega⟩ : Fin 512) = j' :=
        Fin.ext (by show 16 * k.val + ((Shape.ofLane (d := ![16]) k₀ : S16.Idx) 0).val = j'.val; rw [hx0]; omega)
      rw [ej]
    have hlt : (sub (G0 (ValueIdx.ix1 j'))).toNat + o'.val < 128 := by have := sub_toNat_le (G0 (ValueIdx.ix1 j')); omega
    rw [dif_pos ⟨j'.isLt, hlt⟩]
    congr 1
    funext a; apply Fin.ext
    match a with
    | ⟨0, _⟩ => exact hrow
    | ⟨1, _⟩ => exact hcl
  · rw [LibIdxOps.storeIdx_miss g ![rv, cv] (loadIdx R ![cv, colv] h1) h2 _ (fun k' e => hit (by
      have e0 := congrArg (fun i : S16x512.Idx => (i 0).val) e
      have e1 := congrArg (fun i : S16x512.Idx => (i 1).val) e
      simp only [idxAt] at e0 e1
      have e0' : (rv (Shape.ofLane (d := ![16]) k')).toNat = o'.val := e0
      have e1' : (cv (Shape.ofLane (d := ![16]) k')).toNat = j'.val := e1
      rw [hrv] at e0'; rw [hcv] at e1'
      have a1 : ((Shape.ofLane (d := ![16]) k' : S16.Idx) 0).val = k'.val := rfl
      have := k'.isLt
      exact ⟨Fin.ext e0'.symm, by omega, by omega⟩))]
    refine hQ o' j' ?_
    rcases hc with hc | ⟨hc1, hc2⟩
    · exact .inl hc
    · by_cases hj : j'.val < 16 * k.val
      · exact .inl hj
      · refine .inr ⟨hc1, ?_⟩
        by_contra hno
        exact hit ⟨Fin.ext (by omega), by omega, hc1⟩

/-- A finished trip: all sixteen rows of its columns done is the next trip's start. -/
theorem selQ_next (R : Vec F S512x128 .f32) (G0 : IVec S512 32) (k : Nat) (g : Vec F S16x512 .f32) (h : selQ R G0 k 16 g) : selQ R G0 (k + 1) 0 g := by
  intro o' j' hc
  refine h o' j' ?_
  rcases hc with hc | ⟨_, hc2⟩
  · by_cases hj : j'.val < 16 * k
    · exact .inl hj
    · exact .inr ⟨by omega, o'.isLt⟩
  · exact absurd hc2 (Nat.not_lt_zero _)

theorem selQ_zero (R : Vec F S512x128 .f32) (G0 : IVec S512 32) (g : Vec F S16x512 .f32) : selQ R G0 0 0 g := by
  intro o' j' hc
  rcases hc with hc | ⟨_, hc2⟩
  · exact absurd hc (by omega)
  · exact absurd hc2 (Nat.not_lt_zero _)

end Cert.KernelIdeal.Hand

end
-- ==== Proof.TileInv.lean ====
import proofs.«211133_g82480551952782_cont_sun_m_220_25_alg».proof.Proof.TileVal
import proofs.«211133_g82480551952782_cont_sun_m_220_25_alg».proof.Proof.Pay
import proofs.«211133_g82480551952782_cont_sun_m_220_25_alg».proof.Proof.BitFacts
import Idealize.ShloMosaic.Lib.Pipeline.Value

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "yV" => (Memref.whole Cert.KernelIdeal.main_v5_scv : Memref Cert.KernelIdeal.sig Kind.scVector Space.hbm Cert.KernelIdeal.S126976x128 EltTy.f32)
local notation "iV" => (Memref.whole Cert.KernelIdeal.main_arg0_scv : Memref Cert.KernelIdeal.sig Kind.scVector Space.hbm Cert.KernelIdeal.S16384 EltTy.i32)
local notation "oV" => (Memref.whole Cert.KernelIdeal.main_v6_scv : Memref Cert.KernelIdeal.sig Kind.scVector Space.hbm Cert.KernelIdeal.S16x16384 EltTy.f32)
local notation "s0V" => (Memref.whole Cert.KernelIdeal.cc1_scratch0 : Memref Cert.KernelIdeal.sig Kind.scVector Space.vmem Cert.KernelIdeal.S512 EltTy.i32)
local notation "s1V" => (Memref.whole Cert.KernelIdeal.cc1_scratch1 : Memref Cert.KernelIdeal.sig Kind.scVector Space.vmem Cert.KernelIdeal.S512 EltTy.i32)
local notation "s2V" => (Memref.whole Cert.KernelIdeal.cc1_scratch2 : Memref Cert.KernelIdeal.sig Kind.scVector Space.vmem Cert.KernelIdeal.S512x128 EltTy.f32)
local notation "s3V" => (Memref.whole Cert.KernelIdeal.cc1_scratch3 : Memref Cert.KernelIdeal.sig Kind.scVector Space.vmem Cert.KernelIdeal.S16x512 EltTy.f32)

variable [FloatOps F]

section Tile

variable (d : Dev nD) (L : grid1.Coords)
/-! ## The vector subcore's task -/

omit [FloatOps F] in
theorem pts_s2 (f : Buf (Elt F) ((s2V).view.loc (VT d L))) :
    ((s2V).view.loc (VT d L) ↦[(s2V).view.set]{fullShare} f : sProp 𝕄) = (((s2V).access (.whole S512x128)).loc (VT d L) ↦{fullShare} f) := by
  rw [View.set_whole]
omit [FloatOps F] in
theorem pts_s3 (f : Buf (Elt F) ((s3V).view.loc (VT d L))) :
    ((s3V).view.loc (VT d L) ↦[(s3V).view.set]{fullShare} f : sProp 𝕄) = (((s3V).access (.whole S16x512)).loc (VT d L) ↦[((s3V).access (.whole S16x512)).set]{fullShare} f) := by
  rw [View.set_whole, show ((s3V).access (.whole S16x512)).set = Finset.univ from Memref.set_access_whole cc1_scratch3]

/-- The sixteen node ids trip `k` of the select loop loads. -/
abbrev v10K (G0 : IVec S512 32) (k : Fin k1_t2_loop.trips) : Vec F S16 .i32 :=
  (s0V).view.readAt (Elt F) (Rect.unit (s := S512) (k1_off3 k) S16.size (k1_off3_inb k)).toLoadRect G0

omit [FloatOps F] in
/-- A buffer's contents named afresh, with the equation kept: what lets a long term be carried as a variable. -/
theorem pts_exists_eq {ℓ : Loc nD τ sig} {I : Finset (Idx ℓ)} {q : PosShare TreeShare} (f : Buf (Elt F) ℓ) :
    (ℓ ↦[I]{q} f : sProp 𝕄) ⊢ iprop(∃ y : Buf (Elt F) ℓ, ⌜y = f⌝ ∗ (ℓ ↦[I]{q} y)) := by
  iintro H
  iexists f
  isplitr
  · ipureintro; rfl
  · iexact H

/-- Loop 1's invariant: after `k` trips the first `16 k` entries of the row list are the rows the ids name. -/
def inv1 (G0 : Buf (Elt F) ((s0V).view.loc (VT d L))) (k : Nat) (_ : PUnit) : sProp 𝕄 :=
  iprop(((s0V).view.loc (VT d L) ↦[(s0V).view.set]{fullShare} G0)
    ∗ ∃ g : Buf (Elt F) ((s1V).view.loc (VT d L)), ((s1V).view.loc (VT d L) ↦[(s1V).view.set]{fullShare} g)
        ∗ ⌜∀ j : Fin 512, j.val < 16 * k → g (ValueIdx.ix1 j) = gid (G0 (ValueIdx.ix1 j))⌝)

/-- Loop 2's invariant: the id buffer and the row buffer held, the selection buffer at its progress. -/
def inv2 (G0 : Buf (Elt F) ((s0V).view.loc (VT d L))) (R : Buf (Elt F) ((s2V).view.loc (VT d L))) (k : Nat) (_ : PUnit) : sProp 𝕄 :=
  iprop(((s0V).view.loc (VT d L) ↦[(s0V).view.set]{fullShare} G0)
    ∗ ((s2V).view.loc (VT d L) ↦[(s2V).view.set]{fullShare} R)
    ∗ ∃ g : Buf (Elt F) ((s3V).view.loc (VT d L)), ((s3V).view.loc (VT d L) ↦[(s3V).view.set]{fullShare} g) ∗ ⌜selQ R G0 k 0 g⌝)

/-! ## What the task's copies carry -/

/-- The task's 512 node ids as its first copy lands them in the id buffer. -/
abbrev PAYI (IDS : Buf (Elt F) ((iV).view.loc (VT d L))) : S512.Idx → Elt F .i32 :=
  ReadAs.same.apply ((idsK L).view.read (Elt F) IDS)

omit [FloatOps F] in
theorem PAYI_apply (IDS : Buf (Elt F) ((iV).view.loc (VT d L))) (x : S512.Idx) : PAYI d L IDS x = IDS ((idsK L).view.emb x) :=
  (View.read_apply _ _).trans (cast_eq _ _)

/-- The id buffer after that copy. -/
abbrev G0of (IDS : Buf (Elt F) ((iV).view.loc (VT d L))) : Buf (Elt F) ((s0V).view.loc (VT d L)) :=
  (s0V).view.writes (Elt F) (s0V).view.junk [⟨Rect.whole cc1_scratch0.ty.shape, PAYI d L IDS⟩]

/-- The row buffer after the gather of the rows of `y` the list `g` names. -/
abbrev Rof (Y : Buf (Elt F) ((yV).view.loc (VT d L))) (g : Buf (Elt F) ((s1V).view.loc (VT d L)))
    (hin : ∀ x, ((s1V).view.read (Elt F) g x).toNat < S126976x128.size gathers_S126976x128_S512x128.axis) : Buf (Elt F) ((s2V).view.loc (VT d L)) :=
  (s2V).view.writes (Elt F) (s2V).view.junk [⟨Rect.whole cc1_scratch2.ty.shape,
    SparseCore.gatherPayload gathers_S126976x128_S512x128
      (View.read (Elt F) ((yV).slice (Rect.unit (s := S126976x128) ![0, 0] S126976x128.size inb_S126976x128_S126976x128_0_0) (fun _ => rfl)).view Y)
      (SparseCore.rows (View.read (Elt F) (s1V).view g) rfl hin)⟩]

end Tile

end Cert.KernelIdeal.Hand

end
-- ==== Proof.TileTrip.lean ====
/-
  One trip of the select loop of the gather kernel, from the loop's invariant to the invariant.
-/
import proofs.«211133_g82480551952782_cont_sun_m_220_25_alg».proof.Proof.TileInv
import Idealize.ShloMosaic.Lib.Pipeline.Value

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "yV" => (Memref.whole Cert.KernelIdeal.main_v5_scv : Memref Cert.KernelIdeal.sig Kind.scVector Space.hbm Cert.KernelIdeal.S126976x128 EltTy.f32)
local notation "iV" => (Memref.whole Cert.KernelIdeal.main_arg0_scv : Memref Cert.KernelIdeal.sig Kind.scVector Space.hbm Cert.KernelIdeal.S16384 EltTy.i32)
local notation "oV" => (Memref.whole Cert.KernelIdeal.main_v6_scv : Memref Cert.KernelIdeal.sig Kind.scVector Space.hbm Cert.KernelIdeal.S16x16384 EltTy.f32)
local notation "s0V" => (Memref.whole Cert.KernelIdeal.cc1_scratch0 : Memref Cert.KernelIdeal.sig Kind.scVector Space.vmem Cert.KernelIdeal.S512 EltTy.i32)
local notation "s1V" => (Memref.whole Cert.KernelIdeal.cc1_scratch1 : Memref Cert.KernelIdeal.sig Kind.scVector Space.vmem Cert.KernelIdeal.S512 EltTy.i32)
local notation "s2V" => (Memref.whole Cert.KernelIdeal.cc1_scratch2 : Memref Cert.KernelIdeal.sig Kind.scVector Space.vmem Cert.KernelIdeal.S512x128 EltTy.f32)
local notation "s3V" => (Memref.whole Cert.KernelIdeal.cc1_scratch3 : Memref Cert.KernelIdeal.sig Kind.scVector Space.vmem Cert.KernelIdeal.S16x512 EltTy.f32)

variable [FloatOps F]

section Tile

variable (d : Dev nD) (L : grid1.Coords)

/-- A trip of the select loop from the invariant to the invariant: the sixteen node ids loaded, then for each output row `o`
    the indexed load of lane `sub n + o` of each node's row and its indexed store into row `o` of the selection buffer. -/
theorem trip2 (G0 : Buf (Elt F) ((s0V).view.loc (VT d L))) (R : Buf (Elt F) ((s2V).view.loc (VT d L))) (k : Fin k1_t2_loop.trips) :
    inv2 d L G0 R k.val ⟨⟩
      ⊢ wp frame (wpE (defs₀ (F := F)) 𝒱₀ (VT d L) none) Set.univ
          (k1_t2_body L yV (Memref.isWhole_whole _) iV (Memref.isWhole_whole _) oV (Memref.isWhole_whole _)
            s0V (Memref.isWhole_whole _) s1V (Memref.isWhole_whole _) s2V (Memref.isWhole_whole _) s3V (Memref.isWhole_whole _) cc1_scratch4 cc1_scoped0 cc1_scoped1
            (iota .scVector S16 32 [0] iota_S16_d0_w32_scVector) k ⟨⟩)
          (inv2 d L G0 R (k.val + 1)) := by
  unfold inv2
  iintro ⟨HG0, HG2, %g0, HG3, %hQ0⟩
  sl_unfold [k1_t2_body]
  -- row 0
  sl_exec (disch := exact chk1_all _ _)
  ihave HG2 := (Entails.of_eq (pts_s2 (F := F) d L _)) $$ HG2
  ihave HG3 := (Entails.of_eq (pts_s3 (F := F) d L _)) $$ HG3
  iapply (SparseCore.wp_vectorLoadIdx 𝒱₀ (VT d L) none Set.univ (base := s2V) (S := Finset.univ) (q := fullShare) (Finset.subset_univ _)) $$ HG2
  iintro HG2
  sl_exec (disch := exact chk2_all _)
  iapply (SparseCore.wp_vectorStoreIdx 𝒱₀ (VT d L) none Set.univ (base := s3V)) $$ HG3
  iintro HG3
  ihave H := (pts_exists_eq (F := F) _) $$ HG3
  icases H with ⟨%g1, %hg1, HG3⟩
  have hQ1 : selQ R G0 k.val (0 + 1) g1 := by
    rw [hg1]
    exact pair_abs d (VT d L) R G0 k ⟨0, by decide⟩ g0 hQ0 (k1_pay12 (iota .scVector S16 32 [0] iota_S16_d0_w32_scVector)) (k1_pay10 (iota .scVector S16 32 [0] iota_S16_d0_w32_scVector) 0#32 1#32 k) (k1_pay11 (F := F) (v10K G0 k))
      row0_toNat (v19_toNat k) (fun x h => by rw [col0_toNat]; exact congrArg (fun n => (sub n).toNat + 0) (v10K_apply G0 k x h)) _ _
  clear hg1
  -- row 1
  sl_exec (disch := exact chk3_all _ _)
  iapply (SparseCore.wp_vectorLoadIdx 𝒱₀ (VT d L) none Set.univ (base := s2V) (S := Finset.univ) (q := fullShare) (Finset.subset_univ _)) $$ HG2
  iintro HG2
  sl_exec (disch := exact chk4_all _)
  iapply (SparseCore.wp_vectorStoreIdx 𝒱₀ (VT d L) none Set.univ (base := s3V)) $$ HG3
  iintro HG3
  ihave H := (pts_exists_eq (F := F) _) $$ HG3
  icases H with ⟨%g2, %hg2, HG3⟩
  have hQ2 : selQ R G0 k.val (1 + 1) g2 := by
    rw [hg2]
    exact pair_abs d (VT d L) R G0 k ⟨1, by decide⟩ g1 hQ1 (k1_pay14 (iota .scVector S16 32 [0] iota_S16_d0_w32_scVector)) (k1_pay10 (iota .scVector S16 32 [0] iota_S16_d0_w32_scVector) 0#32 1#32 k) (k1_pay13 (F := F) (v10K G0 k))
      row1_toNat (v19_toNat k) (fun x h => by rw [col1_toNat]; exact congrArg (fun n => (sub n).toNat + 1) (v10K_apply G0 k x h)) _ _
  clear hg2
  -- row 2
  sl_exec (disch := exact chk5_all _ _)
  iapply (SparseCore.wp_vectorLoadIdx 𝒱₀ (VT d L) none Set.univ (base := s2V) (S := Finset.univ) (q := fullShare) (Finset.subset_univ _)) $$ HG2
  iintro HG2
  sl_exec (disch := exact chk6_all _)
  iapply (SparseCore.wp_vectorStoreIdx 𝒱₀ (VT d L) none Set.univ (base := s3V)) $$ HG3
  iintro HG3
  ihave H := (pts_exists_eq (F := F) _) $$ HG3
  icases H with ⟨%g3, %hg3, HG3⟩
  have hQ3 : selQ R G0 k.val (2 + 1) g3 := by
    rw [hg3]
    exact pair_abs d (VT d L) R G0 k ⟨2, by decide⟩ g2 hQ2 (k1_pay16 (iota .scVector S16 32 [0] iota_S16_d0_w32_scVector)) (k1_pay10 (iota .scVector S16 32 [0] iota_S16_d0_w32_scVector) 0#32 1#32 k) (k1_pay15 (F := F) (v10K G0 k))
      row2_toNat (v19_toNat k) (fun x h => by rw [col2_toNat]; exact congrArg (fun n => (sub n).toNat + 2) (v10K_apply G0 k x h)) _ _
  clear hg3
  -- row 3
  sl_exec (disch := exact chk7_all _ _)
  iapply (SparseCore.wp_vectorLoadIdx 𝒱₀ (VT d L) none Set.univ (base := s2V) (S := Finset.univ) (q := fullShare) (Finset.subset_univ _)) $$ HG2
  iintro HG2
  sl_exec (disch := exact chk8_all _)
  iapply (SparseCore.wp_vectorStoreIdx 𝒱₀ (VT d L) none Set.univ (base := s3V)) $$ HG3
  iintro HG3
  ihave H := (pts_exists_eq (F := F) _) $$ HG3
  icases H with ⟨%g4, %hg4, HG3⟩
  have hQ4 : selQ R G0 k.val (3 + 1) g4 := by
    rw [hg4]
    exact pair_abs d (VT d L) R G0 k ⟨3, by decide⟩ g3 hQ3 (k1_pay18 (iota .scVector S16 32 [0] iota_S16_d0_w32_scVector)) (k1_pay10 (iota .scVector S16 32 [0] iota_S16_d0_w32_scVector) 0#32 1#32 k) (k1_pay17 (F := F) (v10K G0 k))
      row3_toNat (v19_toNat k) (fun x h => by rw [col3_toNat]; exact congrArg (fun n => (sub n).toNat + 3) (v10K_apply G0 k x h)) _ _
  clear hg4
  -- row 4
  sl_exec (disch := exact chk9_all _ _)
  iapply (SparseCore.wp_vectorLoadIdx 𝒱₀ (VT d L) none Set.univ (base := s2V) (S := Finset.univ) (q := fullShare) (Finset.subset_univ _)) $$ HG2
  iintro HG2
  sl_exec (disch := exact chk10_all _)
  iapply (SparseCore.wp_vectorStoreIdx 𝒱₀ (VT d L) none Set.univ (base := s3V)) $$ HG3
  iintro HG3
  ihave H := (pts_exists_eq (F := F) _) $$ HG3
  icases H with ⟨%g5, %hg5, HG3⟩
  have hQ5 : selQ R G0 k.val (4 + 1) g5 := by
    rw [hg5]
    exact pair_abs d (VT d L) R G0 k ⟨4, by decide⟩ g4 hQ4 (k1_pay20 (iota .scVector S16 32 [0] iota_S16_d0_w32_scVector)) (k1_pay10 (iota .scVector S16 32 [0] iota_S16_d0_w32_scVector) 0#32 1#32 k) (k1_pay19 (k1_pay9 (F := F) (v10K G0 k)))
      row4_toNat (v19_toNat k) (fun x h => by rw [col4_toNat]; exact congrArg (fun n => (sub n).toNat + 4) (v10K_apply G0 k x h)) _ _
  clear hg5
  -- row 5
  sl_exec (disch := exact chk11_all _ _)
  iapply (SparseCore.wp_vectorLoadIdx 𝒱₀ (VT d L) none Set.univ (base := s2V) (S := Finset.univ) (q := fullShare) (Finset.subset_univ _)) $$ HG2
  iintro HG2
  sl_exec (disch := exact chk12_all _)
  iapply (SparseCore.wp_vectorStoreIdx 𝒱₀ (VT d L) none Set.univ (base := s3V)) $$ HG3
  iintro HG3
  ihave H := (pts_exists_eq (F := F) _) $$ HG3
  icases H with ⟨%g6, %hg6, HG3⟩
  have hQ6 : selQ R G0 k.val (5 + 1) g6 := by
    rw [hg6]
    exact pair_abs d (VT d L) R G0 k ⟨5, by decide⟩ g5 hQ5 (k1_pay22 (iota .scVector S16 32 [0] iota_S16_d0_w32_scVector)) (k1_pay10 (iota .scVector S16 32 [0] iota_S16_d0_w32_scVector) 0#32 1#32 k) (k1_pay21 (k1_pay9 (F := F) (v10K G0 k)))
      row5_toNat (v19_toNat k) (fun x h => by rw [col5_toNat]; exact congrArg (fun n => (sub n).toNat + 5) (v10K_apply G0 k x h)) _ _
  clear hg6
  -- row 6
  sl_exec (disch := exact chk13_all _ _)
  iapply (SparseCore.wp_vectorLoadIdx 𝒱₀ (VT d L) none Set.univ (base := s2V) (S := Finset.univ) (q := fullShare) (Finset.subset_univ _)) $$ HG2
  iintro HG2
  sl_exec (disch := exact chk14_all _)
  iapply (SparseCore.wp_vectorStoreIdx 𝒱₀ (VT d L) none Set.univ (base := s3V)) $$ HG3
  iintro HG3
  ihave H := (pts_exists_eq (F := F) _) $$ HG3
  icases H with ⟨%g7, %hg7, HG3⟩
  have hQ7 : selQ R G0 k.val (6 + 1) g7 := by
    rw [hg7]
    exact pair_abs d (VT d L) R G0 k ⟨6, by decide⟩ g6 hQ6 (k1_pay24 (iota .scVector S16 32 [0] iota_S16_d0_w32_scVector)) (k1_pay10 (iota .scVector S16 32 [0] iota_S16_d0_w32_scVector) 0#32 1#32 k) (k1_pay23 (k1_pay9 (F := F) (v10K G0 k)))
      row6_toNat (v19_toNat k) (fun x h => by rw [col6_toNat]; exact congrArg (fun n => (sub n).toNat + 6) (v10K_apply G0 k x h)) _ _
  clear hg7
  -- row 7
  sl_exec (disch := exact chk15_all _ _)
  iapply (SparseCore.wp_vectorLoadIdx 𝒱₀ (VT d L) none Set.univ (base := s2V) (S := Finset.univ) (q := fullShare) (Finset.subset_univ _)) $$ HG2
  iintro HG2
  sl_exec (disch := exact chk16_all _)
  iapply (SparseCore.wp_vectorStoreIdx 𝒱₀ (VT d L) none Set.univ (base := s3V)) $$ HG3
  iintro HG3
  ihave H := (pts_exists_eq (F := F) _) $$ HG3
  icases H with ⟨%g8, %hg8, HG3⟩
  have hQ8 : selQ R G0 k.val (7 + 1) g8 := by
    rw [hg8]
    exact pair_abs d (VT d L) R G0 k ⟨7, by decide⟩ g7 hQ7 (k1_pay26 (iota .scVector S16 32 [0] iota_S16_d0_w32_scVector)) (k1_pay10 (iota .scVector S16 32 [0] iota_S16_d0_w32_scVector) 0#32 1#32 k) (k1_pay25 (k1_pay9 (F := F) (v10K G0 k)))
      row7_toNat (v19_toNat k) (fun x h => by rw [col7_toNat]; exact congrArg (fun n => (sub n).toNat + 7) (v10K_apply G0 k x h)) _ _
  clear hg8
  -- row 8
  sl_exec (disch := exact chk17_all _ _)
  iapply (SparseCore.wp_vectorLoadIdx 𝒱₀ (VT d L) none Set.univ (base := s2V) (S := Finset.univ) (q := fullShare) (Finset.subset_univ _)) $$ HG2
  iintro HG2
  sl_exec (disch := exact chk18_all _)
  iapply (SparseCore.wp_vectorStoreIdx 𝒱₀ (VT d L) none Set.univ (base := s3V)) $$ HG3
  iintro HG3
  ihave H := (pts_exists_eq (F := F) _) $$ HG3
  icases H with ⟨%g9, %hg9, HG3⟩
  have hQ9 : selQ R G0 k.val (8 + 1) g9 := by
    rw [hg9]
    exact pair_abs d (VT d L) R G0 k ⟨8, by decide⟩ g8 hQ8 (k1_pay28 (iota .scVector S16 32 [0] iota_S16_d0_w32_scVector)) (k1_pay10 (iota .scVector S16 32 [0] iota_S16_d0_w32_scVector) 0#32 1#32 k) (k1_pay27 (k1_pay9 (F := F) (v10K G0 k)))
      row8_toNat (v19_toNat k) (fun x h => by rw [col8_toNat]; exact congrArg (fun n => (sub n).toNat + 8) (v10K_apply G0 k x h)) _ _
  clear hg9
  -- row 9
  sl_exec (disch := exact chk19_all _ _)
  iapply (SparseCore.wp_vectorLoadIdx 𝒱₀ (VT d L) none Set.univ (base := s2V) (S := Finset.univ) (q := fullShare) (Finset.subset_univ _)) $$ HG2
  iintro HG2
  sl_exec (disch := exact chk20_all _)
  iapply (SparseCore.wp_vectorStoreIdx 𝒱₀ (VT d L) none Set.univ (base := s3V)) $$ HG3
  iintro HG3
  ihave H := (pts_exists_eq (F := F) _) $$ HG3
  icases H with ⟨%g10, %hg10, HG3⟩
  have hQ10 : selQ R G0 k.val (9 + 1) g10 := by
    rw [hg10]
    exact pair_abs d (VT d L) R G0 k ⟨9, by decide⟩ g9 hQ9 (k1_pay30 (iota .scVector S16 32 [0] iota_S16_d0_w32_scVector)) (k1_pay10 (iota .scVector S16 32 [0] iota_S16_d0_w32_scVector) 0#32 1#32 k) (k1_pay29 (k1_pay9 (F := F) (v10K G0 k)))
      row9_toNat (v19_toNat k) (fun x h => by rw [col9_toNat]; exact congrArg (fun n => (sub n).toNat + 9) (v10K_apply G0 k x h)) _ _
  clear hg10
  -- row 10
  sl_exec (disch := exact chk21_all _ _)
  iapply (SparseCore.wp_vectorLoadIdx 𝒱₀ (VT d L) none Set.univ (base := s2V) (S := Finset.univ) (q := fullShare) (Finset.subset_univ _)) $$ HG2
  iintro HG2
  sl_exec (disch := exact chk22_all _)
  iapply (SparseCore.wp_vectorStoreIdx 𝒱₀ (VT d L) none Set.univ (base := s3V)) $$ HG3
  iintro HG3
  ihave H := (pts_exists_eq (F := F) _) $$ HG3
  icases H with ⟨%g11, %hg11, HG3⟩
  have hQ11 : selQ R G0 k.val (10 + 1) g11 := by
    rw [hg11]
    exact pair_abs d (VT d L) R G0 k ⟨10, by decide⟩ g10 hQ10 (k1_pay32 (iota .scVector S16 32 [0] iota_S16_d0_w32_scVector)) (k1_pay10 (iota .scVector S16 32 [0] iota_S16_d0_w32_scVector) 0#32 1#32 k) (k1_pay31 (k1_pay9 (F := F) (v10K G0 k)))
      row10_toNat (v19_toNat k) (fun x h => by rw [col10_toNat]; exact congrArg (fun n => (sub n).toNat + 10) (v10K_apply G0 k x h)) _ _
  clear hg11
  -- row 11
  sl_exec (disch := exact chk23_all _ _)
  iapply (SparseCore.wp_vectorLoadIdx 𝒱₀ (VT d L) none Set.univ (base := s2V) (S := Finset.univ) (q := fullShare) (Finset.subset_univ _)) $$ HG2
  iintro HG2
  sl_exec (disch := exact chk24_all _)
  iapply (SparseCore.wp_vectorStoreIdx 𝒱₀ (VT d L) none Set.univ (base := s3V)) $$ HG3
  iintro HG3
  ihave H := (pts_exists_eq (F := F) _) $$ HG3
  icases H with ⟨%g12, %hg12, HG3⟩
  have hQ12 : selQ R G0 k.val (11 + 1) g12 := by
    rw [hg12]
    exact pair_abs d (VT d L) R G0 k ⟨11, by decide⟩ g11 hQ11 (k1_pay34 (iota .scVector S16 32 [0] iota_S16_d0_w32_scVector)) (k1_pay10 (iota .scVector S16 32 [0] iota_S16_d0_w32_scVector) 0#32 1#32 k) (k1_pay33 (k1_pay9 (F := F) (v10K G0 k)))
      row11_toNat (v19_toNat k) (fun x h => by rw [col11_toNat]; exact congrArg (fun n => (sub n).toNat + 11) (v10K_apply G0 k x h)) _ _
  clear hg12
  -- row 12
  sl_exec (disch := exact chk25_all _ _)
  iapply (SparseCore.wp_vectorLoadIdx 𝒱₀ (VT d L) none Set.univ (base := s2V) (S := Finset.univ) (q := fullShare) (Finset.subset_univ _)) $$ HG2
  iintro HG2
  sl_exec (disch := exact chk26_all _)
  iapply (SparseCore.wp_vectorStoreIdx 𝒱₀ (VT d L) none Set.univ (base := s3V)) $$ HG3
  iintro HG3
  ihave H := (pts_exists_eq (F := F) _) $$ HG3
  icases H with ⟨%g13, %hg13, HG3⟩
  have hQ13 : selQ R G0 k.val (12 + 1) g13 := by
    rw [hg13]
    exact pair_abs d (VT d L) R G0 k ⟨12, by decide⟩ g12 hQ12 (k1_pay2 0#32) (k1_pay10 (iota .scVector S16 32 [0] iota_S16_d0_w32_scVector) 0#32 1#32 k) (k1_pay35 (k1_pay9 (F := F) (v10K G0 k)))
      row12_toNat (v19_toNat k) (fun x h => by rw [col12_toNat]; exact congrArg (fun n => (sub n).toNat + 12) (v10K_apply G0 k x h)) _ _
  clear hg13
  -- row 13
  sl_exec (disch := exact chk27_all _ _)
  iapply (SparseCore.wp_vectorLoadIdx 𝒱₀ (VT d L) none Set.univ (base := s2V) (S := Finset.univ) (q := fullShare) (Finset.subset_univ _)) $$ HG2
  iintro HG2
  sl_exec (disch := exact chk28_all _)
  iapply (SparseCore.wp_vectorStoreIdx 𝒱₀ (VT d L) none Set.univ (base := s3V)) $$ HG3
  iintro HG3
  ihave H := (pts_exists_eq (F := F) _) $$ HG3
  icases H with ⟨%g14, %hg14, HG3⟩
  have hQ14 : selQ R G0 k.val (13 + 1) g14 := by
    rw [hg14]
    exact pair_abs d (VT d L) R G0 k ⟨13, by decide⟩ g13 hQ13 (k1_pay4) (k1_pay10 (iota .scVector S16 32 [0] iota_S16_d0_w32_scVector) 0#32 1#32 k) (k1_pay3 (k1_pay9 (F := F) (v10K G0 k)))
      row13_toNat (v19_toNat k) (fun x h => by rw [col13_toNat]; exact congrArg (fun n => (sub n).toNat + 13) (v10K_apply G0 k x h)) _ _
  clear hg14
  -- row 14
  sl_exec (disch := exact chk29_all _ _)
  iapply (SparseCore.wp_vectorLoadIdx 𝒱₀ (VT d L) none Set.univ (base := s2V) (S := Finset.univ) (q := fullShare) (Finset.subset_univ _)) $$ HG2
  iintro HG2
  sl_exec (disch := exact chk30_all _)
  iapply (SparseCore.wp_vectorStoreIdx 𝒱₀ (VT d L) none Set.univ (base := s3V)) $$ HG3
  iintro HG3
  ihave H := (pts_exists_eq (F := F) _) $$ HG3
  icases H with ⟨%g15, %hg15, HG3⟩
  have hQ15 : selQ R G0 k.val (14 + 1) g15 := by
    rw [hg15]
    exact pair_abs d (VT d L) R G0 k ⟨14, by decide⟩ g14 hQ14 (k1_pay6) (k1_pay10 (iota .scVector S16 32 [0] iota_S16_d0_w32_scVector) 0#32 1#32 k) (k1_pay5 (k1_pay9 (F := F) (v10K G0 k)))
      row14_toNat (v19_toNat k) (fun x h => by rw [col14_toNat]; exact congrArg (fun n => (sub n).toNat + 14) (v10K_apply G0 k x h)) _ _
  clear hg15
  -- row 15
  sl_exec (disch := exact chk31_all _ _)
  iapply (SparseCore.wp_vectorLoadIdx 𝒱₀ (VT d L) none Set.univ (base := s2V) (S := Finset.univ) (q := fullShare) (Finset.subset_univ _)) $$ HG2
  iintro HG2
  sl_exec (disch := exact chk32_all _)
  iapply (SparseCore.wp_vectorStoreIdx 𝒱₀ (VT d L) none Set.univ (base := s3V)) $$ HG3
  iintro HG3
  ihave H := (pts_exists_eq (F := F) _) $$ HG3
  icases H with ⟨%g16, %hg16, HG3⟩
  have hQ16 : selQ R G0 k.val (15 + 1) g16 := by
    rw [hg16]
    exact pair_abs d (VT d L) R G0 k ⟨15, by decide⟩ g15 hQ15 (k1_pay8) (k1_pay10 (iota .scVector S16 32 [0] iota_S16_d0_w32_scVector) 0#32 1#32 k) (k1_pay7 (k1_pay9 (F := F) (v10K G0 k)))
      row15_toNat (v19_toNat k) (fun x h => by rw [col15_toNat]; exact congrArg (fun n => (sub n).toNat + 15) (v10K_apply G0 k x h)) _ _
  clear hg16
  sl_exec
  sl_step
  isplitl [HG0]; · iexact HG0
  isplitl [HG2]; · iapply (Entails.of_eq (pts_s2 (F := F) d L _).symm); iexact HG2
  iexists g16
  isplitl [HG3]; · iapply (Entails.of_eq (pts_s3 (F := F) d L _).symm); iexact HG3
  ipureintro
  exact selQ_next R G0 k.val g16 hQ16

end Tile

end Cert.KernelIdeal.Hand

end
-- ==== Proof.TileFacts.lean ====
/-
  Index facts about the vector subcore's task: what its copies, its row-list loop, its gather and its lane selection
  leave, entry by entry.
-/
import proofs.«211133_g82480551952782_cont_sun_m_220_25_alg».proof.Proof.TileInv
import proofs.«211133_g82480551952782_cont_sun_m_220_25_alg».proof.Proof.BitFacts
import Idealize.ShloMosaic.Lib.WritesUnit

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "yV" => (Memref.whole Cert.KernelIdeal.main_v5_scv : Memref Cert.KernelIdeal.sig Kind.scVector Space.hbm Cert.KernelIdeal.S126976x128 EltTy.f32)
local notation "iV" => (Memref.whole Cert.KernelIdeal.main_arg0_scv : Memref Cert.KernelIdeal.sig Kind.scVector Space.hbm Cert.KernelIdeal.S16384 EltTy.i32)
local notation "oV" => (Memref.whole Cert.KernelIdeal.main_v6_scv : Memref Cert.KernelIdeal.sig Kind.scVector Space.hbm Cert.KernelIdeal.S16x16384 EltTy.f32)
local notation "s0V" => (Memref.whole Cert.KernelIdeal.cc1_scratch0 : Memref Cert.KernelIdeal.sig Kind.scVector Space.vmem Cert.KernelIdeal.S512 EltTy.i32)
local notation "s1V" => (Memref.whole Cert.KernelIdeal.cc1_scratch1 : Memref Cert.KernelIdeal.sig Kind.scVector Space.vmem Cert.KernelIdeal.S512 EltTy.i32)
local notation "s2V" => (Memref.whole Cert.KernelIdeal.cc1_scratch2 : Memref Cert.KernelIdeal.sig Kind.scVector Space.vmem Cert.KernelIdeal.S512x128 EltTy.f32)
local notation "s3V" => (Memref.whole Cert.KernelIdeal.cc1_scratch3 : Memref Cert.KernelIdeal.sig Kind.scVector Space.vmem Cert.KernelIdeal.S16x512 EltTy.f32)

variable [FloatOps F]

section Tile

variable (d : Dev nD) (L : grid1.Coords)

omit [FloatOps F] in
/-- The task's node ids lie inside the id array. -/
theorem idsK_lt (j : Fin 512) : 1024 * (L 1).val + 512 * (L 0).val + j.val < 16384 := by
  have h0 : (L 0).val < 2 := (L 0).isLt
  have h1 : (L 1).val < 16 := (L 1).isLt
  have := j.isLt
  omega

/-- Entry `j` of the id buffer after the first copy is the task's `j`-th node id. -/
theorem G0of_apply (IDS : Buf (Elt F) ((iV).view.loc (VT d L))) (j : Fin 512) :
    G0of d L IDS (ValueIdx.ix1 j)
      = IDS (ValueIdx.ix1 (⟨1024 * (L 1).val + 512 * (L 0).val + j.val, idsK_lt L j⟩ : Fin 16384)) := by
  show (s0V).view.read (Elt F) (G0of d L IDS) (ValueIdx.ix1 j) = _
  rw [View.read_writes_whole, PAYI_apply]
  refine congrArg IDS ((ValueIdx.eq_ix1 (n := 16384) _).trans (congrArg ValueIdx.ix1 (Fin.ext ?_)))
  show (k1_off1 L) 0 + 1 * j.val = 1024 * (L 1).val + 512 * (L 0).val + j.val
  rw [k1_off1_eq]
  show 1024 * (L 1).val + 512 * (L 0).val + 1 * j.val = 1024 * (L 1).val + 512 * (L 0).val + j.val
  omega

omit [FloatOps F] in
/-- The sixteen node ids trip `k` of the row-list loop loads are entries `16 k ‥ 16 k + 15` of the id buffer. -/
theorem v10K1_apply (G0 : IVec S512 32) (k : Fin k1_t1_loop.trips) (x : S16.Idx) (h : 16 * k.val + (x 0).val < 512) :
    ((s0V).view.readAt (Elt F) (Rect.unit (s := S512) (k1_off2 k) S16.size (k1_off2_inb k)).toLoadRect G0) x
      = G0 (ValueIdx.ix1 ⟨16 * k.val + (x 0).val, h⟩) := by
  rw [View.readAt_apply]
  show G0 _ = G0 _
  refine congrArg G0 ((ValueIdx.eq_ix1 (n := 512) _).trans (congrArg ValueIdx.ix1 (Fin.ext ?_)))
  show (k1_off2 k) 0 + 1 * (x 0).val = 16 * k.val + (x 0).val
  rw [k1_off2_eq]
  show 16 * k.val + 1 * (x 0).val = 16 * k.val + (x 0).val
  omega

/-- One trip of the row-list loop: the store of the sixteen rows extends the finished prefix by sixteen entries. -/
theorem loop1_step (G0 g : IVec S512 32) (k : Fin k1_t1_loop.trips)
    (hg : ∀ j : Fin 512, j.val < 16 * k.val → g (ValueIdx.ix1 j) = gid (G0 (ValueIdx.ix1 j))) :
    ∀ j : Fin 512, j.val < 16 * (k.val + 1) →
      ((s1V).view.writes (Elt F) g [⟨Rect.unit (s := S512) (k1_off2 k) S16.size (k1_off2_inb k),
        k1_pay1 (F := F) ((s0V).view.readAt (Elt F) (Rect.unit (s := S512) (k1_off2 k) S16.size (k1_off2_inb k)).toLoadRect G0)⟩])
          (ValueIdx.ix1 j) = gid (G0 (ValueIdx.ix1 j)) := by
  intro j hj
  have hk : k.val < 32 := lt_of_lt_of_eq k.isLt trips1
  show (s1V).view.read (Elt F) ((s1V).view.writes (Elt F) g [⟨Rect.unit (s := S512) (k1_off2 k) S16.size (k1_off2_inb k),
        k1_pay1 (F := F) ((s0V).view.readAt (Elt F) (Rect.unit (s := S512) (k1_off2 k) S16.size (k1_off2_inb k)).toLoadRect G0)⟩])
          (ValueIdx.ix1 j) = _
  by_cases hlo : 16 * k.val ≤ j.val
  · have hx : j.val - 16 * k.val < 16 := by omega
    refine (View.read_writes_cons_unit_of_mem (Val := Elt F) (s1V).view g (k1_off2_inb k) _ [] (ValueIdx.ix1 j)
      (ValueIdx.ix1 (⟨j.val - 16 * k.val, hx⟩ : Fin 16)) (k1_off2_eq k) (fun a => by
        match a with
        | ⟨0, _⟩ => show j.val = 16 * k.val + (j.val - 16 * k.val); omega)).trans ?_
    show gid (((s0V).view.readAt (Elt F) (Rect.unit (s := S512) (k1_off2 k) S16.size (k1_off2_inb k)).toLoadRect G0)
      (ValueIdx.ix1 (⟨j.val - 16 * k.val, hx⟩ : Fin 16))) = _
    rw [v10K1_apply G0 k _ (by show 16 * k.val + (j.val - 16 * k.val) < 512; omega)]
    refine congrArg (fun q : Fin 512 => gid (G0 (ValueIdx.ix1 q))) (Fin.ext ?_)
    show 16 * k.val + (j.val - 16 * k.val) = j.val
    omega
  · refine (View.read_writes_cons_unit_of_not_mem (Val := Elt F) (s1V).view g (k1_off2_inb k) _ [] (ValueIdx.ix1 j) (k1_off2_eq k) 0
      (Or.inl (by show j.val < 16 * k.val; omega))).trans ?_
    exact hg j (by omega)

/-- With every node id a row of the table, every entry of the finished row list is a row of `y`. -/
theorem hin_of (IDS : Buf (Elt F) ((iV).view.loc (VT d L))) (hids : IdsOK IDS) (g1 : Buf (Elt F) ((s1V).view.loc (VT d L)))
    (hg1 : ∀ j : Fin 512, g1 (ValueIdx.ix1 j) = gid (G0of d L IDS (ValueIdx.ix1 j))) :
    ∀ x, ((s1V).view.read (Elt F) g1 x).toNat < S126976x128.size gathers_S126976x128_S512x128.axis := by
  intro (x : S512.Idx)
  obtain ⟨j, rfl⟩ : ∃ j : Fin 512, x = ValueIdx.ix1 j := ⟨x 0, ValueIdx.eq_ix1 (n := 512) x⟩
  show (g1 (ValueIdx.ix1 j)).toNat < 126976
  rw [hg1 j, G0of_apply]
  exact gid_lt _ (hids _).1 (hids _).2

/-- Entry `(j, col)` of the row buffer after the gather is lane `col` of the row of `y` entry `j` of the row list names. -/
theorem Rof_apply (Y : Buf (Elt F) ((yV).view.loc (VT d L))) (g1 : Buf (Elt F) ((s1V).view.loc (VT d L)))
    (hin : ∀ x, ((s1V).view.read (Elt F) g1 x).toNat < S126976x128.size gathers_S126976x128_S512x128.axis)
    (j : Fin 512) (col : Fin 128) :
    Rof d L Y g1 hin (ValueIdx.ix2 j col)
      = Y (ValueIdx.ix2 (⟨(g1 (ValueIdx.ix1 j)).toNat, hin (ValueIdx.ix1 j)⟩ : Fin 126976) col) := by
  show (s2V).view.read (Elt F) (Rof d L Y g1 hin) (ValueIdx.ix2 j col) = _
  rw [View.read_writes_whole]
  show View.read (Elt F) ((yV).slice (Rect.unit (s := S126976x128) ![0, 0] S126976x128.size inb_S126976x128_S126976x128_0_0) (fun _ => rfl)).view Y
      (gathers_S126976x128_S512x128.idx (SparseCore.rows (View.read (Elt F) (s1V).view g1) rfl hin) (ValueIdx.ix2 j col)) = _
  refine ((View.read_apply _ _).trans (cast_eq _ _)).trans (congrArg Y (funext fun a => Fin.ext ?_))
  have hrow : S512.rowMajor.symm (Fin.cast rfl (j : Fin (S512x128.size gathers_S126976x128_S512x128.axis'))) = ValueIdx.ix1 j :=
    (Equiv.symm_apply_eq _).2 (Fin.ext (by rw [Shape.rowMajor_val_one]; rfl))
  match a with
  | ⟨0, _⟩ =>
    show 0 + 1 * ((gathers_S126976x128_S512x128.idx (SparseCore.rows (View.read (Elt F) (s1V).view g1) rfl hin) (ValueIdx.ix2 j col)) 0).val
      = (g1 (ValueIdx.ix1 j)).toNat
    rw [show (0 : Fin 2) = gathers_S126976x128_S512x128.axis from rfl, Shape.Gathers.idx_axis]
    show 0 + 1 * (g1 (S512.rowMajor.symm (Fin.cast rfl (j : Fin (S512x128.size gathers_S126976x128_S512x128.axis'))))).toNat = _
    rw [hrow]; omega
  | ⟨1, _⟩ =>
    show 0 + 1 * ((gathers_S126976x128_S512x128.idx (SparseCore.rows (View.read (Elt F) (s1V).view g1) rfl hin) (ValueIdx.ix2 j col)) 1).val
      = col.val
    rw [Shape.Gathers.idx_of_ne _ _ _ 1 (by decide)]
    show 0 + 1 * col.val = col.val
    omega

/-- The finished selection buffer holds, at each entry, the lane of `y` the gather kernel's result has at the entry's
    place in the task's columns. -/
theorem out_fact (IDS : Buf (Elt F) ((iV).view.loc (VT d L))) (hids : IdsOK IDS) (Y : Buf (Elt F) ((yV).view.loc (VT d L)))
    (g1 : Buf (Elt F) ((s1V).view.loc (VT d L)))
    (hg1 : ∀ j : Fin 512, g1 (ValueIdx.ix1 j) = gid (G0of d L IDS (ValueIdx.ix1 j)))
    (hin : ∀ x, ((s1V).view.read (Elt F) g1 x).toNat < S126976x128.size gathers_S126976x128_S512x128.axis)
    (g3 : Buf (Elt F) ((s3V).view.loc (VT d L))) (hQ : selQ (Rof d L Y g1 hin) (G0of d L IDS) 32 0 g3) (x : S16x512.Idx) :
    g3 x = OUTT Y IDS ((outK L).view.emb x) := by
  obtain ⟨o, j, rfl⟩ : ∃ (o : Fin 16) (j : Fin 512), x = ValueIdx.ix2 o j := ⟨x 0, x 1, ValueIdx.eq_ix2 x⟩
  have hjN := j.isLt
  have hn : IDS (ValueIdx.ix1 (⟨1024 * (L 1).val + 512 * (L 0).val + j.val, idsK_lt L j⟩ : Fin 16384)) = G0of d L IDS (ValueIdx.ix1 j) :=
    (G0of_apply d L IDS j).symm
  obtain ⟨h0, h1⟩ := hids (ValueIdx.ix1 (⟨1024 * (L 1).val + 512 * (L 0).val + j.val, idsK_lt L j⟩ : Fin 16384))
  rw [hn] at h0 h1
  have hgl : (gid (G0of d L IDS (ValueIdx.ix1 j))).toNat < 126976 := gid_lt _ h0 h1
  have hsl : (sub (G0of d L IDS (ValueIdx.ix1 j))).toNat + o.val < 128 := sub_add_lt _ h0 h1 o
  have hL : g3 (ValueIdx.ix2 o j)
      = Y (ValueIdx.ix2 (⟨(gid (G0of d L IDS (ValueIdx.ix1 j))).toNat, hgl⟩ : Fin 126976)
          (⟨(sub (G0of d L IDS (ValueIdx.ix1 j))).toNat + o.val, hsl⟩ : Fin 128)) := by
    rw [hQ o j (Or.inl (by omega))]
    unfold selT Rat
    rw [dif_pos ⟨j.isLt, hsl⟩, Rof_apply]
    refine congrArg Y (congrArg (fun q : Fin 126976 => ValueIdx.ix2 q (⟨(sub (G0of d L IDS (ValueIdx.ix1 j))).toNat + o.val, hsl⟩ : Fin 128)) (Fin.ext ?_))
    show (g1 (ValueIdx.ix1 j)).toNat = (gid (G0of d L IDS (ValueIdx.ix1 j))).toNat
    rw [hg1 j]
  have hR : OUTT Y IDS ((outK L).view.emb (ValueIdx.ix2 o j))
      = Y (ValueIdx.ix2 (⟨(gid (G0of d L IDS (ValueIdx.ix1 j))).toNat, hgl⟩ : Fin 126976)
          (⟨(sub (G0of d L IDS (ValueIdx.ix1 j))).toNat + o.val, hsl⟩ : Fin 128)) := by
    have e1 : IDS (ValueIdx.ix1 (((outK L).view.emb (ValueIdx.ix2 o j)) 1)) = G0of d L IDS (ValueIdx.ix1 j) := by
      refine (congrArg (fun q : Fin 16384 => IDS (ValueIdx.ix1 q)) (Fin.ext ?_)).trans hn
      show (k1_off4 L) 1 + 1 * j.val = 1024 * (L 1).val + 512 * (L 0).val + j.val
      rw [k1_off4_eq]
      show 1024 * (L 1).val + 512 * (L 0).val + 1 * j.val = 1024 * (L 1).val + 512 * (L 0).val + j.val
      omega
    have e0 : (((outK L).view.emb (ValueIdx.ix2 o j)) 0).val = o.val := by
      show (k1_off4 L) 0 + 1 * o.val = o.val
      rw [k1_off4_eq]
      show 0 + 1 * o.val = o.val
      omega
    show Yat Y (gid (IDS (ValueIdx.ix1 (((outK L).view.emb (ValueIdx.ix2 o j)) 1)))).toNat
      ((sub (IDS (ValueIdx.ix1 (((outK L).view.emb (ValueIdx.ix2 o j)) 1)))).toNat + (((outK L).view.emb (ValueIdx.ix2 o j)) 0).val) = _
    rw [e1, e0]
    unfold Yat
    rw [dif_pos ⟨hgl, hsl⟩]
  rw [hL, hR]

end Tile

end Cert.KernelIdeal.Hand

end
-- ==== Proof.Tile.lean ====
/-
  The gather kernel's task on one vector subcore, run from the pieces the launch deals it to the pieces it hands back.
-/
import proofs.«211133_g82480551952782_cont_sun_m_220_25_alg».proof.Proof.TileTrip
import proofs.«211133_g82480551952782_cont_sun_m_220_25_alg».proof.Proof.TileFacts
import Idealize.ShloMosaic.Lib.Pipeline.Value

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "yV" => (Memref.whole Cert.KernelIdeal.main_v5_scv : Memref Cert.KernelIdeal.sig Kind.scVector Space.hbm Cert.KernelIdeal.S126976x128 EltTy.f32)
local notation "iV" => (Memref.whole Cert.KernelIdeal.main_arg0_scv : Memref Cert.KernelIdeal.sig Kind.scVector Space.hbm Cert.KernelIdeal.S16384 EltTy.i32)
local notation "oV" => (Memref.whole Cert.KernelIdeal.main_v6_scv : Memref Cert.KernelIdeal.sig Kind.scVector Space.hbm Cert.KernelIdeal.S16x16384 EltTy.f32)
local notation "s0V" => (Memref.whole Cert.KernelIdeal.cc1_scratch0 : Memref Cert.KernelIdeal.sig Kind.scVector Space.vmem Cert.KernelIdeal.S512 EltTy.i32)
local notation "s1V" => (Memref.whole Cert.KernelIdeal.cc1_scratch1 : Memref Cert.KernelIdeal.sig Kind.scVector Space.vmem Cert.KernelIdeal.S512 EltTy.i32)
local notation "s2V" => (Memref.whole Cert.KernelIdeal.cc1_scratch2 : Memref Cert.KernelIdeal.sig Kind.scVector Space.vmem Cert.KernelIdeal.S512x128 EltTy.f32)
local notation "s3V" => (Memref.whole Cert.KernelIdeal.cc1_scratch3 : Memref Cert.KernelIdeal.sig Kind.scVector Space.vmem Cert.KernelIdeal.S16x512 EltTy.f32)

variable [FloatOps F]

section Tile

variable (d : Dev nD) (L : grid1.Coords)

/-- The task on vector subcore `L`: the copy-in of its node ids, the row list, the gather of the rows of `y`, the select loop
    and the copy-out; its columns of the result end holding, at each entry, the lane of `y` the entry's node id names. -/
theorem tile_run (O : CellTallies nD τ sig (HIx 1)) (W : Waits sig (HIx 1))
    (IDS : Buf (Elt F) ((iV).view.loc (VT d L))) (hids : IdsOK IDS) (Y : Buf (Elt F) ((yV).view.loc (VT d L))) (O0 : Buf (Elt F) ((oV).view.loc (VT d L)))
    (q : PosShare TreeShare)
    (g0 : Buf (Elt F) ((s0V).view.loc (VT d L))) (g1 : Buf (Elt F) ((s1V).view.loc (VT d L)))
    (g2 : Buf (Elt F) ((s2V).view.loc (VT d L))) (g3 : Buf (Elt F) ((s3V).view.loc (VT d L))) :
    (iprop(Transfers.MayWaits (VT d L) (default : HIx 1) O
        ∗ ((idsK L).view.loc (VT d L) ↦[(idsK L).view.set]{fullShare} IDS)
        ∗ ((yV).view.loc (VT d L) ↦{q} Y)
        ∗ ((outK L).view.loc (VT d L) ↦[(outK L).view.set]{fullShare} O0)
        ∗ ((s0V).view.loc (VT d L) ↦[(s0V).view.set]{fullShare} g0)
        ∗ ((s1V).view.loc (VT d L) ↦[(s1V).view.set]{fullShare} g1)
        ∗ ((s2V).view.loc (VT d L) ↦[(s2V).view.set]{fullShare} g2)
        ∗ ((s3V).view.loc (VT d L) ↦[(s3V).view.set]{fullShare} g3)
        ∗ semVal (VT d L, SemLoc.dma cc1_scratch4.sem) 0 ∗ semVal (VT d L, SemLoc.dma cc1_scoped0.sem) 0 ∗ semVal (VT d L, SemLoc.dma cc1_scoped1.sem) 0
        ∗ owes (VT d L) O W) : sProp 𝕄)
      ⊢ wp frame (wpE (defs₀ (F := F)) 𝒱₀ (VT d L) none) Set.univ
          (cc1_gather_k L yV (Memref.isWhole_whole _) iV (Memref.isWhole_whole _) oV (Memref.isWhole_whole _)
            s0V (Memref.isWhole_whole _) s1V (Memref.isWhole_whole _) s2V (Memref.isWhole_whole _) s3V (Memref.isWhole_whole _) cc1_scratch4 cc1_scoped0 cc1_scoped1)
          fun _ => iprop(((idsK L).view.loc (VT d L) ↦[(idsK L).view.set]{fullShare} IDS)
            ∗ ((yV).view.loc (VT d L) ↦{q} Y)
            ∗ (∃ f : Buf (Elt F) ((outK L).view.loc (VT d L)), ((outK L).view.loc (VT d L) ↦[(outK L).view.set]{fullShare} f)
                ∗ ⌜∀ x : S16x512.Idx, f ((outK L).view.emb x) = OUTT Y IDS ((outK L).view.emb x)⌝)
            ∗ (∃ g, (s0V).view.loc (VT d L) ↦[(s0V).view.set]{fullShare} g)
            ∗ (∃ g, (s1V).view.loc (VT d L) ↦[(s1V).view.set]{fullShare} g)
            ∗ (∃ g, (s2V).view.loc (VT d L) ↦[(s2V).view.set]{fullShare} g)
            ∗ (∃ g, (s3V).view.loc (VT d L) ↦[(s3V).view.set]{fullShare} g)
            ∗ semVal (VT d L, SemLoc.dma cc1_scratch4.sem) 0 ∗ semVal (VT d L, SemLoc.dma cc1_scoped0.sem) 0 ∗ semVal (VT d L, SemLoc.dma cc1_scoped1.sem) 0
            ∗ ∃ W', owes (VT d L) O W') := by
  iintro ⟨#Hmw, HI, HY, HO0, HG0, HG1, HG2, HG3, Hc4, Hc0, Hc1, HO⟩
  sl_unfold [cc1_gather_k]
  sl_exec
  -- the row list, sixteen entries a trip
  sl_for (inv1 d L (G0of d L IDS)) $$ [HG0 HG1]
  case region =>
    intro k _
    unfold inv1
    iintro ⟨HG0, %g, HG1, %hg⟩
    sl_exec
    sl_step
    isplitl [HG0]; · iexact HG0
    iexists _; isplitl [HG1]; · iexact HG1
    ipureintro
    exact loop1_step (G0of d L IDS) g k hg
  · unfold inv1
    isplitl [HG0]; · iexact HG0
    iexists _; isplitl [HG1]; · iexact HG1
    ipureintro; intro j hj; exact absurd hj (by omega)
  iintro %_ HI1
  unfold inv1
  icases HI1 with ⟨HG0, %gl, HG1, %hg⟩
  have hg1 : ∀ j : Fin 512, gl (ValueIdx.ix1 j) = gid (G0of d L IDS (ValueIdx.ix1 j)) := fun j =>
    hg j (by have := j.isLt; have h32 : Scf.trips k1_t1_loop.lb k1_t1_loop.ub k1_t1_loop.st = 32 := trips1; omega)
  -- the gather of the rows the list names, its words in range
  have hin := hin_of d L IDS hids gl hg1
  sl_exec
  -- the select loop
  sl_for (inv2 d L (G0of d L IDS) (Rof d L Y gl hin)) $$ [HG0 HG2 HG3]
  case region =>
    intro k acc
    cases acc
    exact trip2 d L (G0of d L IDS) (Rof d L Y gl hin) k
  · unfold inv2
    isplitl [HG0]; · iexact HG0
    isplitl [HG2]; · iexact HG2
    iexists _; isplitl [HG3]; · iexact HG3
    ipureintro; exact selQ_zero _ _ _
  iintro %_ HI2
  unfold inv2
  icases HI2 with ⟨HG0, HG2, %gs, HG3, %hQ⟩
  have hQ' : selQ (Rof d L Y gl hin) (G0of d L IDS) 32 0 gs := by
    have h32 : Scf.trips k1_t2_loop.lb k1_t2_loop.ub k1_t2_loop.st = 32 := trips2
    rw [← h32]; exact hQ
  -- the copy-out
  sl_exec
  sl_step
  isplitl [HI]; · iexact HI
  isplitl [HY]; · iexact HY
  isplitl [HO0]
  · iexists _; isplitl [HO0]; · iexact HO0
    ipureintro
    intro x
    refine (((View.read_apply (v := (outK L).view) (Val := Elt F) _ x).trans (cast_eq _ _)).symm).trans ?_
    rw [View.read_writes_whole]
    exact out_fact d L IDS hids Y gl hg1 hin gs hQ' x
  isplitl [HG0]; · iexists _; iexact HG0
  isplitl [HG1]; · iexists _; iexact HG1
  isplitl [HG2]; · iexists _; iexact HG2
  isplitl [HG3]; · iexists _; iexact HG3
  isplitl [Hc4]; · iexact Hc4
  isplitl [Hc0]; · iexact Hc0
  isplitl [Hc1]; · iexact Hc1
  iexists _; iexact HO

end Tile

end Cert.KernelIdeal.Hand

end
-- ==== Proof.TileObl.lean ====
/-
  From the vector subcore's run to the launch theorem's obligation: the task's slices of the node ids and of the result are
  the worker's parts of them; the subcore's four scratch buffers and three transfer cells are among its own; the run,
  handed what the launch deals the worker, hands back what the launch takes.
-/
import proofs.«211133_g82480551952782_cont_sun_m_220_25_alg».proof.Proof.Tile
import Idealize.ShloMosaic.Lib.Pipeline.Value

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "yV" => (Memref.whole Cert.KernelIdeal.main_v5_scv : Memref Cert.KernelIdeal.sig Kind.scVector Space.hbm Cert.KernelIdeal.S126976x128 EltTy.f32)
local notation "iV" => (Memref.whole Cert.KernelIdeal.main_arg0_scv : Memref Cert.KernelIdeal.sig Kind.scVector Space.hbm Cert.KernelIdeal.S16384 EltTy.i32)
local notation "oV" => (Memref.whole Cert.KernelIdeal.main_v6_scv : Memref Cert.KernelIdeal.sig Kind.scVector Space.hbm Cert.KernelIdeal.S16x16384 EltTy.f32)
local notation "s0V" => (Memref.whole Cert.KernelIdeal.cc1_scratch0 : Memref Cert.KernelIdeal.sig Kind.scVector Space.vmem Cert.KernelIdeal.S512 EltTy.i32)
local notation "s1V" => (Memref.whole Cert.KernelIdeal.cc1_scratch1 : Memref Cert.KernelIdeal.sig Kind.scVector Space.vmem Cert.KernelIdeal.S512 EltTy.i32)
local notation "s2V" => (Memref.whole Cert.KernelIdeal.cc1_scratch2 : Memref Cert.KernelIdeal.sig Kind.scVector Space.vmem Cert.KernelIdeal.S512x128 EltTy.f32)
local notation "s3V" => (Memref.whole Cert.KernelIdeal.cc1_scratch3 : Memref Cert.KernelIdeal.sig Kind.scVector Space.vmem Cert.KernelIdeal.S16x512 EltTy.f32)

variable [FloatOps F]

section TileObl

variable (d : Dev nD) (L : grid1.Coords)

/-! ## The task's slices are the worker's parts -/

omit [FloatOps F] in
theorem bound_zero : grid1.bound 0 = 2 := rfl
omit [FloatOps F] in
theorem bound_one : grid1.bound 1 = 16 := rfl

/-- The worker number of the subcore at grid coordinates `L`: twice the subcore's number plus the SparseCore's. -/
def widL (L : grid1.Coords) : Fin 32 := wid (Fin.cast bound_zero (L 0)) (Fin.cast bound_one (L 1))

omit [FloatOps F] in
theorem widL_val : (widL L).val = 2 * (L 1).val + (L 0).val := rfl

omit [FloatOps F] in
/-- The body's slice of the node ids starts at `1024 (L 1) + 512 (L 0)`, which is 512 times the worker's number. -/
theorem idsRect_eq : idsRect L = idsPart (widL L) := by
  unfold idsRect idsPart Rect.part Rect.block
  congr 1 <;> funext a
  · rw [k1_off1_eq]
    match a with
    | 0 => simp [Shape.partIx, Shape.partSize, widL_val]; omega
  · match a with
    | 0 => simp [Shape.partSize]

omit [FloatOps F] in
/-- The body's slice of the result: all 16 rows, 512 columns from `1024 (L 1) + 512 (L 0)`. -/
theorem outRect_eq : outRect L = outPart (widL L) := by
  unfold outRect outPart Rect.part Rect.block
  congr 1 <;> funext a
  · rw [k1_off4_eq]
    match a with
    | 0 => simp [Shape.partIx, Shape.partSize]
    | 1 => simp [Shape.partIx, Shape.partSize, widL_val]; omega
  · match a with
    | 0 => simp [Shape.partSize]
    | 1 => simp [Shape.partSize]

omit [FloatOps F] in
theorem set_idsK : (idsK L).view.set = idsSet (widL L) := by
  show ((iV).view.slice (idsRect L)).set = ((iV).view.slice (idsPart (widL L))).set
  exact idsRect_eq L ▸ rfl
omit [FloatOps F] in
theorem set_outK : (outK L).view.set = outSet (widL L) := by
  show ((oV).view.slice (outRect L)).set = ((oV).view.slice (outPart (widL L))).set
  exact outRect_eq L ▸ rfl

omit [FloatOps F] in
theorem pts_idsK (f : Buf (Elt F) (idsLoc d)) :
    ((idsK L).view.loc (VT d L) ↦[(idsK L).view.set]{fullShare} f : sProp 𝕄) = idsLoc d ↦[idsSet (widL L)]{fullShare} f := by
  rw [set_idsK]
omit [FloatOps F] in
theorem pts_outK (f : Buf (Elt F) (oLoc d)) :
    ((outK L).view.loc (VT d L) ↦[(outK L).view.set]{fullShare} f : sProp 𝕄) = oLoc d ↦[outSet (widL L)]{fullShare} f := by
  rw [set_outK]
omit [FloatOps F] in
theorem pts_yV (q : PosShare TreeShare) (f : Buf (Elt F) (yLoc d)) :
    ((yV).view.loc (VT d L) ↦{q} f : sProp 𝕄) = yLoc d ↦{q} f := rfl
omit [FloatOps F] in
theorem pts_s0V (f : Buf (Elt F) ((VT d L).loc cc1_scratch0)) :
    ((s0V).view.loc (VT d L) ↦[(s0V).view.set]{fullShare} f : sProp 𝕄) = (VT d L).loc cc1_scratch0 ↦{fullShare} f := by
  rw [View.set_whole]
omit [FloatOps F] in
theorem pts_s1V (f : Buf (Elt F) ((VT d L).loc cc1_scratch1)) :
    ((s1V).view.loc (VT d L) ↦[(s1V).view.set]{fullShare} f : sProp 𝕄) = (VT d L).loc cc1_scratch1 ↦{fullShare} f := by
  rw [View.set_whole]
omit [FloatOps F] in
theorem pts_s2V (f : Buf (Elt F) ((VT d L).loc cc1_scratch2)) :
    ((s2V).view.loc (VT d L) ↦[(s2V).view.set]{fullShare} f : sProp 𝕄) = (VT d L).loc cc1_scratch2 ↦{fullShare} f := by
  rw [View.set_whole]
omit [FloatOps F] in
theorem pts_s3V (f : Buf (Elt F) ((VT d L).loc cc1_scratch3)) :
    ((s3V).view.loc (VT d L) ↦[(s3V).view.set]{fullShare} f : sProp 𝕄) = (VT d L).loc cc1_scratch3 ↦{fullShare} f := by
  rw [View.set_whole]

/-! ## The subcore's own cells and buffers -/

/-- The three transfer cells the task names. -/
abbrev cell4 (d : Dev nD) (L : grid1.Coords) : GSem nD τ sig := (VT d L, .dma cc1_scratch4.sem)
abbrev cellA (d : Dev nD) (L : grid1.Coords) : GSem nD τ sig := (VT d L, .dma cc1_scoped0.sem)
abbrev cellB (d : Dev nD) (L : grid1.Coords) : GSem nD τ sig := (VT d L, .dma cc1_scoped1.sem)

omit [FloatOps F] in
/-- The subcore's own cells at zero: the three the task names, one by one, and the rest. -/
theorem ownSems0_V :
    (ownSems0 (VT d L) : sProp 𝕄)
      = iprop(semVal (cell4 d L) 0 ∗ semVal (cellA d L) 0 ∗ semVal (cellB d L) 0
          ∗ bigSep ((((ownCells (VT d L)).erase (cell4 d L)).erase (cellA d L)).erase (cellB d L)) fun g => semVal g 0) := by
  unfold SparseCore.Cfg.ownSems0
  rw [SparseCore.bigSep_erase' ((mem_ownCells (g := cell4 d L)).mpr ⟨rfl, by
      show (SemLoc.dma cc1_scratch4.sem : SemLoc sig).isScoped .scVector = true; decide⟩),
    SparseCore.bigSep_erase' (Finset.mem_erase.mpr ⟨by simp [cell4, cellA]; decide, (mem_ownCells (g := cellA d L)).mpr ⟨rfl, by
      show (SemLoc.dma cc1_scoped0.sem : SemLoc sig).isScoped .scVector = true; decide⟩⟩),
    SparseCore.bigSep_erase' (Finset.mem_erase.mpr ⟨by simp [cellA, cellB]; decide, Finset.mem_erase.mpr ⟨by simp [cell4, cellB]; decide,
      (mem_ownCells (g := cellB d L)).mpr ⟨rfl, by show (SemLoc.dma cc1_scoped1.sem : SemLoc sig).isScoped .scVector = true; decide⟩⟩⟩)]

omit [FloatOps F] in
/-- The four scratch buffers are among the subcore's own: they are them, at some contents, and the rest. -/
theorem ownBufs_V :
    (ownBufs (VT d L) : sProp 𝕄)
      = iprop((∃ f, (VT d L).loc cc1_scratch0 ↦{fullShare} f) ∗ (∃ f, (VT d L).loc cc1_scratch1 ↦{fullShare} f)
          ∗ (∃ f, (VT d L).loc cc1_scratch2 ↦{fullShare} f) ∗ (∃ f, (VT d L).loc cc1_scratch3 ↦{fullShare} f)
          ∗ bigSep (((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2)).erase
              ((Proc.scVector (cV L) (jV L)).devRef cc1_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
    SparseCore.Cfg.mem_ownRefs_of_owner (p := Proc.scVector (cV L) (jV L)) (b := (Proc.scVector (cV L) (jV L)).devRef cc1_scratch2) rfl⟩⟩),
    SparseCore.bigSep_erase' (Finset.mem_erase.mpr ⟨fun e => absurd (Proc.devRef_injective _ e) (show (cc1_scratch3 : Ref sig .scVector) ≠ cc1_scratch2 by decide),
      Finset.mem_erase.mpr ⟨fun e => absurd (Proc.devRef_injective _ e) (show (cc1_scratch3 : Ref sig .scVector) ≠ cc1_scratch1 by decide),
      Finset.mem_erase.mpr ⟨fun e => absurd (Proc.devRef_injective _ e) (show (cc1_scratch3 : Ref sig .scVector) ≠ cc1_scratch0 by decide),
    SparseCore.Cfg.mem_ownRefs_of_owner (p := Proc.scVector (cV L) (jV L)) (b := (Proc.scVector (cV L) (jV L)).devRef cc1_scratch3) rfl⟩⟩⟩)]

/-! ## The task, from what the launch deals the worker to what it takes back -/

omit [FloatOps F] in
/-- A property of every image of a view's index holds of every element under the view. -/
theorem forall_set_of_forall_emb {sig' : RefSig} {κ : Kind} {sp : Space} {S' : Shape} {e : EltTy} (v : View sig' κ sp S' e)
    (Q : v.ty.Idx → Prop) (h : ∀ x : S'.Idx, Q (v.emb x)) : ∀ i ∈ v.set, Q i := fun i hi => by
  obtain ⟨y, rfl⟩ := v.exists_emb_of_mem_set hi
  exact h y

section Body

variable (m : (ℓ : Loc nD τ sig) → Buf (Elt F) ℓ) (X : Dev nD → Vec F S64x1000000 .f32) (B : Dev nD → Vec F S1x128 .f32)

/-- The task on the vector subcore at `L` of device `d`, from what the launch deals worker `widL L` (a share of `y`, its
    node ids, its columns of the result, the subcore's scoped buffers and cells) to what it hands back. -/
theorem tile_body (hF : (K (F := F)).Facts) (hpre : IdsOK (m (idsLoc d))) (O : CellTallies nD τ sig (HIx 1)) (W : Waits sig (HIx 1)) (hO : ∀ g, O g none = 0) :
    iprop(levAts (K (F := F)).L (K (F := F)).lev ∗ emp ∗ goW m X B d (widL L) ∗ scopedBufs (VT d L) ∗ scopedSems0 (VT d L) ∗ owes (VT d L) O W)
      ⊢ wp frame (wpE (defs₀ (F := F)) 𝒱₀ (VT d L) none) Set.univ
          (cc1_gather_k L yV (Memref.isWhole_whole _) iV (Memref.isWhole_whole _) oV (Memref.isWhole_whole _)
            s0V (Memref.isWhole_whole _) s1V (Memref.isWhole_whole _) s2V (Memref.isWhole_whole _) s3V (Memref.isWhole_whole _) cc1_scratch4 cc1_scoped0 cc1_scoped1)
          fun _ => iprop(tdW m X B d (widL L) ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V hF d (cV L) (jV L), SparseCore.Cfg.scopedSems0_V (Val := Elt F) d (cV L) (jV L), ownSems0_V, ownBufs_V]
  unfold goW tdW
  iintro ⟨#Hlv, -, ⟨%Y, %hY, Hy, Hi, Ho⟩, ⟨⟨%g0, HG0⟩, ⟨%g1, HG1⟩, ⟨%g2, HG2⟩, ⟨%g3, HG3⟩, Hbufs⟩, ⟨HC4, HCA, HCB, Hsems⟩, HO⟩
  ihave Hmw := (show levAts (K (F := F)).L (K (F := F)).lev ⊢ Transfers.MayWaits (VT d L) (default : HIx 1) O from
    (K (F := F)).mayWaits_none (thr := VT d L) hO) $$ Hlv
  -- the pieces in the body's spelling
  ihave Hi' := (Entails.of_eq (pts_idsK (F := F) d L _).symm) $$ Hi
  ihave Ho' := (Entails.of_eq (pts_outK (F := F) d L _).symm) $$ Ho
  ihave HG0' := (Entails.of_eq (pts_s0V (F := F) d L _).symm) $$ HG0
  ihave HG1' := (Entails.of_eq (pts_s1V (F := F) d L _).symm) $$ HG1
  ihave HG2' := (Entails.of_eq (pts_s2V (F := F) d L _).symm) $$ HG2
  ihave HG3' := (Entails.of_eq (pts_s3V (F := F) d L _).symm) $$ HG3
  iapply (wp_wand_r Idealize.ShloMosaic.frame (wpE (defs₀ (F := F)) 𝒱₀ (VT d L) none) Set.univ)
  isplitl [Hi' Hy Ho' HG0' HG1' HG2' HG3' HC4 HCA HCB HO]
  · iapply (tile_run d L O W (m (idsLoc d)) hpre Y (m (oLoc d)) (tokY (widL L)) g0 g1 g2 g3)
    isplitr; · iexact Hmw
    isplitl [Hi']; · iexact Hi'
    isplitl [Hy]; · iexact Hy
    isplitl [Ho']; · iexact Ho'
    isplitl [HG0']; · iexact HG0'
    isplitl [HG1']; · iexact HG1'
    isplitl [HG2']; · iexact HG2'
    isplitl [HG3']; · iexact HG3'
    isplitl [HC4]; · iexact HC4
    isplitl [HCA]; · iexact HCA
    isplitl [HCB]; · iexact HCB
    iexact HO
  iintro %_ ⟨Hi', Hy, ⟨%f, Ho', %hf⟩, ⟨%g0', HG0'⟩, ⟨%g1', HG1'⟩, ⟨%g2', HG2'⟩, ⟨%g3', HG3'⟩, HC4, HCA, HCB, ⟨%W', HO⟩⟩
  isplitl [Hi' Hy Ho']
  · iexists Y
    isplitr; · ipureintro; exact hY
    isplitl [Hy]; · iexact Hy
    isplitl [Hi']; · iapply (Entails.of_eq (pts_idsK (F := F) d L _)); iexact Hi'
    iexists f
    isplitl [Ho']; · iapply (Entails.of_eq (pts_outK (F := F) d L _)); iexact Ho'
    ipureintro
    rw [← set_outK L]
    exact forall_set_of_forall_emb (outK L).view (fun i => f i = OUTT Y (m (idsLoc d)) i) hf
  isplitl [HG0' HG1' HG2' HG3' Hbufs]
  · isplitl [HG0']; · iexists _; iapply (Entails.of_eq (pts_s0V (F := F) d L _)); iexact HG0'
    isplitl [HG1']; · iexists _; iapply (Entails.of_eq (pts_s1V (F := F) d L _)); iexact HG1'
    isplitl [HG2']; · iexists _; iapply (Entails.of_eq (pts_s2V (F := F) d L _)); iexact HG2'
    isplitl [HG3']; · iexists _; iapply (Entails.of_eq (pts_s3V (F := F) d L _)); iexact HG3'
    iexact Hbufs
  isplitl [HC4 HCA HCB Hsems]
  · isplitl [HC4]; · iexact HC4
    isplitl [HCA]; · iexact HCA
    isplitl [HCB]; · iexact HCB
    iexact Hsems
  iexists W'; isplitr
  · ipureintro; intro p _
    rcases p.2 with _ | q
    · exact .inr (.inl rfl)
    · exact .inr (.inr (congrArg some (Subsingleton.elim q 0)))
  · iexact HO

end Body

/-! ## The obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_gather_k (coordsV c s)
          yV (Memref.isWhole_whole _) iV (Memref.isWhole_whole _) oV (Memref.isWhole_whole _)
          s0V (Memref.isWhole_whole _) s1V (Memref.isWhole_whole _) s2V (Memref.isWhole_whole _) s3V (Memref.isWhole_whole _)
          cc1_scratch4 cc1_scoped0 cc1_scoped1) ⟨⟩ c s := rfl

section Obl

variable (m : (ℓ : Loc nD τ sig) → Buf (Elt F) ℓ) (X : Dev nD → Vec F S64x1000000 .f32) (B : Dev nD → Vec F S1x128 .f32)

/-- The launch theorem's obligation for the vector subcores: each runs its task from what the call deals it to what it takes back. -/
theorem tileObl (hF : (K (F := F)).Facts) (hpre : ∀ d : Dev nD, IdsOK (m (idsLoc d))) :
    (K (F := F)).TileObl (D (F := F)) 𝒱 (P m X B) v₀ 0 := by
  intro d c i O W hO _ _
  simp only [show (P m X B).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have hw : wid (Fin.cast nCore_zero c) (Fin.cast nSub_zero i) = widL (coordsV ⟨_, hci.1⟩ ⟨_, hci.2⟩) := Fin.ext rfl
  show iprop(_ ∗ _ ∗ goW m X B d (wid (Fin.cast nCore_zero c) (Fin.cast nSub_zero i)) ∗ _ ∗ _ ∗ _) ⊢ wp _ _ _ _ fun _ =>
    iprop(tdW m X B d (wid (Fin.cast nCore_zero c) (Fin.cast nSub_zero i)) ∗ _ ∗ _ ∗ _)
  rw [hw]
  exact tile_body d (coordsV ⟨_, hci.1⟩ ⟨_, hci.2⟩) m X B hF (hpre d) O W hO

end Obl

end TileObl

end Cert.KernelIdeal.Hand

end
-- ==== Proof.Run.lean ====
/-
  The idealized kernel's run: every weakly fair execution of the device's threads terminates, the four arguments end unchanged,
  and the result is the transpose of an array that holds, at each entry, the lane of the projection its node id names.
-/
import proofs.«211133_g82480551952782_cont_sun_m_220_25_alg».proof.Proof.Main
import proofs.«211133_g82480551952782_cont_sun_m_220_25_alg».proof.Proof.TileObl

noncomputable section

namespace Cert.KernelIdeal.Hand

open Cert.KernelIdeal Cert.KernelIdeal.Gen
open Idealize.ShloMosaic Idealize.SL.Sem

variable {F : FTy → Type} [FloatOps F]

theorem run_main (m : (ℓ : Loc nD τ sig) → Buf (Elt F) ℓ) (ρ : Dev nD → PrngReg) [∀ e, Nonempty (Elt F e)]
    (hpre : ∀ d : Dev nD, IdsOK (m (idsLoc d))) :
    θ_run (Cert.KernelIdeal.defs (F := F)) (Cert.KernelIdeal.threads (F := F)) ⟨m, fun _ => 0, ρ⟩ (QC m) :=
  run_main_of m ρ (tileObl m (Xof m) (Bof m) facts hpre)

end Cert.KernelIdeal.Hand

end
-- ==== Proof.Bits.Setup.lean ====
/-
  The kernel's program as the SparseCore launch theorem sees it, and the ghost state of its proof:
  the handshakes' rounds, the TensorCore pipeline's staging cells' rounds, and the transfers' counters.
-/
import proofs.«211133_g82480551952782_cont_sun_m_220_25_alg».proof.Kernel
import proofs.«211133_g82480551952782_cont_sun_m_220_25_alg».proof.Proof.Gen.Kernel
import proofs.«211133_g82480551952782_cont_sun_m_220_25_alg».proof.Proof.Gen.Kernel.Skeleton
import proofs.«211133_g82480551952782_cont_sun_m_220_25_alg».proof.Proof.Gen.Kernel.Launch
import proofs.«211133_g82480551952782_cont_sun_m_220_25_alg».proof.Proof.Gen.Kernel.Points
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import Idealize.ShloMosaic.Lib.ValueIdx

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

/-- The handshakes' rounds: the left factor. -/
abbrev EH : Emb UH (MT nD τ sig (HIx 1) (Elt F) ℕ UU ℕ) := embL
/-- The pipeline's staging cells' rounds: the middle factor. -/
def EP : Emb UP (MT nD τ sig (HIx 1) (Elt F) ℕ UU ℕ) := (Emb.inl : Emb UP (UP × Counters)).trans embR

instance EP_landsIn : (EP : Emb UP (MT nD τ sig (HIx 1) (Elt F) ℕ UU ℕ)).LandsIn (upEmb : UEmb _ (MT nD τ sig (HIx 1) (Elt F) ℕ UU ℕ)) := by
  unfold EP; infer_instance

/-! ## The arrays -/

abbrev idsLoc (d : Dev nD) : Loc nD τ sig := (SparseCore.T d).loc main_arg0
abbrev tabLoc (d : Dev nD) : Loc nD τ sig := (SparseCore.T d).loc main_arg1
abbrev wLoc (d : Dev nD) : Loc nD τ sig := (SparseCore.T d).loc main_arg2
abbrev bLoc (d : Dev nD) : Loc nD τ sig := (SparseCore.T d).loc main_arg3
abbrev xtLoc (d : Dev nD) : Loc nD τ sig := (SparseCore.T d).loc main_v4
abbrev b128Loc (d : Dev nD) : Loc nD τ sig := (SparseCore.T d).loc main_v3
abbrev yLoc (d : Dev nD) : Loc nD τ sig := (SparseCore.T d).loc main_v5
abbrev oLoc (d : Dev nD) : Loc nD τ sig := (SparseCore.T d).loc main_v6
abbrev rLoc (d : Dev nD) : Loc nD τ sig := (SparseCore.T d).loc main_v7

/-! ## What the two kernels compute, as statements over any float instance -/

section Spec

variable [FloatOps F]

/-- What the projection leaves in `y` [126976, 128]: for each of the 31 grid points `t`, rows `4096 t ‥ 4096 t + 4095` are the
    body's value at the weights `Wt`, the tiled bias `B` and a [64, 32768] block that agrees with `X` (the transposed
    table, [64, 1000000]) at every column that lies inside `X` (the last block runs past the table: its other columns
    are not determined). -/
def Yspec (X : Vec F S64x1000000 .f32) (Wt : Vec F S16x64 .f32) (B : Vec F S1x128 .f32) (Y : Vec F S126976x128 .f32) : Prop :=
  ∀ t : Fin 31, ∃ blk : Vec F S64x32768 .f32,
    (∀ (dd : Fin 64) (c : Fin 32768) (h : 32768 * t.val + c.val < 1000000),
        blk (ValueIdx.ix2 dd c) = X (ValueIdx.ix2 dd ⟨32768 * t.val + c.val, h⟩))
    ∧ ∀ (r : Fin 4096) (col : Fin 128),
        Y (ValueIdx.ix2 ⟨4096 * t.val + r.val, by have := t.isLt; have := r.isLt; omega⟩ col) = k0_pay1 Wt blk B (ValueIdx.ix2 r col)

/-- The row of `y` a node id names: `((n >> 15) << 12) | (n & 4095)`, as the gather kernel computes it. -/
def gid (n : BitVec 32) : BitVec 32 := ((n.sshiftRight 15) <<< 12) ||| (n &&& 4095#32)
/-- The first of the sixteen lanes of that row that belong to the node: `((n >> 12) & 7) * 16`. -/
def sub (n : BitVec 32) : BitVec 32 := ((n.sshiftRight 12) &&& 7#32) * 16#32

/-- `y` read at natural-number coordinates (at its first entry outside its extents). -/
def Yat (Y : Vec F S126976x128 .f32) (g col : Nat) : Elt F .f32 :=
  if h : g < 126976 ∧ col < 128 then Y (ValueIdx.ix2 ⟨g, h.1⟩ ⟨col, h.2⟩) else Y (ValueIdx.ix2 ⟨0, by decide⟩ ⟨0, by decide⟩)

/-- What the gather kernel leaves in its result [16, 16384]: entry `(o, j)` is lane `sub (ids j) + o` of row `gid (ids j)` of `y`. -/
def OUTT (Y : Vec F S126976x128 .f32) (ids : IVec S16384 32) : Vec F S16x16384 .f32 :=
  fun i => Yat Y (gid (ids (ValueIdx.ix1 (i 1)))).toNat ((sub (ids (ValueIdx.ix1 (i 1)))).toNat + (i 0).val)

/-- Every node id names a row of the table. -/
def IdsOK (ids : IVec S16384 32) : Prop := ∀ j : S16384.Idx, 0 ≤ (ids j).toInt ∧ (ids j).toInt ≤ 999999

end Spec

end Cert.Kernel.Hand

end
-- ==== Proof.Bits.Region.lean ====
/-
  The projection's region inside the program: the step of @main that runs the pipelined TensorCore kernel, as one
  weakest-precondition lemma over the program's extended body table, and the piece of the launch element that funds it.

  The kernel's grid has 31 points. At point t the pipeline stages columns 32768 t onward of the transposed table
  [64, 1000000] (the last block runs past the table: the fetch overwrites the staging buffer with contents nothing
  names, then lands the columns inside the table), the weights [16, 64] and the tiled bias [1, 128] (both staged once,
  at the first point); the body loads the three staging buffers whole, computes the projection, and stores it whole
  into the result's staging buffer [4096, 128], which the pipeline writes back to rows 4096 t onward of the result
  [126976, 128]. What the result ends holding is stated relationally: each block of rows is the projection of the
  weights, the bias and SOME block that agrees with the table's on every column inside the table.
-/
import proofs.«211133_g82480551952782_cont_sun_m_220_25_alg».proof.Proof.Bits.Setup
import Idealize.ShloMosaic.Lib.Pipeline.Regions
import Idealize.ShloMosaic.Lib.Pipeline.Value

noncomputable section

namespace Cert.Kernel.Hand

open Cert.Kernel Cert.Kernel.Gen

open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F]

local notation "𝕄" => MT nD τ sig (HIx 1) (Elt F) ℕ UU ℕ

theorem hz : (![0, 0] : Fin 2 → Nat) = fun _ => 0 := funext fun a => by fin_cases a <;> rfl

/-- The kernel's body on whichever staging buffers the point uses: three whole loads (the weights, the table's block,
    the bias), a dead whole load of the result's buffer, the projection, one whole store — the result's buffer ends
    holding the projection of what the other three hold, those unchanged. -/
theorem sound_body (c : Dev nD) (E : Set ℕ) (i : grid0.Coords) (s0 : Fin 2) (s1 : Fin 1) (s2 : Fin 1) (s3 : Fin 2)
    (X0 : S64x32768.Idx → Elt F .f32) (X1 : S16x64.Idx → Elt F .f32) (X2 : S1x128.Idx → Elt F .f32) (X3 : S4096x128.Idx → Elt F .f32)
    (Kp : PUnit → sProp 𝕄) :
    iprop((owns (c : Thread nD τ) (stage0_0 s0) fullShare X0 ∗ owns (c : Thread nD τ) (stage0_1 s1) fullShare X1
            ∗ owns (c : Thread nD τ) (stage0_2 s2) fullShare X2 ∗ owns (c : Thread nD τ) (stage0_3 s3) fullShare X3)
          ∗ (iprop(owns (c : Thread nD τ) (stage0_0 s0) fullShare X0 ∗ owns (c : Thread nD τ) (stage0_1 s1) fullShare X1
                  ∗ owns (c : Thread nD τ) (stage0_2 s2) fullShare X2
                  ∗ owns (c : Thread nD τ) (stage0_3 s3) fullShare (k0_pay1 X1 X0 X2)) -∗ Kp ⟨⟩))
      ⊢ wp frame (wpE (defs₀ (F := F)) 𝒱₀ c none) E
          (cc0__proj_body i (stage0_0 s0) (hstage0_0 s0) (stage0_1 s1) (hstage0_1 s1) (stage0_2 s2) (hstage0_2 s2) (stage0_3 s3) (hstage0_3 s3)) Kp := by
  fin_cases s0 <;> fin_cases s1 <;> fin_cases s2 <;> fin_cases s3
  · have hr0 : (Memref.whole cc0_stg0_0 : Memref sig .tc _ _ _).view.readAt (Elt F) (Rect.unit (s := S64x32768) ![0, 0] S64x32768.size
        inb_S64x32768_S64x32768_0_0).toLoadRect = id := funext (Memref.readAt_unit_zero (Elt F) cc0_stg0_0 hz _)
    have hr1 : (Memref.whole cc0_stg1_0 : Memref sig .tc _ _ _).view.readAt (Elt F) (Rect.unit (s := S16x64) ![0, 0] S16x64.size
        inb_S16x64_S16x64_0_0).toLoadRect = id := funext (Memref.readAt_unit_zero (Elt F) cc0_stg1_0 hz _)
    have hr2 : (Memref.whole cc0_stg2_0 : Memref sig .tc _ _ _).view.readAt (Elt F) (Rect.unit (s := S1x128) ![0, 0] S1x128.size
        inb_S1x128_S1x128_0_0).toLoadRect = id := funext (Memref.readAt_unit_zero (Elt F) cc0_stg2_0 hz _)
    have hw3 : ∀ f w, (((Memref.whole cc0_stg3_0).access (Rect.unit (s := S4096x128) ![0, 0] S4096x128.size inb_S4096x128_S4096x128_0_0)) :
        View sig .tc _ _ _).write (Elt F) f w Finset.univ = w := Memref.write_access_unit_zero_univ (Elt F) cc0_stg3_0 hz _
    simp only [owns_whole_eq, cc0__proj_body_eq_skeleton]; unfold cc0__proj_body_skel
    simp only [Prog.lift, Prog.bind_op, Prog.bind_ret]
    iintro ⟨⟨⟨%f0, %hf0, H0⟩, ⟨%f1, %hf1, H1⟩, ⟨%f2, %hf2, H2⟩, ⟨%f3, %hf3, H3⟩⟩, Hk⟩
    sl_steps
    iapply Hk
    rw [hr0, hr1, hr2, hw3]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    · iexists k0_pay1 f1 f0 f2; isplitr; · ipureintro; rw [hf0, hf1, hf2]
      iexact H3
  · have hr0 : (Memref.whole cc0_stg0_0 : Memref sig .tc _ _ _).view.readAt (Elt F) (Rect.unit (s := S64x32768) ![0, 0] S64x32768.size
        inb_S64x32768_S64x32768_0_0).toLoadRect = id := funext (Memref.readAt_unit_zero (Elt F) cc0_stg0_0 hz _)
    have hr1 : (Memref.whole cc0_stg1_0 : Memref sig .tc _ _ _).view.readAt (Elt F) (Rect.unit (s := S16x64) ![0, 0] S16x64.size
        inb_S16x64_S16x64_0_0).toLoadRect = id := funext (Memref.readAt_unit_zero (Elt F) cc0_stg1_0 hz _)
    have hr2 : (Memref.whole cc0_stg2_0 : Memref sig .tc _ _ _).view.readAt (Elt F) (Rect.unit (s := S1x128) ![0, 0] S1x128.size
        inb_S1x128_S1x128_0_0).toLoadRect = id := funext (Memref.readAt_unit_zero (Elt F) cc0_stg2_0 hz _)
    have hw3 : ∀ f w, (((Memref.whole cc0_stg3_1).access (Rect.unit (s := S4096x128) ![0, 0] S4096x128.size inb_S4096x128_S4096x128_0_0)) :
        View sig .tc _ _ _).write (Elt F) f w Finset.univ = w := Memref.write_access_unit_zero_univ (Elt F) cc0_stg3_1 hz _
    simp only [owns_whole_eq, cc0__proj_body_eq_skeleton]; unfold cc0__proj_body_skel
    simp only [Prog.lift, Prog.bind_op, Prog.bind_ret]
    iintro ⟨⟨⟨%f0, %hf0, H0⟩, ⟨%f1, %hf1, H1⟩, ⟨%f2, %hf2, H2⟩, ⟨%f3, %hf3, H3⟩⟩, Hk⟩
    sl_steps
    iapply Hk
    rw [hr0, hr1, hr2, hw3]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    · iexists k0_pay1 f1 f0 f2; isplitr; · ipureintro; rw [hf0, hf1, hf2]
      iexact H3
  · have hr0 : (Memref.whole cc0_stg0_1 : Memref sig .tc _ _ _).view.readAt (Elt F) (Rect.unit (s := S64x32768) ![0, 0] S64x32768.size
        inb_S64x32768_S64x32768_0_0).toLoadRect = id := funext (Memref.readAt_unit_zero (Elt F) cc0_stg0_1 hz _)
    have hr1 : (Memref.whole cc0_stg1_0 : Memref sig .tc _ _ _).view.readAt (Elt F) (Rect.unit (s := S16x64) ![0, 0] S16x64.size
        inb_S16x64_S16x64_0_0).toLoadRect = id := funext (Memref.readAt_unit_zero (Elt F) cc0_stg1_0 hz _)
    have hr2 : (Memref.whole cc0_stg2_0 : Memref sig .tc _ _ _).view.readAt (Elt F) (Rect.unit (s := S1x128) ![0, 0] S1x128.size
        inb_S1x128_S1x128_0_0).toLoadRect = id := funext (Memref.readAt_unit_zero (Elt F) cc0_stg2_0 hz _)
    have hw3 : ∀ f w, (((Memref.whole cc0_stg3_0).access (Rect.unit (s := S4096x128) ![0, 0] S4096x128.size inb_S4096x128_S4096x128_0_0)) :
        View sig .tc _ _ _).write (Elt F) f w Finset.univ = w := Memref.write_access_unit_zero_univ (Elt F) cc0_stg3_0 hz _
    simp only [owns_whole_eq, cc0__proj_body_eq_skeleton]; unfold cc0__proj_body_skel
    simp only [Prog.lift, Prog.bind_op, Prog.bind_ret]
    iintro ⟨⟨⟨%f0, %hf0, H0⟩, ⟨%f1, %hf1, H1⟩, ⟨%f2, %hf2, H2⟩, ⟨%f3, %hf3, H3⟩⟩, Hk⟩
    sl_steps
    iapply Hk
    rw [hr0, hr1, hr2, hw3]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    · iexists k0_pay1 f1 f0 f2; isplitr; · ipureintro; rw [hf0, hf1, hf2]
      iexact H3
  · have hr0 : (Memref.whole cc0_stg0_1 : Memref sig .tc _ _ _).view.readAt (Elt F) (Rect.unit (s := S64x32768) ![0, 0] S64x32768.size
        inb_S64x32768_S64x32768_0_0).toLoadRect = id := funext (Memref.readAt_unit_zero (Elt F) cc0_stg0_1 hz _)
    have hr1 : (Memref.whole cc0_stg1_0 : Memref sig .tc _ _ _).view.readAt (Elt F) (Rect.unit (s := S16x64) ![0, 0] S16x64.size
        inb_S16x64_S16x64_0_0).toLoadRect = id := funext (Memref.readAt_unit_zero (Elt F) cc0_stg1_0 hz _)
    have hr2 : (Memref.whole cc0_stg2_0 : Memref sig .tc _ _ _).view.readAt (Elt F) (Rect.unit (s := S1x128) ![0, 0] S1x128.size
        inb_S1x128_S1x128_0_0).toLoadRect = id := funext (Memref.readAt_unit_zero (Elt F) cc0_stg2_0 hz _)
    have hw3 : ∀ f w, (((Memref.whole cc0_stg3_1).access (Rect.unit (s := S4096x128) ![0, 0] S4096x128.size inb_S4096x128_S4096x128_0_0)) :
        View sig .tc _ _ _).write (Elt F) f w Finset.univ = w := Memref.write_access_unit_zero_univ (Elt F) cc0_stg3_1 hz _
    simp only [owns_whole_eq, cc0__proj_body_eq_skeleton]; unfold cc0__proj_body_skel
    simp only [Prog.lift, Prog.bind_op, Prog.bind_ret]
    iintro ⟨⟨⟨%f0, %hf0, H0⟩, ⟨%f1, %hf1, H1⟩, ⟨%f2, %hf2, H2⟩, ⟨%f3, %hf3, H3⟩⟩, Hk⟩
    sl_steps
    iapply Hk
    rw [hr0, hr1, hr2, hw3]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    · iexists k0_pay1 f1 f0 f2; isplitr; · ipureintro; rw [hf0, hf1, hf2]
      iexact H3

abbrev adm : (p : Fin 1) → (pcfgs (F := F) p).Adm := fun p => (cfgs p).toPCfg_adm

/-- What point t's block of the transposed table pins of a staged block: the columns that lie inside the table. -/
def AgreesAt (X : Vec F S64x1000000 .f32) (t : Nat) (blk : Vec F S64x32768 .f32) : Prop :=
  ∀ (dd : Fin 64) (c : Fin 32768) (h : 32768 * t + c.val < 1000000), blk (ValueIdx.ix2 dd c) = X (ValueIdx.ix2 dd ⟨32768 * t + c.val, h⟩)

section Data

variable (m : (ℓ : Loc nD τ sig) → Buf (Elt F) ℓ) (O : CellTallies nD τ sig (HIx 1)) (W : Waits sig (HIx 1))

/-- The proof data on core c, relational: the arrays at the contents m names; the table's staging buffer left
    at anything (it is fetched anew at every point), the weights' and the bias's left as found, the result's left at the
    projection of the weights, the bias and SOME block that agrees with the table's block wherever that lies inside the
    table; no invariant; the core owing O throughout, its recorded pairs those it came with or at no call's index. -/
def rdats (_ : Fin 1) (c : Dev nD) : RDat τ (Elt F) (HIx 1) ℕ UU ℕ cfg0 c where
  A w := m ((cfg0.win w).arr.view.loc (c : Thread nD τ))
  after w t Y X := match w with
    | ⟨0, _⟩ => True
    | ⟨1, _⟩ => X = Y
    | ⟨2, _⟩ => X = Y
    | ⟨3, _⟩ => ∃ blk : Vec F S64x32768 .f32, AgreesAt (m (xtLoc c)) t.val blk ∧ X = k0_pay1 (m (wLoc c)) blk (m (b128Loc c))
  Φ _ := iprop(emp)
  q _ := fullShare
  owed _ := O
  recorded _ := {p | p ∈ W ∨ p.2 = none}

end Data

section Finds
variable (m : (ℓ : Loc nD τ sig) → Buf (Elt F) ℓ) (O : CellTallies nD τ sig (HIx 1)) (W : Waits sig (HIx 1)) (c : Dev nD)

/-- Where the windows' blocks sit: the table's block t is columns 32768 t onward, the result's rows 4096 t onward; the
    weights' and the bias's are the whole arrays. -/
theorem index_facts : ∀ t : Fin grid0.N,
    win0_0.index t 0 = 0 ∧ win0_0.index t 1 = t.val ∧ win0_1.index t 0 = 0 ∧ win0_1.index t 1 = 0
      ∧ win0_2.index t 0 = 0 ∧ win0_2.index t 1 = 0 ∧ win0_3.index t 0 = t.val ∧ win0_3.index t 1 = 0 := by
  decide +kernel

/-- The table's block is cut where the table ends: at point t the fetch moves all 64 rows and the columns inside. -/
theorem xsize_facts : ∀ t : Fin grid0.N,
    win0_0.xsize (grid0.coords t) 0 = 64 ∧ win0_0.xsize (grid0.coords t) 1 = min 32768 (1000000 - 32768 * t.val) := by
  decide +kernel

/-- An element of a window's block at point t sits in the array at the block index times the block's size plus its own coordinate. -/
theorem blk_emb_val0 (t : Fin cfg0.N) (y : (win0_0.xblock (grid0.coords t)).Idx) (a : Fin 2) :
    (((win0_0.blk t).view.emb y) a : Nat) = win0_0.index t a * win0_0.size a + (y a : Nat) := Window.rect_emb_val _ t y a
theorem blk_emb_val1 (t : Fin cfg0.N) (y : (win0_1.xblock (grid0.coords t)).Idx) (a : Fin 2) :
    (((win0_1.blk t).view.emb y) a : Nat) = win0_1.index t a * win0_1.size a + (y a : Nat) := Window.rect_emb_val _ t y a
theorem blk_emb_val2 (t : Fin cfg0.N) (y : (win0_2.xblock (grid0.coords t)).Idx) (a : Fin 2) :
    (((win0_2.blk t).view.emb y) a : Nat) = win0_2.index t a * win0_2.size a + (y a : Nat) := Window.rect_emb_val _ t y a
theorem blk_emb_val3 (t : Fin cfg0.N) (y : (win0_3.xblock (grid0.coords t)).Idx) (a : Fin 2) :
    (((win0_3.blk t).view.emb y) a : Nat) = win0_3.index t a * win0_3.size a + (y a : Nat) := Window.rect_emb_val _ t y a

/-- The weights' staging buffer, fetched, holds the weights, -/
theorem fetched_1 (t : Fin cfg0.N) (d) : (rdats m O W 0 c).fetched 1 t d = m (wLoc c) := by
  funext j
  have hm : (cfg0.win 1).moved (grid0.coords t) j = true := rfl
  unfold Pipeline.RDat.fetched Window.fill
  rw [dif_pos hm]
  unfold Pipeline.RDat.blockOf
  rw [View.read_apply]
  show m (wLoc c) ((win0_1.blk t).view.emb _) = m (wLoc c) j
  congr 1
  funext a
  apply Fin.ext
  rw [blk_emb_val1]
  obtain ⟨-, -, h0, h1, -⟩ := index_facts t
  fin_cases a
  · show win0_1.index t 0 * 16 + (j 0 : Nat) = (j 0 : Nat); rw [h0]; omega
  · show win0_1.index t 1 * 64 + (j 1 : Nat) = (j 1 : Nat); rw [h1]; omega

/-- the bias's the bias, -/
theorem fetched_2 (t : Fin cfg0.N) (d) : (rdats m O W 0 c).fetched 2 t d = m (b128Loc c) := by
  funext j
  have hm : (cfg0.win 2).moved (grid0.coords t) j = true := rfl
  unfold Pipeline.RDat.fetched Window.fill
  rw [dif_pos hm]
  unfold Pipeline.RDat.blockOf
  rw [View.read_apply]
  show m (b128Loc c) ((win0_2.blk t).view.emb _) = m (b128Loc c) j
  congr 1
  funext a
  apply Fin.ext
  rw [blk_emb_val2]
  obtain ⟨-, -, -, -, h0, h1, -⟩ := index_facts t
  fin_cases a
  · show win0_2.index t 0 * 1 + (j 0 : Nat) = (j 0 : Nat); rw [h0]; omega
  · show win0_2.index t 1 * 128 + (j 1 : Nat) = (j 1 : Nat); rw [h1]; omega

/-- and the table's a block that agrees with the table's block t on the columns inside the table. -/
theorem agrees_fetched_0 (t : Fin cfg0.N) (d) : AgreesAt (m (xtLoc c)) t.val ((rdats m O W 0 c).fetched 0 t d) := by
  intro dd cc h
  obtain ⟨hx0, hx1⟩ := xsize_facts t
  have hm : (cfg0.win 0).moved (grid0.coords t) (ValueIdx.ix2 dd cc) = true := by
    rw [Window.moved_iff]
    intro a
    fin_cases a
    · show (dd : Nat) < win0_0.xsize (grid0.coords t) 0; rw [hx0]; exact dd.isLt
    · show (cc : Nat) < win0_0.xsize (grid0.coords t) 1; rw [hx1]; have := cc.isLt; omega
  unfold Pipeline.RDat.fetched Window.fill
  rw [dif_pos hm]
  unfold Pipeline.RDat.blockOf
  rw [View.read_apply]
  show m (xtLoc c) ((win0_0.blk t).view.emb _) = m (xtLoc c) _
  congr 1
  funext a
  apply Fin.ext
  rw [blk_emb_val0]
  obtain ⟨h0, h1, -⟩ := index_facts t
  fin_cases a
  · show win0_0.index t 0 * 64 + (dd : Nat) = (dd : Nat); rw [h0]; omega
  · show win0_0.index t 1 * 32768 + (cc : Nat) = 32768 * t.val + (cc : Nat); rw [h1]; omega

/-- What the body finds in the weights' buffer, at any point: the weights (fetched at the first point, left as found since). -/
theorem finds_1 (t : Fin cfg0.N) (Y) (h : (rdats m O W 0 c).Finds 1 t Y) : Y = m (wLoc c) := by
  obtain ⟨d, rfl⟩ := (rdats m O W 0 c).finds_in_eq_fetched 1 rfl (fun _ _ _ => rfl) (fun _ _ _ h => h) t Y h
  exact fetched_1 m O W c t d

theorem finds_2 (t : Fin cfg0.N) (Y) (h : (rdats m O W 0 c).Finds 2 t Y) : Y = m (b128Loc c) := by
  obtain ⟨d, rfl⟩ := (rdats m O W 0 c).finds_in_eq_fetched 2 rfl (fun _ _ _ => rfl) (fun _ _ _ h => h) t Y h
  exact fetched_2 m O W c t d

end Finds

section Cover
variable (m : (ℓ : Loc nD τ sig) → Buf (Elt F) ℓ) (O : CellTallies nD τ sig (HIx 1)) (W : Waits sig (HIx 1)) (c : Dev nD)

/-- After the write-backs below point n, every block of rows below n holds the projection of the weights, the bias and
    some block agreeing with the table's there: the write-back at point n writes rows 4096 n onward and no row below. -/
theorem arrAt_rows : ∀ (n : Nat) (hn : n ≤ cfg0.N) (G : Buf (Elt F) (yLoc c)), (rdats m O W 0 c).ArrAt 3 n G →
    ∀ t : Fin 31, t.val < n → ∃ blk : Vec F S64x32768 .f32, AgreesAt (m (xtLoc c)) t.val blk ∧
      ∀ (r : Fin 4096) (col : Fin 128),
        G (ValueIdx.ix2 ⟨4096 * t.val + r.val, by have := t.isLt; have := r.isLt; omega⟩ col) = k0_pay1 (m (wLoc c)) blk (m (b128Loc c)) (ValueIdx.ix2 r col)
  | 0, _, _, _, t, ht => absurd ht (Nat.not_lt_zero _)
  | n + 1, hn, G, hG, t, ht => by
    have hn' : n < cfg0.N := hn
    rw [(rdats m O W 0 c).ArrAt_succ 3 ⟨n, hn'⟩, if_pos (flush0_3 _)] at hG
    obtain ⟨G₀, X, hG₀, ⟨Y, -, hXY⟩, rfl⟩ := hG
    obtain ⟨blk, hblk, rfl⟩ : ∃ blk : Vec F S64x32768 .f32, AgreesAt (m (xtLoc c)) n blk ∧ X = k0_pay1 (m (wLoc c)) blk (m (b128Loc c)) := hXY
    obtain ⟨-, -, -, -, -, -, hi0, hi1⟩ := index_facts ⟨n, hn'⟩
    by_cases htn : t.val = n
    · refine ⟨blk, htn ▸ hblk, fun r col => ?_⟩
      have he : (ValueIdx.ix2 ⟨4096 * t.val + r.val, by have := t.isLt; have := r.isLt; omega⟩ col : S126976x128.Idx)
          = (win0_3.blk ⟨n, hn'⟩).view.emb (ValueIdx.ix2 r col : (win0_3.xblock (grid0.coords ⟨n, hn'⟩)).Idx) := by
        funext a
        apply Fin.ext
        rw [blk_emb_val3]
        fin_cases a
        · show 4096 * t.val + r.val = win0_3.index ⟨n, hn'⟩ 0 * 4096 + r.val; rw [hi0, htn]; show 4096 * n + r.val = n * 4096 + r.val; omega
        · show col.val = win0_3.index ⟨n, hn'⟩ 1 * 128 + col.val; rw [hi1]; omega
      show ((win0_3.blk ⟨n, hn'⟩).view.write (Elt F) G₀ _ Finset.univ) _ = _
      rw [he, View.write_emb_of_mem _ _ (Finset.mem_univ _)]
      show k0_pay1 (m (wLoc c)) blk (m (b128Loc c)) _ = k0_pay1 (m (wLoc c)) blk (m (b128Loc c)) _
      congr 1
    · obtain ⟨blk', h1, h2⟩ := arrAt_rows n (Nat.le_of_lt hn') G₀ hG₀ t (by omega)
      refine ⟨blk', h1, fun r col => ?_⟩
      rw [← h2 r col]
      refine View.write_of_not_mem _ _ _ ?_
      rw [View.setOn_univ]
      show _ ∉ ((View.whole main_v5).slice (win0_3.rect ⟨n, hn'⟩)).set
      rw [View.set_slice_whole, Rect.mem_set_unit]
      intro hmem
      have h0 := hmem 0
      have h0' : win0_3.index ⟨n, hn'⟩ 0 * 4096 ≤ 4096 * t.val + r.val := h0.1
      rw [hi0] at h0'
      have := r.isLt
      have : n * 4096 ≤ 4096 * t.val + r.val := h0'
      omega

/-- So after every write-back the result holds what the projection's specification says. -/
theorem yspec_of_arrAt (G : Buf (Elt F) (yLoc c)) (h : (rdats m O W 0 c).ArrAt 3 cfg0.N G) :
    Yspec (m (xtLoc c)) (m (wLoc c)) (m (b128Loc c)) G := fun t =>
  arrAt_rows m O W c cfg0.N (Nat.le_refl _) G h t (by rw [show cfg0.N = 31 from N_0]; exact t.isLt)

end Cover

section Region
variable (m : (ℓ : Loc nD τ sig) → Buf (Elt F) ℓ) (O : CellTallies nD τ sig (HIx 1)) (W : Waits sig (HIx 1))

/-- The body obligation: at every point, on whatever the windows' current buffers may then hold, the body runs to the
    buffers in the relations the proof data states — the result's at the projection of the weights, the bias and the
    table's staged block, which agrees with the table's block wherever that lies inside the table. -/
theorem body_obligation (c : Dev nD) : (rdats m O W 0 c).BodyObligation (defs₀ (F := F)) 𝒱₀ none Set.univ := fun t Y hY => by
  obtain ⟨d0, h0⟩ := ((rdats m O W 0 c).finds_of_fetch (fetch0_0 t) (Y 0)).mp (hY 0)
  have h1 := finds_1 m O W c t (Y 1) (hY 1)
  have h2 := finds_2 m O W c t (Y 2) (hY 2)
  rw [bigSep_W0, bigSep_W0]
  rw [show (rdats m O W 0 c).Φ t.castSucc = iprop(emp) from rfl, show (rdats m O W 0 c).Φ t.succ = iprop(emp) from rfl]
  iintro ⟨-, HO, H0, H1, H2, H3⟩
  iapply (sound_body c Set.univ (grid0.coords t) (cfg0.slots t 0) (cfg0.slots t 1) (cfg0.slots t 2) (cfg0.slots t 3) (Y 0) (Y 1) (Y 2) (Y 3))
  isplitl [H0 H1 H2 H3]
  · isplitl [H0]; · iexact H0
    isplitl [H1]; · iexact H1
    isplitl [H2]; · iexact H2
    iexact H3
  iintro ⟨H0, H1, H2, H3⟩
  isplitr; · iempintro
  isplitl [HO]; · iexact HO
  isplitl [H0]
  · iexists Y 0; isplitr; · ipureintro; trivial
    iexact H0
  isplitl [H1]
  · iexists Y 1; isplitr; · ipureintro; rfl
    iexact H1
  isplitl [H2]
  · iexists Y 2; isplitr; · ipureintro; rfl
    iexact H2
  · iexists k0_pay1 (Y 1) (Y 0) (Y 2); isplitr
    · ipureintro
      refine ⟨Y 0, ?_, ?_⟩
      · rw [h0]; exact agrees_fetched_0 m O W c t d0
      · rw [h1, h2]
    iexact H3

/-- The windows' arrays, one by one: the transposed table, the weights, the tiled bias, the result. -/
theorem arrays_eq4 (c : Dev nD) (Fm : (w : Fin cfg0.W) → Buf (Elt F) ((cfg0.win w).arr.view.loc (c : Thread nD τ))) :
    (rdats m O W 0 c).arrays Fm
      = iprop((xtLoc c ↦{fullShare} Fm 0) ∗ (wLoc c ↦{fullShare} Fm 1) ∗ (b128Loc c ↦{fullShare} Fm 2) ∗ (yLoc c ↦{fullShare} Fm 3)) := by
  rw [Pipeline.PerCore.RDat.arrays_eq (pcfgs (F := F)) (fun _ => adm) (rdats m O W) 0 c launch0.arr_whole (fun w => by fin_cases w <;> rfl) Fm, bigSep_W0]

/-- and after the write-backs below point n: each at some contents it may then hold. -/
theorem arraysAt_eq4 (c : Dev nD) (n : Nat) :
    (rdats m O W 0 c).arraysAt n
      = iprop((∃ G, ⌜(rdats m O W 0 c).ArrAt 0 n G⌝ ∗ (xtLoc c ↦{fullShare} G)) ∗ (∃ G, ⌜(rdats m O W 0 c).ArrAt 1 n G⌝ ∗ (wLoc c ↦{fullShare} G))
          ∗ (∃ G, ⌜(rdats m O W 0 c).ArrAt 2 n G⌝ ∗ (b128Loc c ↦{fullShare} G)) ∗ (∃ G, ⌜(rdats m O W 0 c).ArrAt 3 n G⌝ ∗ (yLoc c ↦{fullShare} G))) := by
  unfold Pipeline.RDat.arraysAt
  rw [bigSep_W0]
  have e0 : (cfg0.win 0).arr.view.set = Finset.univ := (launch0.arr_whole 0).set_eq_univ
  have e1 : (cfg0.win 1).arr.view.set = Finset.univ := (launch0.arr_whole 1).set_eq_univ
  have e2 : (cfg0.win 2).arr.view.set = Finset.univ := (launch0.arr_whole 2).set_eq_univ
  have e3 : (cfg0.win 3).arr.view.set = Finset.univ := (launch0.arr_whole 3).set_eq_univ
  rw [e0, e1, e2, e3]
  rfl

/-- What the region is entered with on core c: the four arrays at the contents m names, the core's debts. -/
def regPre (c : Dev nD) : sProp 𝕄 :=
  iprop((xtLoc c ↦{fullShare} m (xtLoc c)) ∗ (wLoc c ↦{fullShare} m (wLoc c)) ∗ (b128Loc c ↦{fullShare} m (b128Loc c)) ∗ (yLoc c ↦{fullShare} m (yLoc c))
    ∗ owes (T c) O W)

/-- What the region leaves on core c: the inputs as they were, the result at contents the projection's specification
    holds of, the core's debts unchanged, its recorded pairs those it came with or at no call's index. -/
def regPost (c : Dev nD) : sProp 𝕄 :=
  iprop(∃ Y : Buf (Elt F) (yLoc c), ⌜Yspec (m (xtLoc c)) (m (wLoc c)) (m (b128Loc c)) Y⌝
    ∗ (xtLoc c ↦{fullShare} m (xtLoc c)) ∗ (wLoc c ↦{fullShare} m (wLoc c)) ∗ (b128Loc c ↦{fullShare} m (b128Loc c)) ∗ (yLoc c ↦{fullShare} Y)
    ∗ ∃ W' : Waits sig (HIx 1), ⌜∀ p ∈ W', p ∈ W ∨ p.2 = none⌝ ∗ owes (T c) O W')

set_option backward.isDefEq.respectTransparency.types false in
/-- The region as the library's record: the generated layout, no semaphore of the kernel's own, the body obligation,
    the wait evidence (every debt sits at a call's index, the pipeline's waits at none), and the four entailments
    around regPre and regPost. -/
def reg0 (hO : ∀ g, O g none = 0) : Pipeline.RDat.RegionSeg (pcfgs (F := F)) adm (rdats m O W) none defs₀ 𝒱₀ (K (F := F)).L (K (F := F)).lev 0 where
  win := launch0.win.to₀
  block_pos := launch0.block_pos
  stage_whole := launch0.stage_whole
  K := PEmpty
  osem := fun k => k.elim
  ho := Pipeline.OwnSemFacts.none _
  hbody c := body_obligation m O W c
  hwaits c := Pipeline.RDat.cellsWaits_intro cfgs (rdats m O W) none 0 c fun w s t => (K (F := F)).mayWait_none _ hO
  pre c := regPre m O W c
  post c := regPost m O W c
  X c := iprop(emp)
  Y c := iprop(emp)
  Z c := iprop(emp)
  hentry c := by
    rw [arrays_eq4]
    unfold regPre
    iintro ⟨⟨H0, H1, H2, H3, HO⟩, -, -⟩
    imodintro
    isplitl [H0 H1 H2 H3]
    · isplitl [H0]; · iexact H0
      isplitl [H1]; · iexact H1
      isplitl [H2]; · iexact H2
      iexact H3
    isplitr; · unfold Pipeline.prefHeld; rw [show (Finset.univ : Finset (Fin 0)) = ∅ from rfl, BI.bigSep_empty]; iempintro
    isplitl [HO]
    · unfold Pipeline.RDat.owesAt Pipeline.owesWithin
      iexists W; isplitr; · ipureintro; exact fun p hp => Or.inl (Or.inl (Finset.mem_coe.mp hp))
      iexact HO
    isplitr <;> iempintro
  hin c := by
    rw [show (rdats m O W 0 c).Φ 0 = iprop(emp) from rfl]
    iintro -; iempintro
  hout c := by
    rw [Pipeline.ownSems0_none, show (rdats m O W 0 c).Φ (Fin.last _) = iprop(emp) from rfl]
    rw [show (Pipeline.pin (pcfgs (F := F)) adm 0).spec = spec0 from rfl, scopedRest0_eq]
    iintro -
    isplitr; · iempintro
    isplitr <;> iempintro
  hexit c := by
    rw [arraysAt_eq4]
    iintro ⟨⟨⟨%F0, %h0, H0⟩, ⟨%F1, %h1, H1⟩, ⟨%F2, %h2, H2⟩, ⟨%F3, %h3, H3⟩⟩, HO, -, -⟩
    rw [(rdats m O W 0 c).ArrAt_in 0 rfl] at h0
    rw [(rdats m O W 0 c).ArrAt_in 1 rfl] at h1
    rw [(rdats m O W 0 c).ArrAt_in 2 rfl] at h2
    subst h0; subst h1; subst h2
    imodintro
    unfold regPost
    iexists F3
    isplitr; · ipureintro; exact yspec_of_arrAt m O W c F3 h3
    isplitl [H0]; · iexact H0
    isplitl [H1]; · iexact H1
    isplitl [H2]; · iexact H2
    isplitl [H3]; · iexact H3
    unfold Pipeline.RDat.owesAt Pipeline.owesWithin
    icases HO with ⟨%W', %hW', HO⟩
    iexists W'
    isplitr
    · ipureintro
      intro p hp
      rcases hW' (Finset.mem_coe.mpr hp) with h | ⟨w, s, rfl⟩
      · exact h
      · exact Or.inr rfl
    iexact HO

set_option backward.isDefEq.respectTransparency.types false in
/-- The region's step under the certificate's own body table: the library's region rule at the record above. -/
theorem region_wp_D (d : Dev nD) (hO : ∀ g, O g none = 0) {Φ : PUnit → sProp 𝕄} :
    iprop(levAts (K (F := F)).L (K (F := F)).lev ∗ boundary (T d)
        ∗ Pipeline.cellsGhost cfgs (EP (F := F)) 0 d ∗ Pipeline.toksInit cfgs (EP (F := F)) 0 d
        ∗ regPre m O W d ∗ (iprop(boundary (T d) ∗ regPost m O W d) -∗ Φ ⟨⟩))
      ⊢ wp frame (wpE (D (F := F)) 𝒱 (SparseCore.T d) none) Set.univ
          (Prog.op (TpuEff.customCall (Pipeline.entry 0) ()) fun _ => Prog.ret PUnit.unit) Φ := by
  have h := Pipeline.RDat.RegionSeg.wp (pcfgs (F := F)) adm (rdats m O W) none cellOf_inj EP defs₀ 𝒱₀ _ _ (reg0 m O W hO) d none
    (fun _ h => nomatch h) (fun _ => .ret PUnit.unit) Φ
  rw [show (reg0 m O W hO).pre d = regPre m O W d from rfl, show (reg0 m O W hO).post d = regPost m O W d from rfl] at h
  refine .trans ?_ h
  iintro ⟨Hl, Hb, Hg, Ht, Hpre, Hk⟩
  isplitl [Hk]
  · iintro H; rw [wp_ret]; imodintro; iapply Hk; iexact H
  isplitl [Hb]; · iexact Hb
  isplitl [Hpre]; · iexact Hpre
  isplitl [Hl]; · iexact Hl
  isplitl [Hg]; · iexact Hg
  iexact Ht

/-- The region's step of the program on the TensorCore of device d, over the arrays' contents as a memory m names them:
    a proof under the certificate's body table is a proof under the program's extended one. -/
theorem region_wp_m (d : Dev nD) (hO : ∀ g, O g none = 0) {Φ : PUnit → sProp 𝕄} :
    iprop(levAts (K (F := F)).L (K (F := F)).lev ∗ boundary (T d)
        ∗ Pipeline.cellsGhost cfgs (EP (F := F)) 0 d ∗ Pipeline.toksInit cfgs (EP (F := F)) 0 d
        ∗ regPre m O W d ∗ (iprop(boundary (T d) ∗ regPost m O W d) -∗ Φ ⟨⟩))
      ⊢ wp frame (wpE ((K (F := F)).defs (D (F := F))) 𝒱 (SparseCore.T d) none) Set.univ
          (Prog.lift (.customCall (SparseCore.inner (Pipeline.entry 0)) ())) Φ := by
  have h := (K (F := F)).wp_liftProg (D (F := F)) 𝒱 (T d) Set.univ none
    (Prog.op (TpuEff.customCall (Pipeline.entry 0) ()) fun _ => Prog.ret PUnit.unit) Φ
  exact (region_wp_D m O W d hO).trans h

end Region

section Statement

open Classical in
/-- A memory that names the four arrays' contents on device d (anything elsewhere). -/
def memOf (d : Dev nD) (X : Buf (Elt F) (xtLoc d)) (Wt : Buf (Elt F) (wLoc d)) (B : Buf (Elt F) (b128Loc d)) (Y0 : Buf (Elt F) (yLoc d)) :
    (ℓ : Loc nD τ sig) → Buf (Elt F) ℓ :=
  Function.update (Function.update (Function.update (Function.update (fun _ _ => Classical.arbitrary _) (yLoc d) Y0) (b128Loc d) B) (wLoc d) Wt) (xtLoc d) X

theorem loc_ne (d : Dev nD) {x y : Ref sig .tc} (h : x ≠ y) : (SparseCore.T (τ := τ) d).loc x ≠ (SparseCore.T (τ := τ) d).loc y :=
  fun e => StableHlo.devRef_ne_of_ne (τ := τ) h (congrArg Prod.snd e)

variable (d : Dev nD) (X : Buf (Elt F) (xtLoc d)) (Wt : Buf (Elt F) (wLoc d)) (B : Buf (Elt F) (b128Loc d)) (Y0 : Buf (Elt F) (yLoc d))

theorem memOf_xt : memOf d X Wt B Y0 (xtLoc d) = X := by
  unfold memOf; rw [Function.update_self]
theorem memOf_w : memOf d X Wt B Y0 (wLoc d) = Wt := by
  unfold memOf; rw [Function.update_of_ne (loc_ne d (by decide)), Function.update_self]
theorem memOf_b128 : memOf d X Wt B Y0 (b128Loc d) = B := by
  unfold memOf; rw [Function.update_of_ne (loc_ne d (by decide)), Function.update_of_ne (loc_ne d (by decide)), Function.update_self]
theorem memOf_y : memOf d X Wt B Y0 (yLoc d) = Y0 := by
  unfold memOf
  rw [Function.update_of_ne (loc_ne d (by decide)), Function.update_of_ne (loc_ne d (by decide)), Function.update_of_ne (loc_ne d (by decide)), Function.update_self]

/-- THE REGION'S STEP: on the TensorCore of device d, from the region boundary, the level facts, the pipeline's funded
    staging cells, the four arrays and the core's debts (all at a call's index), the call of the projection's region runs to
    the boundary, the inputs unchanged, the result at contents the projection's specification holds of, the debts unchanged. -/
theorem region_wp (O : CellTallies nD τ sig (HIx 1)) (W : Waits sig (HIx 1)) (hO : ∀ g, O g none = 0) {Φ : PUnit → sProp 𝕄} :
    iprop(levAts (K (F := F)).L (K (F := F)).lev ∗ boundary (T d)
        ∗ Pipeline.cellsGhost cfgs (EP (F := F)) 0 d ∗ Pipeline.toksInit cfgs (EP (F := F)) 0 d
        ∗ (xtLoc d ↦{fullShare} X) ∗ (wLoc d ↦{fullShare} Wt) ∗ (b128Loc d ↦{fullShare} B) ∗ (yLoc d ↦{fullShare} Y0) ∗ owes (T d) O W
        ∗ (∀ Y, ⌜Yspec X Wt B Y⌝ -∗ (boundary (T d) ∗ (xtLoc d ↦{fullShare} X) ∗ (wLoc d ↦{fullShare} Wt) ∗ (b128Loc d ↦{fullShare} B) ∗ (yLoc d ↦{fullShare} Y)
              ∗ ∃ W', ⌜∀ p ∈ W', p ∈ W ∨ p.2 = none⌝ ∗ owes (T d) O W') -∗ Φ ⟨⟩))
      ⊢ wp frame (wpE ((K (F := F)).defs (D (F := F))) 𝒱 (SparseCore.T d) none) Set.univ
          (Prog.lift (.customCall (SparseCore.inner (Pipeline.entry 0)) ())) Φ := by
  refine .trans ?_ (region_wp_m (memOf d X Wt B Y0) O W d hO)
  unfold regPre regPost
  rw [memOf_xt, memOf_w, memOf_b128, memOf_y]
  iintro ⟨Hl, Hb, Hg, Ht, H0, H1, H2, H3, HO, Hk⟩
  isplitl [Hl]; · iexact Hl
  isplitl [Hb]; · iexact Hb
  isplitl [Hg]; · iexact Hg
  isplitl [Ht]; · iexact Ht
  isplitl [H0 H1 H2 H3 HO]
  · isplitl [H0]; · iexact H0
    isplitl [H1]; · iexact H1
    isplitl [H2]; · iexact H2
    isplitl [H3]; · iexact H3
    iexact HO
  iintro ⟨Hb, %Y, %hY, H0, H1, H2, H3, HO⟩
  iapply Hk
  · ipureintro; exact hY
  isplitl [Hb]; · iexact Hb
  isplitl [H0]; · iexact H0
  isplitl [H1]; · iexact H1
  isplitl [H2]; · iexact H2
  isplitl [H3]; · iexact H3
  iexact HO

/-- THE LAUNCH ELEMENT'S PIECE: the pipeline's rounds element funds, per device, the staging cells' ghost state and the
    transfers' duty tokens the region's step consumes. -/
theorem region_fund :
    BI.own ((EP (F := F)) (initOf (Pipeline.cells cfgs cellOf_inj) (Pipeline.launchToks cfgs cellOf_inj)))
      ⊢ iprop(|==> bigSep Finset.univ fun d : Dev nD =>
          iprop(Pipeline.cellsGhost cfgs (EP (F := F)) 0 d ∗ Pipeline.toksInit cfgs (EP (F := F)) 0 d)) := by
  refine (Pipeline.fund_ghost cfgs (EP (F := F)) cellOf_inj).trans (bupd_mono ?_)
  rw [← bigSep_sep']
  refine Entails.of_eq (bigSep_congr fun d _ => ?_)
  rw [show (Finset.univ : Finset (Fin 1)) = {0} from rfl, BI.bigSep_singleton, BI.bigSep_singleton]

end Statement

end Cert.Kernel.Hand

end
-- ==== Proof.Bits.Pay.lean ====
/-
  What the SparseCore call's handshakes carry. The call takes, per vector subcore `w = 2 s + c` (SparseCore `c`, subcore `s`):
  a read share of `y`, the subcore's 512 node ids, and its 512 columns of the result; it brings back the ids and the
  columns, the latter holding, at each entry, the lane of `y` the entry's node id names.
-/
import proofs.«211133_g82480551952782_cont_sun_m_220_25_alg».proof.Proof.Bits.Setup

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

local notation "iV" => (Memref.whole Cert.Kernel.main_arg0_scv : Memref Cert.Kernel.sig Kind.scVector Space.hbm Cert.Kernel.S16384 EltTy.i32)
local notation "oV" => (Memref.whole Cert.Kernel.main_v6_scv : Memref Cert.Kernel.sig Kind.scVector Space.hbm Cert.Kernel.S16x16384 EltTy.f32)

/-- The worker number of subcore `s` of SparseCore `c`: `2 s + c`. -/
def wid (c : Fin 2) (s : Fin 16) : Fin 32 := ⟨2 * s.val + c.val, by omega⟩

theorem ids_div : 32 ∣ S16384.size 0 := ⟨512, rfl⟩
theorem out_div : 32 ∣ S16x16384.size 1 := ⟨512, rfl⟩
/-- Worker `w`'s 512 node ids: entries `512 w ‥ 512 w + 511`; its 512 columns of the result, all 16 rows. -/
abbrev idsPart (w : Fin 32) : Rect S16384 := Rect.part (s := S16384) (a₀ := 0) ids_div w
abbrev outPart (w : Fin 32) : Rect S16x16384 := Rect.part (s := S16x16384) (a₀ := 1) out_div w
abbrev idsSet (w : Fin 32) : Finset S16384.Idx := ((iV).view.slice (idsPart w)).set
abbrev outSet (w : Fin 32) : Finset S16x16384.Idx := ((oV).view.slice (outPart w)).set

/-- Worker `w`'s read share of `y`. -/
abbrev tokY (w : Fin 32) : PosShare TreeShare := Transfers.shareTokN fullShare w.val

variable [FloatOps F]

section Pay

variable (m : (ℓ : Loc nD τ sig) → Buf (Elt F) ℓ) (X : Dev nD → Vec F S64x1000000 .f32) (B : Dev nD → Vec F S1x128 .f32)

/-- What worker `w` is handed: a share of `y` at contents the projection left, its node ids, its columns. -/
def goW (d : Dev nD) (w : Fin 32) : sProp 𝕄 :=
  iprop(∃ Y : Buf (Elt F) (yLoc d), ⌜Yspec (X d) (m (wLoc d)) (B d) Y⌝ ∗ (yLoc d ↦{tokY w} Y)
    ∗ (idsLoc d ↦[idsSet w]{fullShare} m (idsLoc d)) ∗ (oLoc d ↦[outSet w]{fullShare} m (oLoc d)))

/-- What worker `w` hands back: the share and the ids, and its columns holding the lanes of `y` its ids name. -/
def tdW (d : Dev nD) (w : Fin 32) : sProp 𝕄 :=
  iprop(∃ Y : Buf (Elt F) (yLoc d), ⌜Yspec (X d) (m (wLoc d)) (B d) Y⌝ ∗ (yLoc d ↦{tokY w} Y)
    ∗ (idsLoc d ↦[idsSet w]{fullShare} m (idsLoc d))
    ∗ ∃ f : Buf (Elt F) (oLoc d), (oLoc d ↦[outSet w]{fullShare} f) ∗ ⌜∀ i ∈ outSet w, f i = OUTT Y (m (idsLoc d)) i⌝)

def P : (K (F := F)).Pay (nD := nD) (Val := Elt F) (Name := ℕ) (U := UU) where
  st := fun q d c => match q with | 0 => bigSep Finset.univ fun s : Fin 16 => goW m X B d (wid (Fin.cast nCore_zero c) s)
  dn := fun q d c => match q with | 0 => bigSep Finset.univ fun s : Fin 16 => tdW m X B d (wid (Fin.cast nCore_zero c) s)
  go := fun q d c s => match q with | 0 => goW m X B d (wid (Fin.cast nCore_zero c) (Fin.cast nSub_zero s))
  td := fun q d c s => match q with | 0 => tdW m X B d (wid (Fin.cast nCore_zero c) (Fin.cast nSub_zero s))
  x := fun _ _ => iprop(emp)

instance goW_storable (d : Dev nD) (w : Fin 32) : BI.Storable (upEmb : UEmb _ 𝕄) (goW m X B d w) := by
  unfold goW; infer_instance
instance tdW_storable (d : Dev nD) (w : Fin 32) : BI.Storable (upEmb : UEmb _ 𝕄) (tdW m X B d w) := by
  unfold tdW; infer_instance

instance P_storable : (P (F := F) m X B).IsStorable where
  st q d c := match q with | 0 => (inferInstance : BI.Storable (upEmb : UEmb _ 𝕄) (bigSep Finset.univ fun s : Fin 16 => goW m X B d (wid (Fin.cast nCore_zero c) s)))
  dn q d c := match q with | 0 => (inferInstance : BI.Storable (upEmb : UEmb _ 𝕄) (bigSep Finset.univ fun s : Fin 16 => tdW m X B d (wid (Fin.cast nCore_zero c) s)))
  go q d c s := match q with | 0 => (inferInstance : BI.Storable (upEmb : UEmb _ 𝕄) (goW m X B d (wid (Fin.cast nCore_zero c) (Fin.cast nSub_zero s))))
  td q d c s := match q with | 0 => (inferInstance : BI.Storable (upEmb : UEmb _ 𝕄) (tdW m X B d (wid (Fin.cast nCore_zero c) (Fin.cast nSub_zero s))))

end Pay

end Cert.Kernel.Hand

end
-- ==== Proof.Bits.Split.lean ====
/-
  The arrays between the TensorCore and the 32 vector subcores. Before the call the TensorCore holds `y`, the node ids and
  the result whole; worker `w = 2 s + c` (SparseCore `c`, subcore `s`) is handed a read share of `y`, its 512 node ids and
  its 512 columns of the result. The 32 parts of an array are pairwise disjoint and cover it, and `(c, s) ↦ 2 s + c` is a
  bijection from `Fin 2 × Fin 16` onto `Fin 32`: so the whole arrays split into the workers' pieces, and the pieces the
  workers hand back join into the whole arrays, the result holding at each entry the lane of `y` the entry's node id names.
-/
import proofs.«211133_g82480551952782_cont_sun_m_220_25_alg».proof.Proof.Bits.Pay

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The workers: `(c, s) ↦ 2 s + c` is a bijection -/

/-- A worker number `w < 32` is `2 s + c` for exactly one SparseCore `c = w % 2` and subcore `s = w / 2`. -/
def widEquiv : Fin 2 × Fin 16 ≃ Fin 32 where
  toFun p := wid p.1 p.2
  invFun w := (⟨w.val % 2, Nat.mod_lt _ (by decide)⟩, ⟨w.val / 2, by have := w.isLt; omega⟩)
  left_inv p := by
    obtain ⟨c, s⟩ := p
    refine Prod.ext (Fin.ext ?_) (Fin.ext ?_)
    · show (2 * s.val + c.val) % 2 = c.val
      have := c.isLt; omega
    · show (2 * s.val + c.val) / 2 = s.val
      have := c.isLt; omega
  right_inv w := Fin.ext (by show 2 * (w.val / 2) + w.val % 2 = w.val; omega)

/-- A `bigSep` over the SparseCores of `bigSep`s over the subcores is the `bigSep` over the 32 workers. -/
theorem bigSep_workers (Φ : Fin 32 → sProp 𝕄) :
    (bigSep Finset.univ fun c : Fin ((K (F := F)).nCore 0) => bigSep Finset.univ fun s : Fin 16 => Φ (wid (Fin.cast nCore_zero c) s))
      = bigSep Finset.univ Φ := by
  rw [bigSep_univ_equiv widEquiv Φ, BI.bigSep_univ_prod]
  exact bigSep_congr fun c _ => bigSep_congr fun s _ => congrArg Φ (Fin.ext rfl)

/-- A `bigSep` over the call's subcores is the `bigSep` over `Fin 16`. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-! ## The 32 parts of the node ids and of the result are disjoint and cover them -/

theorem idsSet_eq (w : Fin 32) : idsSet w = (idsPart w).set := by
  show ((View.whole (main_arg0_scv : Ref sig .scVector)).slice (idsPart w)).set = _
  rw [View.set_slice]; exact Finset.map_refl
theorem outSet_eq (w : Fin 32) : outSet w = (outPart w).set := by
  show ((View.whole (main_v6_scv : Ref sig .scVector)).slice (outPart w)).set = _
  rw [View.set_slice]; exact Finset.map_refl

theorem ids_disjoint : ∀ i ∈ (Finset.univ : Finset (Fin 32)), ∀ j ∈ (Finset.univ : Finset (Fin 32)), i ≠ j → Disjoint (idsSet i) (idsSet j) :=
  fun i _ j _ h => by rw [idsSet_eq, idsSet_eq]; exact Rect.part_disjoint ids_div h
theorem out_disjoint : ∀ i ∈ (Finset.univ : Finset (Fin 32)), ∀ j ∈ (Finset.univ : Finset (Fin 32)), i ≠ j → Disjoint (outSet i) (outSet j) :=
  fun i _ j _ h => by rw [outSet_eq, outSet_eq]; exact Rect.part_disjoint out_div h
theorem ids_cover : (Finset.univ : Finset (Fin 32)).biUnion idsSet = Finset.univ :=
  (Finset.biUnion_congr rfl fun i _ => idsSet_eq i).trans (Rect.biUnion_part ids_div)
theorem out_cover : (Finset.univ : Finset (Fin 32)).biUnion outSet = Finset.univ :=
  (Finset.biUnion_congr rfl fun i _ => outSet_eq i).trans (Rect.biUnion_part out_div)

/-- The node ids whole are the 32 workers' parts. -/
theorem idsPts_parts (d : Dev nD) (f : Buf (Elt F) (idsLoc d)) :
    (idsLoc d ↦{fullShare} f : sProp 𝕄) = bigSep Finset.univ fun w : Fin 32 => idsLoc d ↦[idsSet w]{fullShare} f := by
  rw [← pointsTo_biUnion Finset.univ (ℓ := idsLoc d) idsSet ids_disjoint, ids_cover]; try rfl
/-- The result whole is the 32 workers' column blocks. -/
theorem outPts_parts (d : Dev nD) (f : Buf (Elt F) (oLoc d)) :
    (oLoc d ↦{fullShare} f : sProp 𝕄) = bigSep Finset.univ fun w : Fin 32 => oLoc d ↦[outSet w]{fullShare} f := by
  rw [← pointsTo_biUnion Finset.univ (ℓ := oLoc d) outSet out_disjoint, out_cover]; try rfl

variable [FloatOps F]

section Split

variable (m : (ℓ : Loc nD τ sig) → Buf (Elt F) ℓ) (X : Dev nD → Vec F S64x1000000 .f32) (B : Dev nD → Vec F S1x128 .f32)

/-! ## Before the call: the whole arrays are the workers' pieces -/

/-- A read share of `y` at contents the projection left, a part of the node ids and a column block of the result are what a worker is handed. -/
theorem goW_intro (d : Dev nD) (Y : Buf (Elt F) (yLoc d)) (hY : Yspec (X d) (m (wLoc d)) (B d) Y) (w : Fin 32) :
    iprop((yLoc d ↦{tokY w} Y) ∗ (idsLoc d ↦[idsSet w]{fullShare} m (idsLoc d)) ∗ (oLoc d ↦[outSet w]{fullShare} m (oLoc d)))
      ⊢ (goW m X B d w : sProp 𝕄) := by
  unfold goW
  iintro ⟨Hy, Hi, Ho⟩
  iexists Y
  isplitr; · ipureintro; exact hY
  isplitl [Hy]; · iexact Hy
  isplitl [Hi]; · iexact Hi
  iexact Ho

/-- The 32 read shares of `y`, the 32 parts of the node ids and the 32 column blocks of the result are what the 32 workers are handed. -/
theorem goW_all (d : Dev nD) (Y : Buf (Elt F) (yLoc d)) (hY : Yspec (X d) (m (wLoc d)) (B d) Y) :
    iprop((bigSep Finset.univ fun w : Fin 32 => yLoc d ↦{tokY w} Y)
        ∗ (bigSep Finset.univ fun w : Fin 32 => idsLoc d ↦[idsSet w]{fullShare} m (idsLoc d))
        ∗ (bigSep Finset.univ fun w : Fin 32 => oLoc d ↦[outSet w]{fullShare} m (oLoc d)))
      ⊢ (bigSep Finset.univ (fun w : Fin 32 => goW m X B d w) : sProp 𝕄) := by
  rw [← bigSep_sep', ← bigSep_sep']
  exact bigSep_mono fun w _ => goW_intro m X B d Y hY w

/-- `y` (at contents the projection left), the node ids and the result, whole, are what is left of `y` after 32 read shares
    and, for each SparseCore, what its 16 subcores are handed. -/
theorem st_split (d : Dev nD) (Y : Buf (Elt F) (yLoc d)) (hY : Yspec (X d) (m (wLoc d)) (B d) Y) :
    iprop((yLoc d ↦{fullShare} Y) ∗ (idsLoc d ↦{fullShare} m (idsLoc d)) ∗ (oLoc d ↦{fullShare} m (oLoc d)))
      ⊢ (iprop((yLoc d ↦{Transfers.shareDrop fullShare 32} Y) ∗ bigSep Finset.univ fun c : Fin ((K (F := F)).nCore 0) => (P m X B).st 0 d c) : sProp 𝕄) := by
  show _ ⊢ iprop((yLoc d ↦{Transfers.shareDrop fullShare 32} Y)
    ∗ bigSep Finset.univ fun c : Fin ((K (F := F)).nCore 0) => bigSep Finset.univ fun s : Fin 16 => goW m X B d (wid (Fin.cast nCore_zero c) s))
  rw [bigSep_workers (F := F) (fun w => goW m X B d w), idsPts_parts, outPts_parts]
  iintro ⟨Hy, Hi, Ho⟩
  ihave Hy' := (Transfers.pointsTo_toks_split (ℓ := yLoc d) (S := Finset.univ) (f := Y) fullShare 32) $$ Hy
  icases Hy' with ⟨Hd, Ht⟩
  isplitl [Hd]; · iexact Hd
  iapply (goW_all m X B d Y hY)
  isplitl [Ht]; · iexact Ht
  isplitl [Hi]; · iexact Hi
  iexact Ho

/-! ## After the call: the workers' pieces are the whole arrays -/

/-- What a worker's column block holds when it comes back: at each of its entries, the lane of `y` the entry's node id names,
    for some contents of `y` the projection can have left. -/
def colsOK (d : Dev nD) (w : Fin 32) (f : Buf (Elt F) (oLoc d)) : Prop :=
  ∃ Y : Buf (Elt F) (yLoc d), Yspec (X d) (m (wLoc d)) (B d) Y ∧ ∀ i ∈ outSet w, f i = OUTT Y (m (idsLoc d)) i

/-- What a worker hands back, its share of `y` dropped: its node ids, and its column block holding what it should. -/
theorem tdW_weaken (d : Dev nD) (w : Fin 32) :
    (tdW m X B d w : sProp 𝕄)
      ⊢ iprop((idsLoc d ↦[idsSet w]{fullShare} m (idsLoc d)) ∗ ∃ f : Buf (Elt F) (oLoc d), ⌜colsOK m X B d w f⌝ ∗ (oLoc d ↦[outSet w]{fullShare} f)) := by
  unfold tdW
  iintro ⟨%Y, %hY, -, Hi, %f, Ho, %hf⟩
  isplitl [Hi]; · iexact Hi
  iexists f
  isplitr; · ipureintro; exact ⟨Y, hY, hf⟩
  iexact Ho

/-- What the 32 workers hand back, their shares of `y` dropped: the 32 parts of the node ids, and the 32 column blocks of the result. -/
theorem tdW_all (d : Dev nD) :
    (bigSep Finset.univ (fun w : Fin 32 => tdW m X B d w) : sProp 𝕄)
      ⊢ iprop((bigSep Finset.univ fun w : Fin 32 => idsLoc d ↦[idsSet w]{fullShare} m (idsLoc d))
          ∗ bigSep Finset.univ fun w : Fin 32 => iprop(∃ f : Buf (Elt F) (oLoc d), ⌜colsOK m X B d w f⌝ ∗ (oLoc d ↦[outSet w]{fullShare} f))) := by
  rw [← bigSep_sep']
  exact bigSep_mono fun w _ => tdW_weaken m X B d w

/-- What the 32 workers hand back is the node ids whole and the result whole, holding at each entry the lane of `y` the entry's
    node id names (for some contents of `y` the projection can have left). -/
theorem dn_join (d : Dev nD) :
    (bigSep Finset.univ fun c : Fin ((K (F := F)).nCore 0) => (P m X B).dn 0 d c)
      ⊢ (iprop((idsLoc d ↦{fullShare} m (idsLoc d)) ∗ ∃ f : Buf (Elt F) (oLoc d), (oLoc d ↦{fullShare} f)
            ∗ ⌜∀ i : S16x16384.Idx, ∃ Y : Buf (Elt F) (yLoc d), Yspec (X d) (m (wLoc d)) (B d) Y ∧ f i = OUTT Y (m (idsLoc d)) i⌝) : sProp 𝕄) := by
  show (bigSep Finset.univ fun c : Fin ((K (F := F)).nCore 0) => bigSep Finset.univ fun s : Fin 16 => tdW m X B d (wid (Fin.cast nCore_zero c) s)) ⊢ _
  rw [bigSep_workers (F := F) (fun w => tdW m X B d w), idsPts_parts]
  iintro H
  ihave H' := (tdW_all m X B d) $$ H
  icases H' with ⟨Hi, Ho⟩
  isplitl [Hi]; · iexact Hi
  haveI : Nonempty (Buf (Elt F) (oLoc d)) := ⟨m (oLoc d)⟩
  ihave Ho1 := (bigSep_exists_pi Finset.univ (fun (w : Fin 32) (f : Buf (Elt F) (oLoc d)) => iprop(⌜colsOK m X B d w f⌝ ∗ (oLoc d ↦[outSet w]{fullShare} f)))) $$ Ho
  icases Ho1 with ⟨%fs, Ho⟩
  ihave Ho2 := (bigSep_pure_sep Finset.univ (fun w : Fin 32 => colsOK m X B d w (fs w)) (fun w : Fin 32 => (oLoc d ↦[outSet w]{fullShare} fs w))) $$ Ho
  icases Ho2 with ⟨%hok, Ho⟩
  ihave Ho3 := (pointsTo_biUnion_join (ℓ := oLoc d) (q := fullShare) (Val := Elt F) Finset.univ outSet fs (fs 0) out_disjoint) $$ Ho
  icases Ho3 with ⟨%g, %hg, Hg⟩
  rw [out_cover]
  iexists g
  isplitl [Hg]; · iexact Hg
  ipureintro
  intro i
  obtain ⟨w, -, hw⟩ := Finset.mem_biUnion.mp (out_cover ▸ Finset.mem_univ i)
  obtain ⟨Yw, hYw, hfw⟩ := hok w (Finset.mem_univ w)
  exact ⟨Yw, hYw, (hg w (Finset.mem_univ w) i hw).trans (hfw i hw)⟩

/-! ## Inside a SparseCore: what it is handed is what its subcores are handed -/

theorem vecSplit : (K (F := F)).VecSplit' (P m X B) 0 := by
  intro d c
  show (bigSep Finset.univ fun s : Fin 16 => goW m X B d (wid (Fin.cast nCore_zero c) s))
    ⊢ |={Set.univ}=> iprop((bigSep Finset.univ fun i : Fin ((K (F := F)).nSub 0) => goW m X B d (wid (Fin.cast nCore_zero c) (Fin.cast nSub_zero i)))
        ∗ ((bigSep Finset.univ fun i : Fin ((K (F := F)).nSub 0) => tdW m X B d (wid (Fin.cast nCore_zero c) (Fin.cast nSub_zero i)))
            -∗ bigSep Finset.univ fun s : Fin 16 => tdW m X B d (wid (Fin.cast nCore_zero c) s)))
  rw [bigSep_tasks (F := F) (fun s => goW m X B d (wid (Fin.cast nCore_zero c) s)),
    bigSep_tasks (F := F) (fun s => tdW m X B d (wid (Fin.cast nCore_zero c) s))]
  iintro H; imodintro
  isplitl [H]; · iexact H
  iintro H; iexact H

end Split

end Cert.Kernel.Hand

end
-- ==== Proof.Bits.Launch.lean ====
/-
  Around @main's two calls: the host operations that prepare the projection's operands (the bias tiled eight times into one
  row of 128 lanes, the table transposed) and the one that transposes the gathered result; what the device's twelve arrays
  hold after the host prefix; the assertion the run ends in and what it says of the final memory; the launch's ghost element.
-/
import proofs.«211133_g82480551952782_cont_sun_m_220_25_alg».proof.Proof.Bits.Pay
import Idealize.ShloMosaic.Lib.ValueLayout
import Idealize.ShloMosaic.Lib.Pipeline.Value

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held after launchContents)

variable {F : FTy → Type}

local notation "𝕄" => MT nD τ sig (HIx 1) (Elt F) ℕ UU ℕ

variable [FloatOps F]

/-! ## The host operations -/

/-- The five host operations before the projection: the bias [16] as one row, the row copied eight times, the eight rows laid
    end to end, that as one row of 128 lanes; and the table transposed. -/
def hostOps : List (HloOp τ sig (Elt F)) :=
  [StableHlo.reshape main_arg3 main_v0 rfl shapeCasts_S16_S1x16,
   StableHlo.unary main_v0 main_v1 (broadcastInDim S8x16 ![0, 1] bcast_S1x16_S8x16_0_1 : (⟨S1x16, .f32⟩ : BufTy).Contents (Elt F) → (⟨S8x16, .f32⟩ : BufTy).Contents (Elt F)),
   StableHlo.reshape main_v1 main_v2 rfl shapeCasts_S8x16_S128,
   StableHlo.reshape main_v2 main_v3 rfl shapeCasts_S128_S1x128,
   StableHlo.unary main_arg1 main_v4 ((transpose S64x1000000 [1, 0] · transposes_S1000000x64_S64x1000000_1_0) : (⟨S1000000x64, .f32⟩ : BufTy).Contents (Elt F) → (⟨S64x1000000, .f32⟩ : BufTy).Contents (Elt F))]

/-- The host operation after the gather: the result [16, 16384] transposed. -/
def tailOp : HloOp τ sig (Elt F) :=
  StableHlo.unary main_v6 main_v7 ((transpose S16384x16 [1, 0] · transposes_S16x16384_S16384x16_1_0) : (⟨S16x16384, .f32⟩ : BufTy).Contents (Elt F) → (⟨S16384x16, .f32⟩ : BufTy).Contents (Elt F))

/-- @main is its host prefix, the projection, the gather, the last transpose. -/
theorem main_eq (d : Dev nD) :
    main (F := F) d = (StableHlo.seq hostOps >>= fun _ => (Prog.lift (.customCall (SparseCore.inner (Pipeline.entry 0)) ()) >>= fun _ =>
      (sc (F := F)).run d 0 >>= fun _ => (hlo rfl tailOp (fun _ => .ret (⟨⟩ : PUnit)) >>= fun _ => pure (⟨⟩ : PUnit)))) := by
  rfl

section Values

variable (m : (ℓ : Loc nD τ sig) → Buf (Elt F) ℓ) (d : Dev nD)

/-! ## What the host prefix leaves in the arrays -/

/-- The table transposed, [64, 1000000]: the projection's first operand. -/
def Xof : Vec F S64x1000000 .f32 :=
  transpose S64x1000000 [1, 0] (m (tabLoc d) : Vec F S1000000x64 .f32) transposes_S1000000x64_S64x1000000_1_0

/-- The bias tiled eight times into one row of 128 lanes: the projection's third operand. -/
def Bof : Vec F S1x128 .f32 :=
  shapeCast S1x128 (shapeCast S128 (broadcastInDim S8x16 ![0, 1] bcast_S1x16_S8x16_0_1
    (shapeCast S1x16 (m (bLoc d) : Vec F S16 .f32) shapeCasts_S16_S1x16 : Vec F S1x16 .f32) : Vec F S8x16 .f32) shapeCasts_S8x16_S128 : Vec F S128 .f32)
    shapeCasts_S128_S1x128

/-- After the host prefix the transposed table's array holds `Xof`. -/
theorem after_xt : after (hostOps (F := F)) (launchContents m d) (Proc.devRef .tc main_v4) = Xof m d := by
  unfold hostOps
  after_results
  rfl

/-- After the host prefix the tiled bias's array holds `Bof`. -/
theorem after_b128 : after (hostOps (F := F)) (launchContents m d) (Proc.devRef .tc main_v3) = Bof m d := by
  unfold hostOps
  after_results
  rfl

/-- The references the host prefix writes. -/
theorem hostOps_writes : (hostOps (F := F)).Forall fun op =>
    op.writes ⊆ (([main_v0, main_v1, main_v2, main_v3, main_v4] : List (Ref sig .tc)).map (Proc.devRef (τ := τ) .tc)).toFinset := by
  unfold hostOps
  simp only [List.forall_cons, List.Forall, StableHlo.reshape_writes, StableHlo.unary_writes]
  decide

theorem after_arg0 : after (hostOps (F := F)) (launchContents m d) (Proc.devRef .tc main_arg0) = m (d, Proc.devRef .tc main_arg0) :=
  StableHlo.after_of_writes_sub _ _ hostOps_writes (by decide)
theorem after_arg1 : after (hostOps (F := F)) (launchContents m d) (Proc.devRef .tc main_arg1) = m (d, Proc.devRef .tc main_arg1) :=
  StableHlo.after_of_writes_sub _ _ hostOps_writes (by decide)
theorem after_arg2 : after (hostOps (F := F)) (launchContents m d) (Proc.devRef .tc main_arg2) = m (d, Proc.devRef .tc main_arg2) :=
  StableHlo.after_of_writes_sub _ _ hostOps_writes (by decide)
theorem after_arg3 : after (hostOps (F := F)) (launchContents m d) (Proc.devRef .tc main_arg3) = m (d, Proc.devRef .tc main_arg3) :=
  StableHlo.after_of_writes_sub _ _ hostOps_writes (by decide)
theorem after_v5 : after (hostOps (F := F)) (launchContents m d) (Proc.devRef .tc main_v5) = m (d, Proc.devRef .tc main_v5) :=
  StableHlo.after_of_writes_sub _ _ hostOps_writes (by decide)
theorem after_v6 : after (hostOps (F := F)) (launchContents m d) (Proc.devRef .tc main_v6) = m (d, Proc.devRef .tc main_v6) :=
  StableHlo.after_of_writes_sub _ _ hostOps_writes (by decide)
theorem after_v7 : after (hostOps (F := F)) (launchContents m d) (Proc.devRef .tc main_v7) = m (d, Proc.devRef .tc main_v7) :=
  StableHlo.after_of_writes_sub _ _ hostOps_writes (by decide)

/-- The transposed table at `(dd, n)` is the table at `(n, dd)`. -/
theorem Xof_apply (dd : Fin 64) (n : Fin 1000000) : Xof m d (ValueIdx.ix2 dd n) = m (tabLoc d) (ValueIdx.ix2 n dd) :=
  ValueIdx.transpose_ix2_apply (m (tabLoc d) : Vec F S1000000x64 .f32) transposes_S1000000x64_S64x1000000_1_0 dd n

/-- Lane `16 k + o` of the tiled bias is the bias at `o`. -/
theorem Bof_apply (k : Fin 8) (o : Fin 16) :
    Bof m d (ValueIdx.ix2 (0 : Fin 1) (⟨16 * k.val + o.val, by omega⟩ : Fin 128)) = m (bLoc d) (ValueIdx.ix1 o) := by
  unfold Bof
  rw [ValueIdx.shapeCast_a_1a_apply]
  rw [shapeCast_apply _ shapeCasts_S8x16_S128 (ValueIdx.ix1 (⟨16 * k.val + o.val, by omega⟩ : Fin 128)) (ValueIdx.ix2 k o)
    (by rw [Shape.rowMajor_val_two, Shape.rowMajor_val_one]; show k.val * 16 + o.val = 16 * k.val + o.val; omega)]
  rw [broadcastInDim_apply _ bcast_S1x16_S8x16_0_1 _ (ValueIdx.ix2 k o) (ValueIdx.ix2 (0 : Fin 1) o)
    (fun a => match a with | ⟨0, _⟩ => rfl | ⟨1, _⟩ => rfl)]
  exact ValueIdx.shapeCast_a_1a_apply (m (bLoc d) : Vec F S16 .f32) shapeCasts_S16_S1x16 (0 : Fin 1) o

end Values

/-! ## The TensorCore's twelve arrays -/

abbrev dArg0 : DevRef τ sig := Proc.devRef .tc (main_arg0 : Ref sig .tc)
abbrev dArg1 : DevRef τ sig := Proc.devRef .tc (main_arg1 : Ref sig .tc)
abbrev dArg2 : DevRef τ sig := Proc.devRef .tc (main_arg2 : Ref sig .tc)
abbrev dArg3 : DevRef τ sig := Proc.devRef .tc (main_arg3 : Ref sig .tc)
abbrev dV0 : DevRef τ sig := Proc.devRef .tc (main_v0 : Ref sig .tc)
abbrev dV1 : DevRef τ sig := Proc.devRef .tc (main_v1 : Ref sig .tc)
abbrev dV2 : DevRef τ sig := Proc.devRef .tc (main_v2 : Ref sig .tc)
abbrev dV3 : DevRef τ sig := Proc.devRef .tc (main_v3 : Ref sig .tc)
abbrev dV4 : DevRef τ sig := Proc.devRef .tc (main_v4 : Ref sig .tc)
abbrev dV5 : DevRef τ sig := Proc.devRef .tc (main_v5 : Ref sig .tc)
abbrev dV6 : DevRef τ sig := Proc.devRef .tc (main_v6 : Ref sig .tc)
abbrev dV7 : DevRef τ sig := Proc.devRef .tc (main_v7 : Ref sig .tc)

/-- The TensorCore's arrays, all unscoped: @main's four arguments and its eight values. -/
abbrev S12 : Finset (DevRef τ sig) := {dArg0, dArg1, dArg2, dArg3, dV0, dV1, dV2, dV3, dV4, dV5, dV6, dV7}

omit [FloatOps F] in
/-- The twelve arrays held at a valuation, one by one. -/
theorem held_S12 (d : Dev nD) (W : Valuation τ sig (Elt F)) :
    (held (T d) S12 W : sProp 𝕄) = iprop(((SparseCore.T d).loc main_arg0 ↦{fullShare} W dArg0) ∗ ((SparseCore.T d).loc main_arg1 ↦{fullShare} W dArg1)
      ∗ ((SparseCore.T d).loc main_arg2 ↦{fullShare} W dArg2) ∗ ((SparseCore.T d).loc main_arg3 ↦{fullShare} W dArg3)
      ∗ ((SparseCore.T d).loc main_v0 ↦{fullShare} W dV0) ∗ ((SparseCore.T d).loc main_v1 ↦{fullShare} W dV1) ∗ ((SparseCore.T d).loc main_v2 ↦{fullShare} W dV2)
      ∗ ((SparseCore.T d).loc main_v3 ↦{fullShare} W dV3) ∗ ((SparseCore.T d).loc main_v4 ↦{fullShare} W dV4) ∗ ((SparseCore.T d).loc main_v5 ↦{fullShare} W dV5)
      ∗ ((SparseCore.T d).loc main_v6 ↦{fullShare} W dV6) ∗ ((SparseCore.T d).loc main_v7 ↦{fullShare} W dV7)) := by
  unfold held S12
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

omit [FloatOps F] in
/-- The launch's unscoped arrays, one by one. -/
theorem unscopedBufs_eq (d : Dev nD) (W : (b : Ref sig .tc) → Buf (Elt F) ((d.tc : Thread nD τ).loc b)) :
    (unscopedBufs d W : sProp 𝕄) = iprop(((SparseCore.T d).loc main_arg0 ↦{fullShare} W main_arg0) ∗ ((SparseCore.T d).loc main_arg1 ↦{fullShare} W main_arg1)
      ∗ ((SparseCore.T d).loc main_arg2 ↦{fullShare} W main_arg2) ∗ ((SparseCore.T d).loc main_arg3 ↦{fullShare} W main_arg3)
      ∗ ((SparseCore.T d).loc main_v0 ↦{fullShare} W main_v0) ∗ ((SparseCore.T d).loc main_v1 ↦{fullShare} W main_v1) ∗ ((SparseCore.T d).loc main_v2 ↦{fullShare} W main_v2)
      ∗ ((SparseCore.T d).loc main_v3 ↦{fullShare} W main_v3) ∗ ((SparseCore.T d).loc main_v4 ↦{fullShare} W main_v4) ∗ ((SparseCore.T d).loc main_v5 ↦{fullShare} W main_v5)
      ∗ ((SparseCore.T d).loc main_v6 ↦{fullShare} W main_v6) ∗ ((SparseCore.T d).loc main_v7 ↦{fullShare} W main_v7)) := by
  unfold unscopedBufs
  rw [show (Finset.univ.filter fun b : Ref sig .tc => ¬ b.isScoped)
      = {main_arg0, main_arg1, main_arg2, main_arg3, main_v0, main_v1, main_v2, main_v3, main_v4, main_v5, main_v6, main_v7} by decide +kernel,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

omit [FloatOps F] in
/-- What the launch deals the TensorCore of its arrays is the twelve held at the launch contents. -/
theorem unscoped_held (m : (ℓ : Loc nD τ sig) → Buf (Elt F) ℓ) (d : Dev nD) :
    (unscopedBufs d (fun b => m ((SparseCore.T d).loc b)) : sProp 𝕄) = held (T d) S12 (launchContents m d) := by
  rw [unscopedBufs_eq, held_S12]

/-- Every host operation of the prefix touches arrays among the twelve only, -/
theorem hostOps_sub : ∀ op ∈ hostOps (F := F), op.bufs ⊆ S12 := by
  intro op hop
  simp only [hostOps, List.mem_cons, List.not_mem_nil, or_false] at hop
  rcases hop with rfl | rfl | rfl | rfl | rfl
  · exact show ({dArg3, dV0} : Finset (DevRef τ sig)) ⊆ S12 by decide
  · exact show ({dV0, dV1} : Finset (DevRef τ sig)) ⊆ S12 by decide
  · exact show ({dV1, dV2} : Finset (DevRef τ sig)) ⊆ S12 by decide
  · exact show ({dV2, dV3} : Finset (DevRef τ sig)) ⊆ S12 by decide
  · exact show ({dArg1, dV4} : Finset (DevRef τ sig)) ⊆ S12 by decide
/-- and leaves no array at contents it does not determine. -/
theorem hostOps_fresh : ∀ op ∈ hostOps (F := F), op.fresh = ∅ := by
  intro op hop
  simp only [hostOps, List.mem_cons, List.not_mem_nil, or_false] at hop
  rcases hop with rfl | rfl | rfl | rfl | rfl <;> rfl
/-- So does the last transpose. -/
theorem tailOp_sub : (tailOp (F := F)).bufs ⊆ S12 := show ({dV6, dV7} : Finset (DevRef τ sig)) ⊆ S12 by decide
theorem tailOp_fresh : (tailOp (F := F)).fresh = ∅ := rfl

section Final

variable (m : (ℓ : Loc nD τ sig) → Buf (Elt F) ℓ)

/-! ## The assertion the run ends in, and what it says of the final memory -/

/-- What the gather leaves in the result [16, 16384]: at each entry, the lane of `y` the entry's node id names, for some
    contents of `y` the projection can have left from the transposed table, the weights and the tiled bias. -/
def outOK (d : Dev nD) (f : Buf (Elt F) (oLoc d)) : Prop :=
  ∀ i : S16x16384.Idx, ∃ Y : Buf (Elt F) (yLoc d), Yspec (Xof m d) (m (wLoc d)) (Bof m d) Y ∧ f i = OUTT Y (m (idsLoc d)) i

/-- The last host operation: the gathered result transposed, [16384, 16]. -/
def resOf (f : Vec F S16x16384 .f32) : Vec F S16384x16 .f32 := transpose S16384x16 [1, 0] f transposes_S16x16384_S16384x16_1_0

/-- The transposed result at `(j, o)` is the gathered result at `(o, j)`. -/
theorem resOf_apply (f : Vec F S16x16384 .f32) (j : Fin 16384) (o : Fin 16) : resOf f (ValueIdx.ix2 j o) = f (ValueIdx.ix2 o j) :=
  ValueIdx.transpose_ix2_apply f transposes_S16x16384_S16384x16_1_0 j o

/-- What @main ends holding: its four arguments at their launch contents, and its result the transpose of a gathered result. -/
def FIN (d : Dev nD) : sProp 𝕄 :=
  iprop((idsLoc d ↦{fullShare} m (idsLoc d)) ∗ (tabLoc d ↦{fullShare} m (tabLoc d)) ∗ (wLoc d ↦{fullShare} m (wLoc d))
    ∗ (bLoc d ↦{fullShare} m (bLoc d)) ∗ ∃ f : Buf (Elt F) (oLoc d), ⌜outOK m d f⌝ ∗ (rLoc d ↦{fullShare} resOf f))

/-- The same of the final memory. -/
def fq (d : Dev nD) (s' : Phys nD τ sig (Elt F)) : Prop :=
  s'.mem.mem (idsLoc d) = m (idsLoc d) ∧ s'.mem.mem (tabLoc d) = m (tabLoc d) ∧ s'.mem.mem (wLoc d) = m (wLoc d)
    ∧ s'.mem.mem (bLoc d) = m (bLoc d) ∧ ∃ f : Buf (Elt F) (oLoc d), outOK m d f ∧ s'.mem.mem (rLoc d) = resOf f

theorem hfin (d : Dev nD) (s' : Phys nD τ sig (Elt F)) : iprop(FIN m d ∗ SI s') ⊢ (⌜fq m d s'⌝ : sProp 𝕄) := by
  unfold FIN
  iintro ⟨⟨Hi, Ht, Hw, Hb, %f, %hf, Hr⟩, HSI⟩
  ihave H := (persistent_entails_right (SI_pointsTo_agree (st := s') (ℓ := idsLoc d) (I := Finset.univ) (q := fullShare) (f := m (idsLoc d)))) $$ [HSI Hi]
  · isplitl [HSI] <;> iassumption
  icases H with ⟨%h1, HSI, -⟩
  ihave H := (persistent_entails_right (SI_pointsTo_agree (st := s') (ℓ := tabLoc d) (I := Finset.univ) (q := fullShare) (f := m (tabLoc d)))) $$ [HSI Ht]
  · isplitl [HSI] <;> iassumption
  icases H with ⟨%h2, HSI, -⟩
  ihave H := (persistent_entails_right (SI_pointsTo_agree (st := s') (ℓ := wLoc d) (I := Finset.univ) (q := fullShare) (f := m (wLoc d)))) $$ [HSI Hw]
  · isplitl [HSI] <;> iassumption
  icases H with ⟨%h3, HSI, -⟩
  ihave H := (persistent_entails_right (SI_pointsTo_agree (st := s') (ℓ := bLoc d) (I := Finset.univ) (q := fullShare) (f := m (bLoc d)))) $$ [HSI Hb]
  · isplitl [HSI] <;> iassumption
  icases H with ⟨%h4, HSI, -⟩
  ihave H := (SI_pointsTo_agree (st := s') (ℓ := rLoc d) (I := Finset.univ) (q := fullShare) (f := (resOf f : Buf (Elt F) (rLoc d)))) $$ [HSI Hr]
  · isplitl [HSI] <;> iassumption
  icases H with %h5
  ipureintro
  exact ⟨funext fun (i : Idx (idsLoc d)) => h1 i (Finset.mem_univ i), funext fun (i : Idx (tabLoc d)) => h2 i (Finset.mem_univ i),
    funext fun (i : Idx (wLoc d)) => h3 i (Finset.mem_univ i), funext fun (i : Idx (bLoc d)) => h4 i (Finset.mem_univ i),
    f, hf, funext fun (i : Idx (rLoc d)) => h5 i (Finset.mem_univ i)⟩

end Final

/-! ## The launch element: the handshakes' rounds, the staging cells' rounds, no transfer counted -/

def u₀ : UU := (initOf (K (F := F)).hsCells (K (F := F)).hsToks,
  (initOf (Pipeline.cells cfgs Gen.cellOf_inj) (Pipeline.launchToks cfgs Gen.cellOf_inj), 1))

/-- What the launch deals a device of the projection's pipeline: its staging cells' launch states and its duty tokens. -/
def G (d : Dev nD) : sProp 𝕄 := iprop(Pipeline.cellsGhost cfgs (EP (F := F)) 0 d ∗ Pipeline.toksInit cfgs (EP (F := F)) 0 d)

omit [FloatOps F] in
/-- The pipeline's ghost state, dealt per device and per pipeline, is each device's `G` (there is one pipeline). -/
theorem ghost_regroup :
    (iprop((bigSep Finset.univ fun c : Dev nD => bigSep Finset.univ fun p : Fin 1 => Pipeline.cellsGhost cfgs (EP (F := F)) p c)
      ∗ (bigSep Finset.univ fun c : Dev nD => bigSep Finset.univ fun p : Fin 1 => (Pipeline.toksInit cfgs (EP (F := F)) p c : sProp 𝕄))) : sProp 𝕄)
      = bigSep Finset.univ fun d : Dev nD => G (F := F) d := by
  unfold G
  rw [bigSep_sep']
  congr 1 <;> exact bigSep_congr fun c _ => bigSep_univ_of_subsingleton (0 : Fin 1)

omit [FloatOps F] in
/-- The pipeline's and the counters' halves of the launch element, each owned through its own embedding. -/
theorem own_pair_EP (a : UP) (b : Counters) :
    (BI.own ((embR : Emb (UP × Counters) 𝕄) (a, b)) : sProp 𝕄)
      ⊢ iprop(BI.own (EP (F := F) a) ∗ BI.own (((Emb.inr : Emb Counters (UP × Counters)).trans (embR : Emb (UP × Counters) 𝕄)) b)) := by
  unfold EP
  exact own_pair_emb (embR : Emb (UP × Counters) 𝕄) a b

omit [FloatOps F] in
theorem bigSep_emp' {I : Type} (s : Finset I) : (bigSep s fun _ => iprop(emp)) = (iprop(emp) : sProp 𝕄) := bigSep_emp_const s

theorem hu₀ (m : (ℓ : Loc nD τ sig) → Buf (Elt F) ℓ) (X : Dev nD → Vec F S64x1000000 .f32) (B : Dev nD → Vec F S1x128 .f32) :
    (ownU (u₀ (F := F)) : sProp 𝕄)
      ⊢ |={Set.univ}=> iprop(BI.own (EH (initOf (K (F := F)).hsCells (K (F := F)).hsToks)) ∗ (bigSep Finset.univ fun d : Dev nD => G (F := F) d)
          ∗ bigSep Finset.univ fun thr : Thread nD τ => bigSep Finset.univ fun q : Fin 1 => (P m X B).x q thr) := by
  unfold u₀
  iintro Hu
  ihave H := (ownU_pair _ _) $$ Hu
  icases H with ⟨HH, HR⟩
  ihave H2 := (own_pair_EP (F := F) _ _) $$ HR
  icases H2 with ⟨HP, -⟩
  ihave H3 := (Pipeline.fund_ghost cfgs (EP (F := F)) Gen.cellOf_inj) $$ HP
  imod H3 with H3
  imodintro
  isplitl [HH]; · iexact HH
  isplitl [H3]
  · rw [← ghost_regroup]; iexact H3
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Kernel.Hand

end
-- ==== Proof.Bits.Main.lean ====
/-
  @main on a TensorCore and the program's run. @main is: five host operations (the bias tiled into one row of 128 lanes,
  the table transposed), the projection's region, the gather's call on the two SparseCores' 32 vector subcores, and the
  transpose of the gathered result. The run is the SparseCore launch theorem applied to @main's proof, the gather kernel's
  obligation, the split of the call's operands among the subcores, and the launch element.
-/
import proofs.«211133_g82480551952782_cont_sun_m_220_25_alg».proof.Proof.Bits.Region
import proofs.«211133_g82480551952782_cont_sun_m_220_25_alg».proof.Proof.Bits.Split
import proofs.«211133_g82480551952782_cont_sun_m_220_25_alg».proof.Proof.Bits.Launch
import Idealize.ShloMosaic.Lib.SparseCore.Launch
import Idealize.ShloMosaic.Lib.StableHlo.Run

noncomputable section

namespace Cert.Kernel.Hand

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held after launchContents wp_hlo_within wp_seq)

variable {F : FTy → Type} [FloatOps F]

local notation "𝕄" => MT nD τ sig (HIx 1) (Elt F) ℕ UU ℕ

section Main

variable (m : (ℓ : Loc nD τ sig) → Buf (Elt F) ℓ) (ρ : Dev nD → PrngReg)

/-- The TensorCore's state before call n, its debts apart: its position on its done cell, the rounds reached, the later
    calls' start tokens and done credit. -/
def tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_eq (d : Dev nD) (n : ℕ) :
    (K (F := F)).tcSt EH d n
      = iprop((∃ W, ⌜(K (F := F)).WBelow (T d) W (8 * n)⌝ ∗ owes (T d) ((K (F := F)).Otc d n) W) ∗ tcRest (F := F) d n) := rfl

/-- Every debt of the TensorCore sits at a call's index. -/
theorem hO_tc (d : Dev nD) (n : ℕ) : ∀ g, (K (F := F)).Otc d n g none = 0 := fun g =>
  Nat.eq_zero_of_not_pos fun h => by
    have := (K (F := F)).lev_of_Otc_pos h
    rw [SparseCore.Cfg.lev_none] at this
    omega

/-- What the twelve arrays hold after the host prefix, one by one. -/
theorem held_after (d : Dev nD) :
    (held (T d) S12 (after (hostOps (F := F)) (launchContents m d)) : sProp 𝕄)
      = iprop((idsLoc d ↦{fullShare} m (idsLoc d)) ∗ (tabLoc d ↦{fullShare} m (tabLoc d)) ∗ (wLoc d ↦{fullShare} m (wLoc d)) ∗ (bLoc d ↦{fullShare} m (bLoc d))
        ∗ ((SparseCore.T d).loc main_v0 ↦{fullShare} after (hostOps (F := F)) (launchContents m d) dV0)
        ∗ ((SparseCore.T d).loc main_v1 ↦{fullShare} after (hostOps (F := F)) (launchContents m d) dV1)
        ∗ ((SparseCore.T d).loc main_v2 ↦{fullShare} after (hostOps (F := F)) (launchContents m d) dV2)
        ∗ (b128Loc d ↦{fullShare} Bof m d) ∗ (xtLoc d ↦{fullShare} Xof m d) ∗ (yLoc d ↦{fullShare} m (yLoc d))
        ∗ (oLoc d ↦{fullShare} m (oLoc d)) ∗ (rLoc d ↦{fullShare} m (rLoc d))) := by
  rw [held_S12, after_xt, after_b128, after_arg0, after_arg1, after_arg2, after_arg3, after_v5, after_v6, after_v7]

/-- The last transpose's two arrays. -/
abbrev S2 : Finset (DevRef τ sig) := {dV6, dV7}
theorem tailOp_sub2 : (tailOp (F := F)).bufs ⊆ S2 := show ({dV6, dV7} : Finset (DevRef τ sig)) ⊆ S2 by decide

omit [FloatOps F] in
theorem held_S2 (d : Dev nD) (Wv : Valuation τ sig (Elt F)) :
    (held (T d) S2 Wv : sProp 𝕄) = iprop((oLoc d ↦{fullShare} Wv dV6) ∗ (rLoc d ↦{fullShare} Wv dV7)) := by
  unfold held S2
  rw [SparseCore.bigSep_insert' (by decide), bigSep_singleton]

/-- The launch valuation with the gathered result at what the call left. -/
def Vt (d : Dev nD) (f : Buf (Elt F) (oLoc d)) : Valuation τ sig (Elt F) := Function.update (launchContents m d) dV6 f
theorem Vt_6 (d : Dev nD) (f : Buf (Elt F) (oLoc d)) : Vt m d f dV6 = f := Function.update_self _ _ _
theorem Vt_7 (d : Dev nD) (f : Buf (Elt F) (oLoc d)) : Vt m d f dV7 = m (rLoc d) := Function.update_of_ne (show dV7 ≠ dV6 by decide) _ _

theorem held_S2_result (d : Dev nD) (f : Buf (Elt F) (oLoc d)) :
    (held (T d) S2 ((tailOp (F := F)).result (Vt m d f)) : sProp 𝕄) = iprop((oLoc d ↦{fullShare} f) ∗ (rLoc d ↦{fullShare} resOf f)) := by
  rw [held_S2]
  unfold tailOp
  rw [StableHlo.unary_result, StableHlo.unary_result_ne _ _ _ _ _ _ (show main_v6 ≠ main_v7 by decide), Vt_6]
  rfl

end Main

section Hmain

variable (m : (ℓ : Loc nD τ sig) → Buf (Elt F) ℓ) (ρ : Dev nD → PrngReg)

-- the region's and the call's rules are stated over any thread and body table: applying them at the TensorCore's takes
-- unfolding plain definitions in a metavariable's type
set_option backward.isDefEq.respectTransparency.types false in
/-- @main on device d's TensorCore: the host prefix over the twelve arrays; the projection's region, from the transposed
    table, the weights, the tiled bias and the result's array, its debts all at a call's index; the gather's call, the
    result, the node ids and the output split among the 32 workers and joined back; the last transpose. The inputs are
    kept; the output's array ends at the transpose of what the gather left. -/
theorem hmain (κ : GSem nD τ sig → ℕ) (d : Dev nD) :
    iprop((K (F := F)).ctx EH (P m (Xof m) (Bof m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes G
  rw [unscoped_held, main_eq, tcSt_eq (F := F) d 0]
  iintro ⟨#Hctx, ⟨⟨%W, %hW, HO⟩, Hrest⟩, ⟨Hb, Hheld, -, -⟩, ⟨Hg, Ht⟩⟩
  ihave Hlev := (SparseCore.Cfg.ctx_levAts (K := K (F := F)) (EH := EH) (P := P m (Xof m) (Bof m)) κ) $$ Hctx
  -- the host prefix
  iapply (wp_seq 𝒱 none Set.univ d S12 _ (hostOps (F := F)) hostOps_sub hostOps_fresh (launchContents m d)) $$ [Hb Hheld]
  · isplitl [Hb]; · iexact Hb
    iexact Hheld
  iintro ⟨Hb, Hheld⟩
  ihave Hh := (Entails.of_eq (held_after (F := F) m d)) $$ Hheld
  icases Hh with ⟨Hids, Htab, Hw, Hbias, -, -, -, Hb128, Hxt, Hy, Ho, Hr⟩
  -- the projection's region
  rw [wp_bind]
  iapply (region_wp d (Xof m d) (m (wLoc d)) (Bof m d) (m (yLoc d)) ((K (F := F)).Otc d 0) W (hO_tc (F := F) d 0))
    $$ [HO Hrest Hb Hg Ht Hids Htab Hw Hbias Hb128 Hxt Hy Ho Hr]
  isplitr; · iexact Hlev
  isplitl [Hb]; · iexact Hb
  isplitl [Hg]; · iexact Hg
  isplitl [Ht]; · iexact Ht
  isplitl [Hxt]; · iexact Hxt
  isplitl [Hw]; · iexact Hw
  isplitl [Hb128]; · iexact Hb128
  isplitl [Hy]; · iexact Hy
  isplitl [HO]; · iexact HO
  iintro %Y %hY ⟨Hb, -, Hw, -, Hy, %W', %hW', HO⟩
  -- the gather's call: y, the node ids and the output to the 32 workers and back
  ihave Hst0 := (st_split m (Xof m) (Bof m) d Y hY) $$ [Hy Hids Ho]
  · isplitl [Hy]; · iexact Hy
    isplitl [Hids]; · iexact Hids
    iexact Ho
  icases Hst0 with ⟨-, Hst0⟩
  rw [wp_bind]
  iapply ((K (F := F)).wp_run (D (F := F)) 𝒱 (EH := EH) (P := P m (Xof m) (Bof m)) κ d 0) $$ [HO Hrest Hst0 Hb Htab Hw Hbias Hr]
  isplitr; · iexact Hctx
  isplitl [HO Hrest]
  · rw [tcSt_eq (F := F) d]
    isplitl [HO]
    · iexists W'
      isplitr
      · ipureintro
        intro p hp
        rcases hW' p hp with h | h
        · exact hW p h
        · rw [h, SparseCore.Cfg.lev_none]; exact Nat.zero_le _
      iexact HO
    iexact Hrest
  isplitl [Hst0]; · iexact Hst0
  iintro ⟨Hst1, Hdn⟩
  ihave Hdn' := (dn_join m (Xof m) (Bof m) d) $$ Hdn
  icases Hdn' with ⟨Hids, %f, Ho, %hf⟩
  -- the last transpose
  rw [wp_bind]
  iapply (wp_hlo_within 𝒱 (SparseCore.T d) none Set.univ (op := tailOp (F := F)) (S := S2) tailOp_sub2 (V := Vt m d f)) $$ [Hb Ho Hr]
  · isplitl [Hb]; · iexact Hb
    rw [held_S2, Vt_6, Vt_7]
    isplitl [Ho]; · iexact Ho
    iexact Hr
  iintro ⟨Hb, Hheld⟩
  ihave Hh := (Entails.of_eq (held_S2_result (F := F) m d f)) $$ Hheld
  icases Hh with ⟨-, Hr⟩
  rw [wp_ret]; imodintro
  rw [wp_pure]; imodintro
  isplitl [Hst1]; · iexact Hst1
  unfold FIN
  isplitl [Hids]; · iexact Hids
  isplitl [Htab]; · iexact Htab
  isplitl [Hw]; · iexact Hw
  isplitl [Hbias]; · iexact Hbias
  iexists f
  isplitr; · ipureintro; exact hf
  iexact Hr

end Hmain

section Run

variable (m : (ℓ : Loc nD τ sig) → Buf (Elt F) ℓ) (ρ : Dev nD → PrngReg)

/-- What the run leaves: on every device the four inputs as launched, and the output's array at the transpose of a
    gathered result that holds, at each entry, the lane of the projection's result the entry's node id names. -/
def QC (r : PUnit × MemSt nD τ sig (Elt F)) : Prop :=
  ∀ c : Dev nD, r.2.mem (idsLoc c) = m (idsLoc c) ∧ r.2.mem (tabLoc c) = m (tabLoc c) ∧ r.2.mem (wLoc c) = m (wLoc c)
    ∧ r.2.mem (bLoc c) = m (bLoc c) ∧ ∃ f : Buf (Elt F) (oLoc c), outOK m c f ∧ r.2.mem (rLoc c) = resOf f

/-- The program's run, given the gather kernel's obligation on a vector subcore: from the launch memory, with every
    semaphore counter at zero, every weakly fair execution of the mesh's threads terminates, in a memory QC holds of. -/
theorem run_main_of [∀ e, Nonempty (Elt F e)]
    (htile : (K (F := F)).TileObl (D (F := F)) 𝒱 (P m (Xof m) (Bof m)) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m (Xof m) (Bof m)) facts v₀
    (fun q hq => match q with | 0 => nomatch hq)
    (fun q _ => match q with | 0 => htile)
    (fun q _ => match q with | 0 => SparseCore.Cfg.VecSplit.of_plain (vecSplit m (Xof m) (Bof m)))
    m ρ main (fun d => G (F := F) d) (FIN m) (u₀ (F := F)) (sep_elim_left.trans (hu₀ m (Xof m) (Bof m))) (hmain m ρ) (fq m) (hfin m) (QC m) (fun _ h => h)

end Run

end Cert.Kernel.Hand

end
-- ==== Proof.Bits.TileIdx.lean ====
import proofs.«211133_g82480551952782_cont_sun_m_220_25_alg».proof.Proof.Bits.Setup
import proofs.«211133_g82480551952782_cont_sun_m_220_25_alg».proof.Proof.LibIdxOps
import Idealize.ShloMosaic.Lib.Pipeline.Value

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "yV" => (Memref.whole Cert.Kernel.main_v5_scv : Memref Cert.Kernel.sig Kind.scVector Space.hbm Cert.Kernel.S126976x128 EltTy.f32)
local notation "iV" => (Memref.whole Cert.Kernel.main_arg0_scv : Memref Cert.Kernel.sig Kind.scVector Space.hbm Cert.Kernel.S16384 EltTy.i32)
local notation "oV" => (Memref.whole Cert.Kernel.main_v6_scv : Memref Cert.Kernel.sig Kind.scVector Space.hbm Cert.Kernel.S16x16384 EltTy.f32)
local notation "s0V" => (Memref.whole Cert.Kernel.cc1_scratch0 : Memref Cert.Kernel.sig Kind.scVector Space.vmem Cert.Kernel.S512 EltTy.i32)
local notation "s1V" => (Memref.whole Cert.Kernel.cc1_scratch1 : Memref Cert.Kernel.sig Kind.scVector Space.vmem Cert.Kernel.S512 EltTy.i32)
local notation "s2V" => (Memref.whole Cert.Kernel.cc1_scratch2 : Memref Cert.Kernel.sig Kind.scVector Space.vmem Cert.Kernel.S512x128 EltTy.f32)
local notation "s3V" => (Memref.whole Cert.Kernel.cc1_scratch3 : Memref Cert.Kernel.sig Kind.scVector Space.vmem Cert.Kernel.S16x512 EltTy.f32)

variable [FloatOps F]

section Tile

variable (d : Dev nD) (L : grid1.Coords)

abbrev cV (L : grid1.Coords) : Fin τ.nSC := (L 0).castLE hcore1
abbrev jV (L : grid1.Coords) : Fin τ.nSub := (L 1).castLE hsub1
abbrev VT (d : Dev nD) (L : grid1.Coords) : Thread nD τ := V d (cV L) (jV L)

/-- The task's 512 node ids, and its 512 columns of the result, as the body slices them. -/
abbrev idsRect (L : grid1.Coords) : Rect S16384 := Rect.unit (s := S16384) (k1_off1 L) S512.size (k1_off1_inb L)
abbrev outRect (L : grid1.Coords) : Rect S16x16384 := Rect.unit (s := S16x16384) (k1_off4 L) S16x512.size (k1_off4_inb L)
abbrev idsK (L : grid1.Coords) : Memref sig .scVector .hbm S512 .i32 := (iV).slice (idsRect L) (fun _ => rfl)
abbrev outK (L : grid1.Coords) : Memref sig .scVector .hbm S16x512 .f32 := (oV).slice (outRect L) (fun _ => rfl)

/-! ## The select loop's index vectors, lane by lane -/

omit [FloatOps F] in
theorem trips2 : k1_t2_loop.trips = 32 := by decide
omit [FloatOps F] in
theorem trips1 : k1_t1_loop.trips = 32 := by decide

omit [FloatOps F] in
/-- Lane `x` of the trip's row indices is `16 k + x`. -/
theorem v19_toNat (k : Fin k1_t2_loop.trips) (x : S16.Idx) :
    (k1_pay10 (iota .scVector S16 32 [0] iota_S16_d0_w32_scVector) 0#32 1#32 k x).toNat = 16 * k.val + (x 0).val := by
  have hk : k.val < 32 := lt_of_lt_of_eq k.isLt trips2
  have hx : (x 0).val < 16 := (x 0).isLt
  simp only [k1_pay10, addi, IntOp.addi, broadcast, Scalar.muli, IntOp.muli, Scf.iv, iota, List.foldl, BitVec.toNat_add, BitVec.toNat_mul, BitVec.toNat_ofNat]
  omega

omit [FloatOps F] in
theorem v19_lt (k : Fin k1_t2_loop.trips) (x : S16.Idx) : (k1_pay10 (iota .scVector S16 32 [0] iota_S16_d0_w32_scVector) 0#32 1#32 k x).toNat < 512 := by
  have hk : k.val < 32 := lt_of_lt_of_eq k.isLt trips2
  have hx : (x 0).val < 16 := (x 0).isLt
  rw [v19_toNat]; omega

omit [FloatOps F] in
/-- The first lane of a node's sixteen is a multiple of 16 at most 112, whatever the word. -/
theorem sub_toNat_le (n : BitVec 32) : (sub n).toNat ≤ 112 ∧ (sub n).toNat % 16 = 0 := by
  unfold sub
  have h : ((n.sshiftRight 12) &&& 7#32).toNat ≤ 7 := by
    rw [BitVec.toNat_and]; exact Nat.and_le_right
  rw [BitVec.toNat_mul]
  simp only [BitVec.toNat_ofNat]
  omega

omit [FloatOps F] in
theorem sub_add_toNat (n : BitVec 32) (o : Nat) (ho : o < 16) : (sub n + BitVec.ofNat 32 o).toNat = (sub n).toNat + o := by
  have := sub_toNat_le n
  rw [BitVec.toNat_add, BitVec.toNat_ofNat]
  omega

omit [FloatOps F] in
/-- The side condition of an indexed load of the row buffer [512, 128], and of an indexed store into the selection [16, 512]. -/
theorem chk_load (v19 vcol : IVec S16 32) (h19 : ∀ x, (v19 x).toNat < 512) (hc : ∀ x, (vcol x).toNat < 128) :
    ∀ a x, ((![v19, vcol] : Fin 2 → IVec S16 32) a x).toNat < S512x128.size a := by
  intro a x
  match a with
  | ⟨0, _⟩ => exact h19 x
  | ⟨1, _⟩ => exact hc x
omit [FloatOps F] in
theorem chk_store (vo v19 : IVec S16 32) (ho : ∀ x, (vo x).toNat < 16) (h19 : ∀ x, (v19 x).toNat < 512) :
    ∀ a x, ((![vo, v19] : Fin 2 → IVec S16 32) a x).toNat < S16x512.size a := by
  intro a x
  match a with
  | ⟨0, _⟩ => exact ho x
  | ⟨1, _⟩ => exact h19 x

end Tile

end Cert.Kernel.Hand

end
-- ==== Proof.Bits.TileChk.lean ====
/-
  The select loop's sixteen indexed loads and stores, one group per output row `o`: lane `x` of the load's column indices
  is `sub n + o` for the lane's node id `n`, every lane of the store's row indices is `o`, and the side conditions the body
  assumes of them hold of every word.
-/
import proofs.«211133_g82480551952782_cont_sun_m_220_25_alg».proof.Proof.Bits.TileIdx

noncomputable section

namespace Cert.Kernel.Hand

open Cert.Kernel Cert.Kernel.Gen
open Idealize.ShloMosaic

variable {F : FTy → Type}

theorem col0_toNat (v10 : Vec F S16 .i32) (x : S16.Idx) : ((k1_pay11 (F := F) v10) x).toNat = (sub (v10 x)).toNat + 0 :=
  sub_add_toNat (v10 x) 0 (by decide)

theorem row0_toNat (x : S16.Idx) : ((k1_pay12 (iota .scVector S16 32 [0] iota_S16_d0_w32_scVector)) x).toNat = 0 := by
  show ((iota .scVector S16 32 [0] iota_S16_d0_w32_scVector) x * 0#32 + 0#32).toNat = 0
  rw [BitVec.mul_zero, BitVec.zero_add]; rfl

theorem chk1_all (v10 : Vec F S16 .i32) (k : Fin k1_t2_loop.trips) :
    k1_chk1 (k1_pay10 (iota .scVector S16 32 [0] iota_S16_d0_w32_scVector) 0#32 1#32 k) (k1_pay11 (F := F) v10) :=
  chk_load _ _ (v19_lt k) fun x => by rw [col0_toNat]; have := sub_toNat_le (v10 x); omega

theorem chk2_all (k : Fin k1_t2_loop.trips) :
    k1_chk2 (k1_pay10 (iota .scVector S16 32 [0] iota_S16_d0_w32_scVector) 0#32 1#32 k) (k1_pay12 (iota .scVector S16 32 [0] iota_S16_d0_w32_scVector)) :=
  chk_store _ _ (fun x => by rw [row0_toNat]; decide) (v19_lt k)

theorem col1_toNat (v10 : Vec F S16 .i32) (x : S16.Idx) : ((k1_pay13 (F := F) v10) x).toNat = (sub (v10 x)).toNat + 1 :=
  sub_add_toNat (v10 x) 1 (by decide)

theorem row1_toNat (x : S16.Idx) : ((k1_pay14 (iota .scVector S16 32 [0] iota_S16_d0_w32_scVector)) x).toNat = 1 := by
  show ((iota .scVector S16 32 [0] iota_S16_d0_w32_scVector) x * 0#32 + 1#32).toNat = 1
  rw [BitVec.mul_zero, BitVec.zero_add]; rfl

theorem chk3_all (v10 : Vec F S16 .i32) (k : Fin k1_t2_loop.trips) :
    k1_chk3 (k1_pay10 (iota .scVector S16 32 [0] iota_S16_d0_w32_scVector) 0#32 1#32 k) (k1_pay13 (F := F) v10) :=
  chk_load _ _ (v19_lt k) fun x => by rw [col1_toNat]; have := sub_toNat_le (v10 x); omega

theorem chk4_all (k : Fin k1_t2_loop.trips) :
    k1_chk4 (k1_pay10 (iota .scVector S16 32 [0] iota_S16_d0_w32_scVector) 0#32 1#32 k) (k1_pay14 (iota .scVector S16 32 [0] iota_S16_d0_w32_scVector)) :=
  chk_store _ _ (fun x => by rw [row1_toNat]; decide) (v19_lt k)

theorem col2_toNat (v10 : Vec F S16 .i32) (x : S16.Idx) : ((k1_pay15 (F := F) v10) x).toNat = (sub (v10 x)).toNat + 2 :=
  sub_add_toNat (v10 x) 2 (by decide)

theorem row2_toNat (x : S16.Idx) : ((k1_pay16 (iota .scVector S16 32 [0] iota_S16_d0_w32_scVector)) x).toNat = 2 := by
  show ((iota .scVector S16 32 [0] iota_S16_d0_w32_scVector) x * 0#32 + 2#32).toNat = 2
  rw [BitVec.mul_zero, BitVec.zero_add]; rfl

theorem chk5_all (v10 : Vec F S16 .i32) (k : Fin k1_t2_loop.trips) :
    k1_chk5 (k1_pay10 (iota .scVector S16 32 [0] iota_S16_d0_w32_scVector) 0#32 1#32 k) (k1_pay15 (F := F) v10) :=
  chk_load _ _ (v19_lt k) fun x => by rw [col2_toNat]; have := sub_toNat_le (v10 x); omega

theorem chk6_all (k : Fin k1_t2_loop.trips) :
    k1_chk6 (k1_pay10 (iota .scVector S16 32 [0] iota_S16_d0_w32_scVector) 0#32 1#32 k) (k1_pay16 (iota .scVector S16 32 [0] iota_S16_d0_w32_scVector)) :=
  chk_store _ _ (fun x => by rw [row2_toNat]; decide) (v19_lt k)

theorem col3_toNat (v10 : Vec F S16 .i32) (x : S16.Idx) : ((k1_pay17 (F := F) v10) x).toNat = (sub (v10 x)).toNat + 3 :=
  sub_add_toNat (v10 x) 3 (by decide)

theorem row3_toNat (x : S16.Idx) : ((k1_pay18 (iota .scVector S16 32 [0] iota_S16_d0_w32_scVector)) x).toNat = 3 := by
  show ((iota .scVector S16 32 [0] iota_S16_d0_w32_scVector) x * 0#32 + 3#32).toNat = 3
  rw [BitVec.mul_zero, BitVec.zero_add]; rfl

theorem chk7_all (v10 : Vec F S16 .i32) (k : Fin k1_t2_loop.trips) :
    k1_chk7 (k1_pay10 (iota .scVector S16 32 [0] iota_S16_d0_w32_scVector) 0#32 1#32 k) (k1_pay17 (F := F) v10) :=
  chk_load _ _ (v19_lt k) fun x => by rw [col3_toNat]; have := sub_toNat_le (v10 x); omega

theorem chk8_all (k : Fin k1_t2_loop.trips) :
    k1_chk8 (k1_pay10 (iota .scVector S16 32 [0] iota_S16_d0_w32_scVector) 0#32 1#32 k) (k1_pay18 (iota .scVector S16 32 [0] iota_S16_d0_w32_scVector)) :=
  chk_store _ _ (fun x => by rw [row3_toNat]; decide) (v19_lt k)

theorem col4_toNat (v10 : Vec F S16 .i32) (x : S16.Idx) : ((k1_pay19 (k1_pay9 (F := F) v10)) x).toNat = (sub (v10 x)).toNat + 4 :=
  sub_add_toNat (v10 x) 4 (by decide)

theorem row4_toNat (x : S16.Idx) : ((k1_pay20 (iota .scVector S16 32 [0] iota_S16_d0_w32_scVector)) x).toNat = 4 := by
  show ((iota .scVector S16 32 [0] iota_S16_d0_w32_scVector) x * 0#32 + 4#32).toNat = 4
  rw [BitVec.mul_zero, BitVec.zero_add]; rfl

theorem chk9_all (v10 : Vec F S16 .i32) (k : Fin k1_t2_loop.trips) :
    k1_chk9 (k1_pay10 (iota .scVector S16 32 [0] iota_S16_d0_w32_scVector) 0#32 1#32 k) (k1_pay19 (k1_pay9 (F := F) v10)) :=
  chk_load _ _ (v19_lt k) fun x => by rw [col4_toNat]; have := sub_toNat_le (v10 x); omega

theorem chk10_all (k : Fin k1_t2_loop.trips) :
    k1_chk10 (k1_pay10 (iota .scVector S16 32 [0] iota_S16_d0_w32_scVector) 0#32 1#32 k) (k1_pay20 (iota .scVector S16 32 [0] iota_S16_d0_w32_scVector)) :=
  chk_store _ _ (fun x => by rw [row4_toNat]; decide) (v19_lt k)

theorem col5_toNat (v10 : Vec F S16 .i32) (x : S16.Idx) : ((k1_pay21 (k1_pay9 (F := F) v10)) x).toNat = (sub (v10 x)).toNat + 5 :=
  sub_add_toNat (v10 x) 5 (by decide)

theorem row5_toNat (x : S16.Idx) : ((k1_pay22 (iota .scVector S16 32 [0] iota_S16_d0_w32_scVector)) x).toNat = 5 := by
  show ((iota .scVector S16 32 [0] iota_S16_d0_w32_scVector) x * 0#32 + 5#32).toNat = 5
  rw [BitVec.mul_zero, BitVec.zero_add]; rfl

theorem chk11_all (v10 : Vec F S16 .i32) (k : Fin k1_t2_loop.trips) :
    k1_chk11 (k1_pay10 (iota .scVector S16 32 [0] iota_S16_d0_w32_scVector) 0#32 1#32 k) (k1_pay21 (k1_pay9 (F := F) v10)) :=
  chk_load _ _ (v19_lt k) fun x => by rw [col5_toNat]; have := sub_toNat_le (v10 x); omega

theorem chk12_all (k : Fin k1_t2_loop.trips) :
    k1_chk12 (k1_pay10 (iota .scVector S16 32 [0] iota_S16_d0_w32_scVector) 0#32 1#32 k) (k1_pay22 (iota .scVector S16 32 [0] iota_S16_d0_w32_scVector)) :=
  chk_store _ _ (fun x => by rw [row5_toNat]; decide) (v19_lt k)

theorem col6_toNat (v10 : Vec F S16 .i32) (x : S16.Idx) : ((k1_pay23 (k1_pay9 (F := F) v10)) x).toNat = (sub (v10 x)).toNat + 6 :=
  sub_add_toNat (v10 x) 6 (by decide)

theorem row6_toNat (x : S16.Idx) : ((k1_pay24 (iota .scVector S16 32 [0] iota_S16_d0_w32_scVector)) x).toNat = 6 := by
  show ((iota .scVector S16 32 [0] iota_S16_d0_w32_scVector) x * 0#32 + 6#32).toNat = 6
  rw [BitVec.mul_zero, BitVec.zero_add]; rfl

theorem chk13_all (v10 : Vec F S16 .i32) (k : Fin k1_t2_loop.trips) :
    k1_chk13 (k1_pay10 (iota .scVector S16 32 [0] iota_S16_d0_w32_scVector) 0#32 1#32 k) (k1_pay23 (k1_pay9 (F := F) v10)) :=
  chk_load _ _ (v19_lt k) fun x => by rw [col6_toNat]; have := sub_toNat_le (v10 x); omega

theorem chk14_all (k : Fin k1_t2_loop.trips) :
    k1_chk14 (k1_pay10 (iota .scVector S16 32 [0] iota_S16_d0_w32_scVector) 0#32 1#32 k) (k1_pay24 (iota .scVector S16 32 [0] iota_S16_d0_w32_scVector)) :=
  chk_store _ _ (fun x => by rw [row6_toNat]; decide) (v19_lt k)

theorem col7_toNat (v10 : Vec F S16 .i32) (x : S16.Idx) : ((k1_pay25 (k1_pay9 (F := F) v10)) x).toNat = (sub (v10 x)).toNat + 7 :=
  sub_add_toNat (v10 x) 7 (by decide)

theorem row7_toNat (x : S16.Idx) : ((k1_pay26 (iota .scVector S16 32 [0] iota_S16_d0_w32_scVector)) x).toNat = 7 := by
  show ((iota .scVector S16 32 [0] iota_S16_d0_w32_scVector) x * 0#32 + 7#32).toNat = 7
  rw [BitVec.mul_zero, BitVec.zero_add]; rfl

theorem chk15_all (v10 : Vec F S16 .i32) (k : Fin k1_t2_loop.trips) :
    k1_chk15 (k1_pay10 (iota .scVector S16 32 [0] iota_S16_d0_w32_scVector) 0#32 1#32 k) (k1_pay25 (k1_pay9 (F := F) v10)) :=
  chk_load _ _ (v19_lt k) fun x => by rw [col7_toNat]; have := sub_toNat_le (v10 x); omega

theorem chk16_all (k : Fin k1_t2_loop.trips) :
    k1_chk16 (k1_pay10 (iota .scVector S16 32 [0] iota_S16_d0_w32_scVector) 0#32 1#32 k) (k1_pay26 (iota .scVector S16 32 [0] iota_S16_d0_w32_scVector)) :=
  chk_store _ _ (fun x => by rw [row7_toNat]; decide) (v19_lt k)

theorem col8_toNat (v10 : Vec F S16 .i32) (x : S16.Idx) : ((k1_pay27 (k1_pay9 (F := F) v10)) x).toNat = (sub (v10 x)).toNat + 8 :=
  sub_add_toNat (v10 x) 8 (by decide)

theorem row8_toNat (x : S16.Idx) : ((k1_pay28 (iota .scVector S16 32 [0] iota_S16_d0_w32_scVector)) x).toNat = 8 := by
  show ((iota .scVector S16 32 [0] iota_S16_d0_w32_scVector) x * 0#32 + 8#32).toNat = 8
  rw [BitVec.mul_zero, BitVec.zero_add]; rfl

theorem chk17_all (v10 : Vec F S16 .i32) (k : Fin k1_t2_loop.trips) :
    k1_chk17 (k1_pay10 (iota .scVector S16 32 [0] iota_S16_d0_w32_scVector) 0#32 1#32 k) (k1_pay27 (k1_pay9 (F := F) v10)) :=
  chk_load _ _ (v19_lt k) fun x => by rw [col8_toNat]; have := sub_toNat_le (v10 x); omega

theorem chk18_all (k : Fin k1_t2_loop.trips) :
    k1_chk18 (k1_pay10 (iota .scVector S16 32 [0] iota_S16_d0_w32_scVector) 0#32 1#32 k) (k1_pay28 (iota .scVector S16 32 [0] iota_S16_d0_w32_scVector)) :=
  chk_store _ _ (fun x => by rw [row8_toNat]; decide) (v19_lt k)

theorem col9_toNat (v10 : Vec F S16 .i32) (x : S16.Idx) : ((k1_pay29 (k1_pay9 (F := F) v10)) x).toNat = (sub (v10 x)).toNat + 9 :=
  sub_add_toNat (v10 x) 9 (by decide)

theorem row9_toNat (x : S16.Idx) : ((k1_pay30 (iota .scVector S16 32 [0] iota_S16_d0_w32_scVector)) x).toNat = 9 := by
  show ((iota .scVector S16 32 [0] iota_S16_d0_w32_scVector) x * 0#32 + 9#32).toNat = 9
  rw [BitVec.mul_zero, BitVec.zero_add]; rfl

theorem chk19_all (v10 : Vec F S16 .i32) (k : Fin k1_t2_loop.trips) :
    k1_chk19 (k1_pay10 (iota .scVector S16 32 [0] iota_S16_d0_w32_scVector) 0#32 1#32 k) (k1_pay29 (k1_pay9 (F := F) v10)) :=
  chk_load _ _ (v19_lt k) fun x => by rw [col9_toNat]; have := sub_toNat_le (v10 x); omega

theorem chk20_all (k : Fin k1_t2_loop.trips) :
    k1_chk20 (k1_pay10 (iota .scVector S16 32 [0] iota_S16_d0_w32_scVector) 0#32 1#32 k) (k1_pay30 (iota .scVector S16 32 [0] iota_S16_d0_w32_scVector)) :=
  chk_store _ _ (fun x => by rw [row9_toNat]; decide) (v19_lt k)

theorem col10_toNat (v10 : Vec F S16 .i32) (x : S16.Idx) : ((k1_pay31 (k1_pay9 (F := F) v10)) x).toNat = (sub (v10 x)).toNat + 10 :=
  sub_add_toNat (v10 x) 10 (by decide)

theorem row10_toNat (x : S16.Idx) : ((k1_pay32 (iota .scVector S16 32 [0] iota_S16_d0_w32_scVector)) x).toNat = 10 := by
  show ((iota .scVector S16 32 [0] iota_S16_d0_w32_scVector) x * 0#32 + 10#32).toNat = 10
  rw [BitVec.mul_zero, BitVec.zero_add]; rfl

theorem chk21_all (v10 : Vec F S16 .i32) (k : Fin k1_t2_loop.trips) :
    k1_chk21 (k1_pay10 (iota .scVector S16 32 [0] iota_S16_d0_w32_scVector) 0#32 1#32 k) (k1_pay31 (k1_pay9 (F := F) v10)) :=
  chk_load _ _ (v19_lt k) fun x => by rw [col10_toNat]; have := sub_toNat_le (v10 x); omega

theorem chk22_all (k : Fin k1_t2_loop.trips) :
    k1_chk22 (k1_pay10 (iota .scVector S16 32 [0] iota_S16_d0_w32_scVector) 0#32 1#32 k) (k1_pay32 (iota .scVector S16 32 [0] iota_S16_d0_w32_scVector)) :=
  chk_store _ _ (fun x => by rw [row10_toNat]; decide) (v19_lt k)

theorem col11_toNat (v10 : Vec F S16 .i32) (x : S16.Idx) : ((k1_pay33 (k1_pay9 (F := F) v10)) x).toNat = (sub (v10 x)).toNat + 11 :=
  sub_add_toNat (v10 x) 11 (by decide)

theorem row11_toNat (x : S16.Idx) : ((k1_pay34 (iota .scVector S16 32 [0] iota_S16_d0_w32_scVector)) x).toNat = 11 := by
  show ((iota .scVector S16 32 [0] iota_S16_d0_w32_scVector) x * 0#32 + 11#32).toNat = 11
  rw [BitVec.mul_zero, BitVec.zero_add]; rfl

theorem chk23_all (v10 : Vec F S16 .i32) (k : Fin k1_t2_loop.trips) :
    k1_chk23 (k1_pay10 (iota .scVector S16 32 [0] iota_S16_d0_w32_scVector) 0#32 1#32 k) (k1_pay33 (k1_pay9 (F := F) v10)) :=
  chk_load _ _ (v19_lt k) fun x => by rw [col11_toNat]; have := sub_toNat_le (v10 x); omega

theorem chk24_all (k : Fin k1_t2_loop.trips) :
    k1_chk24 (k1_pay10 (iota .scVector S16 32 [0] iota_S16_d0_w32_scVector) 0#32 1#32 k) (k1_pay34 (iota .scVector S16 32 [0] iota_S16_d0_w32_scVector)) :=
  chk_store _ _ (fun x => by rw [row11_toNat]; decide) (v19_lt k)

theorem col12_toNat (v10 : Vec F S16 .i32) (x : S16.Idx) : ((k1_pay35 (k1_pay9 (F := F) v10)) x).toNat = (sub (v10 x)).toNat + 12 :=
  sub_add_toNat (v10 x) 12 (by decide)

theorem row12_toNat (x : S16.Idx) : ((k1_pay2 0#32) x).toNat = 12 := by
  show ((iota .scVector S16 32 [0] iota_S16_d0_w32_scVector) x * 0#32 + 12#32).toNat = 12
  rw [BitVec.mul_zero, BitVec.zero_add]; rfl

theorem chk25_all (v10 : Vec F S16 .i32) (k : Fin k1_t2_loop.trips) :
    k1_chk25 (k1_pay10 (iota .scVector S16 32 [0] iota_S16_d0_w32_scVector) 0#32 1#32 k) (k1_pay35 (k1_pay9 (F := F) v10)) :=
  chk_load _ _ (v19_lt k) fun x => by rw [col12_toNat]; have := sub_toNat_le (v10 x); omega

theorem chk26_all (k : Fin k1_t2_loop.trips) :
    k1_chk26 (k1_pay10 (iota .scVector S16 32 [0] iota_S16_d0_w32_scVector) 0#32 1#32 k) (k1_pay2 0#32) :=
  chk_store _ _ (fun x => by rw [row12_toNat]; decide) (v19_lt k)

theorem col13_toNat (v10 : Vec F S16 .i32) (x : S16.Idx) : ((k1_pay3 (k1_pay9 (F := F) v10)) x).toNat = (sub (v10 x)).toNat + 13 :=
  sub_add_toNat (v10 x) 13 (by decide)

theorem row13_toNat (x : S16.Idx) : ((k1_pay4) x).toNat = 13 := by
  show ((iota .scVector S16 32 [0] iota_S16_d0_w32_scVector) x * 0#32 + 13#32).toNat = 13
  rw [BitVec.mul_zero, BitVec.zero_add]; rfl

theorem chk27_all (v10 : Vec F S16 .i32) (k : Fin k1_t2_loop.trips) :
    k1_chk27 (k1_pay10 (iota .scVector S16 32 [0] iota_S16_d0_w32_scVector) 0#32 1#32 k) (k1_pay3 (k1_pay9 (F := F) v10)) :=
  chk_load _ _ (v19_lt k) fun x => by rw [col13_toNat]; have := sub_toNat_le (v10 x); omega

theorem chk28_all (k : Fin k1_t2_loop.trips) :
    k1_chk28 (k1_pay10 (iota .scVector S16 32 [0] iota_S16_d0_w32_scVector) 0#32 1#32 k) (k1_pay4) :=
  chk_store _ _ (fun x => by rw [row13_toNat]; decide) (v19_lt k)

theorem col14_toNat (v10 : Vec F S16 .i32) (x : S16.Idx) : ((k1_pay5 (k1_pay9 (F := F) v10)) x).toNat = (sub (v10 x)).toNat + 14 :=
  sub_add_toNat (v10 x) 14 (by decide)

theorem row14_toNat (x : S16.Idx) : ((k1_pay6) x).toNat = 14 := by
  show ((iota .scVector S16 32 [0] iota_S16_d0_w32_scVector) x * 0#32 + 14#32).toNat = 14
  rw [BitVec.mul_zero, BitVec.zero_add]; rfl

theorem chk29_all (v10 : Vec F S16 .i32) (k : Fin k1_t2_loop.trips) :
    k1_chk29 (k1_pay10 (iota .scVector S16 32 [0] iota_S16_d0_w32_scVector) 0#32 1#32 k) (k1_pay5 (k1_pay9 (F := F) v10)) :=
  chk_load _ _ (v19_lt k) fun x => by rw [col14_toNat]; have := sub_toNat_le (v10 x); omega

theorem chk30_all (k : Fin k1_t2_loop.trips) :
    k1_chk30 (k1_pay10 (iota .scVector S16 32 [0] iota_S16_d0_w32_scVector) 0#32 1#32 k) (k1_pay6) :=
  chk_store _ _ (fun x => by rw [row14_toNat]; decide) (v19_lt k)

theorem col15_toNat (v10 : Vec F S16 .i32) (x : S16.Idx) : ((k1_pay7 (k1_pay9 (F := F) v10)) x).toNat = (sub (v10 x)).toNat + 15 :=
  sub_add_toNat (v10 x) 15 (by decide)

theorem row15_toNat (x : S16.Idx) : ((k1_pay8) x).toNat = 15 := by
  show ((iota .scVector S16 32 [0] iota_S16_d0_w32_scVector) x * 0#32 + 15#32).toNat = 15
  rw [BitVec.mul_zero, BitVec.zero_add]; rfl

theorem chk31_all (v10 : Vec F S16 .i32) (k : Fin k1_t2_loop.trips) :
    k1_chk31 (k1_pay10 (iota .scVector S16 32 [0] iota_S16_d0_w32_scVector) 0#32 1#32 k) (k1_pay7 (k1_pay9 (F := F) v10)) :=
  chk_load _ _ (v19_lt k) fun x => by rw [col15_toNat]; have := sub_toNat_le (v10 x); omega

theorem chk32_all (k : Fin k1_t2_loop.trips) :
    k1_chk32 (k1_pay10 (iota .scVector S16 32 [0] iota_S16_d0_w32_scVector) 0#32 1#32 k) (k1_pay8) :=
  chk_store _ _ (fun x => by rw [row15_toNat]; decide) (v19_lt k)

end Cert.Kernel.Hand

end
-- ==== Proof.Bits.TileVal.lean ====
/-
  What one indexed load-and-store pair of the select loop does to the selection buffer, read entry by entry.
-/
import proofs.«211133_g82480551952782_cont_sun_m_220_25_alg».proof.Proof.Bits.TileChk

noncomputable section

namespace Cert.Kernel.Hand

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

local notation "s0V" => (Memref.whole Cert.Kernel.cc1_scratch0 : Memref Cert.Kernel.sig Kind.scVector Space.vmem Cert.Kernel.S512 EltTy.i32)
local notation "s2V" => (Memref.whole Cert.Kernel.cc1_scratch2 : Memref Cert.Kernel.sig Kind.scVector Space.vmem Cert.Kernel.S512x128 EltTy.f32)
local notation "s3V" => (Memref.whole Cert.Kernel.cc1_scratch3 : Memref Cert.Kernel.sig Kind.scVector Space.vmem Cert.Kernel.S16x512 EltTy.f32)

variable [FloatOps F]

/-- The row buffer read at natural-number coordinates (at its first entry outside its extents). -/
def Rat (R : Vec F S512x128 .f32) (row col : Nat) : Elt F .f32 :=
  if h : row < 512 ∧ col < 128 then R (ValueIdx.ix2 ⟨row, h.1⟩ ⟨col, h.2⟩) else R (ValueIdx.ix2 ⟨0, by decide⟩ ⟨0, by decide⟩)

/-- What the select loop puts at entry `(o, j)` of the selection buffer: lane `sub (ids j) + o` of row `j` of the row buffer. -/
def selT (R : Vec F S512x128 .f32) (G0 : IVec S512 32) (o : Fin 16) (j : Fin 512) : Elt F .f32 :=
  Rat R j.val ((sub (G0 (ValueIdx.ix1 j))).toNat + o.val)

/-- The loop's progress: columns below `16 k` are done for every row `o`, columns `16 k ‥ 16 k + 15` for the rows below `o`. -/
def selQ (R : Vec F S512x128 .f32) (G0 : IVec S512 32) (k o : Nat) (g : Vec F S16x512 .f32) : Prop :=
  ∀ (o' : Fin 16) (j' : Fin 512), (j'.val < 16 * k ∨ (j'.val < 16 * k + 16 ∧ o'.val < o)) → g (ValueIdx.ix2 o' j') = selT R G0 o' j'

omit [FloatOps F] in
/-- The sixteen node ids a trip loads are entries `16 k ‥ 16 k + 15` of the id buffer. -/
theorem v10K_apply (G0 : IVec S512 32) (k : Fin k1_t2_loop.trips) (x : S16.Idx) (h : 16 * k.val + (x 0).val < 512) :
    ((s0V).view.readAt (Elt F) (Rect.unit (s := S512) (k1_off3 k) S16.size (k1_off3_inb k)).toLoadRect G0) x
      = G0 (ValueIdx.ix1 ⟨16 * k.val + (x 0).val, h⟩) := by
  rw [View.readAt_apply]
  show G0 _ = G0 _
  refine congrArg G0 ((ValueIdx.eq_ix1 (n := 512) _).trans (congrArg ValueIdx.ix1 (Fin.ext ?_)))
  show (k1_off3 k) 0 + 1 * (x 0).val = 16 * k.val + (x 0).val
  rw [k1_off3_eq]
  show 16 * k.val + 1 * (x 0).val = 16 * k.val + (x 0).val
  omega

/-- One pair: the selection buffer after the indexed store of the indexed load, abstracted to its progress. -/
theorem pair_abs (d : Dev nD) (thr : Thread nD τ) (R : Vec F S512x128 .f32) (G0 : IVec S512 32) (k : Fin k1_t2_loop.trips) (o : Fin 16)
    (g : Vec F S16x512 .f32) (hQ : selQ R G0 k.val o.val g)
    (rv cv colv : IVec S16 32) (hrv : ∀ x, (rv x).toNat = o.val) (hcv : ∀ x, (cv x).toNat = 16 * k.val + (x 0).val)
    (hcol : ∀ x : S16.Idx, ∀ h : 16 * k.val + (x 0).val < 512, (colv x).toNat = (sub (G0 (ValueIdx.ix1 ⟨16 * k.val + (x 0).val, h⟩))).toNat + o.val)
    (h1 : ∀ a x, ((![cv, colv] : Fin 2 → IVec S16 32) a x).toNat < S512x128.size a)
    (h2 : ∀ a x, ((![rv, cv] : Fin 2 → IVec S16 32) a x).toNat < S16x512.size a) :
    selQ R G0 k.val (o.val + 1)
      (((s3V).access (.whole S16x512)).write (Elt F) g
        (storeIdx (((s3V).access (.whole S16x512)).read (Elt F) g) ![rv, cv]
          (loadIdx (((s2V).access (.whole S512x128)).read (Elt F) R) ![cv, colv] h1) (fun _ => 1#1) false h2) Finset.univ) := by
  have hk : k.val < 32 := lt_of_lt_of_eq k.isLt trips2
  have ew : ∀ w, ((s3V).access (.whole S16x512)).write (Elt F) g w Finset.univ = w := fun w => Memref.write_access_whole_univ (Elt F) cc1_scratch3 g w
  have er3 : ((s3V).access (.whole S16x512)).read (Elt F) g = g := Memref.read_access_whole (Elt F) cc1_scratch3 g
  have er2 : ((s2V).access (.whole S512x128)).read (Elt F) R = R := Memref.read_access_whole (Elt F) cc1_scratch2 R
  rw [ew, er3, er2]
  intro o' j' hc
  by_cases hit : o' = o ∧ 16 * k.val ≤ j'.val ∧ j'.val < 16 * k.val + 16
  · obtain ⟨rfl, hlo, hhi⟩ := hit
    -- the lane that names this entry
    let k₀ : Fin 16 := ⟨j'.val - 16 * k.val, by omega⟩
    have hx0 : ((Shape.ofLane (d := ![16]) k₀ : S16.Idx) 0).val = j'.val - 16 * k.val := rfl
    have hidx : idxAt ![rv, cv] h2 (Shape.ofLane (d := ![16]) k₀) = ValueIdx.ix2 o' j' := by
      funext a; apply Fin.ext
      match a with
      | ⟨0, _⟩ => show (rv _).toNat = o'.val; exact hrv _
      | ⟨1, _⟩ => show (cv _).toNat = j'.val; rw [hcv, hx0]; omega
    rw [← hidx, LibIdxOps.storeIdx_hit g ![rv, cv] (loadIdx R ![cv, colv] h1) h2 k₀ (fun k' e => by
      have := congrArg (fun i : S16x512.Idx => (i 1).val) e
      simp only [idxAt] at this
      have e1 : (cv (Shape.ofLane (d := ![16]) k')).toNat = (cv (Shape.ofLane (d := ![16]) k₀)).toNat := this
      rw [hcv, hcv] at e1
      apply Fin.ext
      have a1 : ((Shape.ofLane (d := ![16]) k' : S16.Idx) 0).val = k'.val := rfl
      have a2 : ((Shape.ofLane (d := ![16]) k₀ : S16.Idx) 0).val = k₀.val := rfl
      omega)]
    unfold loadIdx selT Rat
    have hrow : (cv (Shape.ofLane (d := ![16]) k₀)).toNat = j'.val := by rw [hcv, hx0]; omega
    have hcl : (colv (Shape.ofLane (d := ![16]) k₀)).toNat = (sub (G0 (ValueIdx.ix1 j'))).toNat + o'.val := by
      rw [hcol _ (by rw [hx0]; omega)]
      have ej : (⟨16 * k.val + ((Shape.ofLane (d := ![16]) k₀ : S16.Idx) 0).val, by rw [hx0]; omega⟩ : Fin 512) = j' :=
        Fin.ext (by show 16 * k.val + ((Shape.ofLane (d := ![16]) k₀ : S16.Idx) 0).val = j'.val; rw [hx0]; omega)
      rw [ej]
    have hlt : (sub (G0 (ValueIdx.ix1 j'))).toNat + o'.val < 128 := by have := sub_toNat_le (G0 (ValueIdx.ix1 j')); omega
    rw [dif_pos ⟨j'.isLt, hlt⟩]
    congr 1
    funext a; apply Fin.ext
    match a with
    | ⟨0, _⟩ => exact hrow
    | ⟨1, _⟩ => exact hcl
  · rw [LibIdxOps.storeIdx_miss g ![rv, cv] (loadIdx R ![cv, colv] h1) h2 _ (fun k' e => hit (by
      have e0 := congrArg (fun i : S16x512.Idx => (i 0).val) e
      have e1 := congrArg (fun i : S16x512.Idx => (i 1).val) e
      simp only [idxAt] at e0 e1
      have e0' : (rv (Shape.ofLane (d := ![16]) k')).toNat = o'.val := e0
      have e1' : (cv (Shape.ofLane (d := ![16]) k')).toNat = j'.val := e1
      rw [hrv] at e0'; rw [hcv] at e1'
      have a1 : ((Shape.ofLane (d := ![16]) k' : S16.Idx) 0).val = k'.val := rfl
      have := k'.isLt
      exact ⟨Fin.ext e0'.symm, by omega, by omega⟩))]
    refine hQ o' j' ?_
    rcases hc with hc | ⟨hc1, hc2⟩
    · exact .inl hc
    · by_cases hj : j'.val < 16 * k.val
      · exact .inl hj
      · refine .inr ⟨hc1, ?_⟩
        by_contra hno
        exact hit ⟨Fin.ext (by omega), by omega, hc1⟩

/-- A finished trip: all sixteen rows of its columns done is the next trip's start. -/
theorem selQ_next (R : Vec F S512x128 .f32) (G0 : IVec S512 32) (k : Nat) (g : Vec F S16x512 .f32) (h : selQ R G0 k 16 g) : selQ R G0 (k + 1) 0 g := by
  intro o' j' hc
  refine h o' j' ?_
  rcases hc with hc | ⟨_, hc2⟩
  · by_cases hj : j'.val < 16 * k
    · exact .inl hj
    · exact .inr ⟨by omega, o'.isLt⟩
  · exact absurd hc2 (Nat.not_lt_zero _)

theorem selQ_zero (R : Vec F S512x128 .f32) (G0 : IVec S512 32) (g : Vec F S16x512 .f32) : selQ R G0 0 0 g := by
  intro o' j' hc
  rcases hc with hc | ⟨_, hc2⟩
  · exact absurd hc (by omega)
  · exact absurd hc2 (Nat.not_lt_zero _)

end Cert.Kernel.Hand

end
-- ==== Proof.Bits.BitFacts.lean ====
/-
  Bit arithmetic of 32-bit node ids: for a word `n` whose signed value lies in `[0, 999999]`, the row
  `((n >> 15) << 12) | (n & 4095)` is `4096 * (n / 32768) + n % 4096` and the lane offset `((n >> 12) & 7) * 16`
  is `16 * ((n / 4096) % 8)`, as natural numbers, with the bounds that keep them inside `y` [126976, 128].
-/
import proofs.«211133_g82480551952782_cont_sun_m_220_25_alg».proof.Proof.Bits.Setup

noncomputable section

namespace Cert.Kernel.Hand

/-- A word with nonnegative signed value has its sign bit clear: its unsigned value is below `2 ^ 31`. -/
theorem toNat_lt_of_toInt_nonneg (n : BitVec 32) (h0 : 0 ≤ n.toInt) : n.toNat < 2 ^ 31 := by
  have h := BitVec.toInt_eq_toNat_cond n
  have hlt := n.isLt
  split at h <;> omega

/-- For a word with nonnegative signed value, the signed value is the unsigned one. -/
theorem toInt_eq_toNat_of_nonneg (n : BitVec 32) (h0 : 0 ≤ n.toInt) : n.toInt = (n.toNat : Int) := by
  have h := BitVec.toInt_eq_toNat_cond n
  have hlt := n.isLt
  split at h <;> omega

/-- The sign bit of a word with nonnegative signed value is clear. -/
theorem msb_false_of_toInt_nonneg (n : BitVec 32) (h0 : 0 ≤ n.toInt) : n.msb = false := by
  have h := toNat_lt_of_toInt_nonneg n h0
  rw [BitVec.msb_eq_decide]
  simp only [decide_eq_false_iff_not, not_le]
  omega

/-- The arithmetic right shift of a word with nonnegative signed value is the logical one: it divides the unsigned value. -/
theorem sshiftRight_toNat (n : BitVec 32) (h0 : 0 ≤ n.toInt) (k : Nat) : (n.sshiftRight k).toNat = n.toNat / 2 ^ k := by
  rw [BitVec.sshiftRight_eq_of_msb_false (msb_false_of_toInt_nonneg n h0), BitVec.toNat_ushiftRight, Nat.shiftRight_eq_div_pow]

section

variable (n : BitVec 32) (h0 : 0 ≤ n.toInt) (h1 : n.toInt ≤ 999999)
include h0 h1

/-- A node id's unsigned value is below the table's row count. -/
theorem toNat_lt : n.toNat < 1000000 := by
  have h := toInt_eq_toNat_of_nonneg n h0
  omega

/-- The row of `y` a node id names, as a natural number: `4096 * (n / 32768) + n % 4096`. -/
theorem gid_val : (gid n).toNat = (n.toNat / 32768) * 4096 + n.toNat % 4096 := by
  have hn := toNat_lt n h0 h1
  unfold gid
  rw [BitVec.toNat_or, BitVec.toNat_shiftLeft, BitVec.toNat_and, sshiftRight_toNat n h0]
  have hmask : (4095#32 : BitVec 32).toNat = 2 ^ 12 - 1 := by decide
  rw [hmask, Nat.and_two_pow_sub_one_eq_mod, Nat.shiftLeft_eq]
  have hq : n.toNat / 2 ^ 15 < 31 := by omega
  have hsmall : n.toNat / 2 ^ 15 * 2 ^ 12 < 2 ^ 32 := by omega
  rw [Nat.mod_eq_of_lt hsmall, ← Nat.shiftLeft_eq, ← Nat.shiftLeft_add_eq_or_of_lt (Nat.mod_lt _ (by decide)), Nat.shiftLeft_eq]
  norm_num

/-- That row lies inside `y`'s 126976 rows. -/
theorem gid_lt : (gid n).toNat < 126976 := by
  have hn := toNat_lt n h0 h1
  rw [gid_val n h0 h1]
  have hq : n.toNat / 32768 < 31 := by omega
  have hr : n.toNat % 4096 < 4096 := Nat.mod_lt _ (by decide)
  omega

/-- The first lane of a node id's sixteen, as a natural number: `16 * ((n / 4096) % 8)`. -/
theorem sub_val : (sub n).toNat = ((n.toNat / 4096) % 8) * 16 := by
  unfold sub
  rw [BitVec.toNat_mul, BitVec.toNat_and, sshiftRight_toNat n h0]
  have hmask : (7#32 : BitVec 32).toNat = 2 ^ 3 - 1 := by decide
  have h16 : (16#32 : BitVec 32).toNat = 16 := by decide
  rw [hmask, h16, Nat.and_two_pow_sub_one_eq_mod]
  have hr : n.toNat / 2 ^ 12 % 2 ^ 3 < 8 := Nat.mod_lt _ (by decide)
  have hsmall : n.toNat / 2 ^ 12 % 2 ^ 3 * 16 < 2 ^ 32 := by omega
  rw [Nat.mod_eq_of_lt hsmall]
  norm_num

/-- Each of the sixteen lanes lies inside `y`'s 128 lanes. -/
theorem sub_add_lt (o : Fin 16) : (sub n).toNat + o.val < 128 := by
  rw [sub_val n h0 h1]
  have hr : n.toNat / 4096 % 8 < 8 := Nat.mod_lt _ (by decide)
  have ho := o.isLt
  omega

end

end Cert.Kernel.Hand

end
-- ==== Proof.Bits.TileInv.lean ====
import proofs.«211133_g82480551952782_cont_sun_m_220_25_alg».proof.Proof.Bits.TileVal
import proofs.«211133_g82480551952782_cont_sun_m_220_25_alg».proof.Proof.Bits.Pay
import proofs.«211133_g82480551952782_cont_sun_m_220_25_alg».proof.Proof.Bits.BitFacts
import Idealize.ShloMosaic.Lib.Pipeline.Value

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "yV" => (Memref.whole Cert.Kernel.main_v5_scv : Memref Cert.Kernel.sig Kind.scVector Space.hbm Cert.Kernel.S126976x128 EltTy.f32)
local notation "iV" => (Memref.whole Cert.Kernel.main_arg0_scv : Memref Cert.Kernel.sig Kind.scVector Space.hbm Cert.Kernel.S16384 EltTy.i32)
local notation "oV" => (Memref.whole Cert.Kernel.main_v6_scv : Memref Cert.Kernel.sig Kind.scVector Space.hbm Cert.Kernel.S16x16384 EltTy.f32)
local notation "s0V" => (Memref.whole Cert.Kernel.cc1_scratch0 : Memref Cert.Kernel.sig Kind.scVector Space.vmem Cert.Kernel.S512 EltTy.i32)
local notation "s1V" => (Memref.whole Cert.Kernel.cc1_scratch1 : Memref Cert.Kernel.sig Kind.scVector Space.vmem Cert.Kernel.S512 EltTy.i32)
local notation "s2V" => (Memref.whole Cert.Kernel.cc1_scratch2 : Memref Cert.Kernel.sig Kind.scVector Space.vmem Cert.Kernel.S512x128 EltTy.f32)
local notation "s3V" => (Memref.whole Cert.Kernel.cc1_scratch3 : Memref Cert.Kernel.sig Kind.scVector Space.vmem Cert.Kernel.S16x512 EltTy.f32)

variable [FloatOps F]

section Tile

variable (d : Dev nD) (L : grid1.Coords)
/-! ## The vector subcore's task -/

omit [FloatOps F] in
theorem pts_s2 (f : Buf (Elt F) ((s2V).view.loc (VT d L))) :
    ((s2V).view.loc (VT d L) ↦[(s2V).view.set]{fullShare} f : sProp 𝕄) = (((s2V).access (.whole S512x128)).loc (VT d L) ↦{fullShare} f) := by
  rw [View.set_whole]
omit [FloatOps F] in
theorem pts_s3 (f : Buf (Elt F) ((s3V).view.loc (VT d L))) :
    ((s3V).view.loc (VT d L) ↦[(s3V).view.set]{fullShare} f : sProp 𝕄) = (((s3V).access (.whole S16x512)).loc (VT d L) ↦[((s3V).access (.whole S16x512)).set]{fullShare} f) := by
  rw [View.set_whole, show ((s3V).access (.whole S16x512)).set = Finset.univ from Memref.set_access_whole cc1_scratch3]

/-- The sixteen node ids trip `k` of the select loop loads. -/
abbrev v10K (G0 : IVec S512 32) (k : Fin k1_t2_loop.trips) : Vec F S16 .i32 :=
  (s0V).view.readAt (Elt F) (Rect.unit (s := S512) (k1_off3 k) S16.size (k1_off3_inb k)).toLoadRect G0

omit [FloatOps F] in
/-- A buffer's contents named afresh, with the equation kept: what lets a long term be carried as a variable. -/
theorem pts_exists_eq {ℓ : Loc nD τ sig} {I : Finset (Idx ℓ)} {q : PosShare TreeShare} (f : Buf (Elt F) ℓ) :
    (ℓ ↦[I]{q} f : sProp 𝕄) ⊢ iprop(∃ y : Buf (Elt F) ℓ, ⌜y = f⌝ ∗ (ℓ ↦[I]{q} y)) := by
  iintro H
  iexists f
  isplitr
  · ipureintro; rfl
  · iexact H

/-- Loop 1's invariant: after `k` trips the first `16 k` entries of the row list are the rows the ids name. -/
def inv1 (G0 : Buf (Elt F) ((s0V).view.loc (VT d L))) (k : Nat) (_ : PUnit) : sProp 𝕄 :=
  iprop(((s0V).view.loc (VT d L) ↦[(s0V).view.set]{fullShare} G0)
    ∗ ∃ g : Buf (Elt F) ((s1V).view.loc (VT d L)), ((s1V).view.loc (VT d L) ↦[(s1V).view.set]{fullShare} g)
        ∗ ⌜∀ j : Fin 512, j.val < 16 * k → g (ValueIdx.ix1 j) = gid (G0 (ValueIdx.ix1 j))⌝)

/-- Loop 2's invariant: the id buffer and the row buffer held, the selection buffer at its progress. -/
def inv2 (G0 : Buf (Elt F) ((s0V).view.loc (VT d L))) (R : Buf (Elt F) ((s2V).view.loc (VT d L))) (k : Nat) (_ : PUnit) : sProp 𝕄 :=
  iprop(((s0V).view.loc (VT d L) ↦[(s0V).view.set]{fullShare} G0)
    ∗ ((s2V).view.loc (VT d L) ↦[(s2V).view.set]{fullShare} R)
    ∗ ∃ g : Buf (Elt F) ((s3V).view.loc (VT d L)), ((s3V).view.loc (VT d L) ↦[(s3V).view.set]{fullShare} g) ∗ ⌜selQ R G0 k 0 g⌝)

/-! ## What the task's copies carry -/

/-- The task's 512 node ids as its first copy lands them in the id buffer. -/
abbrev PAYI (IDS : Buf (Elt F) ((iV).view.loc (VT d L))) : S512.Idx → Elt F .i32 :=
  ReadAs.same.apply ((idsK L).view.read (Elt F) IDS)

omit [FloatOps F] in
theorem PAYI_apply (IDS : Buf (Elt F) ((iV).view.loc (VT d L))) (x : S512.Idx) : PAYI d L IDS x = IDS ((idsK L).view.emb x) :=
  (View.read_apply _ _).trans (cast_eq _ _)

/-- The id buffer after that copy. -/
abbrev G0of (IDS : Buf (Elt F) ((iV).view.loc (VT d L))) : Buf (Elt F) ((s0V).view.loc (VT d L)) :=
  (s0V).view.writes (Elt F) (s0V).view.junk [⟨Rect.whole cc1_scratch0.ty.shape, PAYI d L IDS⟩]

/-- The row buffer after the gather of the rows of `y` the list `g` names. -/
abbrev Rof (Y : Buf (Elt F) ((yV).view.loc (VT d L))) (g : Buf (Elt F) ((s1V).view.loc (VT d L)))
    (hin : ∀ x, ((s1V).view.read (Elt F) g x).toNat < S126976x128.size gathers_S126976x128_S512x128.axis) : Buf (Elt F) ((s2V).view.loc (VT d L)) :=
  (s2V).view.writes (Elt F) (s2V).view.junk [⟨Rect.whole cc1_scratch2.ty.shape,
    SparseCore.gatherPayload gathers_S126976x128_S512x128
      (View.read (Elt F) ((yV).slice (Rect.unit (s := S126976x128) ![0, 0] S126976x128.size inb_S126976x128_S126976x128_0_0) (fun _ => rfl)).view Y)
      (SparseCore.rows (View.read (Elt F) (s1V).view g) rfl hin)⟩]

end Tile

end Cert.Kernel.Hand

end
-- ==== Proof.Bits.TileTrip.lean ====
/-
  One trip of the select loop of the gather kernel, from the loop's invariant to the invariant.
-/
import proofs.«211133_g82480551952782_cont_sun_m_220_25_alg».proof.Proof.Bits.TileInv
import Idealize.ShloMosaic.Lib.Pipeline.Value

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "yV" => (Memref.whole Cert.Kernel.main_v5_scv : Memref Cert.Kernel.sig Kind.scVector Space.hbm Cert.Kernel.S126976x128 EltTy.f32)
local notation "iV" => (Memref.whole Cert.Kernel.main_arg0_scv : Memref Cert.Kernel.sig Kind.scVector Space.hbm Cert.Kernel.S16384 EltTy.i32)
local notation "oV" => (Memref.whole Cert.Kernel.main_v6_scv : Memref Cert.Kernel.sig Kind.scVector Space.hbm Cert.Kernel.S16x16384 EltTy.f32)
local notation "s0V" => (Memref.whole Cert.Kernel.cc1_scratch0 : Memref Cert.Kernel.sig Kind.scVector Space.vmem Cert.Kernel.S512 EltTy.i32)
local notation "s1V" => (Memref.whole Cert.Kernel.cc1_scratch1 : Memref Cert.Kernel.sig Kind.scVector Space.vmem Cert.Kernel.S512 EltTy.i32)
local notation "s2V" => (Memref.whole Cert.Kernel.cc1_scratch2 : Memref Cert.Kernel.sig Kind.scVector Space.vmem Cert.Kernel.S512x128 EltTy.f32)
local notation "s3V" => (Memref.whole Cert.Kernel.cc1_scratch3 : Memref Cert.Kernel.sig Kind.scVector Space.vmem Cert.Kernel.S16x512 EltTy.f32)

variable [FloatOps F]

section Tile

variable (d : Dev nD) (L : grid1.Coords)

/-- A trip of the select loop from the invariant to the invariant: the sixteen node ids loaded, then for each output row `o`
    the indexed load of lane `sub n + o` of each node's row and its indexed store into row `o` of the selection buffer. -/
theorem trip2 (G0 : Buf (Elt F) ((s0V).view.loc (VT d L))) (R : Buf (Elt F) ((s2V).view.loc (VT d L))) (k : Fin k1_t2_loop.trips) :
    inv2 d L G0 R k.val ⟨⟩
      ⊢ wp frame (wpE (defs₀ (F := F)) 𝒱₀ (VT d L) none) Set.univ
          (k1_t2_body L yV (Memref.isWhole_whole _) iV (Memref.isWhole_whole _) oV (Memref.isWhole_whole _)
            s0V (Memref.isWhole_whole _) s1V (Memref.isWhole_whole _) s2V (Memref.isWhole_whole _) s3V (Memref.isWhole_whole _) cc1_scratch4 cc1_scoped0 cc1_scoped1
            (iota .scVector S16 32 [0] iota_S16_d0_w32_scVector) k ⟨⟩)
          (inv2 d L G0 R (k.val + 1)) := by
  unfold inv2
  iintro ⟨HG0, HG2, %g0, HG3, %hQ0⟩
  sl_unfold [k1_t2_body]
  -- row 0
  sl_exec (disch := exact chk1_all _ _)
  ihave HG2 := (Entails.of_eq (pts_s2 (F := F) d L _)) $$ HG2
  ihave HG3 := (Entails.of_eq (pts_s3 (F := F) d L _)) $$ HG3
  iapply (SparseCore.wp_vectorLoadIdx 𝒱₀ (VT d L) none Set.univ (base := s2V) (S := Finset.univ) (q := fullShare) (Finset.subset_univ _)) $$ HG2
  iintro HG2
  sl_exec (disch := exact chk2_all _)
  iapply (SparseCore.wp_vectorStoreIdx 𝒱₀ (VT d L) none Set.univ (base := s3V)) $$ HG3
  iintro HG3
  ihave H := (pts_exists_eq (F := F) _) $$ HG3
  icases H with ⟨%g1, %hg1, HG3⟩
  have hQ1 : selQ R G0 k.val (0 + 1) g1 := by
    rw [hg1]
    exact pair_abs d (VT d L) R G0 k ⟨0, by decide⟩ g0 hQ0 (k1_pay12 (iota .scVector S16 32 [0] iota_S16_d0_w32_scVector)) (k1_pay10 (iota .scVector S16 32 [0] iota_S16_d0_w32_scVector) 0#32 1#32 k) (k1_pay11 (F := F) (v10K G0 k))
      row0_toNat (v19_toNat k) (fun x h => by rw [col0_toNat]; exact congrArg (fun n => (sub n).toNat + 0) (v10K_apply G0 k x h)) _ _
  clear hg1
  -- row 1
  sl_exec (disch := exact chk3_all _ _)
  iapply (SparseCore.wp_vectorLoadIdx 𝒱₀ (VT d L) none Set.univ (base := s2V) (S := Finset.univ) (q := fullShare) (Finset.subset_univ _)) $$ HG2
  iintro HG2
  sl_exec (disch := exact chk4_all _)
  iapply (SparseCore.wp_vectorStoreIdx 𝒱₀ (VT d L) none Set.univ (base := s3V)) $$ HG3
  iintro HG3
  ihave H := (pts_exists_eq (F := F) _) $$ HG3
  icases H with ⟨%g2, %hg2, HG3⟩
  have hQ2 : selQ R G0 k.val (1 + 1) g2 := by
    rw [hg2]
    exact pair_abs d (VT d L) R G0 k ⟨1, by decide⟩ g1 hQ1 (k1_pay14 (iota .scVector S16 32 [0] iota_S16_d0_w32_scVector)) (k1_pay10 (iota .scVector S16 32 [0] iota_S16_d0_w32_scVector) 0#32 1#32 k) (k1_pay13 (F := F) (v10K G0 k))
      row1_toNat (v19_toNat k) (fun x h => by rw [col1_toNat]; exact congrArg (fun n => (sub n).toNat + 1) (v10K_apply G0 k x h)) _ _
  clear hg2
  -- row 2
  sl_exec (disch := exact chk5_all _ _)
  iapply (SparseCore.wp_vectorLoadIdx 𝒱₀ (VT d L) none Set.univ (base := s2V) (S := Finset.univ) (q := fullShare) (Finset.subset_univ _)) $$ HG2
  iintro HG2
  sl_exec (disch := exact chk6_all _)
  iapply (SparseCore.wp_vectorStoreIdx 𝒱₀ (VT d L) none Set.univ (base := s3V)) $$ HG3
  iintro HG3
  ihave H := (pts_exists_eq (F := F) _) $$ HG3
  icases H with ⟨%g3, %hg3, HG3⟩
  have hQ3 : selQ R G0 k.val (2 + 1) g3 := by
    rw [hg3]
    exact pair_abs d (VT d L) R G0 k ⟨2, by decide⟩ g2 hQ2 (k1_pay16 (iota .scVector S16 32 [0] iota_S16_d0_w32_scVector)) (k1_pay10 (iota .scVector S16 32 [0] iota_S16_d0_w32_scVector) 0#32 1#32 k) (k1_pay15 (F := F) (v10K G0 k))
      row2_toNat (v19_toNat k) (fun x h => by rw [col2_toNat]; exact congrArg (fun n => (sub n).toNat + 2) (v10K_apply G0 k x h)) _ _
  clear hg3
  -- row 3
  sl_exec (disch := exact chk7_all _ _)
  iapply (SparseCore.wp_vectorLoadIdx 𝒱₀ (VT d L) none Set.univ (base := s2V) (S := Finset.univ) (q := fullShare) (Finset.subset_univ _)) $$ HG2
  iintro HG2
  sl_exec (disch := exact chk8_all _)
  iapply (SparseCore.wp_vectorStoreIdx 𝒱₀ (VT d L) none Set.univ (base := s3V)) $$ HG3
  iintro HG3
  ihave H := (pts_exists_eq (F := F) _) $$ HG3
  icases H with ⟨%g4, %hg4, HG3⟩
  have hQ4 : selQ R G0 k.val (3 + 1) g4 := by
    rw [hg4]
    exact pair_abs d (VT d L) R G0 k ⟨3, by decide⟩ g3 hQ3 (k1_pay18 (iota .scVector S16 32 [0] iota_S16_d0_w32_scVector)) (k1_pay10 (iota .scVector S16 32 [0] iota_S16_d0_w32_scVector) 0#32 1#32 k) (k1_pay17 (F := F) (v10K G0 k))
      row3_toNat (v19_toNat k) (fun x h => by rw [col3_toNat]; exact congrArg (fun n => (sub n).toNat + 3) (v10K_apply G0 k x h)) _ _
  clear hg4
  -- row 4
  sl_exec (disch := exact chk9_all _ _)
  iapply (SparseCore.wp_vectorLoadIdx 𝒱₀ (VT d L) none Set.univ (base := s2V) (S := Finset.univ) (q := fullShare) (Finset.subset_univ _)) $$ HG2
  iintro HG2
  sl_exec (disch := exact chk10_all _)
  iapply (SparseCore.wp_vectorStoreIdx 𝒱₀ (VT d L) none Set.univ (base := s3V)) $$ HG3
  iintro HG3
  ihave H := (pts_exists_eq (F := F) _) $$ HG3
  icases H with ⟨%g5, %hg5, HG3⟩
  have hQ5 : selQ R G0 k.val (4 + 1) g5 := by
    rw [hg5]
    exact pair_abs d (VT d L) R G0 k ⟨4, by decide⟩ g4 hQ4 (k1_pay20 (iota .scVector S16 32 [0] iota_S16_d0_w32_scVector)) (k1_pay10 (iota .scVector S16 32 [0] iota_S16_d0_w32_scVector) 0#32 1#32 k) (k1_pay19 (k1_pay9 (F := F) (v10K G0 k)))
      row4_toNat (v19_toNat k) (fun x h => by rw [col4_toNat]; exact congrArg (fun n => (sub n).toNat + 4) (v10K_apply G0 k x h)) _ _
  clear hg5
  -- row 5
  sl_exec (disch := exact chk11_all _ _)
  iapply (SparseCore.wp_vectorLoadIdx 𝒱₀ (VT d L) none Set.univ (base := s2V) (S := Finset.univ) (q := fullShare) (Finset.subset_univ _)) $$ HG2
  iintro HG2
  sl_exec (disch := exact chk12_all _)
  iapply (SparseCore.wp_vectorStoreIdx 𝒱₀ (VT d L) none Set.univ (base := s3V)) $$ HG3
  iintro HG3
  ihave H := (pts_exists_eq (F := F) _) $$ HG3
  icases H with ⟨%g6, %hg6, HG3⟩
  have hQ6 : selQ R G0 k.val (5 + 1) g6 := by
    rw [hg6]
    exact pair_abs d (VT d L) R G0 k ⟨5, by decide⟩ g5 hQ5 (k1_pay22 (iota .scVector S16 32 [0] iota_S16_d0_w32_scVector)) (k1_pay10 (iota .scVector S16 32 [0] iota_S16_d0_w32_scVector) 0#32 1#32 k) (k1_pay21 (k1_pay9 (F := F) (v10K G0 k)))
      row5_toNat (v19_toNat k) (fun x h => by rw [col5_toNat]; exact congrArg (fun n => (sub n).toNat + 5) (v10K_apply G0 k x h)) _ _
  clear hg6
  -- row 6
  sl_exec (disch := exact chk13_all _ _)
  iapply (SparseCore.wp_vectorLoadIdx 𝒱₀ (VT d L) none Set.univ (base := s2V) (S := Finset.univ) (q := fullShare) (Finset.subset_univ _)) $$ HG2
  iintro HG2
  sl_exec (disch := exact chk14_all _)
  iapply (SparseCore.wp_vectorStoreIdx 𝒱₀ (VT d L) none Set.univ (base := s3V)) $$ HG3
  iintro HG3
  ihave H := (pts_exists_eq (F := F) _) $$ HG3
  icases H with ⟨%g7, %hg7, HG3⟩
  have hQ7 : selQ R G0 k.val (6 + 1) g7 := by
    rw [hg7]
    exact pair_abs d (VT d L) R G0 k ⟨6, by decide⟩ g6 hQ6 (k1_pay24 (iota .scVector S16 32 [0] iota_S16_d0_w32_scVector)) (k1_pay10 (iota .scVector S16 32 [0] iota_S16_d0_w32_scVector) 0#32 1#32 k) (k1_pay23 (k1_pay9 (F := F) (v10K G0 k)))
      row6_toNat (v19_toNat k) (fun x h => by rw [col6_toNat]; exact congrArg (fun n => (sub n).toNat + 6) (v10K_apply G0 k x h)) _ _
  clear hg7
  -- row 7
  sl_exec (disch := exact chk15_all _ _)
  iapply (SparseCore.wp_vectorLoadIdx 𝒱₀ (VT d L) none Set.univ (base := s2V) (S := Finset.univ) (q := fullShare) (Finset.subset_univ _)) $$ HG2
  iintro HG2
  sl_exec (disch := exact chk16_all _)
  iapply (SparseCore.wp_vectorStoreIdx 𝒱₀ (VT d L) none Set.univ (base := s3V)) $$ HG3
  iintro HG3
  ihave H := (pts_exists_eq (F := F) _) $$ HG3
  icases H with ⟨%g8, %hg8, HG3⟩
  have hQ8 : selQ R G0 k.val (7 + 1) g8 := by
    rw [hg8]
    exact pair_abs d (VT d L) R G0 k ⟨7, by decide⟩ g7 hQ7 (k1_pay26 (iota .scVector S16 32 [0] iota_S16_d0_w32_scVector)) (k1_pay10 (iota .scVector S16 32 [0] iota_S16_d0_w32_scVector) 0#32 1#32 k) (k1_pay25 (k1_pay9 (F := F) (v10K G0 k)))
      row7_toNat (v19_toNat k) (fun x h => by rw [col7_toNat]; exact congrArg (fun n => (sub n).toNat + 7) (v10K_apply G0 k x h)) _ _
  clear hg8
  -- row 8
  sl_exec (disch := exact chk17_all _ _)
  iapply (SparseCore.wp_vectorLoadIdx 𝒱₀ (VT d L) none Set.univ (base := s2V) (S := Finset.univ) (q := fullShare) (Finset.subset_univ _)) $$ HG2
  iintro HG2
  sl_exec (disch := exact chk18_all _)
  iapply (SparseCore.wp_vectorStoreIdx 𝒱₀ (VT d L) none Set.univ (base := s3V)) $$ HG3
  iintro HG3
  ihave H := (pts_exists_eq (F := F) _) $$ HG3
  icases H with ⟨%g9, %hg9, HG3⟩
  have hQ9 : selQ R G0 k.val (8 + 1) g9 := by
    rw [hg9]
    exact pair_abs d (VT d L) R G0 k ⟨8, by decide⟩ g8 hQ8 (k1_pay28 (iota .scVector S16 32 [0] iota_S16_d0_w32_scVector)) (k1_pay10 (iota .scVector S16 32 [0] iota_S16_d0_w32_scVector) 0#32 1#32 k) (k1_pay27 (k1_pay9 (F := F) (v10K G0 k)))
      row8_toNat (v19_toNat k) (fun x h => by rw [col8_toNat]; exact congrArg (fun n => (sub n).toNat + 8) (v10K_apply G0 k x h)) _ _
  clear hg9
  -- row 9
  sl_exec (disch := exact chk19_all _ _)
  iapply (SparseCore.wp_vectorLoadIdx 𝒱₀ (VT d L) none Set.univ (base := s2V) (S := Finset.univ) (q := fullShare) (Finset.subset_univ _)) $$ HG2
  iintro HG2
  sl_exec (disch := exact chk20_all _)
  iapply (SparseCore.wp_vectorStoreIdx 𝒱₀ (VT d L) none Set.univ (base := s3V)) $$ HG3
  iintro HG3
  ihave H := (pts_exists_eq (F := F) _) $$ HG3
  icases H with ⟨%g10, %hg10, HG3⟩
  have hQ10 : selQ R G0 k.val (9 + 1) g10 := by
    rw [hg10]
    exact pair_abs d (VT d L) R G0 k ⟨9, by decide⟩ g9 hQ9 (k1_pay30 (iota .scVector S16 32 [0] iota_S16_d0_w32_scVector)) (k1_pay10 (iota .scVector S16 32 [0] iota_S16_d0_w32_scVector) 0#32 1#32 k) (k1_pay29 (k1_pay9 (F := F) (v10K G0 k)))
      row9_toNat (v19_toNat k) (fun x h => by rw [col9_toNat]; exact congrArg (fun n => (sub n).toNat + 9) (v10K_apply G0 k x h)) _ _
  clear hg10
  -- row 10
  sl_exec (disch := exact chk21_all _ _)
  iapply (SparseCore.wp_vectorLoadIdx 𝒱₀ (VT d L) none Set.univ (base := s2V) (S := Finset.univ) (q := fullShare) (Finset.subset_univ _)) $$ HG2
  iintro HG2
  sl_exec (disch := exact chk22_all _)
  iapply (SparseCore.wp_vectorStoreIdx 𝒱₀ (VT d L) none Set.univ (base := s3V)) $$ HG3
  iintro HG3
  ihave H := (pts_exists_eq (F := F) _) $$ HG3
  icases H with ⟨%g11, %hg11, HG3⟩
  have hQ11 : selQ R G0 k.val (10 + 1) g11 := by
    rw [hg11]
    exact pair_abs d (VT d L) R G0 k ⟨10, by decide⟩ g10 hQ10 (k1_pay32 (iota .scVector S16 32 [0] iota_S16_d0_w32_scVector)) (k1_pay10 (iota .scVector S16 32 [0] iota_S16_d0_w32_scVector) 0#32 1#32 k) (k1_pay31 (k1_pay9 (F := F) (v10K G0 k)))
      row10_toNat (v19_toNat k) (fun x h => by rw [col10_toNat]; exact congrArg (fun n => (sub n).toNat + 10) (v10K_apply G0 k x h)) _ _
  clear hg11
  -- row 11
  sl_exec (disch := exact chk23_all _ _)
  iapply (SparseCore.wp_vectorLoadIdx 𝒱₀ (VT d L) none Set.univ (base := s2V) (S := Finset.univ) (q := fullShare) (Finset.subset_univ _)) $$ HG2
  iintro HG2
  sl_exec (disch := exact chk24_all _)
  iapply (SparseCore.wp_vectorStoreIdx 𝒱₀ (VT d L) none Set.univ (base := s3V)) $$ HG3
  iintro HG3
  ihave H := (pts_exists_eq (F := F) _) $$ HG3
  icases H with ⟨%g12, %hg12, HG3⟩
  have hQ12 : selQ R G0 k.val (11 + 1) g12 := by
    rw [hg12]
    exact pair_abs d (VT d L) R G0 k ⟨11, by decide⟩ g11 hQ11 (k1_pay34 (iota .scVector S16 32 [0] iota_S16_d0_w32_scVector)) (k1_pay10 (iota .scVector S16 32 [0] iota_S16_d0_w32_scVector) 0#32 1#32 k) (k1_pay33 (k1_pay9 (F := F) (v10K G0 k)))
      row11_toNat (v19_toNat k) (fun x h => by rw [col11_toNat]; exact congrArg (fun n => (sub n).toNat + 11) (v10K_apply G0 k x h)) _ _
  clear hg12
  -- row 12
  sl_exec (disch := exact chk25_all _ _)
  iapply (SparseCore.wp_vectorLoadIdx 𝒱₀ (VT d L) none Set.univ (base := s2V) (S := Finset.univ) (q := fullShare) (Finset.subset_univ _)) $$ HG2
  iintro HG2
  sl_exec (disch := exact chk26_all _)
  iapply (SparseCore.wp_vectorStoreIdx 𝒱₀ (VT d L) none Set.univ (base := s3V)) $$ HG3
  iintro HG3
  ihave H := (pts_exists_eq (F := F) _) $$ HG3
  icases H with ⟨%g13, %hg13, HG3⟩
  have hQ13 : selQ R G0 k.val (12 + 1) g13 := by
    rw [hg13]
    exact pair_abs d (VT d L) R G0 k ⟨12, by decide⟩ g12 hQ12 (k1_pay2 0#32) (k1_pay10 (iota .scVector S16 32 [0] iota_S16_d0_w32_scVector) 0#32 1#32 k) (k1_pay35 (k1_pay9 (F := F) (v10K G0 k)))
      row12_toNat (v19_toNat k) (fun x h => by rw [col12_toNat]; exact congrArg (fun n => (sub n).toNat + 12) (v10K_apply G0 k x h)) _ _
  clear hg13
  -- row 13
  sl_exec (disch := exact chk27_all _ _)
  iapply (SparseCore.wp_vectorLoadIdx 𝒱₀ (VT d L) none Set.univ (base := s2V) (S := Finset.univ) (q := fullShare) (Finset.subset_univ _)) $$ HG2
  iintro HG2
  sl_exec (disch := exact chk28_all _)
  iapply (SparseCore.wp_vectorStoreIdx 𝒱₀ (VT d L) none Set.univ (base := s3V)) $$ HG3
  iintro HG3
  ihave H := (pts_exists_eq (F := F) _) $$ HG3
  icases H with ⟨%g14, %hg14, HG3⟩
  have hQ14 : selQ R G0 k.val (13 + 1) g14 := by
    rw [hg14]
    exact pair_abs d (VT d L) R G0 k ⟨13, by decide⟩ g13 hQ13 (k1_pay4) (k1_pay10 (iota .scVector S16 32 [0] iota_S16_d0_w32_scVector) 0#32 1#32 k) (k1_pay3 (k1_pay9 (F := F) (v10K G0 k)))
      row13_toNat (v19_toNat k) (fun x h => by rw [col13_toNat]; exact congrArg (fun n => (sub n).toNat + 13) (v10K_apply G0 k x h)) _ _
  clear hg14
  -- row 14
  sl_exec (disch := exact chk29_all _ _)
  iapply (SparseCore.wp_vectorLoadIdx 𝒱₀ (VT d L) none Set.univ (base := s2V) (S := Finset.univ) (q := fullShare) (Finset.subset_univ _)) $$ HG2
  iintro HG2
  sl_exec (disch := exact chk30_all _)
  iapply (SparseCore.wp_vectorStoreIdx 𝒱₀ (VT d L) none Set.univ (base := s3V)) $$ HG3
  iintro HG3
  ihave H := (pts_exists_eq (F := F) _) $$ HG3
  icases H with ⟨%g15, %hg15, HG3⟩
  have hQ15 : selQ R G0 k.val (14 + 1) g15 := by
    rw [hg15]
    exact pair_abs d (VT d L) R G0 k ⟨14, by decide⟩ g14 hQ14 (k1_pay6) (k1_pay10 (iota .scVector S16 32 [0] iota_S16_d0_w32_scVector) 0#32 1#32 k) (k1_pay5 (k1_pay9 (F := F) (v10K G0 k)))
      row14_toNat (v19_toNat k) (fun x h => by rw [col14_toNat]; exact congrArg (fun n => (sub n).toNat + 14) (v10K_apply G0 k x h)) _ _
  clear hg15
  -- row 15
  sl_exec (disch := exact chk31_all _ _)
  iapply (SparseCore.wp_vectorLoadIdx 𝒱₀ (VT d L) none Set.univ (base := s2V) (S := Finset.univ) (q := fullShare) (Finset.subset_univ _)) $$ HG2
  iintro HG2
  sl_exec (disch := exact chk32_all _)
  iapply (SparseCore.wp_vectorStoreIdx 𝒱₀ (VT d L) none Set.univ (base := s3V)) $$ HG3
  iintro HG3
  ihave H := (pts_exists_eq (F := F) _) $$ HG3
  icases H with ⟨%g16, %hg16, HG3⟩
  have hQ16 : selQ R G0 k.val (15 + 1) g16 := by
    rw [hg16]
    exact pair_abs d (VT d L) R G0 k ⟨15, by decide⟩ g15 hQ15 (k1_pay8) (k1_pay10 (iota .scVector S16 32 [0] iota_S16_d0_w32_scVector) 0#32 1#32 k) (k1_pay7 (k1_pay9 (F := F) (v10K G0 k)))
      row15_toNat (v19_toNat k) (fun x h => by rw [col15_toNat]; exact congrArg (fun n => (sub n).toNat + 15) (v10K_apply G0 k x h)) _ _
  clear hg16
  sl_exec
  sl_step
  isplitl [HG0]; · iexact HG0
  isplitl [HG2]; · iapply (Entails.of_eq (pts_s2 (F := F) d L _).symm); iexact HG2
  iexists g16
  isplitl [HG3]; · iapply (Entails.of_eq (pts_s3 (F := F) d L _).symm); iexact HG3
  ipureintro
  exact selQ_next R G0 k.val g16 hQ16

end Tile

end Cert.Kernel.Hand

end
-- ==== Proof.Bits.TileFacts.lean ====
/-
  Index facts about the vector subcore's task: what its copies, its row-list loop, its gather and its lane selection
  leave, entry by entry.
-/
import proofs.«211133_g82480551952782_cont_sun_m_220_25_alg».proof.Proof.Bits.TileInv
import proofs.«211133_g82480551952782_cont_sun_m_220_25_alg».proof.Proof.Bits.BitFacts
import Idealize.ShloMosaic.Lib.WritesUnit

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "yV" => (Memref.whole Cert.Kernel.main_v5_scv : Memref Cert.Kernel.sig Kind.scVector Space.hbm Cert.Kernel.S126976x128 EltTy.f32)
local notation "iV" => (Memref.whole Cert.Kernel.main_arg0_scv : Memref Cert.Kernel.sig Kind.scVector Space.hbm Cert.Kernel.S16384 EltTy.i32)
local notation "oV" => (Memref.whole Cert.Kernel.main_v6_scv : Memref Cert.Kernel.sig Kind.scVector Space.hbm Cert.Kernel.S16x16384 EltTy.f32)
local notation "s0V" => (Memref.whole Cert.Kernel.cc1_scratch0 : Memref Cert.Kernel.sig Kind.scVector Space.vmem Cert.Kernel.S512 EltTy.i32)
local notation "s1V" => (Memref.whole Cert.Kernel.cc1_scratch1 : Memref Cert.Kernel.sig Kind.scVector Space.vmem Cert.Kernel.S512 EltTy.i32)
local notation "s2V" => (Memref.whole Cert.Kernel.cc1_scratch2 : Memref Cert.Kernel.sig Kind.scVector Space.vmem Cert.Kernel.S512x128 EltTy.f32)
local notation "s3V" => (Memref.whole Cert.Kernel.cc1_scratch3 : Memref Cert.Kernel.sig Kind.scVector Space.vmem Cert.Kernel.S16x512 EltTy.f32)

variable [FloatOps F]

section Tile

variable (d : Dev nD) (L : grid1.Coords)

omit [FloatOps F] in
/-- The task's node ids lie inside the id array. -/
theorem idsK_lt (j : Fin 512) : 1024 * (L 1).val + 512 * (L 0).val + j.val < 16384 := by
  have h0 : (L 0).val < 2 := (L 0).isLt
  have h1 : (L 1).val < 16 := (L 1).isLt
  have := j.isLt
  omega

/-- Entry `j` of the id buffer after the first copy is the task's `j`-th node id. -/
theorem G0of_apply (IDS : Buf (Elt F) ((iV).view.loc (VT d L))) (j : Fin 512) :
    G0of d L IDS (ValueIdx.ix1 j)
      = IDS (ValueIdx.ix1 (⟨1024 * (L 1).val + 512 * (L 0).val + j.val, idsK_lt L j⟩ : Fin 16384)) := by
  show (s0V).view.read (Elt F) (G0of d L IDS) (ValueIdx.ix1 j) = _
  rw [View.read_writes_whole, PAYI_apply]
  refine congrArg IDS ((ValueIdx.eq_ix1 (n := 16384) _).trans (congrArg ValueIdx.ix1 (Fin.ext ?_)))
  show (k1_off1 L) 0 + 1 * j.val = 1024 * (L 1).val + 512 * (L 0).val + j.val
  rw [k1_off1_eq]
  show 1024 * (L 1).val + 512 * (L 0).val + 1 * j.val = 1024 * (L 1).val + 512 * (L 0).val + j.val
  omega

omit [FloatOps F] in
/-- The sixteen node ids trip `k` of the row-list loop loads are entries `16 k ‥ 16 k + 15` of the id buffer. -/
theorem v10K1_apply (G0 : IVec S512 32) (k : Fin k1_t1_loop.trips) (x : S16.Idx) (h : 16 * k.val + (x 0).val < 512) :
    ((s0V).view.readAt (Elt F) (Rect.unit (s := S512) (k1_off2 k) S16.size (k1_off2_inb k)).toLoadRect G0) x
      = G0 (ValueIdx.ix1 ⟨16 * k.val + (x 0).val, h⟩) := by
  rw [View.readAt_apply]
  show G0 _ = G0 _
  refine congrArg G0 ((ValueIdx.eq_ix1 (n := 512) _).trans (congrArg ValueIdx.ix1 (Fin.ext ?_)))
  show (k1_off2 k) 0 + 1 * (x 0).val = 16 * k.val + (x 0).val
  rw [k1_off2_eq]
  show 16 * k.val + 1 * (x 0).val = 16 * k.val + (x 0).val
  omega

/-- One trip of the row-list loop: the store of the sixteen rows extends the finished prefix by sixteen entries. -/
theorem loop1_step (G0 g : IVec S512 32) (k : Fin k1_t1_loop.trips)
    (hg : ∀ j : Fin 512, j.val < 16 * k.val → g (ValueIdx.ix1 j) = gid (G0 (ValueIdx.ix1 j))) :
    ∀ j : Fin 512, j.val < 16 * (k.val + 1) →
      ((s1V).view.writes (Elt F) g [⟨Rect.unit (s := S512) (k1_off2 k) S16.size (k1_off2_inb k),
        k1_pay1 (F := F) ((s0V).view.readAt (Elt F) (Rect.unit (s := S512) (k1_off2 k) S16.size (k1_off2_inb k)).toLoadRect G0)⟩])
          (ValueIdx.ix1 j) = gid (G0 (ValueIdx.ix1 j)) := by
  intro j hj
  have hk : k.val < 32 := lt_of_lt_of_eq k.isLt trips1
  show (s1V).view.read (Elt F) ((s1V).view.writes (Elt F) g [⟨Rect.unit (s := S512) (k1_off2 k) S16.size (k1_off2_inb k),
        k1_pay1 (F := F) ((s0V).view.readAt (Elt F) (Rect.unit (s := S512) (k1_off2 k) S16.size (k1_off2_inb k)).toLoadRect G0)⟩])
          (ValueIdx.ix1 j) = _
  by_cases hlo : 16 * k.val ≤ j.val
  · have hx : j.val - 16 * k.val < 16 := by omega
    refine (View.read_writes_cons_unit_of_mem (Val := Elt F) (s1V).view g (k1_off2_inb k) _ [] (ValueIdx.ix1 j)
      (ValueIdx.ix1 (⟨j.val - 16 * k.val, hx⟩ : Fin 16)) (k1_off2_eq k) (fun a => by
        match a with
        | ⟨0, _⟩ => show j.val = 16 * k.val + (j.val - 16 * k.val); omega)).trans ?_
    show gid (((s0V).view.readAt (Elt F) (Rect.unit (s := S512) (k1_off2 k) S16.size (k1_off2_inb k)).toLoadRect G0)
      (ValueIdx.ix1 (⟨j.val - 16 * k.val, hx⟩ : Fin 16))) = _
    rw [v10K1_apply G0 k _ (by show 16 * k.val + (j.val - 16 * k.val) < 512; omega)]
    refine congrArg (fun q : Fin 512 => gid (G0 (ValueIdx.ix1 q))) (Fin.ext ?_)
    show 16 * k.val + (j.val - 16 * k.val) = j.val
    omega
  · refine (View.read_writes_cons_unit_of_not_mem (Val := Elt F) (s1V).view g (k1_off2_inb k) _ [] (ValueIdx.ix1 j) (k1_off2_eq k) 0
      (Or.inl (by show j.val < 16 * k.val; omega))).trans ?_
    exact hg j (by omega)

/-- With every node id a row of the table, every entry of the finished row list is a row of `y`. -/
theorem hin_of (IDS : Buf (Elt F) ((iV).view.loc (VT d L))) (hids : IdsOK IDS) (g1 : Buf (Elt F) ((s1V).view.loc (VT d L)))
    (hg1 : ∀ j : Fin 512, g1 (ValueIdx.ix1 j) = gid (G0of d L IDS (ValueIdx.ix1 j))) :
    ∀ x, ((s1V).view.read (Elt F) g1 x).toNat < S126976x128.size gathers_S126976x128_S512x128.axis := by
  intro (x : S512.Idx)
  obtain ⟨j, rfl⟩ : ∃ j : Fin 512, x = ValueIdx.ix1 j := ⟨x 0, ValueIdx.eq_ix1 (n := 512) x⟩
  show (g1 (ValueIdx.ix1 j)).toNat < 126976
  rw [hg1 j, G0of_apply]
  exact gid_lt _ (hids _).1 (hids _).2

/-- Entry `(j, col)` of the row buffer after the gather is lane `col` of the row of `y` entry `j` of the row list names. -/
theorem Rof_apply (Y : Buf (Elt F) ((yV).view.loc (VT d L))) (g1 : Buf (Elt F) ((s1V).view.loc (VT d L)))
    (hin : ∀ x, ((s1V).view.read (Elt F) g1 x).toNat < S126976x128.size gathers_S126976x128_S512x128.axis)
    (j : Fin 512) (col : Fin 128) :
    Rof d L Y g1 hin (ValueIdx.ix2 j col)
      = Y (ValueIdx.ix2 (⟨(g1 (ValueIdx.ix1 j)).toNat, hin (ValueIdx.ix1 j)⟩ : Fin 126976) col) := by
  show (s2V).view.read (Elt F) (Rof d L Y g1 hin) (ValueIdx.ix2 j col) = _
  rw [View.read_writes_whole]
  show View.read (Elt F) ((yV).slice (Rect.unit (s := S126976x128) ![0, 0] S126976x128.size inb_S126976x128_S126976x128_0_0) (fun _ => rfl)).view Y
      (gathers_S126976x128_S512x128.idx (SparseCore.rows (View.read (Elt F) (s1V).view g1) rfl hin) (ValueIdx.ix2 j col)) = _
  refine ((View.read_apply _ _).trans (cast_eq _ _)).trans (congrArg Y (funext fun a => Fin.ext ?_))
  have hrow : S512.rowMajor.symm (Fin.cast rfl (j : Fin (S512x128.size gathers_S126976x128_S512x128.axis'))) = ValueIdx.ix1 j :=
    (Equiv.symm_apply_eq _).2 (Fin.ext (by rw [Shape.rowMajor_val_one]; rfl))
  match a with
  | ⟨0, _⟩ =>
    show 0 + 1 * ((gathers_S126976x128_S512x128.idx (SparseCore.rows (View.read (Elt F) (s1V).view g1) rfl hin) (ValueIdx.ix2 j col)) 0).val
      = (g1 (ValueIdx.ix1 j)).toNat
    rw [show (0 : Fin 2) = gathers_S126976x128_S512x128.axis from rfl, Shape.Gathers.idx_axis]
    show 0 + 1 * (g1 (S512.rowMajor.symm (Fin.cast rfl (j : Fin (S512x128.size gathers_S126976x128_S512x128.axis'))))).toNat = _
    rw [hrow]; omega
  | ⟨1, _⟩ =>
    show 0 + 1 * ((gathers_S126976x128_S512x128.idx (SparseCore.rows (View.read (Elt F) (s1V).view g1) rfl hin) (ValueIdx.ix2 j col)) 1).val
      = col.val
    rw [Shape.Gathers.idx_of_ne _ _ _ 1 (by decide)]
    show 0 + 1 * col.val = col.val
    omega

/-- The finished selection buffer holds, at each entry, the lane of `y` the gather kernel's result has at the entry's
    place in the task's columns. -/
theorem out_fact (IDS : Buf (Elt F) ((iV).view.loc (VT d L))) (hids : IdsOK IDS) (Y : Buf (Elt F) ((yV).view.loc (VT d L)))
    (g1 : Buf (Elt F) ((s1V).view.loc (VT d L)))
    (hg1 : ∀ j : Fin 512, g1 (ValueIdx.ix1 j) = gid (G0of d L IDS (ValueIdx.ix1 j)))
    (hin : ∀ x, ((s1V).view.read (Elt F) g1 x).toNat < S126976x128.size gathers_S126976x128_S512x128.axis)
    (g3 : Buf (Elt F) ((s3V).view.loc (VT d L))) (hQ : selQ (Rof d L Y g1 hin) (G0of d L IDS) 32 0 g3) (x : S16x512.Idx) :
    g3 x = OUTT Y IDS ((outK L).view.emb x) := by
  obtain ⟨o, j, rfl⟩ : ∃ (o : Fin 16) (j : Fin 512), x = ValueIdx.ix2 o j := ⟨x 0, x 1, ValueIdx.eq_ix2 x⟩
  have hjN := j.isLt
  have hn : IDS (ValueIdx.ix1 (⟨1024 * (L 1).val + 512 * (L 0).val + j.val, idsK_lt L j⟩ : Fin 16384)) = G0of d L IDS (ValueIdx.ix1 j) :=
    (G0of_apply d L IDS j).symm
  obtain ⟨h0, h1⟩ := hids (ValueIdx.ix1 (⟨1024 * (L 1).val + 512 * (L 0).val + j.val, idsK_lt L j⟩ : Fin 16384))
  rw [hn] at h0 h1
  have hgl : (gid (G0of d L IDS (ValueIdx.ix1 j))).toNat < 126976 := gid_lt _ h0 h1
  have hsl : (sub (G0of d L IDS (ValueIdx.ix1 j))).toNat + o.val < 128 := sub_add_lt _ h0 h1 o
  have hL : g3 (ValueIdx.ix2 o j)
      = Y (ValueIdx.ix2 (⟨(gid (G0of d L IDS (ValueIdx.ix1 j))).toNat, hgl⟩ : Fin 126976)
          (⟨(sub (G0of d L IDS (ValueIdx.ix1 j))).toNat + o.val, hsl⟩ : Fin 128)) := by
    rw [hQ o j (Or.inl (by omega))]
    unfold selT Rat
    rw [dif_pos ⟨j.isLt, hsl⟩, Rof_apply]
    refine congrArg Y (congrArg (fun q : Fin 126976 => ValueIdx.ix2 q (⟨(sub (G0of d L IDS (ValueIdx.ix1 j))).toNat + o.val, hsl⟩ : Fin 128)) (Fin.ext ?_))
    show (g1 (ValueIdx.ix1 j)).toNat = (gid (G0of d L IDS (ValueIdx.ix1 j))).toNat
    rw [hg1 j]
  have hR : OUTT Y IDS ((outK L).view.emb (ValueIdx.ix2 o j))
      = Y (ValueIdx.ix2 (⟨(gid (G0of d L IDS (ValueIdx.ix1 j))).toNat, hgl⟩ : Fin 126976)
          (⟨(sub (G0of d L IDS (ValueIdx.ix1 j))).toNat + o.val, hsl⟩ : Fin 128)) := by
    have e1 : IDS (ValueIdx.ix1 (((outK L).view.emb (ValueIdx.ix2 o j)) 1)) = G0of d L IDS (ValueIdx.ix1 j) := by
      refine (congrArg (fun q : Fin 16384 => IDS (ValueIdx.ix1 q)) (Fin.ext ?_)).trans hn
      show (k1_off4 L) 1 + 1 * j.val = 1024 * (L 1).val + 512 * (L 0).val + j.val
      rw [k1_off4_eq]
      show 1024 * (L 1).val + 512 * (L 0).val + 1 * j.val = 1024 * (L 1).val + 512 * (L 0).val + j.val
      omega
    have e0 : (((outK L).view.emb (ValueIdx.ix2 o j)) 0).val = o.val := by
      show (k1_off4 L) 0 + 1 * o.val = o.val
      rw [k1_off4_eq]
      show 0 + 1 * o.val = o.val
      omega
    show Yat Y (gid (IDS (ValueIdx.ix1 (((outK L).view.emb (ValueIdx.ix2 o j)) 1)))).toNat
      ((sub (IDS (ValueIdx.ix1 (((outK L).view.emb (ValueIdx.ix2 o j)) 1)))).toNat + (((outK L).view.emb (ValueIdx.ix2 o j)) 0).val) = _
    rw [e1, e0]
    unfold Yat
    rw [dif_pos ⟨hgl, hsl⟩]
  rw [hL, hR]

end Tile

end Cert.Kernel.Hand

end
-- ==== Proof.Bits.Tile.lean ====
/-
  The gather kernel's task on one vector subcore, run from the pieces the launch deals it to the pieces it hands back.
-/
import proofs.«211133_g82480551952782_cont_sun_m_220_25_alg».proof.Proof.Bits.TileTrip
import proofs.«211133_g82480551952782_cont_sun_m_220_25_alg».proof.Proof.Bits.TileFacts
import Idealize.ShloMosaic.Lib.Pipeline.Value

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "yV" => (Memref.whole Cert.Kernel.main_v5_scv : Memref Cert.Kernel.sig Kind.scVector Space.hbm Cert.Kernel.S126976x128 EltTy.f32)
local notation "iV" => (Memref.whole Cert.Kernel.main_arg0_scv : Memref Cert.Kernel.sig Kind.scVector Space.hbm Cert.Kernel.S16384 EltTy.i32)
local notation "oV" => (Memref.whole Cert.Kernel.main_v6_scv : Memref Cert.Kernel.sig Kind.scVector Space.hbm Cert.Kernel.S16x16384 EltTy.f32)
local notation "s0V" => (Memref.whole Cert.Kernel.cc1_scratch0 : Memref Cert.Kernel.sig Kind.scVector Space.vmem Cert.Kernel.S512 EltTy.i32)
local notation "s1V" => (Memref.whole Cert.Kernel.cc1_scratch1 : Memref Cert.Kernel.sig Kind.scVector Space.vmem Cert.Kernel.S512 EltTy.i32)
local notation "s2V" => (Memref.whole Cert.Kernel.cc1_scratch2 : Memref Cert.Kernel.sig Kind.scVector Space.vmem Cert.Kernel.S512x128 EltTy.f32)
local notation "s3V" => (Memref.whole Cert.Kernel.cc1_scratch3 : Memref Cert.Kernel.sig Kind.scVector Space.vmem Cert.Kernel.S16x512 EltTy.f32)

variable [FloatOps F]

section Tile

variable (d : Dev nD) (L : grid1.Coords)

/-- The task on vector subcore `L`: the copy-in of its node ids, the row list, the gather of the rows of `y`, the select loop
    and the copy-out; its columns of the result end holding, at each entry, the lane of `y` the entry's node id names. -/
theorem tile_run (O : CellTallies nD τ sig (HIx 1)) (W : Waits sig (HIx 1))
    (IDS : Buf (Elt F) ((iV).view.loc (VT d L))) (hids : IdsOK IDS) (Y : Buf (Elt F) ((yV).view.loc (VT d L))) (O0 : Buf (Elt F) ((oV).view.loc (VT d L)))
    (q : PosShare TreeShare)
    (g0 : Buf (Elt F) ((s0V).view.loc (VT d L))) (g1 : Buf (Elt F) ((s1V).view.loc (VT d L)))
    (g2 : Buf (Elt F) ((s2V).view.loc (VT d L))) (g3 : Buf (Elt F) ((s3V).view.loc (VT d L))) :
    (iprop(Transfers.MayWaits (VT d L) (default : HIx 1) O
        ∗ ((idsK L).view.loc (VT d L) ↦[(idsK L).view.set]{fullShare} IDS)
        ∗ ((yV).view.loc (VT d L) ↦{q} Y)
        ∗ ((outK L).view.loc (VT d L) ↦[(outK L).view.set]{fullShare} O0)
        ∗ ((s0V).view.loc (VT d L) ↦[(s0V).view.set]{fullShare} g0)
        ∗ ((s1V).view.loc (VT d L) ↦[(s1V).view.set]{fullShare} g1)
        ∗ ((s2V).view.loc (VT d L) ↦[(s2V).view.set]{fullShare} g2)
        ∗ ((s3V).view.loc (VT d L) ↦[(s3V).view.set]{fullShare} g3)
        ∗ semVal (VT d L, SemLoc.dma cc1_scratch4.sem) 0 ∗ semVal (VT d L, SemLoc.dma cc1_scoped0.sem) 0 ∗ semVal (VT d L, SemLoc.dma cc1_scoped1.sem) 0
        ∗ owes (VT d L) O W) : sProp 𝕄)
      ⊢ wp frame (wpE (defs₀ (F := F)) 𝒱₀ (VT d L) none) Set.univ
          (cc1_gather_k L yV (Memref.isWhole_whole _) iV (Memref.isWhole_whole _) oV (Memref.isWhole_whole _)
            s0V (Memref.isWhole_whole _) s1V (Memref.isWhole_whole _) s2V (Memref.isWhole_whole _) s3V (Memref.isWhole_whole _) cc1_scratch4 cc1_scoped0 cc1_scoped1)
          fun _ => iprop(((idsK L).view.loc (VT d L) ↦[(idsK L).view.set]{fullShare} IDS)
            ∗ ((yV).view.loc (VT d L) ↦{q} Y)
            ∗ (∃ f : Buf (Elt F) ((outK L).view.loc (VT d L)), ((outK L).view.loc (VT d L) ↦[(outK L).view.set]{fullShare} f)
                ∗ ⌜∀ x : S16x512.Idx, f ((outK L).view.emb x) = OUTT Y IDS ((outK L).view.emb x)⌝)
            ∗ (∃ g, (s0V).view.loc (VT d L) ↦[(s0V).view.set]{fullShare} g)
            ∗ (∃ g, (s1V).view.loc (VT d L) ↦[(s1V).view.set]{fullShare} g)
            ∗ (∃ g, (s2V).view.loc (VT d L) ↦[(s2V).view.set]{fullShare} g)
            ∗ (∃ g, (s3V).view.loc (VT d L) ↦[(s3V).view.set]{fullShare} g)
            ∗ semVal (VT d L, SemLoc.dma cc1_scratch4.sem) 0 ∗ semVal (VT d L, SemLoc.dma cc1_scoped0.sem) 0 ∗ semVal (VT d L, SemLoc.dma cc1_scoped1.sem) 0
            ∗ ∃ W', owes (VT d L) O W') := by
  iintro ⟨#Hmw, HI, HY, HO0, HG0, HG1, HG2, HG3, Hc4, Hc0, Hc1, HO⟩
  sl_unfold [cc1_gather_k]
  sl_exec
  -- the row list, sixteen entries a trip
  sl_for (inv1 d L (G0of d L IDS)) $$ [HG0 HG1]
  case region =>
    intro k _
    unfold inv1
    iintro ⟨HG0, %g, HG1, %hg⟩
    sl_exec
    sl_step
    isplitl [HG0]; · iexact HG0
    iexists _; isplitl [HG1]; · iexact HG1
    ipureintro
    exact loop1_step (G0of d L IDS) g k hg
  · unfold inv1
    isplitl [HG0]; · iexact HG0
    iexists _; isplitl [HG1]; · iexact HG1
    ipureintro; intro j hj; exact absurd hj (by omega)
  iintro %_ HI1
  unfold inv1
  icases HI1 with ⟨HG0, %gl, HG1, %hg⟩
  have hg1 : ∀ j : Fin 512, gl (ValueIdx.ix1 j) = gid (G0of d L IDS (ValueIdx.ix1 j)) := fun j =>
    hg j (by have := j.isLt; have h32 : Scf.trips k1_t1_loop.lb k1_t1_loop.ub k1_t1_loop.st = 32 := trips1; omega)
  -- the gather of the rows the list names, its words in range
  have hin := hin_of d L IDS hids gl hg1
  sl_exec
  -- the select loop
  sl_for (inv2 d L (G0of d L IDS) (Rof d L Y gl hin)) $$ [HG0 HG2 HG3]
  case region =>
    intro k acc
    cases acc
    exact trip2 d L (G0of d L IDS) (Rof d L Y gl hin) k
  · unfold inv2
    isplitl [HG0]; · iexact HG0
    isplitl [HG2]; · iexact HG2
    iexists _; isplitl [HG3]; · iexact HG3
    ipureintro; exact selQ_zero _ _ _
  iintro %_ HI2
  unfold inv2
  icases HI2 with ⟨HG0, HG2, %gs, HG3, %hQ⟩
  have hQ' : selQ (Rof d L Y gl hin) (G0of d L IDS) 32 0 gs := by
    have h32 : Scf.trips k1_t2_loop.lb k1_t2_loop.ub k1_t2_loop.st = 32 := trips2
    rw [← h32]; exact hQ
  -- the copy-out
  sl_exec
  sl_step
  isplitl [HI]; · iexact HI
  isplitl [HY]; · iexact HY
  isplitl [HO0]
  · iexists _; isplitl [HO0]; · iexact HO0
    ipureintro
    intro x
    refine (((View.read_apply (v := (outK L).view) (Val := Elt F) _ x).trans (cast_eq _ _)).symm).trans ?_
    rw [View.read_writes_whole]
    exact out_fact d L IDS hids Y gl hg1 hin gs hQ' x
  isplitl [HG0]; · iexists _; iexact HG0
  isplitl [HG1]; · iexists _; iexact HG1
  isplitl [HG2]; · iexists _; iexact HG2
  isplitl [HG3]; · iexists _; iexact HG3
  isplitl [Hc4]; · iexact Hc4
  isplitl [Hc0]; · iexact Hc0
  isplitl [Hc1]; · iexact Hc1
  iexists _; iexact HO

end Tile

end Cert.Kernel.Hand

end
-- ==== Proof.Bits.TileObl.lean ====
/-
  From the vector subcore's run to the launch theorem's obligation: the task's slices of the node ids and of the result are
  the worker's parts of them; the subcore's four scratch buffers and three transfer cells are among its own; the run,
  handed what the launch deals the worker, hands back what the launch takes.
-/
import proofs.«211133_g82480551952782_cont_sun_m_220_25_alg».proof.Proof.Bits.Tile
import Idealize.ShloMosaic.Lib.Pipeline.Value

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "yV" => (Memref.whole Cert.Kernel.main_v5_scv : Memref Cert.Kernel.sig Kind.scVector Space.hbm Cert.Kernel.S126976x128 EltTy.f32)
local notation "iV" => (Memref.whole Cert.Kernel.main_arg0_scv : Memref Cert.Kernel.sig Kind.scVector Space.hbm Cert.Kernel.S16384 EltTy.i32)
local notation "oV" => (Memref.whole Cert.Kernel.main_v6_scv : Memref Cert.Kernel.sig Kind.scVector Space.hbm Cert.Kernel.S16x16384 EltTy.f32)
local notation "s0V" => (Memref.whole Cert.Kernel.cc1_scratch0 : Memref Cert.Kernel.sig Kind.scVector Space.vmem Cert.Kernel.S512 EltTy.i32)
local notation "s1V" => (Memref.whole Cert.Kernel.cc1_scratch1 : Memref Cert.Kernel.sig Kind.scVector Space.vmem Cert.Kernel.S512 EltTy.i32)
local notation "s2V" => (Memref.whole Cert.Kernel.cc1_scratch2 : Memref Cert.Kernel.sig Kind.scVector Space.vmem Cert.Kernel.S512x128 EltTy.f32)
local notation "s3V" => (Memref.whole Cert.Kernel.cc1_scratch3 : Memref Cert.Kernel.sig Kind.scVector Space.vmem Cert.Kernel.S16x512 EltTy.f32)

variable [FloatOps F]

section TileObl

variable (d : Dev nD) (L : grid1.Coords)

/-! ## The task's slices are the worker's parts -/

omit [FloatOps F] in
theorem bound_zero : grid1.bound 0 = 2 := rfl
omit [FloatOps F] in
theorem bound_one : grid1.bound 1 = 16 := rfl

/-- The worker number of the subcore at grid coordinates `L`: twice the subcore's number plus the SparseCore's. -/
def widL (L : grid1.Coords) : Fin 32 := wid (Fin.cast bound_zero (L 0)) (Fin.cast bound_one (L 1))

omit [FloatOps F] in
theorem widL_val : (widL L).val = 2 * (L 1).val + (L 0).val := rfl

omit [FloatOps F] in
/-- The body's slice of the node ids starts at `1024 (L 1) + 512 (L 0)`, which is 512 times the worker's number. -/
theorem idsRect_eq : idsRect L = idsPart (widL L) := by
  unfold idsRect idsPart Rect.part Rect.block
  congr 1 <;> funext a
  · rw [k1_off1_eq]
    match a with
    | 0 => simp [Shape.partIx, Shape.partSize, widL_val]; omega
  · match a with
    | 0 => simp [Shape.partSize]

omit [FloatOps F] in
/-- The body's slice of the result: all 16 rows, 512 columns from `1024 (L 1) + 512 (L 0)`. -/
theorem outRect_eq : outRect L = outPart (widL L) := by
  unfold outRect outPart Rect.part Rect.block
  congr 1 <;> funext a
  · rw [k1_off4_eq]
    match a with
    | 0 => simp [Shape.partIx, Shape.partSize]
    | 1 => simp [Shape.partIx, Shape.partSize, widL_val]; omega
  · match a with
    | 0 => simp [Shape.partSize]
    | 1 => simp [Shape.partSize]

omit [FloatOps F] in
theorem set_idsK : (idsK L).view.set = idsSet (widL L) := by
  show ((iV).view.slice (idsRect L)).set = ((iV).view.slice (idsPart (widL L))).set
  exact idsRect_eq L ▸ rfl
omit [FloatOps F] in
theorem set_outK : (outK L).view.set = outSet (widL L) := by
  show ((oV).view.slice (outRect L)).set = ((oV).view.slice (outPart (widL L))).set
  exact outRect_eq L ▸ rfl

omit [FloatOps F] in
theorem pts_idsK (f : Buf (Elt F) (idsLoc d)) :
    ((idsK L).view.loc (VT d L) ↦[(idsK L).view.set]{fullShare} f : sProp 𝕄) = idsLoc d ↦[idsSet (widL L)]{fullShare} f := by
  rw [set_idsK]
omit [FloatOps F] in
theorem pts_outK (f : Buf (Elt F) (oLoc d)) :
    ((outK L).view.loc (VT d L) ↦[(outK L).view.set]{fullShare} f : sProp 𝕄) = oLoc d ↦[outSet (widL L)]{fullShare} f := by
  rw [set_outK]
omit [FloatOps F] in
theorem pts_yV (q : PosShare TreeShare) (f : Buf (Elt F) (yLoc d)) :
    ((yV).view.loc (VT d L) ↦{q} f : sProp 𝕄) = yLoc d ↦{q} f := rfl
omit [FloatOps F] in
theorem pts_s0V (f : Buf (Elt F) ((VT d L).loc cc1_scratch0)) :
    ((s0V).view.loc (VT d L) ↦[(s0V).view.set]{fullShare} f : sProp 𝕄) = (VT d L).loc cc1_scratch0 ↦{fullShare} f := by
  rw [View.set_whole]
omit [FloatOps F] in
theorem pts_s1V (f : Buf (Elt F) ((VT d L).loc cc1_scratch1)) :
    ((s1V).view.loc (VT d L) ↦[(s1V).view.set]{fullShare} f : sProp 𝕄) = (VT d L).loc cc1_scratch1 ↦{fullShare} f := by
  rw [View.set_whole]
omit [FloatOps F] in
theorem pts_s2V (f : Buf (Elt F) ((VT d L).loc cc1_scratch2)) :
    ((s2V).view.loc (VT d L) ↦[(s2V).view.set]{fullShare} f : sProp 𝕄) = (VT d L).loc cc1_scratch2 ↦{fullShare} f := by
  rw [View.set_whole]
omit [FloatOps F] in
theorem pts_s3V (f : Buf (Elt F) ((VT d L).loc cc1_scratch3)) :
    ((s3V).view.loc (VT d L) ↦[(s3V).view.set]{fullShare} f : sProp 𝕄) = (VT d L).loc cc1_scratch3 ↦{fullShare} f := by
  rw [View.set_whole]

/-! ## The subcore's own cells and buffers -/

/-- The three transfer cells the task names. -/
abbrev cell4 (d : Dev nD) (L : grid1.Coords) : GSem nD τ sig := (VT d L, .dma cc1_scratch4.sem)
abbrev cellA (d : Dev nD) (L : grid1.Coords) : GSem nD τ sig := (VT d L, .dma cc1_scoped0.sem)
abbrev cellB (d : Dev nD) (L : grid1.Coords) : GSem nD τ sig := (VT d L, .dma cc1_scoped1.sem)

omit [FloatOps F] in
/-- The subcore's own cells at zero: the three the task names, one by one, and the rest. -/
theorem ownSems0_V :
    (ownSems0 (VT d L) : sProp 𝕄)
      = iprop(semVal (cell4 d L) 0 ∗ semVal (cellA d L) 0 ∗ semVal (cellB d L) 0
          ∗ bigSep ((((ownCells (VT d L)).erase (cell4 d L)).erase (cellA d L)).erase (cellB d L)) fun g => semVal g 0) := by
  unfold SparseCore.Cfg.ownSems0
  rw [SparseCore.bigSep_erase' ((mem_ownCells (g := cell4 d L)).mpr ⟨rfl, by
      show (SemLoc.dma cc1_scratch4.sem : SemLoc sig).isScoped .scVector = true; decide⟩),
    SparseCore.bigSep_erase' (Finset.mem_erase.mpr ⟨by simp [cell4, cellA]; decide, (mem_ownCells (g := cellA d L)).mpr ⟨rfl, by
      show (SemLoc.dma cc1_scoped0.sem : SemLoc sig).isScoped .scVector = true; decide⟩⟩),
    SparseCore.bigSep_erase' (Finset.mem_erase.mpr ⟨by simp [cellA, cellB]; decide, Finset.mem_erase.mpr ⟨by simp [cell4, cellB]; decide,
      (mem_ownCells (g := cellB d L)).mpr ⟨rfl, by show (SemLoc.dma cc1_scoped1.sem : SemLoc sig).isScoped .scVector = true; decide⟩⟩⟩)]

omit [FloatOps F] in
/-- The four scratch buffers are among the subcore's own: they are them, at some contents, and the rest. -/
theorem ownBufs_V :
    (ownBufs (VT d L) : sProp 𝕄)
      = iprop((∃ f, (VT d L).loc cc1_scratch0 ↦{fullShare} f) ∗ (∃ f, (VT d L).loc cc1_scratch1 ↦{fullShare} f)
          ∗ (∃ f, (VT d L).loc cc1_scratch2 ↦{fullShare} f) ∗ (∃ f, (VT d L).loc cc1_scratch3 ↦{fullShare} f)
          ∗ bigSep (((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2)).erase
              ((Proc.scVector (cV L) (jV L)).devRef cc1_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
    SparseCore.Cfg.mem_ownRefs_of_owner (p := Proc.scVector (cV L) (jV L)) (b := (Proc.scVector (cV L) (jV L)).devRef cc1_scratch2) rfl⟩⟩),
    SparseCore.bigSep_erase' (Finset.mem_erase.mpr ⟨fun e => absurd (Proc.devRef_injective _ e) (show (cc1_scratch3 : Ref sig .scVector) ≠ cc1_scratch2 by decide),
      Finset.mem_erase.mpr ⟨fun e => absurd (Proc.devRef_injective _ e) (show (cc1_scratch3 : Ref sig .scVector) ≠ cc1_scratch1 by decide),
      Finset.mem_erase.mpr ⟨fun e => absurd (Proc.devRef_injective _ e) (show (cc1_scratch3 : Ref sig .scVector) ≠ cc1_scratch0 by decide),
    SparseCore.Cfg.mem_ownRefs_of_owner (p := Proc.scVector (cV L) (jV L)) (b := (Proc.scVector (cV L) (jV L)).devRef cc1_scratch3) rfl⟩⟩⟩)]

/-! ## The task, from what the launch deals the worker to what it takes back -/

omit [FloatOps F] in
/-- A property of every image of a view's index holds of every element under the view. -/
theorem forall_set_of_forall_emb {sig' : RefSig} {κ : Kind} {sp : Space} {S' : Shape} {e : EltTy} (v : View sig' κ sp S' e)
    (Q : v.ty.Idx → Prop) (h : ∀ x : S'.Idx, Q (v.emb x)) : ∀ i ∈ v.set, Q i := fun i hi => by
  obtain ⟨y, rfl⟩ := v.exists_emb_of_mem_set hi
  exact h y

section Body

variable (m : (ℓ : Loc nD τ sig) → Buf (Elt F) ℓ) (X : Dev nD → Vec F S64x1000000 .f32) (B : Dev nD → Vec F S1x128 .f32)

/-- The task on the vector subcore at `L` of device `d`, from what the launch deals worker `widL L` (a share of `y`, its
    node ids, its columns of the result, the subcore's scoped buffers and cells) to what it hands back. -/
theorem tile_body (hF : (K (F := F)).Facts) (hpre : IdsOK (m (idsLoc d))) (O : CellTallies nD τ sig (HIx 1)) (W : Waits sig (HIx 1)) (hO : ∀ g, O g none = 0) :
    iprop(levAts (K (F := F)).L (K (F := F)).lev ∗ emp ∗ goW m X B d (widL L) ∗ scopedBufs (VT d L) ∗ scopedSems0 (VT d L) ∗ owes (VT d L) O W)
      ⊢ wp frame (wpE (defs₀ (F := F)) 𝒱₀ (VT d L) none) Set.univ
          (cc1_gather_k L yV (Memref.isWhole_whole _) iV (Memref.isWhole_whole _) oV (Memref.isWhole_whole _)
            s0V (Memref.isWhole_whole _) s1V (Memref.isWhole_whole _) s2V (Memref.isWhole_whole _) s3V (Memref.isWhole_whole _) cc1_scratch4 cc1_scoped0 cc1_scoped1)
          fun _ => iprop(tdW m X B d (widL L) ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V hF d (cV L) (jV L), SparseCore.Cfg.scopedSems0_V (Val := Elt F) d (cV L) (jV L), ownSems0_V, ownBufs_V]
  unfold goW tdW
  iintro ⟨#Hlv, -, ⟨%Y, %hY, Hy, Hi, Ho⟩, ⟨⟨%g0, HG0⟩, ⟨%g1, HG1⟩, ⟨%g2, HG2⟩, ⟨%g3, HG3⟩, Hbufs⟩, ⟨HC4, HCA, HCB, Hsems⟩, HO⟩
  ihave Hmw := (show levAts (K (F := F)).L (K (F := F)).lev ⊢ Transfers.MayWaits (VT d L) (default : HIx 1) O from
    (K (F := F)).mayWaits_none (thr := VT d L) hO) $$ Hlv
  -- the pieces in the body's spelling
  ihave Hi' := (Entails.of_eq (pts_idsK (F := F) d L _).symm) $$ Hi
  ihave Ho' := (Entails.of_eq (pts_outK (F := F) d L _).symm) $$ Ho
  ihave HG0' := (Entails.of_eq (pts_s0V (F := F) d L _).symm) $$ HG0
  ihave HG1' := (Entails.of_eq (pts_s1V (F := F) d L _).symm) $$ HG1
  ihave HG2' := (Entails.of_eq (pts_s2V (F := F) d L _).symm) $$ HG2
  ihave HG3' := (Entails.of_eq (pts_s3V (F := F) d L _).symm) $$ HG3
  iapply (wp_wand_r Idealize.ShloMosaic.frame (wpE (defs₀ (F := F)) 𝒱₀ (VT d L) none) Set.univ)
  isplitl [Hi' Hy Ho' HG0' HG1' HG2' HG3' HC4 HCA HCB HO]
  · iapply (tile_run d L O W (m (idsLoc d)) hpre Y (m (oLoc d)) (tokY (widL L)) g0 g1 g2 g3)
    isplitr; · iexact Hmw
    isplitl [Hi']; · iexact Hi'
    isplitl [Hy]; · iexact Hy
    isplitl [Ho']; · iexact Ho'
    isplitl [HG0']; · iexact HG0'
    isplitl [HG1']; · iexact HG1'
    isplitl [HG2']; · iexact HG2'
    isplitl [HG3']; · iexact HG3'
    isplitl [HC4]; · iexact HC4
    isplitl [HCA]; · iexact HCA
    isplitl [HCB]; · iexact HCB
    iexact HO
  iintro %_ ⟨Hi', Hy, ⟨%f, Ho', %hf⟩, ⟨%g0', HG0'⟩, ⟨%g1', HG1'⟩, ⟨%g2', HG2'⟩, ⟨%g3', HG3'⟩, HC4, HCA, HCB, ⟨%W', HO⟩⟩
  isplitl [Hi' Hy Ho']
  · iexists Y
    isplitr; · ipureintro; exact hY
    isplitl [Hy]; · iexact Hy
    isplitl [Hi']; · iapply (Entails.of_eq (pts_idsK (F := F) d L _)); iexact Hi'
    iexists f
    isplitl [Ho']; · iapply (Entails.of_eq (pts_outK (F := F) d L _)); iexact Ho'
    ipureintro
    rw [← set_outK L]
    exact forall_set_of_forall_emb (outK L).view (fun i => f i = OUTT Y (m (idsLoc d)) i) hf
  isplitl [HG0' HG1' HG2' HG3' Hbufs]
  · isplitl [HG0']; · iexists _; iapply (Entails.of_eq (pts_s0V (F := F) d L _)); iexact HG0'
    isplitl [HG1']; · iexists _; iapply (Entails.of_eq (pts_s1V (F := F) d L _)); iexact HG1'
    isplitl [HG2']; · iexists _; iapply (Entails.of_eq (pts_s2V (F := F) d L _)); iexact HG2'
    isplitl [HG3']; · iexists _; iapply (Entails.of_eq (pts_s3V (F := F) d L _)); iexact HG3'
    iexact Hbufs
  isplitl [HC4 HCA HCB Hsems]
  · isplitl [HC4]; · iexact HC4
    isplitl [HCA]; · iexact HCA
    isplitl [HCB]; · iexact HCB
    iexact Hsems
  iexists W'; isplitr
  · ipureintro; intro p _
    rcases p.2 with _ | q
    · exact .inr (.inl rfl)
    · exact .inr (.inr (congrArg some (Subsingleton.elim q 0)))
  · iexact HO

end Body

/-! ## The obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_gather_k (coordsV c s)
          yV (Memref.isWhole_whole _) iV (Memref.isWhole_whole _) oV (Memref.isWhole_whole _)
          s0V (Memref.isWhole_whole _) s1V (Memref.isWhole_whole _) s2V (Memref.isWhole_whole _) s3V (Memref.isWhole_whole _)
          cc1_scratch4 cc1_scoped0 cc1_scoped1) ⟨⟩ c s := rfl

section Obl

variable (m : (ℓ : Loc nD τ sig) → Buf (Elt F) ℓ) (X : Dev nD → Vec F S64x1000000 .f32) (B : Dev nD → Vec F S1x128 .f32)

/-- The launch theorem's obligation for the vector subcores: each runs its task from what the call deals it to what it takes back. -/
theorem tileObl (hF : (K (F := F)).Facts) (hpre : ∀ d : Dev nD, IdsOK (m (idsLoc d))) :
    (K (F := F)).TileObl (D (F := F)) 𝒱 (P m X B) v₀ 0 := by
  intro d c i O W hO _ _
  simp only [show (P m X B).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have hw : wid (Fin.cast nCore_zero c) (Fin.cast nSub_zero i) = widL (coordsV ⟨_, hci.1⟩ ⟨_, hci.2⟩) := Fin.ext rfl
  show iprop(_ ∗ _ ∗ goW m X B d (wid (Fin.cast nCore_zero c) (Fin.cast nSub_zero i)) ∗ _ ∗ _ ∗ _) ⊢ wp _ _ _ _ fun _ =>
    iprop(tdW m X B d (wid (Fin.cast nCore_zero c) (Fin.cast nSub_zero i)) ∗ _ ∗ _ ∗ _)
  rw [hw]
  exact tile_body d (coordsV ⟨_, hci.1⟩ ⟨_, hci.2⟩) m X B hF (hpre d) O W hO

end Obl

end TileObl

end Cert.Kernel.Hand

end
-- ==== Proof.Bits.Run.lean ====
/-
  The kernel's run: every weakly fair execution of the device's threads terminates, the four arguments end unchanged,
  and the result is the transpose of an array that holds, at each entry, the lane of the projection its node id names.
-/
import proofs.«211133_g82480551952782_cont_sun_m_220_25_alg».proof.Proof.Bits.Main
import proofs.«211133_g82480551952782_cont_sun_m_220_25_alg».proof.Proof.Bits.TileObl

noncomputable section

namespace Cert.Kernel.Hand

open Cert.Kernel Cert.Kernel.Gen
open Idealize.ShloMosaic Idealize.SL.Sem

variable {F : FTy → Type} [FloatOps F]

theorem run_main (m : (ℓ : Loc nD τ sig) → Buf (Elt F) ℓ) (ρ : Dev nD → PrngReg) [∀ e, Nonempty (Elt F e)]
    (hpre : ∀ d : Dev nD, IdsOK (m (idsLoc d))) :
    θ_run (Cert.Kernel.defs (F := F)) (Cert.Kernel.threads (F := F)) ⟨m, fun _ => 0, ρ⟩ (QC m) :=
  run_main_of m ρ (tileObl m (Xof m) (Bof m) facts hpre)

end Cert.Kernel.Hand

end
-- ==== Proof.lean ====
/-
  The claim: the word-level kernel, its idealization and the reference run to the end with their arguments unchanged, the
  idealization rewrote nothing, and at the ideal values the kernel's result — the gathered lanes of the projection,
  transposed — is the reference's: entry (j, o) of either is the bias at o plus row ids[j] of the table times row o of the weights.
-/
import proofs.«211133_g82480551952782_cont_sun_m_220_25_alg».proof.Defs
import proofs.«211133_g82480551952782_cont_sun_m_220_25_alg».proof.Proof.Gen.Kernel
import proofs.«211133_g82480551952782_cont_sun_m_220_25_alg».proof.Proof.Gen.Kernel.Skeleton
import proofs.«211133_g82480551952782_cont_sun_m_220_25_alg».proof.Proof.Gen.Kernel.Launch
import proofs.«211133_g82480551952782_cont_sun_m_220_25_alg».proof.Proof.Gen.Kernel.Points
import proofs.«211133_g82480551952782_cont_sun_m_220_25_alg».proof.Proof.Gen.KernelIdeal
import proofs.«211133_g82480551952782_cont_sun_m_220_25_alg».proof.Proof.Gen.KernelIdeal.Skeleton
import proofs.«211133_g82480551952782_cont_sun_m_220_25_alg».proof.Proof.Gen.KernelIdeal.Launch
import proofs.«211133_g82480551952782_cont_sun_m_220_25_alg».proof.Proof.Gen.KernelIdeal.Points
import proofs.«211133_g82480551952782_cont_sun_m_220_25_alg».proof.Proof.Gen.ReferenceIdeal
import proofs.«211133_g82480551952782_cont_sun_m_220_25_alg».proof.Proof.Gen.Pre_input_domain
import proofs.«211133_g82480551952782_cont_sun_m_220_25_alg».proof.Proof.PreIds
import proofs.«211133_g82480551952782_cont_sun_m_220_25_alg».proof.Proof.RefRun
import proofs.«211133_g82480551952782_cont_sun_m_220_25_alg».proof.Proof.RefValue
import proofs.«211133_g82480551952782_cont_sun_m_220_25_alg».proof.Proof.Final
import proofs.«211133_g82480551952782_cont_sun_m_220_25_alg».proof.Proof.Run
import proofs.«211133_g82480551952782_cont_sun_m_220_25_alg».proof.Proof.Bits.Run
import Idealize.ShloMosaic.Adequacy
import Idealize.ShloMosaic.Init

noncomputable section

namespace Cert.Proof

open Idealize.ShloMosaic Idealize.SL.Sem

/-- The word-level kernel runs and leaves its arguments as they were. -/
theorem frame_K : Cert.frame_Kernel (hKernel := Cert.Kernel.Gen.facts) (hPre_input_domain := Cert.Pre_input_domain.Gen.facts) :=
  fun m ρ hpre => (θ_run _ _ _).mono (fun _ h c => ⟨(h c).1, (h c).2.1, (h c).2.2.1, (h c).2.2.2.1⟩)
    (Cert.Kernel.Hand.run_main (F := Bits) m ρ fun d => Cert.PreIds.ids_range _ _ _ _ (hpre d))

/-- The idealized kernel runs and leaves its arguments as they were. -/
theorem frame_KI : Cert.frame_KernelIdeal (hKernelIdeal := Cert.KernelIdeal.Gen.facts) (hPre_input_domain := Cert.Pre_input_domain.Gen.facts) :=
  fun m ρ hpre => (θ_run _ _ _).mono (fun _ h c => ⟨(h c).1, (h c).2.1, (h c).2.2.1, (h c).2.2.2.1⟩)
    (Cert.KernelIdeal.Hand.run_main (F := Ideal) m ρ fun d => Cert.PreIds.ids_range _ _ _ _ (hpre d))

/-- The reference runs and leaves its arguments as they were. -/
theorem frame_R : Cert.frame_ReferenceIdeal (hReferenceIdeal := Cert.ReferenceIdeal.Gen.facts) (hPre_input_domain := Cert.Pre_input_domain.Gen.facts) :=
  fun m g _ => (θ_run _ _ _).mono (fun _ h c => (h c).2) (Cert.ReferenceIdeal.RefValue.run (F := Ideal) m g)

/-- At the ideal values, from memories that agree on the arguments, the kernel's result is the reference's: both are the
    reference's value of the four arguments. -/
theorem algebraic : Cert.algebraic_KernelIdeal_ReferenceIdeal (hKernelIdeal := Cert.KernelIdeal.Gen.facts)
    (hReferenceIdeal := Cert.ReferenceIdeal.Gen.facts) (hPre_input_domain := Cert.Pre_input_domain.Gen.facts) := by
  intro m g m' g' hpre hagree
  have hids : ∀ d, Cert.KernelIdeal.Hand.IdsOK (m (Cert.KernelIdeal.Hand.idsLoc d)) := fun d => Cert.PreIds.ids_range _ _ _ _ (hpre d)
  refine ⟨fun c => Cert.ReferenceIdeal.RefValue.out (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run _ _ _).mono (fun r h c => ?_) (Cert.KernelIdeal.Hand.run_main (F := Ideal) m g hids)
    obtain ⟨h0, h1, h2, h3, f, hf, hr⟩ := h c
    refine ⟨hr.trans ?_, h0, h1, h2, h3⟩
    exact Cert.Proof.Final.final_value _ _ _ _ (Cert.KernelIdeal.Hand.Xof m c) (Cert.KernelIdeal.Hand.Bof m c)
      (Cert.KernelIdeal.Hand.Xof_apply m c) (Cert.KernelIdeal.Hand.Bof_apply m c) (hids c) f hf
      (Cert.KernelIdeal.Hand.resOf f) (Cert.KernelIdeal.Hand.resOf_apply f)
  · refine (θ_run _ _ _).mono (fun r h c => ?_) (Cert.ReferenceIdeal.RefValue.run (F := Ideal) m' g')
    obtain ⟨hv, h0, h1, h2, h3⟩ := h c
    refine ⟨hv.trans ?_, h0, h1, h2, h3⟩
    rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_input_domain.Gen.facts,
    frame_K, frame_KI, frame_R, trivial, algebraic⟩

end Cert.Proof

end
